-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v68)) (v1 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_v105) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v145) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x1600000 : Shape := ⟨2, ![2, 1600000]⟩
abbrev S1600000 : Shape := ⟨1, ![1600000]⟩
abbrev S256x128 : Shape := ⟨2, ![256, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S128x16 .f32) (main_arg6 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x16 .f32 := Host.absf main_arg5
  let main_cst_6 : FVec F S_ .f32 := constant S_ .f32 0x7F800000#32
  let main_v20 : FVec F S128x16 .f32 := broadcastInDim S128x16 ![] bcast_S_S128x16 main_cst_6
  let main_v21 : IVec S128x16 1 := cmpf .olt main_v19 main_v20
  let main_c_7 : IVec S_ 1 := constantI S_ 1 1#1
  let main_v22 : IVec S_ 1 := (fun x v => Host.reduce IntOp.andi x v reducesTo_S128x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S50000x256 .f32) (main_arg1 : IVec S2x1600000 32) (main_arg2 : FVec F S1600000 .f32) (main_arg3 : FVec F S256x128 .f32) (main_arg4 : FVec F S128 .f32) (main_arg5 : FVec F S128x16 .f32) (main_arg6 : FVec F S16 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x256 : Shape := ⟨2, ![50000, 256]⟩
abbrev S2x1600000 : Shape := ⟨2, ![2, 1600000]⟩
abbrev S1600000 : Shape := ⟨1, ![1600000]⟩
abbrev S256x128 : Shape := ⟨2, ![256, 128]⟩
abbrev S128 : Shape := ⟨1, ![128]⟩
abbrev S128x16 : Shape := ⟨2, ![128, 16]⟩
abbrev S16 : Shape := ⟨1, ![16]⟩
abbrev S1x1600000 : Shape := ⟨2, ![1, 1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S1654784 : Shape := ⟨1, ![1654784]⟩
abbrev S1654784x1 : Shape := ⟨2, ![1654784, 1]⟩
abbrev S50000x128 : Shape := ⟨2, ![50000, 128]⟩
abbrev S5000x256 : Shape := ⟨2, ![5000, 256]⟩
abbrev S5000x128 : Shape := ⟨2, ![5000, 128]⟩
abbrev S1650000x128 : Shape := ⟨2, ![1650000, 128]⟩
abbrev S1654784x128 : Shape := ⟨2, ![1654784, 128]⟩
abbrev S8192x128 : Shape := ⟨2, ![8192, 128]⟩
abbrev S8192x1 : Shape := ⟨2, ![8192, 1]⟩
abbrev S1x128 : Shape := ⟨2, ![1, 128]⟩
abbrev S50000x16 : Shape := ⟨2, ![50000, 16]⟩
abbrev S5000x16 : Shape := ⟨2, ![5000, 16]⟩
abbrev S1650000x16 : Shape := ⟨2, ![1650000, 16]⟩
abbrev S1654784x16 : Shape := ⟨2, ![1654784, 16]⟩
abbrev S8192x16 : Shape := ⟨2, ![8192, 16]⟩
abbrev S1x16 : Shape := ⟨2, ![1, 16]⟩
abbrev S1600000x1 : Shape := ⟨2, ![1600000, 1]⟩
abbrev S1600000x16 : Shape := ⟨2, ![1600000, 16]⟩
abbrev S1601536x16 : Shape := ⟨2, ![1601536, 16]⟩
abbrev S1601536 : Shape := ⟨1, ![1601536]⟩
abbrev S1601536x1 : Shape := ⟨2, ![1601536, 1]⟩
abbrev S1x1 : Shape := ⟨2, ![1, 1]⟩
abbrev S4096x16 : Shape := ⟨2, ![4096, 16]⟩
abbrev S4096x1 : Shape := ⟨2, ![4096, 1]⟩
abbrev S4096 : Shape := ⟨1, ![4096]⟩
abbrev S1 : Shape := ⟨1, ![1]⟩

abbrev nBuf : Space → Nat
  | .hbm => 159
  | .vmem => 29
  | .smem => 0
  | _ => 0

abbrev hbmTy0_0 (i : Nat) : BufTy := match i % 128 with
  | 0 => ⟨S50000x256, .f32⟩
  | 1 => ⟨S2x1600000, .i32⟩
  | 2 => ⟨S1600000, .f32⟩
  | 3 => ⟨S256x128, .f32⟩
  | 4 => ⟨S128, .f32⟩
  | 5 => ⟨S128x16, .f32⟩
  | 6 => ⟨S16, .f32⟩
  | 7 => ⟨S1x1600000, .i32⟩
  | 8 => ⟨S1600000, .i32⟩
  | 9 => ⟨S1x1600000, .i32⟩
  | 10 => ⟨S1600000, .i32⟩
  | 11 => ⟨S50000, .i32⟩
  | 12 => ⟨S1650000, .i32⟩
  | 13 => ⟨S1650000, .i32⟩
  | 14 => ⟨S_, .f32⟩
  | 15 => ⟨S50000, .f32⟩
  | 16 => ⟨S1650000, .f32⟩
  | 17 => ⟨S_, .f32⟩
  | 18 => ⟨S50000, .f32⟩
  | 19 => ⟨S1650000x1, .i32⟩
  | 20 => ⟨S50000, .f32⟩
  | 21 => ⟨S_, .f32⟩
  | 22 => ⟨S50000, .f32⟩
  | 23 => ⟨S50000, .i1⟩
  | 24 => ⟨S_, .f32⟩
  | 25 => ⟨S50000, .f32⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S1650000, .i32⟩
  | 33 => ⟨S1650000, .i1⟩
  | 34 => ⟨S_, .i32⟩
  | 35 => ⟨S1650000, .i32⟩
  | 36 => ⟨S1650000, .i32⟩
  | 37 => ⟨S1650000, .i32⟩
  | 38 => ⟨S1650000x1, .i32⟩
  | 39 => ⟨S1650000, .f32⟩
  | 40 => ⟨S1650000, .f32⟩
  | 41 => ⟨S_, .i32⟩
  | 42 => ⟨S1650000, .i32⟩
  | 43 => ⟨S1650000, .i1⟩
  | 44 => ⟨S_, .i32⟩
  | 45 => ⟨S1650000, .i32⟩
  | 46 => ⟨S1650000, .i32⟩
  | 47 => ⟨S1650000, .i32⟩
  | 48 => ⟨S1650000x1, .i32⟩
  | 49 => ⟨S1650000, .f32⟩
  | 50 => ⟨S1650000, .f32⟩
  | 51 => ⟨S_, .i32⟩
  | 52 => ⟨S_, .f32⟩
  | 53 => ⟨S1654784, .f32⟩
  | 54 => ⟨S1654784x1, .f32⟩
  | 55 => ⟨S_, .i32⟩
  | 56 => ⟨S_, .i32⟩
  | 57 => ⟨S1654784, .i32⟩
  | 58 => ⟨S50000x128, .f32⟩
  | 59 => ⟨S_, .i32⟩
  | 60 => ⟨S1650000, .i32⟩
  | 61 => ⟨S1650000, .i1⟩
  | 62 => ⟨S_, .i32⟩
  | 63 => ⟨S1650000, .i32⟩
  | 64 => ⟨S1650000, .i32⟩
  | 65 => ⟨S1650000, .i32⟩
  | 66 => ⟨S1650000x1, .i32⟩
  | 67 => ⟨S1650000x128, .f32⟩
  | 68 => ⟨S_, .i32⟩
  | 69 => ⟨S_, .f32⟩
  | 70 => ⟨S1654784x128, .f32⟩
  | 71 => ⟨S1654784x128, .f32⟩
  | 72 => ⟨S_, .f32⟩
  | 73 => ⟨S50000x128, .f32⟩
  | 74 => ⟨S1654784x1, .i32⟩
  | 75 => ⟨S50000x128, .f32⟩
  | 76 => ⟨S1x128, .f32⟩
  | 77 => ⟨S50000x128, .f32⟩
  | 78 => ⟨S50000x128, .f32⟩
  | 79 => ⟨S_, .f32⟩
  | 80 => ⟨S50000x128, .f32⟩
  | 81 => ⟨S50000x128, .f32⟩
  | 82 => ⟨S50000x16, .f32⟩
  | 83 => ⟨S_, .i32⟩
  | 84 => ⟨S1650000, .i32⟩
  | 85 => ⟨S1650000, .i1⟩
  | 86 => ⟨S_, .i32⟩
  | 87 => ⟨S1650000, .i32⟩
  | 88 => ⟨S1650000, .i32⟩
  | 89 => ⟨S1650000, .i32⟩
  | 90 => ⟨S1650000x1, .i32⟩
  | 91 => ⟨S1650000x16, .f32⟩
  | 92 => ⟨S_, .i32⟩
  | 93 => ⟨S_, .f32⟩
  | 94 => ⟨S1654784x16, .f32⟩
  | 95 => ⟨S1654784x16, .f32⟩
  | 96 => ⟨S_, .f32⟩
  | 97 => ⟨S50000x16, .f32⟩
  | 98 => ⟨S1654784x1, .i32⟩
  | 99 => ⟨S50000x16, .f32⟩
  | 100 => ⟨S1x16, .f32⟩
  | 101 => ⟨S50000x16, .f32⟩
  | 102 => ⟨S50000x16, .f32⟩
  | 103 => ⟨S_, .f32⟩
  | 104 => ⟨S50000, .f32⟩
  | 105 => ⟨S1600000x1, .i32⟩
  | 106 => ⟨S50000, .f32⟩
  | 107 => ⟨S_, .f32⟩
  | 108 => ⟨S50000, .f32⟩
  | 109 => ⟨S50000, .i1⟩
  | 110 => ⟨S_, .f32⟩
  | 111 => ⟨S50000, .f32⟩
  | 112 => ⟨S50000, .f32⟩
  | 113 => ⟨S_, .f32⟩
  | 114 => ⟨S_, .f32⟩
  | 115 => ⟨S50000, .f32⟩
  | 116 => ⟨S50000, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1600000, .f32⟩
  | 126 => ⟨S1600000, .f32⟩
  | 127 => ⟨S_, .i32⟩
  | _ => ⟨S50000x256, .f32⟩

abbrev hbmTy0_1 (i : Nat) : BufTy := match i % 128 with
  | 0 => ⟨S1600000, .i32⟩
  | 1 => ⟨S1600000, .i1⟩
  | 2 => ⟨S_, .i32⟩
  | 3 => ⟨S1600000, .i32⟩
  | 4 => ⟨S1600000, .i32⟩
  | 5 => ⟨S1600000, .i32⟩
  | 6 => ⟨S1600000x1, .i32⟩
  | 7 => ⟨S1600000x16, .f32⟩
  | 8 => ⟨S_, .i32⟩
  | 9 => ⟨S1600000, .i32⟩
  | 10 => ⟨S1600000, .i1⟩
  | 11 => ⟨S_, .i32⟩
  | 12 => ⟨S1600000, .i32⟩
  | 13 => ⟨S1600000, .i32⟩
  | 14 => ⟨S1600000, .i32⟩
  | 15 => ⟨S1600000x1, .i32⟩
  | 16 => ⟨S1600000x16, .f32⟩
  | 17 => ⟨S_, .i32⟩
  | 18 => ⟨S_, .f32⟩
  | 19 => ⟨S1601536x16, .f32⟩
  | 20 => ⟨S_, .i32⟩
  | 21 => ⟨S_, .f32⟩
  | 22 => ⟨S1601536x16, .f32⟩
  | 23 => ⟨S_, .i32⟩
  | 24 => ⟨S_, .f32⟩
  | 25 => ⟨S1601536, .f32⟩
  | 26 => ⟨S1601536x1, .f32⟩
  | 27 => ⟨S1x1, .f32⟩
  | 28 => ⟨S_, .f32⟩
  | 29 => ⟨S_, .f32⟩
  | 30 => ⟨S_, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S8192x128, .f32⟩
  | .local _ .vmem, ⟨6, _⟩ => ⟨S8192x128, .f32⟩
  | .local _ .vmem, ⟨7, _⟩ => ⟨S8192x1, .f32⟩
  | .local _ .vmem, ⟨8, _⟩ => ⟨S8192x1, .f32⟩
  | .local _ .vmem, ⟨9, _⟩ => ⟨S8192x128, .f32⟩
  | .local _ .vmem, ⟨10, _⟩ => ⟨S8192x128, .f32⟩
  | .local _ .vmem, ⟨11, _⟩ => ⟨S5000x128, .f32⟩
  | .local _ .vmem, ⟨12, _⟩ => ⟨S5000x128, .f32⟩
  | .local _ .vmem, ⟨13, _⟩ => ⟨S128x16, .f32⟩
  | .local _ .vmem, ⟨14, _⟩ => ⟨S5000x16, .f32⟩
  | .local _ .vmem, ⟨15, _⟩ => ⟨S5000x16, .f32⟩
  | .local _ .vmem, ⟨16, _⟩ => ⟨S8192x16, .f32⟩
  | .local _ .vmem, ⟨17, _⟩ => ⟨S8192x16, .f32⟩
  | .local _ .vmem, ⟨18, _⟩ => ⟨S8192x1, .f32⟩
  | .local _ .vmem, ⟨19, _⟩ => ⟨S8192x1, .f32⟩
  | .local _ .vmem, ⟨20, _⟩ => ⟨S8192x16, .f32⟩
  | .local _ .vmem, ⟨21, _⟩ => ⟨S8192x16, .f32⟩
  | .local _ .vmem, ⟨22, _⟩ => ⟨S4096x16, .f32⟩
  | .local _ .vmem, ⟨23, _⟩ => ⟨S4096x16, .f32⟩
  | .local _ .vmem, ⟨24, _⟩ => ⟨S4096x16, .f32⟩
  | .local _ .vmem, ⟨25, _⟩ => ⟨S4096x16, .f32⟩
  | .local _ .vmem, ⟨26, _⟩ => ⟨S4096x1, .f32⟩
  | .local _ .vmem, ⟨27, _⟩ => ⟨S4096x1, .f32⟩
  | .local _ .vmem, ⟨28, _⟩ => ⟨S1x1, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_call1_v0 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_call2_v0 : Ref sig .tc := ⟨.hbm, 56, rfl⟩
abbrev main_v35 : Ref sig .tc := ⟨.hbm, 57, rfl⟩
abbrev main_v36 : Ref sig .tc := ⟨.hbm, 58, rfl⟩
abbrev main_c_9 : Ref sig .tc := ⟨.hbm, 59, rfl⟩
abbrev main_v37 : Ref sig .tc := ⟨.hbm, 60, rfl⟩
abbrev main_v38 : Ref sig .tc := ⟨.hbm, 61, rfl⟩
abbrev main_c_10 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c_11 : Ref sig .tc := ⟨.hbm, 68, rfl⟩
abbrev main_call3_v0 : Ref sig .tc := ⟨.hbm, 69, rfl⟩
abbrev main_v44 : Ref sig .tc := ⟨.hbm, 70, rfl⟩
abbrev main_v45 : Ref sig .tc := ⟨.hbm, 71, rfl⟩
abbrev main_cst_12 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_call4_cst : Ref sig .tc := ⟨.hbm, 79, rfl⟩
abbrev main_call4_v0 : Ref sig .tc := ⟨.hbm, 80, rfl⟩
abbrev main_v52 : Ref sig .tc := ⟨.hbm, 81, rfl⟩
abbrev main_v53 : Ref sig .tc := ⟨.hbm, 82, rfl⟩
abbrev main_c_13 : Ref sig .tc := ⟨.hbm, 83, rfl⟩
abbrev main_v54 : Ref sig .tc := ⟨.hbm, 84, rfl⟩
abbrev main_v55 : Ref sig .tc := ⟨.hbm, 85, rfl⟩
abbrev main_c_14 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_c_15 : Ref sig .tc := ⟨.hbm, 92, rfl⟩
abbrev main_call5_v0 : Ref sig .tc := ⟨.hbm, 93, rfl⟩
abbrev main_v61 : Ref sig .tc := ⟨.hbm, 94, rfl⟩
abbrev main_v62 : Ref sig .tc := ⟨.hbm, 95, rfl⟩
abbrev main_cst_16 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_17 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_18 : Ref sig .tc := ⟨.hbm, 107, rfl⟩
abbrev main_v72 : Ref sig .tc := ⟨.hbm, 108, rfl⟩
abbrev main_v73 : Ref sig .tc := ⟨.hbm, 109, rfl⟩
abbrev main_cst_19 : Ref sig .tc := ⟨.hbm, 110, rfl⟩
abbrev main_v74 : Ref sig .tc := ⟨.hbm, 111, rfl⟩
abbrev main_v75 : Ref sig .tc := ⟨.hbm, 112, rfl⟩
abbrev main_cst_20 : Ref sig .tc := ⟨.hbm, 113, rfl⟩
abbrev main_call6_v0 : Ref sig .tc := ⟨.hbm, 114, rfl⟩
abbrev main_call6_v1 : Ref sig .tc := ⟨.hbm, 115, rfl⟩
abbrev main_v76 : Ref sig .tc := ⟨.hbm, 116, rfl⟩
abbrev main_c_21 : Ref sig .tc := ⟨.hbm, 117, rfl⟩
abbrev main_v77 : Ref sig .tc := ⟨.hbm, 118, rfl⟩
abbrev main_v78 : Ref sig .tc := ⟨.hbm, 119, rfl⟩
abbrev main_c_22 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_c_23 : Ref sig .tc := ⟨.hbm, 127, rfl⟩
abbrev main_v85 : Ref sig .tc := ⟨.hbm, 128, rfl⟩
abbrev main_v86 : Ref sig .tc := ⟨.hbm, 129, rfl⟩
abbrev main_c_24 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_c_25 : Ref sig .tc := ⟨.hbm, 136, rfl⟩
abbrev main_v92 : Ref sig .tc := ⟨.hbm, 137, rfl⟩
abbrev main_v93 : Ref sig .tc := ⟨.hbm, 138, rfl⟩
abbrev main_c_26 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_c_27 : Ref sig .tc := ⟨.hbm, 145, rfl⟩
abbrev main_call7_v0 : Ref sig .tc := ⟨.hbm, 146, rfl⟩
abbrev main_v99 : Ref sig .tc := ⟨.hbm, 147, rfl⟩
abbrev main_c_28 : Ref sig .tc := ⟨.hbm, 148, rfl⟩
abbrev main_call8_v0 : Ref sig .tc := ⟨.hbm, 149, rfl⟩
abbrev main_v100 : Ref sig .tc := ⟨.hbm, 150, rfl⟩
abbrev main_c_29 : Ref sig .tc := ⟨.hbm, 151, rfl⟩
abbrev main_call9_v0 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_cst_30 : Ref sig .tc := ⟨.hbm, 157, rfl⟩
abbrev main_v105 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc4_stg2_1 : Ref sig .tc := ⟨.vmem, 27, rfl⟩
abbrev cc4_stg3_0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26
abbrev cc4_sem2_1 : DmaSem sig := 27
abbrev cc4_sem3_0 : DmaSem sig := 28

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![202], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![202], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8192x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8192x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![391], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S4096x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4096x16 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4096x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S50000 : S_.BroadcastsInDim S50000 (![] : Fin 0 → Fin S50000.rank)
  bcast_S1650000_S1650000x1_0 : S1650000.BroadcastsInDim S1650000x1 (![0] : Fin 1 → Fin S1650000x1.rank)
  bcast_S_S1650000 : S_.BroadcastsInDim S1650000 (![] : Fin 0 → Fin S1650000.rank)
  pads_S1650000_S1654784_047840 : S1650000.Pads (![0] : Fin 1 → Nat) ![4784] ![0] S1654784
  h_S_ : 0 < S_.numel
  shapeCasts_S1654784_S1654784x1 : S1654784.ShapeCasts S1654784x1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  pads_S1650000x128_S1654784x128_047840_000 : S1650000x128.Pads (![0, 0] : Fin 2 → Nat) ![4784, 0] ![0, 0] S1654784x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  broadcasts_S8192x1_S8192x128 : S8192x1.Broadcasts S8192x128
  bcast_S_S50000x128 : S_.BroadcastsInDim S50000x128 (![] : Fin 0 → Fin S50000x128.rank)
  bcast_S1654784_S1654784x1_0 : S1654784.BroadcastsInDim S1654784x1 (![0] : Fin 1 → Fin S1654784x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x16_S128x16_0_0 : ∀ a, (![0, 0] : Fin 2 → Nat) a + S128x16.size a ≤ S128x16.size a
  h_S128x16 : 0 < S128x16.numel
  inb_S5000x16_S5000x16_0_0 : ∀ a, (![0, 0] : Fin 2 → Nat) a + S5000x16.size a ≤ S5000x16.size a
  h_S5000x16 : 0 < S5000x16.numel
  pads_S1650000x16_S1654784x16_047840_000 : S1650000x16.Pads (![0, 0] : Fin 2 → Nat) ![4784, 0] ![0, 0] S1654784x16
  inb_S8192x16_S8192x16_0_0 : ∀ a, (![0, 0] : Fin 2 → Nat) a + S8192x16.size a ≤ S8192x16.size a
  h_S8192x16 : 0 < S8192x16.numel
  shapeCasts_S8192x16_S8192x16 : S8192x16.ShapeCasts S8192x16
  broadcasts_S8192x1_S8192x16 : S8192x1.Broadcasts S8192x16
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  pads_S1600000x16_S1601536x16_015360_000 : S1600000x16.Pads (![0, 0] : Fin 2 → Nat) ![1536, 0] ![0, 0] S1601536x16
  pads_S1600000_S1601536_015360 : S1600000.Pads (![0] : Fin 1 → Nat) ![1536] ![0] S1601536
  shapeCasts_S1601536_S1601536x1 : S1601536.ShapeCasts S1601536x1
  inb_S1x1_S1x1_0_0 : ∀ a, (![0, 0] : Fin 2 → Nat) a + S1x1.size a ≤ S1x1.size a
  h_S1x1 : 0 < S1x1.numel
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  reduces_S4096x16_S4096 : S4096x16.Reduces [1] S4096
  shapeCasts_S4096_S4096x1 : S4096.ShapeCasts S4096x1
  broadcasts_S4096x1_S4096x16 : S4096x1.Broadcasts S4096x16
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  reduces_S4096x1_S1 : S4096x1.Reduces [0] S1
  shapeCasts_S1_S1x1 : S1.ShapeCasts S1x1
  shapeCasts_S1x1_S1x1 : S1x1.ShapeCasts S1x1
  shapeCasts_S1x1_S_ : S1x1.ShapeCasts S_
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x256_S256x128_S5000x128_1_0_0_1_n_n_wf : DotDims.WF S5000x256 S256x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1654784x1_S1654784x128_1_0_0_1_wf : ScatterDims.WF S50000x128 S1654784x1 S1654784x128 [1] [0] [0] 1
  dot_S5000x128_S128x16_S5000x16_1_0_0_1_n_n_wf : DotDims.WF S5000x128 S128x16 S5000x16 [1] [0] [0] [1] [] []
  gather_S50000x16_S1650000x1_S1650000x16_1_0_n_n_0_1_116_wf : GatherDims.WF S50000x16 S1650000x1 S1650000x16 [1] [0] [] [0] [] 1 ![1, 16]
  scatter_S50000x16_S1654784x1_S1654784x16_1_0_0_1_wf : ScatterDims.WF S50000x16 S1654784x1 S1654784x16 [1] [0] [0] 1
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  gather_S50000x16_S1600000x1_S1600000x16_1_0_n_n_0_1_116_wf : GatherDims.WF S50000x16 S1600000x1 S1600000x16 [1] [0] [] [0] [] 1 ![1, 16]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S1654784x128.size a
  hwx1_0 : ∀ i : grid1.Coords, EltTy.bits .f32 = 32 ∨ (Rect.block (s := S1654784x128) S8192x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x1.size a ≤ S1654784x1.size a
  hwx1_1 : ∀ i : grid1.Coords, EltTy.bits .f32 = 32 ∨ (Rect.block (s := S1654784x1) S8192x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x128.size a ≤ S1654784x128.size a
  hwx1_2 : ∀ i : grid1.Coords, EltTy.bits .f32 = 32 ∨ (Rect.block (s := S1654784x128) S8192x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x16.size a ≤ S128x16.size a
  hwx2_1 : ∀ i : grid2.Coords, EltTy.bits .f32 = 32 ∨ (Rect.block (s := S128x16) S128x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S50000x16.size a
  hwx2_2 : ∀ i : grid2.Coords, EltTy.bits .f32 = 32 ∨ (Rect.block (s := S50000x16) S5000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x16.size a ≤ S1654784x16.size a
  hwx3_0 : ∀ i : grid3.Coords, EltTy.bits .f32 = 32 ∨ (Rect.block (s := S1654784x16) S8192x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8192x1.size a ≤ S1654784x1.size a
  hwx3_1 : ∀ i : grid3.Coords, EltTy.bits .f32 = 32 ∨ (Rect.block (s := S1654784x1) S8192x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8192x16.size a ≤ S1654784x16.size a
  hwx3_2 : ∀ i : grid3.Coords, EltTy.bits .f32 = 32 ∨ (Rect.block (s := S1654784x16) S8192x16.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x16.size a ≤ S1601536x16.size a
  hwx4_0 : ∀ i : grid4.Coords, EltTy.bits .f32 = 32 ∨ (Rect.block (s := S1601536x16) S4096x16.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4096x16.size a ≤ S1601536x16.size a
  hwx4_1 : ∀ i : grid4.Coords, EltTy.bits .f32 = 32 ∨ (Rect.block (s := S1601536x16) S4096x16.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4096x1.size a ≤ S1601536x1.size a
  hwx4_2 : ∀ i : grid4.Coords, EltTy.bits .f32 = 32 ∨ (Rect.block (s := S1601536x1) S4096x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x1.size a ≤ S1x1.size a
  hwx4_3 : ∀ i : grid4.Coords, EltTy.bits .f32 = 32 ∨ (Rect.block (s := S1x1) S1x1.size (cc4_transform_3 i) (hinb4_3 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1654784x1_S1654784x128_1_0_0_1 : ScatterDims S50000x128 S1654784x1 S1654784x128 where
  updateWindowDims := [1]
  insertedWindowDims := [0]
  scatterDimsToOperandDims := [0]
  indexVectorDim := 1
  wf := scatter_S50000x128_S1654784x1_S1654784x128_1_0_0_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S50000x16_S1650000x1_S1650000x16_1_0_n_n_0_1_116 : GatherDims S50000x16 S1650000x1 S1650000x16 where
  offsetDims := [1]
  collapsedSliceDims := [0]
  operandBatchingDims := []
  startIndicesBatchingDims := []
  startIndexMap := [0]
  indexVectorDim := 1
  sliceSizes := ![1, 16]
  wf := gather_S50000x16_S1650000x1_S1650000x16_1_0_n_n_0_1_116_wf
def scatter_S50000x16_S1654784x1_S1654784x16_1_0_0_1 : ScatterDims S50000x16 S1654784x1 S1654784x16 where
  updateWindowDims := [1]
  insertedWindowDims := [0]
  scatterDimsToOperandDims := [0]
  indexVectorDim := 1
  wf := scatter_S50000x16_S1654784x1_S1654784x16_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S50000x16_S1600000x1_S1600000x16_1_0_n_n_0_1_116 : GatherDims S50000x16 S1600000x1 S1600000x16 where
  offsetDims := [1]
  collapsedSliceDims := [0]
  operandBatchingDims := []
  startIndicesBatchingDims := []
  startIndexMap := [0]
  indexVectorDim := 1
  sliceSizes := ![1, 16]
  wf := gather_S50000x16_S1600000x1_S1600000x16_1_0_n_n_0_1_116_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S8192x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S8192x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v52) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S5000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S8192x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34) S8192x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v62) S8192x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v99) S4096x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v100) S4096x16.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v102) S4096x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v103) S1x1.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x256 : Shape := ⟨2, ![50000, 256]⟩
abbrev S2x1600000 : Shape := ⟨2, ![2, 1600000]⟩
abbrev S1600000 : Shape := ⟨1, ![1600000]⟩
abbrev S256x128 : Shape := ⟨2, ![256, 128]⟩
abbrev S128 : Shape := ⟨1, ![128]⟩
abbrev S128x16 : Shape := ⟨2, ![128, 16]⟩
abbrev S16 : Shape := ⟨1, ![16]⟩
abbrev S1x1600000 : Shape := ⟨2, ![1, 1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S50000x128 : Shape := ⟨2, ![50000, 128]⟩
abbrev S1650000x128 : Shape := ⟨2, ![1650000, 128]⟩
abbrev S1x128 : Shape := ⟨2, ![1, 128]⟩
abbrev S50000x16 : Shape := ⟨2, ![50000, 16]⟩
abbrev S1650000x16 : Shape := ⟨2, ![1650000, 16]⟩
abbrev S1x16 : Shape := ⟨2, ![1, 16]⟩
abbrev S1600000x1 : Shape := ⟨2, ![1600000, 1]⟩
abbrev S1600000x16 : Shape := ⟨2, ![1600000, 16]⟩

abbrev nBuf : Space → Nat
  | .hbm => 229
  | .vmem => 0
  | .smem => 0
  | _ => 0

abbrev hbmTy0_0 (i : Nat) : BufTy := match i % 128 with
  | 0 => ⟨S50000x256, .f32⟩
  | 1 => ⟨S2x1600000, .i32⟩
  | 2 => ⟨S1600000, .f32⟩
  | 3 => ⟨S256x128, .f32⟩
  | 4 => ⟨S128, .f32⟩
  | 5 => ⟨S128x16, .f32⟩
  | 6 => ⟨S16, .f32⟩
  | 7 => ⟨S1x1600000, .i32⟩
  | 8 => ⟨S1600000, .i32⟩
  | 9 => ⟨S1x1600000, .i32⟩
  | 10 => ⟨S1600000, .i32⟩
  | 11 => ⟨S50000, .i32⟩
  | 12 => ⟨S1650000, .i32⟩
  | 13 => ⟨S1650000, .i32⟩
  | 14 => ⟨S_, .f32⟩
  | 15 => ⟨S50000, .f32⟩
  | 16 => ⟨S1650000, .f32⟩
  | 17 => ⟨S_, .f32⟩
  | 18 => ⟨S50000, .f32⟩
  | 19 => ⟨S1650000x1, .i32⟩
  | 20 => ⟨S50000, .f32⟩
  | 21 => ⟨S_, .f32⟩
  | 22 => ⟨S50000, .f32⟩
  | 23 => ⟨S50000, .i1⟩
  | 24 => ⟨S_, .f32⟩
  | 25 => ⟨S50000, .f32⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S1650000, .i32⟩
  | 33 => ⟨S1650000, .i1⟩
  | 34 => ⟨S_, .i32⟩
  | 35 => ⟨S1650000, .i32⟩
  | 36 => ⟨S1650000, .i32⟩
  | 37 => ⟨S1650000, .i32⟩
  | 38 => ⟨S1650000x1, .i32⟩
  | 39 => ⟨S1650000, .f32⟩
  | 40 => ⟨S1650000, .f32⟩
  | 41 => ⟨S_, .i32⟩
  | 42 => ⟨S1650000, .i32⟩
  | 43 => ⟨S1650000, .i1⟩
  | 44 => ⟨S_, .i32⟩
  | 45 => ⟨S1650000, .i32⟩
  | 46 => ⟨S1650000, .i32⟩
  | 47 => ⟨S1650000, .i32⟩
  | 48 => ⟨S1650000x1, .i32⟩
  | 49 => ⟨S1650000, .f32⟩
  | 50 => ⟨S1650000, .f32⟩
  | 51 => ⟨S50000x128, .f32⟩
  | 52 => ⟨S1650000x1, .f32⟩
  | 53 => ⟨S_, .i32⟩
  | 54 => ⟨S1650000, .i32⟩
  | 55 => ⟨S1650000, .i1⟩
  | 56 => ⟨S_, .i32⟩
  | 57 => ⟨S1650000, .i32⟩
  | 58 => ⟨S1650000, .i32⟩
  | 59 => ⟨S1650000, .i32⟩
  | 60 => ⟨S1650000x1, .i32⟩
  | 61 => ⟨S1650000x128, .f32⟩
  | 62 => ⟨S1650000x128, .f32⟩
  | 63 => ⟨S1650000x128, .f32⟩
  | 64 => ⟨S_, .f32⟩
  | 65 => ⟨S50000x128, .f32⟩
  | 66 => ⟨S1650000x1, .i32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000, .i32⟩
  | 75 => ⟨S1650000, .i32⟩
  | 76 => ⟨S1650000, .i32⟩
  | 77 => ⟨S_, .f32⟩
  | 78 => ⟨S50000, .f32⟩
  | 79 => ⟨S1650000, .f32⟩
  | 80 => ⟨S_, .f32⟩
  | 81 => ⟨S50000, .f32⟩
  | 82 => ⟨S1650000x1, .i32⟩
  | 83 => ⟨S50000, .f32⟩
  | 84 => ⟨S_, .f32⟩
  | 85 => ⟨S50000, .f32⟩
  | 86 => ⟨S50000, .i1⟩
  | 87 => ⟨S_, .f32⟩
  | 88 => ⟨S50000, .f32⟩
  | 89 => ⟨S50000, .f32⟩
  | 90 => ⟨S_, .f32⟩
  | 91 => ⟨S_, .f32⟩
  | 92 => ⟨S50000, .f32⟩
  | 93 => ⟨S50000, .f32⟩
  | 94 => ⟨S_, .i32⟩
  | 95 => ⟨S1650000, .i32⟩
  | 96 => ⟨S1650000, .i1⟩
  | 97 => ⟨S_, .i32⟩
  | 98 => ⟨S1650000, .i32⟩
  | 99 => ⟨S1650000, .i32⟩
  | 100 => ⟨S1650000, .i32⟩
  | 101 => ⟨S1650000x1, .i32⟩
  | 102 => ⟨S1650000, .f32⟩
  | 103 => ⟨S1650000, .f32⟩
  | 104 => ⟨S_, .i32⟩
  | 105 => ⟨S1650000, .i32⟩
  | 106 => ⟨S1650000, .i1⟩
  | 107 => ⟨S_, .i32⟩
  | 108 => ⟨S1650000, .i32⟩
  | 109 => ⟨S1650000, .i32⟩
  | 110 => ⟨S1650000, .i32⟩
  | 111 => ⟨S1650000x1, .i32⟩
  | 112 => ⟨S1650000, .f32⟩
  | 113 => ⟨S1650000, .f32⟩
  | 114 => ⟨S50000x16, .f32⟩
  | 115 => ⟨S1650000x1, .f32⟩
  | 116 => ⟨S_, .i32⟩
  | 117 => ⟨S1650000, .i32⟩
  | 118 => ⟨S1650000, .i1⟩
  | 119 => ⟨S_, .i32⟩
  | 120 => ⟨S1650000, .i32⟩
  | 121 => ⟨S1650000, .i32⟩
  | 122 => ⟨S1650000, .i32⟩
  | 123 => ⟨S1650000x1, .i32⟩
  | 124 => ⟨S1650000x16, .f32⟩
  | 125 => ⟨S1650000x16, .f32⟩
  | 126 => ⟨S1650000x16, .f32⟩
  | 127 => ⟨S_, .f32⟩
  | _ => ⟨S50000x256, .f32⟩

abbrev hbmTy0_1 (i : Nat) : BufTy := match i % 128 with
  | 0 => ⟨S50000x16, .f32⟩
  | 1 => ⟨S1650000x1, .i32⟩
  | 2 => ⟨S50000x16, .f32⟩
  | 3 => ⟨S1x16, .f32⟩
  | 4 => ⟨S50000x16, .f32⟩
  | 5 => ⟨S50000x16, .f32⟩
  | 6 => ⟨S_, .f32⟩
  | 7 => ⟨S50000, .f32⟩
  | 8 => ⟨S1600000x1, .i32⟩
  | 9 => ⟨S50000, .f32⟩
  | 10 => ⟨S_, .f32⟩
  | 11 => ⟨S50000, .f32⟩
  | 12 => ⟨S50000, .i1⟩
  | 13 => ⟨S_, .f32⟩
  | 14 => ⟨S50000, .f32⟩
  | 15 => ⟨S50000, .f32⟩
  | 16 => ⟨S_, .f32⟩
  | 17 => ⟨S_, .f32⟩
  | 18 => ⟨S50000, .f32⟩
  | 19 => ⟨S50000, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000, .f32⟩
  | 29 => ⟨S1600000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000x16, .f32⟩
  | 39 => ⟨S_, .f32⟩
  | 40 => ⟨S1600000, .f32⟩
  | 41 => ⟨S_, .f32⟩
  | 42 => ⟨S1600000, .f32⟩
  | 43 => ⟨S1600000, .f32⟩
  | 44 => ⟨S1600000x1, .f32⟩
  | 45 => ⟨S1600000x16, .f32⟩
  | 46 => ⟨S1600000x16, .f32⟩
  | 47 => ⟨S1600000x16, .f32⟩
  | 48 => ⟨S_, .f32⟩
  | 49 => ⟨S1600000, .f32⟩
  | 50 => ⟨S1600000x1, .f32⟩
  | 51 => ⟨S1600000x1, .f32⟩
  | 52 => ⟨S1600000x16, .f32⟩
  | 53 => ⟨S1600000x16, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x16, .f32⟩
  | 63 => ⟨S_, .f32⟩
  | 64 => ⟨S1600000, .f32⟩
  | 65 => ⟨S_, .f32⟩
  | 66 => ⟨S1600000, .f32⟩
  | 67 => ⟨S1600000, .f32⟩
  | 68 => ⟨S1600000x1, .f32⟩
  | 69 => ⟨S1600000x16, .f32⟩
  | 70 => ⟨S1600000x16, .f32⟩
  | 71 => ⟨S1600000x16, .f32⟩
  | 72 => ⟨S_, .f32⟩
  | 73 => ⟨S1600000, .f32⟩
  | 74 => ⟨S1600000x1, .f32⟩
  | 75 => ⟨S1600000x16, .f32⟩
  | 76 => ⟨S1600000x16, .f32⟩
  | 77 => ⟨S_, .f32⟩
  | 78 => ⟨S1600000, .f32⟩
  | 79 => ⟨S_, .f32⟩
  | 80 => ⟨S1600000, .f32⟩
  | 81 => ⟨S1600000, .f32⟩
  | 82 => ⟨S1600000x1, .f32⟩
  | 83 => ⟨S1600000x16, .f32⟩
  | 84 => ⟨S1600000x16, .f32⟩
  | 85 => ⟨S1600000x16, .f32⟩
  | 86 => ⟨S_, .f32⟩
  | 87 => ⟨S1600000, .f32⟩
  | 88 => ⟨S1600000x1, .f32⟩
  | 89 => ⟨S1600000x1, .f32⟩
  | 90 => ⟨S1600000x16, .f32⟩
  | 91 => ⟨S1600000x16, .f32⟩
  | 92 => ⟨S1600000x16, .f32⟩
  | 93 => ⟨S1600000x16, .f32⟩
  | 94 => ⟨S_, .f32⟩
  | 95 => ⟨S1600000, .f32⟩
  | 96 => ⟨S1600000, .f32⟩
  | 97 => ⟨S_, .f32⟩
  | 98 => ⟨S_, .f32⟩
  | 99 => ⟨S_, .f32⟩
  | 100 => ⟨S_, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_call1_cst : Ref sig .tc := ⟨.hbm, 71, rfl⟩
abbrev main_call1_v0 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_v59 : Ref sig .tc := ⟨.hbm, 85, rfl⟩
abbrev main_v60 : Ref sig .tc := ⟨.hbm, 86, rfl⟩
abbrev main_cst_13 : Ref sig .tc := ⟨.hbm, 87, rfl⟩
abbrev main_v61 : Ref sig .tc := ⟨.hbm, 88, rfl⟩
abbrev main_v62 : Ref sig .tc := ⟨.hbm, 89, rfl⟩
abbrev main_cst_14 : Ref sig .tc := ⟨.hbm, 90, rfl⟩
abbrev main_call2_v0 : Ref sig .tc := ⟨.hbm, 91, rfl⟩
abbrev main_call2_v1 : Ref sig .tc := ⟨.hbm, 92, rfl⟩
abbrev main_v63 : Ref sig .tc := ⟨.hbm, 93, rfl⟩
abbrev main_c_15 : Ref sig .tc := ⟨.hbm, 94, rfl⟩
abbrev main_v64 : Ref sig .tc := ⟨.hbm, 95, rfl⟩
abbrev main_v65 : Ref sig .tc := ⟨.hbm, 96, rfl⟩
abbrev main_c_16 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_c_17 : Ref sig .tc := ⟨.hbm, 104, rfl⟩
abbrev main_v72 : Ref sig .tc := ⟨.hbm, 105, rfl⟩
abbrev main_v73 : Ref sig .tc := ⟨.hbm, 106, rfl⟩
abbrev main_c_18 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_c_19 : Ref sig .tc := ⟨.hbm, 116, rfl⟩
abbrev main_v82 : Ref sig .tc := ⟨.hbm, 117, rfl⟩
abbrev main_v83 : Ref sig .tc := ⟨.hbm, 118, rfl⟩
abbrev main_c_20 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_21 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_22 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_cst_23 : Ref sig .tc := ⟨.hbm, 138, rfl⟩
abbrev main_v100 : Ref sig .tc := ⟨.hbm, 139, rfl⟩
abbrev main_v101 : Ref sig .tc := ⟨.hbm, 140, rfl⟩
abbrev main_cst_24 : Ref sig .tc := ⟨.hbm, 141, rfl⟩
abbrev main_v102 : Ref sig .tc := ⟨.hbm, 142, rfl⟩
abbrev main_v103 : Ref sig .tc := ⟨.hbm, 143, rfl⟩
abbrev main_cst_25 : Ref sig .tc := ⟨.hbm, 144, rfl⟩
abbrev main_call3_v0 : Ref sig .tc := ⟨.hbm, 145, rfl⟩
abbrev main_call3_v1 : Ref sig .tc := ⟨.hbm, 146, rfl⟩
abbrev main_v104 : Ref sig .tc := ⟨.hbm, 147, rfl⟩
abbrev main_c_26 : Ref sig .tc := ⟨.hbm, 148, rfl⟩
abbrev main_v105 : Ref sig .tc := ⟨.hbm, 149, rfl⟩
abbrev main_v106 : Ref sig .tc := ⟨.hbm, 150, rfl⟩
abbrev main_c_27 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_c_28 : Ref sig .tc := ⟨.hbm, 158, rfl⟩
abbrev main_v113 : Ref sig .tc := ⟨.hbm, 159, rfl⟩
abbrev main_v114 : Ref sig .tc := ⟨.hbm, 160, rfl⟩
abbrev main_c_29 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_call4_cst : Ref sig .tc := ⟨.hbm, 167, rfl⟩
abbrev main_call4_v0 : Ref sig .tc := ⟨.hbm, 168, rfl⟩
abbrev main_call4_cst_0 : Ref sig .tc := ⟨.hbm, 169, rfl⟩
abbrev main_call4_v1 : Ref sig .tc := ⟨.hbm, 170, rfl⟩
abbrev main_call4_v2 : Ref sig .tc := ⟨.hbm, 171, rfl⟩
abbrev main_call4_v3 : Ref sig .tc := ⟨.hbm, 172, rfl⟩
abbrev main_call4_v4 : Ref sig .tc := ⟨.hbm, 173, rfl⟩
abbrev main_call4_v5 : Ref sig .tc := ⟨.hbm, 174, rfl⟩
abbrev main_call4_v6 : Ref sig .tc := ⟨.hbm, 175, rfl⟩
abbrev main_call4_cst_1 : Ref sig .tc := ⟨.hbm, 176, rfl⟩
abbrev main_call4_v7 : Ref sig .tc := ⟨.hbm, 177, rfl⟩
abbrev main_call4_v8 : Ref sig .tc := ⟨.hbm, 178, rfl⟩
abbrev main_call4_v9 : Ref sig .tc := ⟨.hbm, 179, rfl⟩
abbrev main_call4_v10 : Ref sig .tc := ⟨.hbm, 180, rfl⟩
abbrev main_v120 : Ref sig .tc := ⟨.hbm, 181, rfl⟩
abbrev main_c_30 : Ref sig .tc := ⟨.hbm, 182, rfl⟩
abbrev main_v121 : Ref sig .tc := ⟨.hbm, 183, rfl⟩
abbrev main_v122 : Ref sig .tc := ⟨.hbm, 184, rfl⟩
abbrev main_c_31 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_cst_32 : Ref sig .tc := ⟨.hbm, 191, rfl⟩
abbrev main_v128 : Ref sig .tc := ⟨.hbm, 192, rfl⟩
abbrev main_cst_33 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_cst_34 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_call5_cst : Ref sig .tc := ⟨.hbm, 205, rfl⟩
abbrev main_call5_v0 : Ref sig .tc := ⟨.hbm, 206, rfl⟩
abbrev main_call5_cst_0 : Ref sig .tc := ⟨.hbm, 207, rfl⟩
abbrev main_call5_v1 : Ref sig .tc := ⟨.hbm, 208, rfl⟩
abbrev main_call5_v2 : Ref sig .tc := ⟨.hbm, 209, rfl⟩
abbrev main_call5_v3 : Ref sig .tc := ⟨.hbm, 210, rfl⟩
abbrev main_call5_v4 : Ref sig .tc := ⟨.hbm, 211, rfl⟩
abbrev main_call5_v5 : Ref sig .tc := ⟨.hbm, 212, rfl⟩
abbrev main_call5_v6 : Ref sig .tc := ⟨.hbm, 213, rfl⟩
abbrev main_call5_cst_1 : Ref sig .tc := ⟨.hbm, 214, rfl⟩
abbrev main_call5_v7 : Ref sig .tc := ⟨.hbm, 215, rfl⟩
abbrev main_call5_v8 : Ref sig .tc := ⟨.hbm, 216, rfl⟩
abbrev main_call5_v9 : Ref sig .tc := ⟨.hbm, 217, rfl⟩
abbrev main_call5_v10 : Ref sig .tc := ⟨.hbm, 218, rfl⟩
abbrev main_v139 : Ref sig .tc := ⟨.hbm, 219, rfl⟩
abbrev main_v140 : Ref sig .tc := ⟨.hbm, 220, rfl⟩
abbrev main_v141 : Ref sig .tc := ⟨.hbm, 221, rfl⟩
abbrev main_cst_35 : Ref sig .tc := ⟨.hbm, 222, rfl⟩
abbrev main_v142 : Ref sig .tc := ⟨.hbm, 223, rfl⟩
abbrev main_v143 : Ref sig .tc := ⟨.hbm, 224, rfl⟩
abbrev main_cst_36 : Ref sig .tc := ⟨.hbm, 225, rfl⟩
abbrev main_v144 : Ref sig .tc := ⟨.hbm, 226, rfl⟩
abbrev main_cst_37 : Ref sig .tc := ⟨.hbm, 227, rfl⟩
abbrev main_v145 : Ref sig .tc := ⟨.hbm, 228, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S50000 : S_.BroadcastsInDim S50000 (![] : Fin 0 → Fin S50000.rank)
  bcast_S1650000_S1650000x1_0 : S1650000.BroadcastsInDim S1650000x1 (![0] : Fin 1 → Fin S1650000x1.rank)
  bcast_S_S1650000 : S_.BroadcastsInDim S1650000 (![] : Fin 0 → Fin S1650000.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1650000x1_S1650000x16_0_1 : S1650000x1.BroadcastsInDim S1650000x16 (![0, 1] : Fin 2 → Fin S1650000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  reducesTo_S1600000x16_S1600000_d1 : S1600000x16.ReducesTo [1] S1600000
  h_S_ : 0 < S_.numel
  bcast_S1600000x1_S1600000x16_0_1 : S1600000x1.BroadcastsInDim S1600000x16 (![0, 1] : Fin 2 → Fin S1600000x16.rank)
  reducesTo_S1600000_S_d0 : S1600000.ReducesTo [0] S_
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x256_S256x128_S50000x128_1_0_0_1_n_n_wf : DotDims.WF S50000x256 S256x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x16_S50000x16_1_0_0_1_n_n_wf : DotDims.WF S50000x128 S128x16 S50000x16 [1] [0] [0] [1] [] []
  gather_S50000x16_S1650000x1_S1650000x16_1_0_n_n_0_1_116_wf : GatherDims.WF S50000x16 S1650000x1 S1650000x16 [1] [0] [] [0] [] 1 ![1, 16]
  scatter_S50000x16_S1650000x1_S1650000x16_1_0_0_1_wf : ScatterDims.WF S50000x16 S1650000x1 S1650000x16 [1] [0] [0] 1
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  gather_S50000x16_S1600000x1_S1600000x16_1_0_n_n_0_1_116_wf : GatherDims.WF S50000x16 S1600000x1 S1600000x16 [1] [0] [] [0] [] 1 ![1, 16]

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x16_S50000x16_1_0_0_1_n_n : DotDims S50000x128 S128x16 S50000x16 where
  lhsContracting := [1]
  rhsContracting := [0]
  lhsNonContracting := [0]
  rhsNonContracting := [1]
  lhsBatch := []
  rhsBatch := []
  wf := dot_S50000x128_S128x16_S50000x16_1_0_0_1_n_n_wf
def gather_S50000x16_S1650000x1_S1650000x16_1_0_n_n_0_1_116 : GatherDims S50000x16 S1650000x1 S1650000x16 where
  offsetDims := [1]
  collapsedSliceDims := [0]
  operandBatchingDims := []
  startIndicesBatchingDims := []
  startIndexMap := [0]
  indexVectorDim := 1
  sliceSizes := ![1, 16]
  wf := gather_S50000x16_S1650000x1_S1650000x16_1_0_n_n_0_1_116_wf
def scatter_S50000x16_S1650000x1_S1650000x16_1_0_0_1 : ScatterDims S50000x16 S1650000x1 S1650000x16 where
  updateWindowDims := [1]
  insertedWindowDims := [0]
  scatterDimsToOperandDims := [0]
  indexVectorDim := 1
  wf := scatter_S50000x16_S1650000x1_S1650000x16_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S50000x16_S1600000x1_S1600000x16_1_0_n_n_0_1_116 : GatherDims S50000x16 S1600000x1 S1600000x16 where
  offsetDims := [1]
  collapsedSliceDims := [0]
  operandBatchingDims := []
  startIndicesBatchingDims := []
  startIndexMap := [0]
  indexVectorDim := 1
  sliceSizes := ![1, 16]
  wf := gather_S50000x16_S1600000x1_S1600000x16_1_0_n_n_0_1_116_wf

class Facts : Prop extends Facts₀ where

variable [Facts]
-- ==== Proof.RefArgs.lean ====
/-
  The reference's arguments are never written: each of its 222 host operations writes one buffer, its own result,
  and none of these is one of the seven argument buffers. So whatever the buffers hold before the operations, each
  argument's buffer holds the same after them. Each operation's written set is the singleton of its result
  reference, and the result reference differs from the argument's (decided, reference by reference).
-/
import proofs.«155868_j58506044506617_2_alg».proof.Proof.RefRun

set_option maxRecDepth 16384

noncomputable section

namespace Cert.RefArgs

open Cert.ReferenceIdeal Cert.ReferenceIdeal.RawRun Idealize.ShloMosaic Idealize.ShloMosaic.TcCoe Idealize.ShloMosaic.StableHlo

variable {F : FTy → Type} [FloatOps F]

set_option maxHeartbeats 4000000 in
/-- No operation of the reference writes its argument 0: after all of them the argument's buffer holds what it held. -/
theorem kept_main_arg0 (V : Valuation τ sig (Elt F)) :
    StableHlo.after (ops (F := F)) V (Proc.devRef .tc main_arg0) = V (Proc.devRef .tc main_arg0) :=
  StableHlo.after_of_forall_not_mem (b := Proc.devRef .tc main_arg0) _ _ (List.forall_iff_forall_mem.mp (by
    simp only [ops, List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

set_option maxHeartbeats 4000000 in
/-- No operation of the reference writes its argument 1: after all of them the argument's buffer holds what it held. -/
theorem kept_main_arg1 (V : Valuation τ sig (Elt F)) :
    StableHlo.after (ops (F := F)) V (Proc.devRef .tc main_arg1) = V (Proc.devRef .tc main_arg1) :=
  StableHlo.after_of_forall_not_mem (b := Proc.devRef .tc main_arg1) _ _ (List.forall_iff_forall_mem.mp (by
    simp only [ops, List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

set_option maxHeartbeats 4000000 in
/-- No operation of the reference writes its argument 2: after all of them the argument's buffer holds what it held. -/
theorem kept_main_arg2 (V : Valuation τ sig (Elt F)) :
    StableHlo.after (ops (F := F)) V (Proc.devRef .tc main_arg2) = V (Proc.devRef .tc main_arg2) :=
  StableHlo.after_of_forall_not_mem (b := Proc.devRef .tc main_arg2) _ _ (List.forall_iff_forall_mem.mp (by
    simp only [ops, List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

set_option maxHeartbeats 4000000 in
/-- No operation of the reference writes its argument 3: after all of them the argument's buffer holds what it held. -/
theorem kept_main_arg3 (V : Valuation τ sig (Elt F)) :
    StableHlo.after (ops (F := F)) V (Proc.devRef .tc main_arg3) = V (Proc.devRef .tc main_arg3) :=
  StableHlo.after_of_forall_not_mem (b := Proc.devRef .tc main_arg3) _ _ (List.forall_iff_forall_mem.mp (by
    simp only [ops, List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

set_option maxHeartbeats 4000000 in
/-- No operation of the reference writes its argument 4: after all of them the argument's buffer holds what it held. -/
theorem kept_main_arg4 (V : Valuation τ sig (Elt F)) :
    StableHlo.after (ops (F := F)) V (Proc.devRef .tc main_arg4) = V (Proc.devRef .tc main_arg4) :=
  StableHlo.after_of_forall_not_mem (b := Proc.devRef .tc main_arg4) _ _ (List.forall_iff_forall_mem.mp (by
    simp only [ops, List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

set_option maxHeartbeats 4000000 in
/-- No operation of the reference writes its argument 5: after all of them the argument's buffer holds what it held. -/
theorem kept_main_arg5 (V : Valuation τ sig (Elt F)) :
    StableHlo.after (ops (F := F)) V (Proc.devRef .tc main_arg5) = V (Proc.devRef .tc main_arg5) :=
  StableHlo.after_of_forall_not_mem (b := Proc.devRef .tc main_arg5) _ _ (List.forall_iff_forall_mem.mp (by
    simp only [ops, List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

set_option maxHeartbeats 4000000 in
/-- No operation of the reference writes its argument 6: after all of them the argument's buffer holds what it held. -/
theorem kept_main_arg6 (V : Valuation τ sig (Elt F)) :
    StableHlo.after (ops (F := F)) V (Proc.devRef .tc main_arg6) = V (Proc.devRef .tc main_arg6) :=
  StableHlo.after_of_forall_not_mem (b := Proc.devRef .tc main_arg6) _ _ (List.forall_iff_forall_mem.mp (by
    simp only [ops, List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

end Cert.RefArgs
end
-- ==== Proof.RefSpec.lean ====
/-
  The reference's computation as whole-array functions of its arguments, stage by stage: the two edge-list rows, the
  lists with the self loops appended, the degree vector and its guarded inverse square root, the edge normalization,
  a graph-convolution layer (project, gather, scale, add up, bias), the rectifier, the column-normalized weights of
  the consistency term, and that term's log-softmax / softmax / weighted sum chain. Each definition is the
  composition of the host operations the program runs for that stage, in the program's own order and spelling.
-/
import proofs.«155868_j58506044506617_2_alg».proof.Proof.Gen.ReferenceIdeal
import Idealize.ShloMosaic.PureOps.Ideal

set_option maxRecDepth 16384

noncomputable section

namespace Cert.RefSpec

open Cert.ReferenceIdeal Cert.ReferenceIdeal.Gen Idealize.ShloMosaic

noncomputable def rowW (ei : IVec S2x1600000 32) : IVec S1600000 32 :=
  shapeCast _ (extractStridedSlice S1x1600000 ![0, 0] ei slices_S2x1600000_S1x1600000_0_0) shapeCasts_S1x1600000_S1600000

noncomputable def colW (ei : IVec S2x1600000 32) : IVec S1600000 32 :=
  shapeCast _ (extractStridedSlice S1x1600000 ![1, 0] ei slices_S2x1600000_S1x1600000_1_0) shapeCasts_S1x1600000_S1600000

noncomputable def selfLoops (v : IVec S1600000 32) : IVec S1650000 32 :=
  concatenate S1650000 0 [⟨S1600000, v⟩, ⟨S50000, (iotaInDim S50000 32 0)⟩] concatenates_S1600000_S50000_S1650000_d0

noncomputable def wsF (w : FVec Ideal S1600000 .f32) : FVec Ideal S1650000 .f32 :=
  concatenate S1650000 0 [⟨S1600000, w⟩, ⟨S50000, (broadcastInDim S50000 ![] bcast_S_S50000 (constant (F := Ideal) S_ .f32 0x3F800000#32))⟩] concatenates_S1600000_S50000_S1650000_d0

noncomputable def degF (cols : IVec S1650000 32) (ws : FVec Ideal S1650000 .f32) : FVec Ideal S50000 .f32 :=
  Host.scatterAdd scatter_S50000_S1650000x1_S1650000_n_0_0_1 (broadcastInDim S50000 ![] bcast_S_S50000 (constant (F := Ideal) S_ .f32 0x00000000#32)) (broadcastInDim S1650000x1 ![0] bcast_S1650000_S1650000x1_0 cols) ws

noncomputable def dinvOf (deg : FVec Ideal S50000 .f32) : FVec Ideal S50000 .f32 :=
  select (cmpf (F := Ideal) .ogt deg (broadcastInDim S50000 ![] bcast_S_S50000 (constant (F := Ideal) S_ .f32 0x00000000#32))) (Host.powf deg (broadcastInDim S50000 ![] bcast_S_S50000 (constant (F := Ideal) S_ .f32 0xBF000000#32))) (broadcastInDim S50000 ![] bcast_S_S50000 (constant (F := Ideal) S_ .f32 0x00000000#32))

noncomputable def wrapF (v : IVec S1650000 32) : IVec S1650000x1 32 :=
  broadcastInDim S1650000x1 ![0] bcast_S1650000_S1650000x1_0 (select (cmpi .slt v (broadcastInDim S1650000 ![] bcast_S_S1650000 (constantI S_ 32 0#32))) (addi v (broadcastInDim S1650000 ![] bcast_S_S1650000 (constantI S_ 32 50000#32))) v)

noncomputable def normOf (dinv : FVec Ideal S50000 .f32) (rows cols : IVec S1650000 32) (ws : FVec Ideal S1650000 .f32) : FVec Ideal S1650000 .f32 :=
  mulf (mulf (Host.gather gather_S50000_S1650000x1_S1650000_n_0_n_n_0_1_1 dinv (broadcastInDim S1650000x1 ![0] bcast_S1650000_S1650000x1_0 (select (cmpi .slt rows (broadcastInDim S1650000 ![] bcast_S_S1650000 (constantI S_ 32 0#32))) (addi rows (broadcastInDim S1650000 ![] bcast_S_S1650000 (constantI S_ 32 50000#32))) rows))) ws) (Host.gather gather_S50000_S1650000x1_S1650000_n_0_n_n_0_1_1 dinv (broadcastInDim S1650000x1 ![0] bcast_S1650000_S1650000x1_0 (select (cmpi .slt cols (broadcastInDim S1650000 ![] bcast_S_S1650000 (constantI S_ 32 0#32))) (addi cols (broadcastInDim S1650000 ![] bcast_S_S1650000 (constantI S_ 32 50000#32))) cols)))

noncomputable def hx128 (x : FVec Ideal S50000x256 .f32) (W : FVec Ideal S256x128 .f32) : FVec Ideal S50000x128 .f32 :=
  Host.dotGeneral dot_S50000x256_S256x128_S50000x128_1_0_0_1_n_n none x W

noncomputable def msg128 (nrm : FVec Ideal S1650000 .f32) (rows : IVec S1650000 32) (hx : FVec Ideal S50000x128 .f32) : FVec Ideal S1650000x128 .f32 :=
  mulf (broadcastInDim S1650000x128 ![0, 1] bcast_S1650000x1_S1650000x128_0_1 (broadcastInDim S1650000x1 ![0] bcast_S1650000_S1650000x1_0 nrm)) (Host.gather gather_S50000x128_S1650000x1_S1650000x128_1_0_n_n_0_1_1128 hx (broadcastInDim S1650000x1 ![0] bcast_S1650000_S1650000x1_0 (select (cmpi .slt rows (broadcastInDim S1650000 ![] bcast_S_S1650000 (constantI S_ 32 0#32))) (addi rows (broadcastInDim S1650000 ![] bcast_S_S1650000 (constantI S_ 32 50000#32))) rows)))

noncomputable def layer128 (nrm : FVec Ideal S1650000 .f32) (rows cols : IVec S1650000 32) (hx : FVec Ideal S50000x128 .f32) (b : FVec Ideal S128 .f32) : FVec Ideal S50000x128 .f32 :=
  addf (Host.scatterAdd scatter_S50000x128_S1650000x1_S1650000x128_1_0_0_1 (broadcastInDim S50000x128 ![] bcast_S_S50000x128 (constant (F := Ideal) S_ .f32 0x00000000#32)) (broadcastInDim S1650000x1 ![0] bcast_S1650000_S1650000x1_0 cols) (mulf (broadcastInDim S1650000x128 ![0, 1] bcast_S1650000x1_S1650000x128_0_1 (broadcastInDim S1650000x1 ![0] bcast_S1650000_S1650000x1_0 nrm)) (Host.gather gather_S50000x128_S1650000x1_S1650000x128_1_0_n_n_0_1_1128 hx (broadcastInDim S1650000x1 ![0] bcast_S1650000_S1650000x1_0 (select (cmpi .slt rows (broadcastInDim S1650000 ![] bcast_S_S1650000 (constantI S_ 32 0#32))) (addi rows (broadcastInDim S1650000 ![] bcast_S_S1650000 (constantI S_ 32 50000#32))) rows))))) (broadcastInDim S50000x128 ![0, 1] bcast_S1x128_S50000x128_0_1 (broadcastInDim S1x128 ![1] bcast_S128_S1x128_1 b))

noncomputable def relu128 (z : FVec Ideal S50000x128 .f32) : FVec Ideal S50000x128 .f32 :=
  maximumf z (broadcastInDim S50000x128 ![] bcast_S_S50000x128 (constant (F := Ideal) S_ .f32 0x00000000#32))

noncomputable def hx16 (h : FVec Ideal S50000x128 .f32) (W : FVec Ideal S128x16 .f32) : FVec Ideal S50000x16 .f32 :=
  Host.dotGeneral dot_S50000x128_S128x16_S50000x16_1_0_0_1_n_n none h W

noncomputable def layer16 (nrm : FVec Ideal S1650000 .f32) (rows cols : IVec S1650000 32) (hx : FVec Ideal S50000x16 .f32) (b : FVec Ideal S16 .f32) : FVec Ideal S50000x16 .f32 :=
  addf (Host.scatterAdd scatter_S50000x16_S1650000x1_S1650000x16_1_0_0_1 (broadcastInDim S50000x16 ![] bcast_S_S50000x16 (constant (F := Ideal) S_ .f32 0x00000000#32)) (broadcastInDim S1650000x1 ![0] bcast_S1650000_S1650000x1_0 cols) (mulf (broadcastInDim S1650000x16 ![0, 1] bcast_S1650000x1_S1650000x16_0_1 (broadcastInDim S1650000x1 ![0] bcast_S1650000_S1650000x1_0 nrm)) (Host.gather gather_S50000x16_S1650000x1_S1650000x16_1_0_n_n_0_1_116 hx (broadcastInDim S1650000x1 ![0] bcast_S1650000_S1650000x1_0 (select (cmpi .slt rows (broadcastInDim S1650000 ![] bcast_S_S1650000 (constantI S_ 32 0#32))) (addi rows (broadcastInDim S1650000 ![] bcast_S_S1650000 (constantI S_ 32 50000#32))) rows))))) (broadcastInDim S50000x16 ![0, 1] bcast_S1x16_S50000x16_0_1 (broadcastInDim S1x16 ![1] bcast_S16_S1x16_1 b))

noncomputable def rinvOf (col : IVec S1600000 32) (w : FVec Ideal S1600000 .f32) : FVec Ideal S50000 .f32 :=
  select (cmpf (F := Ideal) .ogt (Host.scatterAdd scatter_S50000_S1600000x1_S1600000_n_0_0_1 (broadcastInDim S50000 ![] bcast_S_S50000 (constant (F := Ideal) S_ .f32 0x00000000#32)) (broadcastInDim S1600000x1 ![0] bcast_S1600000_S1600000x1_0 col) w) (broadcastInDim S50000 ![] bcast_S_S50000 (constant (F := Ideal) S_ .f32 0x00000000#32))) (Host.divf (broadcastInDim S50000 ![] bcast_S_S50000 (constant (F := Ideal) S_ .f32 0x3F800000#32)) (Host.scatterAdd scatter_S50000_S1600000x1_S1600000_n_0_0_1 (broadcastInDim S50000 ![] bcast_S_S50000 (constant (F := Ideal) S_ .f32 0x00000000#32)) (broadcastInDim S1600000x1 ![0] bcast_S1600000_S1600000x1_0 col) w)) (broadcastInDim S50000 ![] bcast_S_S50000 (constant (F := Ideal) S_ .f32 0x00000000#32))

noncomputable def nwOf (rinv : FVec Ideal S50000 .f32) (col : IVec S1600000 32) (w : FVec Ideal S1600000 .f32) : FVec Ideal S1600000 .f32 :=
  mulf w (Host.gather gather_S50000_S1600000x1_S1600000_n_0_n_n_0_1_1 rinv (broadcastInDim S1600000x1 ![0] bcast_S1600000_S1600000x1_0 (select (cmpi .slt col (broadcastInDim S1600000 ![] bcast_S_S1600000 (constantI S_ 32 0#32))) (addi col (broadcastInDim S1600000 ![] bcast_S_S1600000 (constantI S_ 32 50000#32))) col)))

noncomputable def gath16 (L : FVec Ideal S50000x16 .f32) (v : IVec S1600000 32) : FVec Ideal S1600000x16 .f32 :=
  Host.gather gather_S50000x16_S1600000x1_S1600000x16_1_0_n_n_0_1_116 L (broadcastInDim S1600000x1 ![0] bcast_S1600000_S1600000x1_0 (select (cmpi .slt v (broadcastInDim S1600000 ![] bcast_S_S1600000 (constantI S_ 32 0#32))) (addi v (broadcastInDim S1600000 ![] bcast_S_S1600000 (constantI S_ 32 50000#32))) v))

noncomputable def lsm (y : FVec Ideal S1600000x16 .f32) : FVec Ideal S1600000x16 .f32 :=
  subf (subf y (broadcastInDim S1600000x16 ![0, 1] bcast_S1600000x1_S1600000x16_0_1 (broadcastInDim S1600000x1 ![0] bcast_S1600000_S1600000x1_0 (maximumf (broadcastInDim S1600000 ![] bcast_S_S1600000 (constant (F := Ideal) S_ .f32 0xFF800000#32)) (Host.reduce FloatOps.maximumf y (constant (F := Ideal) S_ .f32 0xFF800000#32) reducesTo_S1600000x16_S1600000_d1 h_S_))))) (broadcastInDim S1600000x16 ![0, 1] bcast_S1600000x1_S1600000x16_0_1 (Host.log (broadcastInDim S1600000x1 ![0] bcast_S1600000_S1600000x1_0 (Host.reduceAdd (Host.exp (subf y (broadcastInDim S1600000x16 ![0, 1] bcast_S1600000x1_S1600000x16_0_1 (broadcastInDim S1600000x1 ![0] bcast_S1600000_S1600000x1_0 (maximumf (broadcastInDim S1600000 ![] bcast_S_S1600000 (constant (F := Ideal) S_ .f32 0xFF800000#32)) (Host.reduce FloatOps.maximumf y (constant (F := Ideal) S_ .f32 0xFF800000#32) reducesTo_S1600000x16_S1600000_d1 h_S_)))))) (constant (F := Ideal) S_ .f32 0x00000000#32) reducesTo_S1600000x16_S1600000_d1 h_S_))))

noncomputable def sm (y : FVec Ideal S1600000x16 .f32) : FVec Ideal S1600000x16 .f32 :=
  Host.divf (Host.exp (subf y (broadcastInDim S1600000x16 ![0, 1] bcast_S1600000x1_S1600000x16_0_1 (broadcastInDim S1600000x1 ![0] bcast_S1600000_S1600000x1_0 (maximumf (broadcastInDim S1600000 ![] bcast_S_S1600000 (constant (F := Ideal) S_ .f32 0xFF800000#32)) (Host.reduce FloatOps.maximumf y (constant (F := Ideal) S_ .f32 0xFF800000#32) reducesTo_S1600000x16_S1600000_d1 h_S_)))))) (broadcastInDim S1600000x16 ![0, 1] bcast_S1600000x1_S1600000x16_0_1 (broadcastInDim S1600000x1 ![0] bcast_S1600000_S1600000x1_0 (Host.reduceAdd (Host.exp (subf y (broadcastInDim S1600000x16 ![0, 1] bcast_S1600000x1_S1600000x16_0_1 (broadcastInDim S1600000x1 ![0] bcast_S1600000_S1600000x1_0 (maximumf (broadcastInDim S1600000 ![] bcast_S_S1600000 (constant (F := Ideal) S_ .f32 0xFF800000#32)) (Host.reduce FloatOps.maximumf y (constant (F := Ideal) S_ .f32 0xFF800000#32) reducesTo_S1600000x16_S1600000_d1 h_S_)))))) (constant (F := Ideal) S_ .f32 0x00000000#32) reducesTo_S1600000x16_S1600000_d1 h_S_)))

noncomputable def ncrTail (tgt logt logp : FVec Ideal S1600000x16 .f32) (nw : FVec Ideal S1600000 .f32) : FVec Ideal S_ .f32 :=
  Host.divf (Host.reduceAdd (mulf nw (Host.reduceAdd (mulf tgt (subf logt logp)) (constant (F := Ideal) S_ .f32 0x00000000#32) reducesTo_S1600000x16_S1600000_d1 h_S_)) (constant (F := Ideal) S_ .f32 0x00000000#32) reducesTo_S1600000_S_d0 h_S_) (constant (F := Ideal) S_ .f32 0x47435000#32)

/-- The edge normalization of the graph with self loops, from the edge list and the edge weights. -/
noncomputable def norm (ei : IVec S2x1600000 32) (w : FVec Ideal S1600000 .f32) : FVec Ideal S1650000 .f32 :=
  normOf (dinvOf (degF (selfLoops (colW ei)) (wsF w))) (selfLoops (rowW ei)) (selfLoops (colW ei)) (wsF w)

/-- The two-layer network's output rows. -/
noncomputable def logits (x : FVec Ideal S50000x256 .f32) (ei : IVec S2x1600000 32) (w : FVec Ideal S1600000 .f32) (W1 : FVec Ideal S256x128 .f32)
    (b1 : FVec Ideal S128 .f32) (W2 : FVec Ideal S128x16 .f32) (b2 : FVec Ideal S16 .f32) : FVec Ideal S50000x16 .f32 :=
  layer16 (norm ei w) (selfLoops (rowW ei)) (selfLoops (colW ei))
    (hx16 (relu128 (layer128 (norm ei w) (selfLoops (rowW ei)) (selfLoops (colW ei)) (hx128 x W1) b1)) W2) b2

/-- The neighbour-consistency term of output rows L. -/
noncomputable def ncr (L : FVec Ideal S50000x16 .f32) (ei : IVec S2x1600000 32) (w : FVec Ideal S1600000 .f32) : FVec Ideal S_ .f32 :=
  ncrTail (sm (gath16 L (rowW ei))) (lsm (gath16 L (rowW ei))) (lsm (gath16 L (colW ei)))
    (nwOf (rinvOf (colW ei) w) (colW ei) w)

end Cert.RefSpec

end
-- ==== Proof.LibRealMean.lean ====
/-
  The algebra of the mean-aggregation layer on the extended reals.

  An extended real that is a real number is called real here. Sums, products, maxima of reals are real, and so is a
  quotient by a nonzero real. On reals the neighbour term of the second layer can be computed in two orders:

    project, then sum over the incoming edges, then divide by the degree:
        (0 + ∑ e, ∑ k, h e k · w k) / d
    sum over the incoming edges, divide by the degree, then project:
        ∑ k, ((0 + ∑ e, h e k) / d) · w k

  Both are (∑ e, ∑ k, h e k · w k) / d by exchanging the two finite sums and moving the factors w k and 1 / d through
  them; on the extended reals this needs every h e k and w k real and d a nonzero real, since a product does not
  distribute over a sum that meets an infinity.
-/
import Idealize.ShloMosaic.PureOps.Ideal

noncomputable section

open scoped BigOperators

namespace Cert.RealMean

open Idealize.ShloMosaic

/-- An extended real that is a real number. -/
def IsReal (x : EReal) : Prop := ∃ r : ℝ, x = (r : EReal)

theorem isReal_coe (r : ℝ) : IsReal (r : EReal) := ⟨r, rfl⟩

theorem isReal_zero : IsReal 0 := ⟨0, EReal.coe_zero.symm⟩

theorem isReal_one : IsReal 1 := ⟨1, EReal.coe_one.symm⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- The larger of two reals, taken in the extended reals, is the larger real. -/
theorem coe_max (a b : ℝ) : max (a : EReal) (b : EReal) = ((max a b : ℝ) : EReal) :=
  (EReal.coe_strictMono.monotone.map_max).symm

theorem IsReal.max {x y : EReal} (hx : IsReal x) (hy : IsReal y) : IsReal (max x y) := by
  obtain ⟨a, rfl⟩ := hx; obtain ⟨b, rfl⟩ := hy
  exact ⟨_, coe_max a b⟩

/-- The coercion of a finite sum of reals is the sum of the coercions. -/
theorem coe_sum {ι : Type} (s : Finset ι) (f : ι → ℝ) : ((∑ i ∈ s, f i : ℝ) : EReal) = ∑ i ∈ s, (f i : EReal) := by
  classical
  refine Finset.induction_on s (by simp) fun a s ha ih => ?_
  rw [Finset.sum_insert ha, Finset.sum_insert ha, EReal.coe_add, ih]

theorem IsReal.sum {ι : Type} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A real divided by a nonzero real is real. -/
theorem IsReal.div {x : EReal} (hx : IsReal x) {d : ℝ} (hd : d ≠ 0) : IsReal (Ideal.div x (d : EReal)) := by
  rw [Ideal.div_coe hd]
  exact hx.mul (isReal_coe _)

/-- A count: zero plus a finite sum of ones is a real that is at least zero, so its maximum with one is a real that
    is at least one, and in particular not zero. -/
theorem count_max_one {ι : Type} (s : Finset ι) :
    ∃ d : ℝ, d ≠ 0 ∧ Max.max (0 + ∑ _e ∈ s, (1 : EReal)) 1 = (d : EReal) := by
  refine ⟨Max.max (s.card : ℝ) 1, ?_, ?_⟩
  · have : (1 : ℝ) ≤ Max.max (s.card : ℝ) 1 := le_max_right _ _
    intro h; rw [h] at this; norm_num at this
  · have hs : (∑ _e ∈ s, (1 : EReal)) = ((s.card : ℝ) : EReal) := by
      rw [← EReal.coe_one, ← coe_sum]; simp
    rw [zero_add, hs, ← EReal.coe_one]
    exact coe_max _ _

/-- THE NEIGHBOUR TERM IN TWO ORDERS: projecting the rows before summing them over the edges and dividing by the
    degree is summing, dividing, and projecting afterwards. -/
theorem project_commutes_with_mean {ε κ : Type} [Fintype κ] (s : Finset ε) (h : ε → κ → EReal) (w : κ → EReal) (d : ℝ)
    (hd : d ≠ 0) (hh : ∀ e k, IsReal (h e k)) (hw : ∀ k, IsReal (w k)) :
    Ideal.div (0 + ∑ e ∈ s, ∑ k, h e k * w k) (d : EReal) = ∑ k, Ideal.div (0 + ∑ e ∈ s, h e k) (d : EReal) * w k := by
  choose hr hhr using hh
  choose wr hwr using hw
  obtain rfl : h = fun e k => ((hr e k : ℝ) : EReal) := funext fun e => funext fun k => hhr e k
  obtain rfl : w = fun k => ((wr k : ℝ) : EReal) := funext hwr
  simp only [zero_add, Ideal.div_coe hd, ← EReal.coe_mul, ← coe_sum]
  refine congrArg _ ?_
  rw [Finset.sum_comm, Finset.sum_mul]
  refine Finset.sum_congr rfl fun k _ => ?_
  rw [← Finset.sum_mul]
  ring

end Cert.RealMean

end
-- ==== Proof.LibRealOps.lean ====
/-
  Arrays of real numbers under the whole-array operations.

  At the ideal values a float array is a function from the indices of its shape into the extended reals. An array is
  called all real here when every one of its entries is a real number (neither infinity). This file shows that the
  whole-array operations keep that property: the pointwise sum, difference, product and maximum of all-real arrays; a
  selection between two all-real arrays; the re-indexing operations (broadcast, reshape, slice, concatenation, padding
  with a real scalar, gather), each of whose entries is an entry of an operand or the real padding value; the constant
  arrays of the words for 0, 1, -1/2 and 50000; the accumulating scatter, the contraction of two arrays and the sum
  over axes, whose entries are finite sums of products or entries of the operands; the exponential; and the two guarded
  operations, a power with a real exponent and a reciprocal, taken only where the base is positive and replaced by zero
  elsewhere.
-/
import Idealize.ShloMosaic.PureOps
import Idealize.ShloMosaic.PureOps.Ideal
import Idealize.ShloMosaic.PureOps.Ideal.Laws
import Idealize.ShloMosaic.Lib.ValueIdx
import Idealize.ShloMosaic.Lib.Pipeline.Value
import proofs.«155868_j58506044506617_2_alg».proof.Proof.LibRealMean

noncomputable section

open scoped BigOperators

namespace Cert.RealOps

open Idealize.ShloMosaic Cert.RealMean

/-- Every entry of the array is a real number. -/
def AllReal {s : Shape} (x : s.Idx → EReal) : Prop := ∀ i, IsReal (x i)

/-- The difference of two reals is real. -/
theorem IsReal.sub {x y : EReal} (hx : IsReal x) (hy : IsReal y) : IsReal (x - y) := by
  obtain ⟨a, rfl⟩ := hx; obtain ⟨b, rfl⟩ := hy
  exact ⟨a - b, (EReal.coe_sub a b).symm⟩

/-- A real is neither infinity: its absolute value is below the top. -/
theorem isReal_of_abs_lt_top {x : EReal} (h : max x (-x) < ⊤) : IsReal x := by
  induction x using EReal.rec with
  | bot => simp at h
  | coe r => exact ⟨r, rfl⟩
  | top => simp at h

section Pointwise
variable {s : Shape} {φ : FTy}

theorem allReal_addf {x y : FVec Ideal s φ} (hx : AllReal x) (hy : AllReal y) : AllReal (addf x y) :=
  fun i => (hx i).add (hy i)

theorem allReal_subf {x y : FVec Ideal s φ} (hx : AllReal x) (hy : AllReal y) : AllReal (subf x y) :=
  fun i => IsReal.sub (hx i) (hy i)

theorem allReal_mulf {x y : FVec Ideal s φ} (hx : AllReal x) (hy : AllReal y) : AllReal (mulf x y) :=
  fun i => (hx i).mul (hy i)

theorem allReal_maximumf {x y : FVec Ideal s φ} (hx : AllReal x) (hy : AllReal y) : AllReal (maximumf x y) :=
  fun i => (hx i).max (hy i)

end Pointwise

section Reindex
variable {s t : Shape}

/-- A selection between two arrays is all real as soon as the chosen entry is real at every index. -/
theorem allReal_select_of (c : IVec s 1) {a b : s.Idx → EReal} (ha : ∀ i, c i = 1#1 → IsReal (a i))
    (hb : ∀ i, ¬c i = 1#1 → IsReal (b i)) : AllReal (select c a b) := by
  intro i
  show IsReal (Scalar.select (c i) (a i) (b i))
  by_cases hc : c i = 1#1
  · rw [hc, ValueIdx.select_one]; exact ha i hc
  · rw [ValueIdx.eq_zero_of_ne_one hc, ValueIdx.select_zero]; exact hb i hc

/-- A selection between two all-real arrays is all real. -/
theorem allReal_select (c : IVec s 1) {a b : s.Idx → EReal} (ha : AllReal a) (hb : AllReal b) : AllReal (select c a b) :=
  allReal_select_of c (fun i _ => ha i) (fun i _ => hb i)

/-- Every entry of a broadcast is an entry of the operand. -/
theorem allReal_broadcastInDim (dims : Fin s.rank → Fin t.rank) (h : s.BroadcastsInDim t dims) {x : s.Idx → EReal}
    (hx : AllReal x) : AllReal (broadcastInDim t dims h x) := fun _ => hx _

/-- Every entry of a reshaped array is an entry of the operand. -/
theorem allReal_shapeCast {x : s.Idx → EReal} (hx : AllReal x) (h : s.ShapeCasts t) : AllReal (shapeCast t x h) :=
  fun _ => hx _

/-- Every entry of a slice is an entry of the operand. -/
theorem allReal_extractStridedSlice (off : Fin s.rank → Nat) {x : s.Idx → EReal} (hx : AllReal x) (h : s.Slices off t) :
    AllReal (extractStridedSlice t off x h) := fun _ => hx _

/-- Every entry of a padded array is an entry of the operand or the padding value. -/
theorem allReal_pad {u : Shape} (lo hi interior : Fin s.rank → Nat) {x : s.Idx → EReal} (hx : AllReal x) {v : u.Idx → EReal}
    (hv : AllReal v) (h : s.Pads lo hi interior t) (hu : 0 < u.numel) : AllReal (pad t lo hi interior x v h hu) := by
  intro j
  unfold pad
  split
  · exact hx _
  · exact hv _

/-- Every entry of a gathered array is an entry of the operand. -/
theorem allReal_gather {si : Shape} {w : Nat} (d : GatherDims s si t) {x : s.Idx → EReal} (hx : AllReal x) (idx : IVec si w) :
    AllReal (Host.gather d x idx) := fun _ => hx _

/-- Every entry of a concatenation is an entry of one of the pieces. -/
theorem allReal_concatenate (a : Fin t.rank) (xs : List ((s : Shape) × (s.Idx → EReal)))
    (h : Shape.Concatenates (xs.map (·.1)) t a) (hx : ∀ p ∈ xs, AllReal p.2) : AllReal (concatenate t a xs h) := by
  intro j
  dsimp only [concatenate]
  exact hx _ (List.getElem_mem _) _

/-- The concatenation of two all-real pieces is all real. -/
theorem allReal_concatenate₂ {s₁ s₂ : Shape} (a : Fin t.rank) {x : s₁.Idx → EReal} {y : s₂.Idx → EReal} (hx : AllReal x)
    (hy : AllReal y) (h : Shape.Concatenates [s₁, s₂] t a) : AllReal (concatenate t a [⟨s₁, x⟩, ⟨s₂, y⟩] h) := by
  refine allReal_concatenate a [⟨s₁, x⟩, ⟨s₂, y⟩] h fun p hp => ?_
  simp only [List.mem_cons, List.mem_nil_iff, or_false] at hp
  rcases hp with rfl | rfl
  · exact hx
  · exact hy

end Reindex

section Constants

/-- A constant array of a word that denotes a real is all real. -/
theorem allReal_constant (s : Shape) {w : BitVec 32} (h : IsReal (Ideal.ofBits .f32 w)) :
    AllReal (constant (F := Ideal) s .f32 w) := fun _ => h

/-- The word of one. -/
theorem word_one : Ideal.ofBits .f32 0x3F800000#32 = 1 := by
  simp [Ideal.ofBits, Ideal.ieee, -EReal.coe_mul]; norm_num

/-- The word of minus one half. -/
theorem word_neg_half : Ideal.ofBits .f32 0xBF000000#32 = ((-(1 / 2) : ℝ) : EReal) := by
  simp [Ideal.ofBits, Ideal.ieee, -EReal.coe_mul]; norm_num

/-- The word of fifty thousand. -/
theorem word_50000 : Ideal.ofBits .f32 0x47435000#32 = ((50000 : ℝ) : EReal) := by
  simp [Ideal.ofBits, Ideal.ieee, -EReal.coe_mul]; norm_num

theorem isReal_word_zero : IsReal (Ideal.ofBits .f32 0x00000000#32) := by
  rw [Ideal.ofBits_zero_f32]; exact isReal_zero

theorem isReal_word_one : IsReal (Ideal.ofBits .f32 0x3F800000#32) := by rw [word_one]; exact isReal_one

theorem isReal_word_neg_half : IsReal (Ideal.ofBits .f32 0xBF000000#32) := by rw [word_neg_half]; exact isReal_coe _

theorem isReal_word_50000 : IsReal (Ideal.ofBits .f32 0x47435000#32) := by rw [word_50000]; exact isReal_coe _

theorem allReal_constant_zero (s : Shape) : AllReal (constant (F := Ideal) s .f32 0x00000000#32) :=
  allReal_constant s isReal_word_zero

theorem allReal_constant_one (s : Shape) : AllReal (constant (F := Ideal) s .f32 0x3F800000#32) :=
  allReal_constant s isReal_word_one

theorem allReal_constant_neg_half (s : Shape) : AllReal (constant (F := Ideal) s .f32 0xBF000000#32) :=
  allReal_constant s isReal_word_neg_half

theorem allReal_constant_50000 (s : Shape) : AllReal (constant (F := Ideal) s .f32 0x47435000#32) :=
  allReal_constant s isReal_word_50000

end Constants

section Sums
variable {φ : FTy}

/-- The accumulating scatter: each entry is an operand entry plus a finite sum of update entries. -/
theorem allReal_scatterAdd {s si u : Shape} {w : Nat} (d : ScatterDims s si u) {x : FVec Ideal s φ} (hx : AllReal x)
    (idx : IVec si w) {upd : FVec Ideal u φ} (hu : AllReal upd) : AllReal (Host.scatterAdd d x idx upd) := by
  intro i
  show IsReal (Ideal.hostScatterAdd d x idx upd i)
  unfold Ideal.hostScatterAdd
  exact (hx i).add (IsReal.sum _ _ fun j _ => hu j)

/-- The contraction of two all-real arrays: each entry is a finite sum of products. -/
theorem allReal_floatDotGeneral {sl sr so : Shape} {φ₁ φ₂ : FTy} (d : DotDims sl sr so) (prec : Option ContractPrecision)
    (sched : HostSchedule) {a : FVec Ideal sl φ₁} (ha : AllReal a) {b : FVec Ideal sr φ₂} (hb : AllReal b) :
    AllReal (FloatOps.dotGeneral d prec sched a b) := by
  intro j
  rw [Ideal.dotGeneral_apply]
  exact IsReal.sum _ _ fun k _ => (ha _).mul (hb _)

theorem allReal_dotGeneral {sl sr so : Shape} {φ₁ φ₂ : FTy} (d : DotDims sl sr so) (prec : Option ContractPrecision)
    {a : FVec Ideal sl φ₁} (ha : AllReal a) {b : FVec Ideal sr φ₂} (hb : AllReal b) :
    AllReal (Host.dotGeneral d prec a b) :=
  allReal_floatDotGeneral d prec .single ha hb

/-- The contraction into an all-real accumulator: each entry is the accumulator's plus a finite sum of products. -/
theorem allReal_matmul {sl sr so : Shape} {φ₁ φ₂ : FTy} (d : DotDims sl sr so) (prec : Option ContractPrecision)
    {a : FVec Ideal sl φ₁} (ha : AllReal a) {b : FVec Ideal sr φ₂} (hb : AllReal b) {acc : FVec Ideal so .f32}
    (hc : AllReal acc) : AllReal (FloatOps.matmul d prec a b acc) := by
  intro j
  rw [Ideal.matmul_apply]
  exact (hc j).add (IsReal.sum _ _ fun k _ => (ha _).mul (hb _))

/-- The sum over axes: each entry is the initial value plus a finite sum of operand entries. -/
theorem allReal_reduceAdd {s t u : Shape} {axes : List (Fin s.rank)} {x : FVec Ideal s φ} (hx : AllReal x)
    {init : u.Idx → Ideal φ} (hi : AllReal init) (h : s.ReducesTo axes t) (hu : 0 < u.numel) :
    AllReal (Host.reduceAdd x init h hu) := by
  intro j
  show IsReal (Ideal.hostReduceAdd h x (init (Shape.Idx.first hu)) j)
  unfold Ideal.hostReduceAdd
  exact (hi _).add (IsReal.sum _ _ fun i _ => hx i)

end Sums

section Analytic
variable {s : Shape} {φ : FTy}

/-- The exponential of a real is real. -/
theorem allReal_exp {x : FVec Ideal s φ} (hx : AllReal x) : AllReal (Host.exp x) := by
  intro i
  obtain ⟨r, hr⟩ := hx i
  show IsReal (Ideal.exp (x i))
  rw [hr, Ideal.exp_coe]
  exact isReal_coe _

/-- A real to a real power is real. -/
theorem allReal_powf {d e : FVec Ideal s φ} (hd : AllReal d) (he : AllReal e) : AllReal (Host.powf d e) := by
  intro i
  obtain ⟨r, hr⟩ := hd i
  obtain ⟨q, hq⟩ := he i
  show IsReal (Ideal.pow (d i) (e i))
  rw [hr, hq, Ideal.pow_coe_coe]
  exact isReal_coe _

/-- A quotient by an array of nonzero reals is all real. -/
theorem allReal_divf {x y : FVec Ideal s φ} (hx : AllReal x) (hy : ∀ i, ∃ r : ℝ, r ≠ 0 ∧ y i = (r : EReal)) :
    AllReal (Host.divf x y) := by
  intro i
  obtain ⟨r, hr0, hr⟩ := hy i
  show IsReal (Ideal.div (x i) (y i))
  rw [hr]
  exact (hx i).div hr0

/-- Where the comparison "above zero" holds of a real, the real is not zero. -/
theorem ne_zero_of_ogt {d z : EReal} {r : ℝ} (hr : d = (r : EReal)) (hz : z = 0) (hc : Ideal.cmp .ogt d z = 1#1) : r ≠ 0 := by
  have hlt : z < d := by
    unfold Ideal.cmp at hc
    by_contra hn
    simp [hn] at hc
  intro h0
  rw [hz, hr, h0, EReal.coe_zero] at hlt
  exact lt_irrefl _ hlt

/-- THE GUARDED POWER: the power with a real exponent where the base is above zero, zero elsewhere. -/
theorem allReal_guarded_powf {d z e z' : FVec Ideal s φ} (hd : AllReal d) (he : AllReal e) (hz' : AllReal z') :
    AllReal (select (cmpf .ogt d z) (Host.powf d e) z') :=
  allReal_select _ (allReal_powf hd he) hz'

/-- THE GUARDED RECIPROCAL: the quotient by the base where the base is above zero, zero elsewhere. -/
theorem allReal_guarded_divf {d z one z' : FVec Ideal s φ} (hd : AllReal d) (hz : ∀ i, z i = 0) (h1 : AllReal one)
    (hz' : AllReal z') : AllReal (select (cmpf .ogt d z) (Host.divf one d) z') := by
  refine allReal_select_of _ (fun i hc => ?_) (fun i _ => hz' i)
  obtain ⟨r, hr⟩ := hd i
  have hr0 : r ≠ 0 := ne_zero_of_ogt hr (hz i) hc
  show IsReal (Ideal.div (one i) (d i))
  rw [hr]
  exact (h1 i).div hr0

end Analytic

section MaxFold
variable {φ : FTy}

/-- A left fold of the maximum over reals, started at a real, is real. -/
theorem isReal_foldl_max {ι : Type} (f : ι → EReal) (hf : ∀ n, IsReal (f n)) :
    ∀ (l : List ι) (init : EReal), IsReal init →
      IsReal (l.foldl (fun r n => FloatOps.maximumf (F := Ideal) (φ := φ) r (f n)) init)
  | [], _, h => h
  | a :: l, init, h => isReal_foldl_max f hf l _ (h.max (hf a))

/-- A left fold of the maximum over a nonempty list of reals, started at minus infinity or at a real, is real. -/
theorem isReal_foldl_max_of_ne_nil {ι : Type} (f : ι → EReal) (hf : ∀ n, IsReal (f n)) :
    ∀ (l : List ι) (init : EReal), l ≠ [] → init = ⊥ ∨ IsReal init →
      IsReal (l.foldl (fun r n => FloatOps.maximumf (F := Ideal) (φ := φ) r (f n)) init)
  | [], _, h, _ => absurd rfl h
  | a :: l, init, _, hi => by
    refine isReal_foldl_max f hf l _ ?_
    rcases hi with rfl | hi
    · show IsReal (max ⊥ (f a))
      rw [max_eq_right bot_le]; exact hf a
    · exact hi.max (hf a)

/-- The maximum over axes of an all-real array, started at a real: all real. -/
theorem allReal_reduce_maximumf_of_real_init {s t u : Shape} {axes : List (Fin s.rank)} {x : FVec Ideal s φ} (hx : AllReal x)
    {init : u.Idx → Ideal φ} (hi : AllReal init) (h : s.ReducesTo axes t) (hu : 0 < u.numel) :
    AllReal (Host.reduce (α := Ideal φ) (FloatOps.maximumf (F := Ideal) (φ := φ)) x init h hu) := by
  intro j
  unfold Host.reduce
  exact isReal_foldl_max _ (fun n => hx _) _ _ (hi _)

/-- The maximum over axes of an all-real array, started at minus infinity (or a real), when something reduces into
    every result index: all real. -/
theorem allReal_reduce_maximumf {s t u : Shape} {axes : List (Fin s.rank)} {x : FVec Ideal s φ} (hx : AllReal x)
    {init : u.Idx → Ideal φ} (hi : ∀ k, init k = ⊥ ∨ IsReal (init k)) (h : s.ReducesTo axes t) (hu : 0 < u.numel)
    (hne : ∀ j : t.Idx, ∃ i : s.Idx, h.drop i = j) : AllReal (Host.reduce (α := Ideal φ) (FloatOps.maximumf (F := Ideal) (φ := φ)) x init h hu) := by
  intro j
  unfold Host.reduce
  obtain ⟨i, hij⟩ := hne j
  refine isReal_foldl_max_of_ne_nil _ (fun n => hx _) _ _ ?_ (hi _)
  intro hnil
  have hm : s.rowMajor i ∈ (List.finRange s.numel).filter fun n => h.drop (s.rowMajor.symm n) = j := by
    rw [List.mem_filter]
    exact ⟨List.mem_finRange _, by simp [hij]⟩
  rw [hnil] at hm
  exact absurd hm (List.not_mem_nil)

/-- The same over ONE axis of positive extent: something reduces into every result index. -/
theorem allReal_reduce_maximumf_single {s t u : Shape} {a : Fin s.rank} {x : FVec Ideal s φ} (hx : AllReal x)
    {init : u.Idx → Ideal φ} (hi : ∀ k, init k = ⊥ ∨ IsReal (init k)) (h' : s.ReducesTo [a] t) (h : s.Reduces [a] t)
    (hu : 0 < u.numel) (hpos : 0 < s.size a) : AllReal (Host.reduce (α := Ideal φ) (FloatOps.maximumf (F := Ideal) (φ := φ)) x init h' hu) :=
  allReal_reduce_maximumf hx hi h' hu fun j => ⟨h.lift j ⟨0, hpos⟩, by
    rw [Shape.ReducesTo.drop_eq_drop h' h]; exact h.drop_lift j _⟩

/-- The word of minus infinity denotes the bottom of the extended reals. -/
theorem word_neg_inf : Ideal.ofBits .f32 0xFF800000#32 = ⊥ := by simp [Ideal.ofBits, Ideal.ieee]

end MaxFold

end Cert.RealOps

end
-- ==== Proof.FiniteInputs.lean ====
/-
  From the precondition to real inputs.

  The precondition says, on every device, that the conjunction of six tests is true, one for each float argument: the
  test that every entry of the argument has absolute value strictly below plus infinity. An extended real whose absolute
  value is below plus infinity is neither infinity, so it is a real number. Hence under the precondition every entry
  of each of the six float arguments is a real number.
-/
import proofs.«155868_j58506044506617_2_alg».proof.Defs
import proofs.«155868_j58506044506617_2_alg».proof.Proof.Gen.Pre_finite_inputs
import proofs.«155868_j58506044506617_2_alg».proof.Proof.Gen.KernelIdeal
import Idealize.ShloMosaic.Lib.ReduceAll
import Idealize.ShloMosaic.Lib.ValueIdx
import proofs.«155868_j58506044506617_2_alg».proof.Proof.LibRealOps

noncomputable section

namespace Cert.KernelIdeal.Fin

open Idealize.ShloMosaic Idealize.SL.Sem Cert.RealMean Cert.RealOps

/-- The scalar shape has one index. -/
instance : Subsingleton Cert.Pre_finite_inputs.S_.Idx := ⟨fun a b => funext fun d => d.elim0⟩

/-- The word of plus infinity denotes the top of the extended reals. -/
theorem inf_word : Ideal.ofBits .f32 0x7F800000#32 = ⊤ := by simp [Ideal.ofBits, Ideal.ieee]

/-- One test read back: if the comparison "absolute value below plus infinity" is true at an entry, the entry is real. -/
theorem isReal_of_test {s : Shape} (x : FVec Ideal s .f32) (y : FVec Ideal s .f32) (hy : ∀ i, y i = ⊤) (i : s.Idx)
    (h : cmpf .olt (Host.absf x) y i = 1#1) : IsReal (x i) := by
  have h' : Ideal.cmp .olt (max (x i) (-(x i))) (y i) = 1#1 := h
  rw [hy i] at h'
  refine isReal_of_abs_lt_top ?_
  unfold Ideal.cmp at h'
  by_contra hn
  simp [hn] at h'

/-- One argument's test read back: if "every entry has absolute value below plus infinity" reduces to true, every entry
    of the argument is real. -/
theorem allReal_of_all {s : Shape} {axes : List (Fin s.rank)} (x : FVec Ideal s .f32) (y : FVec Ideal s .f32)
    (hy : ∀ i, y i = ⊤) (init : IVec Cert.Pre_finite_inputs.S_ 1) (hr : s.ReducesTo axes Cert.Pre_finite_inputs.S_)
    (hu : 0 < Cert.Pre_finite_inputs.S_.numel)
    (h : Host.reduce IntOp.andi (cmpf .olt (Host.absf x) y) init hr hu ValueIdx.ix0 = 1#1) : AllReal x :=
  fun i => isReal_of_test x y hy i (Host.reduce_andi_all _ init hr hu ValueIdx.ix0 h i)

/-- UNDER THE PRECONDITION EVERY FLOAT ARGUMENT IS ALL REAL, on every device. -/
theorem real_inputs [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    AllReal (s := Cert.KernelIdeal.S50000x256) (m ((c.tc : Thread Cert.KernelIdeal.nD Cert.KernelIdeal.τ).loc Cert.KernelIdeal.main_arg0))
    ∧ AllReal (s := Cert.KernelIdeal.S1600000) (m ((c.tc : Thread Cert.KernelIdeal.nD Cert.KernelIdeal.τ).loc Cert.KernelIdeal.main_arg2))
    ∧ AllReal (s := Cert.KernelIdeal.S256x128) (m ((c.tc : Thread Cert.KernelIdeal.nD Cert.KernelIdeal.τ).loc Cert.KernelIdeal.main_arg3))
    ∧ AllReal (s := Cert.KernelIdeal.S128) (m ((c.tc : Thread Cert.KernelIdeal.nD Cert.KernelIdeal.τ).loc Cert.KernelIdeal.main_arg4))
    ∧ AllReal (s := Cert.KernelIdeal.S128x16) (m ((c.tc : Thread Cert.KernelIdeal.nD Cert.KernelIdeal.τ).loc Cert.KernelIdeal.main_arg5))
    ∧ AllReal (s := Cert.KernelIdeal.S16) (m ((c.tc : Thread Cert.KernelIdeal.nD Cert.KernelIdeal.τ).loc Cert.KernelIdeal.main_arg6)) := by
  have e := congrFun (h c) ValueIdx.ix0
  unfold Cert.Pre_finite_inputs.fn Cert.Pre_finite_inputs.fn_part1 at e
  dsimp only at e
  simp only [andi, IntOp.andi_eq_one] at e
  obtain ⟨⟨⟨⟨⟨h0, h2⟩, h3⟩, h4⟩, h5⟩, h6⟩ := e
  exact ⟨allReal_of_all _ _ (fun _ => inf_word) _ _ _ h0, allReal_of_all _ _ (fun _ => inf_word) _ _ _ h2,
    allReal_of_all _ _ (fun _ => inf_word) _ _ _ h3, allReal_of_all _ _ (fun _ => inf_word) _ _ _ h4,
    allReal_of_all _ _ (fun _ => inf_word) _ _ _ h5, allReal_of_all _ _ (fun _ => inf_word) _ _ _ h6⟩

end Cert.KernelIdeal.Fin

end
-- ==== Proof.RealLogits.lean ====
/-
  The network's output rows are real when the float inputs are.

  Each stage of the reference's computation is a composition of whole-array operations that keep an array all real:
  appending the unit weights of the self loops, adding up weights into the degrees, the guarded inverse square root of
  the degrees, the gathers of that vector at the edge ends and the products with the weights (the edge normalization),
  the projections (contractions with the weight matrices), the scaled gathers of the projected rows added up at the
  edge targets, the bias, and the rectifier (a maximum with zero). So every stage's result is all real, and in
  particular the output rows of the two-layer network are.
-/
import proofs.«155868_j58506044506617_2_alg».proof.Proof.RefSpec
import proofs.«155868_j58506044506617_2_alg».proof.Proof.LibRealOps

set_option maxRecDepth 16384

noncomputable section

namespace Cert.RealLogits

open Cert.ReferenceIdeal Cert.ReferenceIdeal.Gen Idealize.ShloMosaic Cert.RealMean Cert.RealOps Cert.RefSpec

/-- The zero splat is all real, at any shape. -/
theorem zeros_real {t : Shape} (h : S_.BroadcastsInDim t (![] : Fin 0 → Fin t.rank)) :
    AllReal (broadcastInDim t ![] h (constant (F := Ideal) S_ .f32 0x00000000#32)) :=
  allReal_broadcastInDim _ _ (allReal_constant_zero _)

/-- The edge weights with the unit weights of the self loops appended. -/
theorem wsF_real {w : FVec Ideal S1600000 .f32} (hw : AllReal w) : AllReal (wsF w) := by
  unfold wsF
  exact allReal_concatenate₂ 0 hw (allReal_broadcastInDim _ _ (allReal_constant_one _)) _

/-- The degrees: zero plus the weights added up at the edge targets. -/
theorem degF_real (cols : IVec S1650000 32) {ws : FVec Ideal S1650000 .f32} (hws : AllReal ws) : AllReal (degF cols ws) := by
  unfold degF
  exact allReal_scatterAdd _ (zeros_real _) _ hws

/-- The guarded inverse square root of the degrees. -/
theorem dinvOf_real {deg : FVec Ideal S50000 .f32} (hd : AllReal deg) : AllReal (dinvOf deg) := by
  unfold dinvOf
  exact allReal_guarded_powf hd (allReal_broadcastInDim _ _ (allReal_constant_neg_half _)) (zeros_real _)

/-- The edge normalization from the inverse square roots: their gathers at the two edge ends times the weight. -/
theorem normOf_real {dinv : FVec Ideal S50000 .f32} (hdi : AllReal dinv) (rows cols : IVec S1650000 32)
    {ws : FVec Ideal S1650000 .f32} (hws : AllReal ws) : AllReal (normOf dinv rows cols ws) := by
  unfold normOf
  exact allReal_mulf (allReal_mulf (allReal_gather _ hdi _) hws) (allReal_gather _ hdi _)

/-- The edge normalization of the graph with self loops. -/
theorem norm_real (ei : IVec S2x1600000 32) {w : FVec Ideal S1600000 .f32} (hw : AllReal w) : AllReal (RefSpec.norm ei w) := by
  unfold RefSpec.norm
  exact normOf_real (dinvOf_real (degF_real _ (wsF_real hw))) _ _ (wsF_real hw)

/-- The first projection. -/
theorem hx128_real {x : FVec Ideal S50000x256 .f32} {W : FVec Ideal S256x128 .f32} (hx : AllReal x) (hW : AllReal W) :
    AllReal (hx128 x W) := by
  unfold hx128
  exact allReal_dotGeneral _ none hx hW

/-- The first layer's messages: the projected rows gathered at the edge sources, scaled by the normalization. -/
theorem msg128_real {nrm : FVec Ideal S1650000 .f32} (hn : AllReal nrm) (rows : IVec S1650000 32)
    {hx : FVec Ideal S50000x128 .f32} (hh : AllReal hx) : AllReal (msg128 nrm rows hx) := by
  unfold msg128
  exact allReal_mulf (allReal_broadcastInDim _ _ (allReal_broadcastInDim _ _ hn)) (allReal_gather _ hh _)

/-- The first layer: the messages added up at the edge targets, plus the bias. -/
theorem layer128_real {nrm : FVec Ideal S1650000 .f32} (hn : AllReal nrm) (rows cols : IVec S1650000 32)
    {hx : FVec Ideal S50000x128 .f32} (hh : AllReal hx) {b : FVec Ideal S128 .f32} (hb : AllReal b) :
    AllReal (layer128 nrm rows cols hx b) := by
  unfold layer128
  exact allReal_addf
    (allReal_scatterAdd _ (zeros_real _) _
      (allReal_mulf (allReal_broadcastInDim _ _ (allReal_broadcastInDim _ _ hn)) (allReal_gather _ hh _)))
    (allReal_broadcastInDim _ _ (allReal_broadcastInDim _ _ hb))

/-- The rectifier: the maximum with zero. -/
theorem relu128_real {z : FVec Ideal S50000x128 .f32} (hz : AllReal z) : AllReal (relu128 z) := by
  unfold relu128
  exact allReal_maximumf hz (zeros_real _)

/-- The second projection. -/
theorem hx16_real {h : FVec Ideal S50000x128 .f32} {W : FVec Ideal S128x16 .f32} (hh : AllReal h) (hW : AllReal W) :
    AllReal (hx16 h W) := by
  unfold hx16
  exact allReal_dotGeneral _ none hh hW

/-- The second layer: the messages added up at the edge targets, plus the bias. -/
theorem layer16_real {nrm : FVec Ideal S1650000 .f32} (hn : AllReal nrm) (rows cols : IVec S1650000 32)
    {hx : FVec Ideal S50000x16 .f32} (hh : AllReal hx) {b : FVec Ideal S16 .f32} (hb : AllReal b) :
    AllReal (layer16 nrm rows cols hx b) := by
  unfold layer16
  exact allReal_addf
    (allReal_scatterAdd _ (zeros_real _) _
      (allReal_mulf (allReal_broadcastInDim _ _ (allReal_broadcastInDim _ _ hn)) (allReal_gather _ hh _)))
    (allReal_broadcastInDim _ _ (allReal_broadcastInDim _ _ hb))

/-- THE NETWORK'S OUTPUT ROWS ARE REAL when its float inputs are. -/
theorem logits_real (x : FVec Ideal S50000x256 .f32) (ei : IVec S2x1600000 32) (w : FVec Ideal S1600000 .f32)
    (W1 : FVec Ideal S256x128 .f32) (b1 : FVec Ideal S128 .f32) (W2 : FVec Ideal S128x16 .f32) (b2 : FVec Ideal S16 .f32)
    (hx : AllReal x) (hw : AllReal w) (hW1 : AllReal W1) (hb1 : AllReal b1) (hW2 : AllReal W2) (hb2 : AllReal b2) :
    AllReal (RefSpec.logits x ei w W1 b1 W2 b2) := by
  unfold RefSpec.logits
  exact layer16_real (norm_real ei hw) _ _
    (hx16_real (relu128_real (layer128_real (norm_real ei hw) _ _ (hx128_real hx hW1) hb1)) hW2) hb2

/-- Output rows gathered at edge ends. -/
theorem gath16_real {L : FVec Ideal S50000x16 .f32} (hL : AllReal L) (v : IVec S1600000 32) : AllReal (gath16 L v) := by
  unfold gath16
  exact allReal_gather _ hL _

/-- The guarded reciprocal of the column sums of the weights. -/
theorem rinvOf_real (col : IVec S1600000 32) {w : FVec Ideal S1600000 .f32} (hw : AllReal w) : AllReal (rinvOf col w) := by
  unfold rinvOf
  exact allReal_guarded_divf (allReal_scatterAdd _ (zeros_real _) _ hw) (fun _ => Ideal.ofBits_zero_f32)
    (allReal_broadcastInDim _ _ (allReal_constant_one _)) (zeros_real _)

/-- The column-normalized weights. -/
theorem nwOf_real {rinv : FVec Ideal S50000 .f32} (hr : AllReal rinv) (col : IVec S1600000 32)
    {w : FVec Ideal S1600000 .f32} (hw : AllReal w) : AllReal (nwOf rinv col w) := by
  unfold nwOf
  exact allReal_mulf hw (allReal_gather _ hr _)

end Cert.RealLogits

end
-- ==== Proof.Assembly.lean ====
/-
  The certificate's claims, from three value facts taken as hypotheses.

  The three facts: (1) the kernel program's first result array ends holding the network's output rows, as the
  reference's stage functions compute them from the seven arguments; (2) if those rows are all real, its second
  result ends holding the neighbour-consistency term of those rows; (3) the reference's 222 host operations, from
  any buffer contents, leave those same two functions of the argument buffers in its two result buffers.

  From these: both programs run and keep their arguments (the kernel program's run with its two results kept; the
  reference's run, no operation of which writes an argument), the two programs' results are the same functions of
  arguments that agree, and the rows are real because the precondition makes every float argument real.
-/
import proofs.«155868_j58506044506617_2_alg».proof.Defs
import proofs.«155868_j58506044506617_2_alg».proof.Proof.Gen.Kernel.Frame
import proofs.«155868_j58506044506617_2_alg».proof.Proof.Gen.KernelIdeal.Frame
import proofs.«155868_j58506044506617_2_alg».proof.Proof.Gen.ReferenceIdeal
import proofs.«155868_j58506044506617_2_alg».proof.Proof.Gen.Pre_finite_inputs
import proofs.«155868_j58506044506617_2_alg».proof.Proof.FrameResults
import proofs.«155868_j58506044506617_2_alg».proof.Proof.RefRun
import proofs.«155868_j58506044506617_2_alg».proof.Proof.RefArgs
import proofs.«155868_j58506044506617_2_alg».proof.Proof.RefSpec
import proofs.«155868_j58506044506617_2_alg».proof.Proof.FiniteInputs
import proofs.«155868_j58506044506617_2_alg».proof.Proof.RealLogits

set_option maxRecDepth 16384

noncomputable section

namespace Cert.Assembly

open Idealize.ShloMosaic Idealize.ShloMosaic.TcCoe Idealize.SL.Sem Cert

/-- The word-level kernel program runs and keeps its arguments. -/
theorem frame_p : Cert.frame_Kernel := fun m ρ _ => Cert.Kernel.Gen.frame m ρ

/-- The idealized kernel program runs and keeps its arguments. -/
theorem frame_pi : Cert.frame_KernelIdeal := fun m ρ _ => Cert.KernelIdeal.Gen.frame m ρ

/-- The reference runs and keeps its arguments: every buffer ends at the fold of its operations from the launch
    contents, and no operation writes an argument. -/
theorem frame_ri : Cert.frame_ReferenceIdeal := fun m ρ _ =>
  (θ_run Cert.ReferenceIdeal.defs _ _).mono (fun _ h c =>
      ⟨(h c Cert.ReferenceIdeal.main_arg0).trans (Cert.RefArgs.kept_main_arg0 (F := Ideal) (StableHlo.launchContents m c)),
       (h c Cert.ReferenceIdeal.main_arg1).trans (Cert.RefArgs.kept_main_arg1 (F := Ideal) (StableHlo.launchContents m c)),
       (h c Cert.ReferenceIdeal.main_arg2).trans (Cert.RefArgs.kept_main_arg2 (F := Ideal) (StableHlo.launchContents m c)),
       (h c Cert.ReferenceIdeal.main_arg3).trans (Cert.RefArgs.kept_main_arg3 (F := Ideal) (StableHlo.launchContents m c)),
       (h c Cert.ReferenceIdeal.main_arg4).trans (Cert.RefArgs.kept_main_arg4 (F := Ideal) (StableHlo.launchContents m c)),
       (h c Cert.ReferenceIdeal.main_arg5).trans (Cert.RefArgs.kept_main_arg5 (F := Ideal) (StableHlo.launchContents m c)),
       (h c Cert.ReferenceIdeal.main_arg6).trans (Cert.RefArgs.kept_main_arg6 (F := Ideal) (StableHlo.launchContents m c))⟩)
    (Cert.ReferenceIdeal.RawRun.run_raw (F := Ideal) m ρ)

/-- The two idealized programs, from memories that agree on the arguments, end with equal results and unchanged
    arguments: both first results are the network's output rows and both second results the consistency term of
    those rows, of the same seven arguments. -/
theorem algebraic_of
    (hK68 : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
        Cert.KernelIdeal.Gen.W27 m ρ c (Proc.devRef .tc Cert.KernelIdeal.main_v68)
          = RefSpec.logits (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)))
    (hK105 : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
        Cert.RealOps.AllReal (RefSpec.logits (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) →
        Cert.KernelIdeal.Gen.W27 m ρ c (Proc.devRef .tc Cert.KernelIdeal.main_v105)
          = RefSpec.ncr (RefSpec.logits (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
    (hR : ∀ (V : Valuation Cert.ReferenceIdeal.τ Cert.ReferenceIdeal.sig (Elt Ideal)),
        StableHlo.after (Cert.ReferenceIdeal.RawRun.ops (F := Ideal)) V (Proc.devRef .tc Cert.ReferenceIdeal.main_v96)
          = RefSpec.logits (V (Proc.devRef .tc Cert.ReferenceIdeal.main_arg0)) (V (Proc.devRef .tc Cert.ReferenceIdeal.main_arg1)) (V (Proc.devRef .tc Cert.ReferenceIdeal.main_arg2)) (V (Proc.devRef .tc Cert.ReferenceIdeal.main_arg3)) (V (Proc.devRef .tc Cert.ReferenceIdeal.main_arg4)) (V (Proc.devRef .tc Cert.ReferenceIdeal.main_arg5)) (V (Proc.devRef .tc Cert.ReferenceIdeal.main_arg6))
        ∧ StableHlo.after (Cert.ReferenceIdeal.RawRun.ops (F := Ideal)) V (Proc.devRef .tc Cert.ReferenceIdeal.main_v145)
          = RefSpec.ncr (RefSpec.logits (V (Proc.devRef .tc Cert.ReferenceIdeal.main_arg0)) (V (Proc.devRef .tc Cert.ReferenceIdeal.main_arg1)) (V (Proc.devRef .tc Cert.ReferenceIdeal.main_arg2)) (V (Proc.devRef .tc Cert.ReferenceIdeal.main_arg3)) (V (Proc.devRef .tc Cert.ReferenceIdeal.main_arg4)) (V (Proc.devRef .tc Cert.ReferenceIdeal.main_arg5)) (V (Proc.devRef .tc Cert.ReferenceIdeal.main_arg6))) (V (Proc.devRef .tc Cert.ReferenceIdeal.main_arg1)) (V (Proc.devRef .tc Cert.ReferenceIdeal.main_arg2))) :
    Cert.algebraic_KernelIdeal_ReferenceIdeal := by
  intro m ρ m' ρ' hpre hagree
  refine ⟨fun c => RefSpec.logits (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => RefSpec.ncr (RefSpec.logits (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · refine (θ_run Cert.KernelIdeal.defs _ _).mono (fun _ h c => ?_) (Cert.KernelIdeal.Res.frame_results (F := Ideal) m ρ)
    obtain ⟨h68, h105, hargs⟩ := h c
    obtain ⟨r0, r2, r3, r4, r5, r6⟩ := Cert.KernelIdeal.Fin.real_inputs m hpre c
    exact ⟨h68.trans (hK68 m ρ c),
      h105.trans (hK105 m ρ c (Cert.RealLogits.logits_real _ _ _ _ _ _ _ r0 r2 r3 r4 r5 r6)), hargs⟩
  · refine (θ_run Cert.ReferenceIdeal.defs _ _).mono (fun _ h c => ?_) (Cert.ReferenceIdeal.RawRun.run_raw (F := Ideal) m' ρ')
    obtain ⟨e0, e1, e2, e3, e4, e5, e6⟩ := hagree c
    obtain ⟨v96, v145⟩ := hR (StableHlo.launchContents m' c)
    have w96 := congr (congr (congr (congr (congr (congr (congrArg RefSpec.logits e0) e1) e2) e3) e4) e5) e6
    have w145 := congr (congr (congrArg RefSpec.ncr w96) e1) e2
    exact ⟨(h c Cert.ReferenceIdeal.main_v96).trans (v96.trans w96), (h c Cert.ReferenceIdeal.main_v145).trans (v145.trans w145),
      (h c Cert.ReferenceIdeal.main_arg0).trans (Cert.RefArgs.kept_main_arg0 (F := Ideal) (StableHlo.launchContents m' c)),
      (h c Cert.ReferenceIdeal.main_arg1).trans (Cert.RefArgs.kept_main_arg1 (F := Ideal) (StableHlo.launchContents m' c)),
      (h c Cert.ReferenceIdeal.main_arg2).trans (Cert.RefArgs.kept_main_arg2 (F := Ideal) (StableHlo.launchContents m' c)),
      (h c Cert.ReferenceIdeal.main_arg3).trans (Cert.RefArgs.kept_main_arg3 (F := Ideal) (StableHlo.launchContents m' c)),
      (h c Cert.ReferenceIdeal.main_arg4).trans (Cert.RefArgs.kept_main_arg4 (F := Ideal) (StableHlo.launchContents m' c)),
      (h c Cert.ReferenceIdeal.main_arg5).trans (Cert.RefArgs.kept_main_arg5 (F := Ideal) (StableHlo.launchContents m' c)),
      (h c Cert.ReferenceIdeal.main_arg6).trans (Cert.RefArgs.kept_main_arg6 (F := Ideal) (StableHlo.launchContents m' c))⟩

/-- Everything the certificate claims, from the three value facts. -/
theorem claim_of
    (hK68 : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
        Cert.KernelIdeal.Gen.W27 m ρ c (Proc.devRef .tc Cert.KernelIdeal.main_v68)
          = RefSpec.logits (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)))
    (hK105 : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
        Cert.RealOps.AllReal (RefSpec.logits (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) →
        Cert.KernelIdeal.Gen.W27 m ρ c (Proc.devRef .tc Cert.KernelIdeal.main_v105)
          = RefSpec.ncr (RefSpec.logits (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
    (hR : ∀ (V : Valuation Cert.ReferenceIdeal.τ Cert.ReferenceIdeal.sig (Elt Ideal)),
        StableHlo.after (Cert.ReferenceIdeal.RawRun.ops (F := Ideal)) V (Proc.devRef .tc Cert.ReferenceIdeal.main_v96)
          = RefSpec.logits (V (Proc.devRef .tc Cert.ReferenceIdeal.main_arg0)) (V (Proc.devRef .tc Cert.ReferenceIdeal.main_arg1)) (V (Proc.devRef .tc Cert.ReferenceIdeal.main_arg2)) (V (Proc.devRef .tc Cert.ReferenceIdeal.main_arg3)) (V (Proc.devRef .tc Cert.ReferenceIdeal.main_arg4)) (V (Proc.devRef .tc Cert.ReferenceIdeal.main_arg5)) (V (Proc.devRef .tc Cert.ReferenceIdeal.main_arg6))
        ∧ StableHlo.after (Cert.ReferenceIdeal.RawRun.ops (F := Ideal)) V (Proc.devRef .tc Cert.ReferenceIdeal.main_v145)
          = RefSpec.ncr (RefSpec.logits (V (Proc.devRef .tc Cert.ReferenceIdeal.main_arg0)) (V (Proc.devRef .tc Cert.ReferenceIdeal.main_arg1)) (V (Proc.devRef .tc Cert.ReferenceIdeal.main_arg2)) (V (Proc.devRef .tc Cert.ReferenceIdeal.main_arg3)) (V (Proc.devRef .tc Cert.ReferenceIdeal.main_arg4)) (V (Proc.devRef .tc Cert.ReferenceIdeal.main_arg5)) (V (Proc.devRef .tc Cert.ReferenceIdeal.main_arg6))) (V (Proc.devRef .tc Cert.ReferenceIdeal.main_arg1)) (V (Proc.devRef .tc Cert.ReferenceIdeal.main_arg2))) :
    Cert.Claim :=
  ⟨Cert.Kernel.Gen.facts, Cert.KernelIdeal.Gen.facts, Cert.ReferenceIdeal.Gen.facts, Cert.Pre_finite_inputs.Gen.facts,
    frame_p, frame_pi, frame_ri, trivial, algebraic_of hK68 hK105 hR⟩

end Cert.Assembly

end
-- ==== Proof.KerSpec.lean ====
/-
  The kernel program's own host stages as whole-array functions: the normalization and the target list padded to a
  whole number of row blocks (the normalization also turned into a column), the gathered rows padded with zero rows,
  a layer's accumulation and bias over the padded messages, the rectifier, the consistency term's padded rows and
  weights, and the final division. Each definition is the composition of the host operations the program runs for that
  stage, in the program's own order and spelling.
-/
import proofs.«155868_j58506044506617_2_alg».proof.Proof.Gen.KernelIdeal
import Idealize.ShloMosaic.PureOps.Ideal

set_option maxRecDepth 16384

noncomputable section

namespace Cert.KerSpec

open Cert.KernelIdeal Cert.KernelIdeal.Gen Idealize.ShloMosaic

noncomputable def padNorm (nrm : FVec Ideal S1650000 .f32) : FVec Ideal S1654784x1 .f32 :=
  shapeCast _ (pad S1654784 ![0] ![4784] ![0] nrm (sitofp .f32 (constantI S_ 32 0#32)) pads_S1650000_S1654784_047840 h_S_) shapeCasts_S1654784_S1654784x1

noncomputable def padCols (cols : IVec S1650000 32) : IVec S1654784 32 :=
  pad S1654784 ![0] ![4784] ![0] cols (constantI S_ 32 0#32) pads_S1650000_S1654784_047840 h_S_

noncomputable def gathPad128 (hx : FVec Ideal S50000x128 .f32) (rows : IVec S1650000 32) : FVec Ideal S1654784x128 .f32 :=
  pad S1654784x128 ![0, 0] ![4784, 0] ![0, 0] (Host.gather gather_S50000x128_S1650000x1_S1650000x128_1_0_n_n_0_1_1128 hx (broadcastInDim S1650000x1 ![0] bcast_S1650000_S1650000x1_0 (select (cmpi .slt rows (broadcastInDim S1650000 ![] bcast_S_S1650000 (constantI S_ 32 0#32))) (addi rows (broadcastInDim S1650000 ![] bcast_S_S1650000 (constantI S_ 32 50000#32))) rows))) (sitofp .f32 (constantI S_ 32 0#32)) pads_S1650000x128_S1654784x128_047840_000 h_S_

noncomputable def layerK128 (msg : FVec Ideal S1654784x128 .f32) (colsP : IVec S1654784 32) (b : FVec Ideal S128 .f32) : FVec Ideal S50000x128 .f32 :=
  addf (Host.scatterAdd scatter_S50000x128_S1654784x1_S1654784x128_1_0_0_1 (broadcastInDim S50000x128 ![] bcast_S_S50000x128 (constant (F := Ideal) S_ .f32 0x00000000#32)) (broadcastInDim S1654784x1 ![0] bcast_S1654784_S1654784x1_0 colsP) msg) (broadcastInDim S50000x128 ![0, 1] bcast_S1x128_S50000x128_0_1 (broadcastInDim S1x128 ![1] bcast_S128_S1x128_1 b))

noncomputable def reluK128 (z : FVec Ideal S50000x128 .f32) : FVec Ideal S50000x128 .f32 :=
  maximumf z (broadcastInDim S50000x128 ![] bcast_S_S50000x128 (constant (F := Ideal) S_ .f32 0x00000000#32))

noncomputable def gathPad16 (hx : FVec Ideal S50000x16 .f32) (rows : IVec S1650000 32) : FVec Ideal S1654784x16 .f32 :=
  pad S1654784x16 ![0, 0] ![4784, 0] ![0, 0] (Host.gather gather_S50000x16_S1650000x1_S1650000x16_1_0_n_n_0_1_116 hx (broadcastInDim S1650000x1 ![0] bcast_S1650000_S1650000x1_0 (select (cmpi .slt rows (broadcastInDim S1650000 ![] bcast_S_S1650000 (constantI S_ 32 0#32))) (addi rows (broadcastInDim S1650000 ![] bcast_S_S1650000 (constantI S_ 32 50000#32))) rows))) (sitofp .f32 (constantI S_ 32 0#32)) pads_S1650000x16_S1654784x16_047840_000 h_S_

noncomputable def layerK16 (msg : FVec Ideal S1654784x16 .f32) (colsP : IVec S1654784 32) (b : FVec Ideal S16 .f32) : FVec Ideal S50000x16 .f32 :=
  addf (Host.scatterAdd scatter_S50000x16_S1654784x1_S1654784x16_1_0_0_1 (broadcastInDim S50000x16 ![] bcast_S_S50000x16 (constant (F := Ideal) S_ .f32 0x00000000#32)) (broadcastInDim S1654784x1 ![0] bcast_S1654784_S1654784x1_0 colsP) msg) (broadcastInDim S50000x16 ![0, 1] bcast_S1x16_S50000x16_0_1 (broadcastInDim S1x16 ![1] bcast_S16_S1x16_1 b))

noncomputable def yPad (L : FVec Ideal S50000x16 .f32) (v : IVec S1600000 32) : FVec Ideal S1601536x16 .f32 :=
  pad S1601536x16 ![0, 0] ![1536, 0] ![0, 0] (Host.gather gather_S50000x16_S1600000x1_S1600000x16_1_0_n_n_0_1_116 L (broadcastInDim S1600000x1 ![0] bcast_S1600000_S1600000x1_0 (select (cmpi .slt v (broadcastInDim S1600000 ![] bcast_S_S1600000 (constantI S_ 32 0#32))) (addi v (broadcastInDim S1600000 ![] bcast_S_S1600000 (constantI S_ 32 50000#32))) v))) (sitofp .f32 (constantI S_ 32 0#32)) pads_S1600000x16_S1601536x16_015360_000 h_S_

noncomputable def nwPad (nw : FVec Ideal S1600000 .f32) : FVec Ideal S1601536x1 .f32 :=
  shapeCast _ (pad S1601536 ![0] ![1536] ![0] nw (sitofp .f32 (constantI S_ 32 0#32)) pads_S1600000_S1601536_015360 h_S_) shapeCasts_S1601536_S1601536x1

noncomputable def ncrOut (acc : FVec Ideal S1x1 .f32) : FVec Ideal S_ .f32 :=
  Host.divf (shapeCast _ acc shapeCasts_S1x1_S_) (constant (F := Ideal) S_ .f32 0x47435000#32)

end Cert.KerSpec

end
-- ==== Proof.LibPlainDot.lean ====
/-
  A plain matrix product read at an index, on the extended reals.

  For the dimension numbers of an M×K by K×N product (contract the left operand's axis 1 with the
  right operand's axis 0, no batch axis), the entry (p, q) of the product is ∑ k, a[p, k] · b[k, q]:
  for the host's dot_general, for a matmul into any accumulator (plus the accumulator's entry), and
  for a matmul into the zero splat. The contraction's one-axis index is re-indexed to its coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's row coordinate is the output's row. -/
theorem plain_lhs_row (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the output's column. -/
theorem plain_rhs_col (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => exact plain_lhs_row M K N (ix2 p q) _
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => exact plain_rhs_col M K N (ix2 p q) _

/-- The contraction sum of a plain product at (p, q) is the sum over the shared coordinate. -/
theorem plain_sum (a : (⟨2, ![M, K]⟩ : Shape).Idx → EReal) (b : (⟨2, ![K, N]⟩ : Shape).Idx → EReal) (p : Fin M) (q : Fin N) :
    (∑ k : (DotDims.plain M K N).contr.Idx,
        a ((DotDims.plain M K N).lhsIdx (ix2 p q) k) * b ((DotDims.plain M K N).rhsIdx (ix2 p q) k))
      = ∑ k : Fin K, a (ix2 p k) * b (ix2 k q) := by
  rw [← Equiv.sum_comp (contrEquiv1 (DotDims.plain M K N) K rfl rfl).symm]
  refine Finset.sum_congr rfl fun k _ => ?_
  rw [plain_lhsIdx, plain_rhsIdx]

/-- A matmul into the zero splat, read at (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) :=
  (Ideal.matmul_constant_zero_apply (DotDims.plain M K N) prec a b (ix2 p q)).trans (plain_sum M K N a b p q)

/-- The host's dot_general, read at (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral (DotDims.plain M K N) prec sched a b (ix2 p q) = ∑ k : Fin K, a (ix2 p k) * b (ix2 k q) :=
  (Ideal.dotGeneral_apply (DotDims.plain M K N) prec sched a b (ix2 p q)).trans (plain_sum M K N a b p q)

end Idealize.ShloMosaic.PlainDot

end
-- ==== Proof.LibBlockProd.lean ====
/-
  Row blocks of a matrix product, on the extended reals.

  matProd M K N a b is the product of an M×K and a K×N array, entry (p, q) being ∑ k, a[p, k] · b[k, q].
  The host's dot_general with the dimension numbers of a plain product is this array; and when a T×K
  array x holds rows of a (row p of x is row r p of a), the matmul of x with b into the zero splat holds,
  at (p, q), entry (r p, q) of the product: a product may be computed a block of rows at a time.
-/
import Idealize.ShloMosaic.Lib.ValueIdx
import Idealize.ShloMosaic.PureOps.Ideal.Laws
import proofs.«155868_j58506044506617_2_alg».proof.Proof.LibPlainDot

noncomputable section

open scoped BigOperators

namespace Idealize.ShloMosaic.BlockProd

open Idealize.ShloMosaic Idealize.ShloMosaic.ValueIdx

/-- The product of an M×K and a K×N array of extended reals. -/
def matProd (M K N : Nat) (a : (⟨2, ![M, K]⟩ : Shape).Idx → EReal) (b : (⟨2, ![K, N]⟩ : Shape).Idx → EReal) :
    (⟨2, ![M, N]⟩ : Shape).Idx → EReal :=
  fun i => ∑ k : Fin K, a (ix2 (i 0) k) * b (ix2 k (i 1))

theorem matProd_apply (M K N : Nat) (a : (⟨2, ![M, K]⟩ : Shape).Idx → EReal) (b : (⟨2, ![K, N]⟩ : Shape).Idx → EReal)
    (p : Fin M) (q : Fin N) : matProd M K N a b (ix2 p q) = ∑ k : Fin K, a (ix2 p k) * b (ix2 k q) := rfl

/-- The host's dot_general of a plain product is the product. -/
theorem dotGeneral_eq (M K N : Nat) {φ₁ φ₂ : FTy} (prec : Option ContractPrecision) (sched : HostSchedule)
    (a : FVec Ideal ⟨2, ![M, K]⟩ φ₁) (b : FVec Ideal ⟨2, ![K, N]⟩ φ₂) :
    FloatOps.dotGeneral (DotDims.plain M K N) prec sched a b = matProd M K N a b := by
  funext i
  obtain ⟨p, q, rfl⟩ : ∃ (p : Fin M) (q : Fin N), i = ix2 p q := ⟨i 0, i 1, eq_ix2 i⟩
  exact PlainDot.dotGeneral_apply M K N prec sched a b p q

/-- A block of rows: if row p of x is row r p of a and y is b, the matmul of x and y into the zero splat
    is, at (p, q), entry (r p, q) of the product of a and b. -/
theorem matmul_rows (M K N T : Nat) {φ₁ φ₂ : FTy} (prec : Option ContractPrecision)
    (x : FVec Ideal ⟨2, ![T, K]⟩ φ₁) (y : FVec Ideal ⟨2, ![K, N]⟩ φ₂)
    (a : (⟨2, ![M, K]⟩ : Shape).Idx → EReal) (b : (⟨2, ![K, N]⟩ : Shape).Idx → EReal) (r : Fin T → Fin M)
    (hx : ∀ (p : Fin T) (k : Fin K), x (ix2 p k) = a (ix2 (r p) k))
    (hy : ∀ (k : Fin K) (q : Fin N), y (ix2 k q) = b (ix2 k q)) (p : Fin T) (q : Fin N) :
    FloatOps.matmul (DotDims.plain T K N) prec x y (constant ⟨2, ![T, N]⟩ .f32 0x00000000#32) (ix2 p q)
      = matProd M K N a b (ix2 (r p) q) := by
  rw [PlainDot.matmul_zero_apply, matProd_apply]
  exact Finset.sum_congr rfl fun k _ => by rw [hx, hy]

end Idealize.ShloMosaic.BlockProd

end
-- ==== Proof.RegionValues.lean ====
/-
  The output array of each of the first four regions of the idealized kernel program, as one function of the
  arrays the region reads, on the extended reals.

  Each of these regions has one output window whose whole block is stored once at every grid point and written
  back at every point, and the blocks tile the output array: point t owns rows 8192·t … 8192·t + 8191 (regions 1
  and 3, 202 points) or rows 5000·t … 5000·t + 4999 (regions 0 and 2, 10 points). So the array after the region
  is determined row block by row block: a row r is written by point r / 8192 (resp. r / 5000), and what is
  written there is the body's stored value of the input blocks at that point.

  Regions 1 and 3 multiply each row of an array by the entry of the same row of a one-column array. Regions 0
  and 2 multiply a block of rows by a whole matrix (the truncations to a narrower format are the identity on the
  extended reals, and the accumulator is the zero splat), which is that block of rows of the matrix product.

  The statements hold for any buffer contents V at the region's entry.
-/
import proofs.«155868_j58506044506617_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«155868_j58506044506617_2_alg».proof.Proof.LibBlockProd

set_option maxRecDepth 16384

noncomputable section

namespace Cert.KernelIdeal.RegVal

open Cert.KernelIdeal Cert.KernelIdeal.Gen Idealize.ShloMosaic Idealize.ShloMosaic.TcCoe Idealize.SL.Sem
open Idealize.ShloMosaic.Pipeline (Dat)
open Idealize.ShloMosaic.ValueIdx

theorem hz : (![0, 0] : Fin 2 → Nat) = fun _ => 0 := funext fun a => by fin_cases a <;> rfl

/-- Each row of an R×C array multiplied by the one entry of the same row of an R×1 column. -/
def scaleRows (R C : Nat) (h : (⟨2, ![R, C]⟩ : Shape).Idx → EReal) (n : (⟨2, ![R, 1]⟩ : Shape).Idx → EReal) :
    (⟨2, ![R, C]⟩ : Shape).Idx → EReal := fun i => h i * n (ix2 (i 0) (0 : Fin 1))

theorem scaleRows_apply (R C : Nat) (h : (⟨2, ![R, C]⟩ : Shape).Idx → EReal) (n : (⟨2, ![R, 1]⟩ : Shape).Idx → EReal)
    (p : Fin R) (q : Fin C) : scaleRows R C h n (ix2 p q) = h (ix2 p q) * n (ix2 p (0 : Fin 1)) := rfl

-- the buffer contents when a region is entered: every statement below holds for any such contents
variable (V : (c : Dev nD) → (b : Ref sig .tc) → Buf (Elt Ideal) ((c : Thread nD τ).loc b))

/-! ## Region 1: the rows of a 1654784×128 array scaled by a column, 8192 rows at a point -/

/-- The body's stored value at (p, q): the first block's entry times the column block's entry of row p (the two
    shape casts are identities, the broadcast repeats the column along the lanes). -/
theorem scale_pay128 (x0 : Vec Ideal S8192x128 .f32) (x1 : Vec Ideal S8192x1 .f32) (p : Fin 8192) (q : Fin 128) :
    k1_pay1 (F := Ideal) x0 x1 (ix2 p q) = x0 (ix2 p q) * x1 (ix2 p (0 : Fin 1)) := by
  unfold k1_pay1
  rw [shapeCast_self, shapeCast_self]
  refine congrArg (x0 (ix2 p q) * ·) ?_
  refine broadcastTo_apply x1 _ (ix2 p q) (ix2 p (0 : Fin 1)) (fun a => ?_)
  match a with
  | ⟨0, _⟩ => rfl
  | ⟨1, _⟩ => rfl

/-- If the body's two blocks hold the rows e2 of the array and of the column, its stored value is the same rows
    of the scaled array. -/
theorem scale_block128 (A : S1654784x128.Idx → EReal) (Nn : S1654784x1.Idx → EReal)
    (x0 : Vec Ideal S8192x128 .f32) (x1 : Vec Ideal S8192x1 .f32)
    (e0 e2 : S8192x128.Idx → S1654784x128.Idx) (e1 : S8192x1.Idx → S1654784x1.Idx)
    (hx0 : x0 = fun y => A (e0 y)) (hx1 : x1 = fun y => Nn (e1 y))
    (h0 : ∀ y, e0 y = e2 y) (h1 : ∀ (p : Fin 8192) (q : Fin 128), e1 (ix2 p (0 : Fin 1)) = ix2 (e2 (ix2 p q) 0) (0 : Fin 1)) :
    k1_pay1 (F := Ideal) x0 x1 = fun y => scaleRows 1654784 128 A Nn (e2 y) := by
  funext y
  obtain ⟨p, q, rfl⟩ : ∃ (p : Fin 8192) (q : Fin 128), y = ix2 p q := ⟨y 0, y 1, eq_ix2 y⟩
  rw [scale_pay128, hx0, hx1]
  show A (e0 (ix2 p q)) * Nn (e1 (ix2 p 0)) = A (e2 (ix2 p q)) * Nn (ix2 (e2 (ix2 p q) 0) 0)
  rw [h0, h1 p q]
  rfl

/-- The three windows' block indices at point t: block row t, block column 0 (decided over the 202 points). -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- An index of the output array is in point t's block iff each coordinate is in the block's range. -/
theorem mem_blk1 (t : Fin cfg1.N) (i : S1654784x128.Idx) :
    i ∈ ((cfg1.win 2).blk t).view.set ↔ ∀ a : Fin 2, win1_2.index t a * S8192x128.size a ≤ (i a).val ∧ (i a).val < win1_2.index t a * S8192x128.size a + S8192x128.size a := by
  show i ∈ ((View.whole main_v45).slice (win1_2.rect t)).set ↔ _
  rw [View.set_slice_whole, Rect.mem_set_unit]
  exact Iff.rfl

/-- Row r of the output array is in the block of point r / 8192. -/
theorem cover1 (i : S1654784x128.Idx) : ∃ t : Fin cfg1.N, (cfg1.win 2).flush t = true ∧ i ∈ ((cfg1.win 2).blk t).view.set := by
  have hi0 : (i 0).val < 1654784 := (i 0).isLt
  have hi1 : (i 1).val < 128 := (i 1).isLt
  have hN : grid1.N = 202 := N_1
  have ht : (i 0).val / 8192 < grid1.N := by rw [hN]; omega
  obtain ⟨-, -, -, -, c0, c1⟩ := idx1 ⟨(i 0).val / 8192, ht⟩
  refine ⟨⟨(i 0).val / 8192, ht⟩, flush1_2 _, ?_⟩
  rw [mem_blk1]
  intro a
  match a with
  | ⟨0, _⟩ =>
    show win1_2.index ⟨(i 0).val / 8192, ht⟩ (0 : Fin 2) * 8192 ≤ (i 0).val ∧ (i 0).val < win1_2.index ⟨(i 0).val / 8192, ht⟩ (0 : Fin 2) * 8192 + 8192
    rw [c0]; show (i 0).val / 8192 * 8192 ≤ (i 0).val ∧ (i 0).val < (i 0).val / 8192 * 8192 + 8192; omega
  | ⟨1, _⟩ =>
    show win1_2.index ⟨(i 0).val / 8192, ht⟩ (1 : Fin 2) * 128 ≤ (i 1).val ∧ (i 1).val < win1_2.index ⟨(i 0).val / 8192, ht⟩ (1 : Fin 2) * 128 + 128
    rw [c1]; omega

/-- What point t writes back is block t of the scaled array. -/
theorem flushed1 (c : Dev nD) (t : Fin cfg1.N) :
    (dat1 (F := Ideal) V c).flushed 2 t = ((cfg1.win 2).blk t).view.read (Elt Ideal)
      (scaleRows 1654784 128 (V c main_v44) (V c main_v34)) := by
  show (cfg1.win 2).cut (grid1.coords t) ((dat1 V c).after 2 t) = _
  rw [after1_2]
  unfold out1_2
  rw [View.canon_unit_zero hz]
  simp only [View.ld_unit_zero (S := S8192x128) hz, View.ld_unit_zero (S := S8192x1) hz]
  obtain ⟨a0, a1, b0, b1, c0, c1⟩ := idx1 t
  refine scale_block128 (V c main_v44) (V c main_v34) (iblk1 V c 0 t) (iblk1 V c 1 t)
    (fun y => ((cfg1.win 0).blk t).view.emb y) (fun y => ((cfg1.win 2).blk t).view.emb y) (fun y => ((cfg1.win 1).blk t).view.emb y)
    rfl rfl (fun y => ?_) (fun p q => ?_)
  · funext a; apply Fin.ext
    match a with
    | ⟨0, _⟩ => show win1_0.index t (0 : Fin 2) * 8192 + 1 * (y 0).val = win1_2.index t (0 : Fin 2) * 8192 + 1 * (y 0).val; omega
    | ⟨1, _⟩ => show win1_0.index t (1 : Fin 2) * 128 + 1 * (y 1).val = win1_2.index t (1 : Fin 2) * 128 + 1 * (y 1).val; omega
  · funext a; apply Fin.ext
    match a with
    | ⟨0, _⟩ => show win1_1.index t (0 : Fin 2) * 8192 + 1 * p.val = win1_2.index t (0 : Fin 2) * 8192 + 1 * p.val; omega
    | ⟨1, _⟩ => show win1_1.index t (1 : Fin 2) * 1 + 1 * 0 = 0; omega

/-- The output array after region 1: every row of the first array scaled by its entry of the column. -/
theorem arr1 (c : Dev nD) : (dat1 (F := Ideal) V c).arrAt 2 cfg1.N = scaleRows 1654784 128 (V c main_v44) (V c main_v34) :=
  (dat1 (F := Ideal) V c).arrAt_eq_of_cover 2 (scaleRows 1654784 128 (V c main_v44) (V c main_v34)) (fun t _ => flushed1 V c t) cover1

/-! ## Region 3: the rows of a 1654784×16 array scaled by a column, 8192 rows at a point -/

/-- The body's stored value at (p, q): the first block's entry times the column block's entry of row p (the two
    shape casts are identities, the broadcast repeats the column along the lanes). -/
theorem scale_pay16 (x0 : Vec Ideal S8192x16 .f32) (x1 : Vec Ideal S8192x1 .f32) (p : Fin 8192) (q : Fin 16) :
    k3_pay1 (F := Ideal) x0 x1 (ix2 p q) = x0 (ix2 p q) * x1 (ix2 p (0 : Fin 1)) := by
  unfold k3_pay1
  rw [shapeCast_self, shapeCast_self]
  refine congrArg (x0 (ix2 p q) * ·) ?_
  refine broadcastTo_apply x1 _ (ix2 p q) (ix2 p (0 : Fin 1)) (fun a => ?_)
  match a with
  | ⟨0, _⟩ => rfl
  | ⟨1, _⟩ => rfl

/-- If the body's two blocks hold the rows e2 of the array and of the column, its stored value is the same rows
    of the scaled array. -/
theorem scale_block16 (A : S1654784x16.Idx → EReal) (Nn : S1654784x1.Idx → EReal)
    (x0 : Vec Ideal S8192x16 .f32) (x1 : Vec Ideal S8192x1 .f32)
    (e0 e2 : S8192x16.Idx → S1654784x16.Idx) (e1 : S8192x1.Idx → S1654784x1.Idx)
    (hx0 : x0 = fun y => A (e0 y)) (hx1 : x1 = fun y => Nn (e1 y))
    (h0 : ∀ y, e0 y = e2 y) (h1 : ∀ (p : Fin 8192) (q : Fin 16), e1 (ix2 p (0 : Fin 1)) = ix2 (e2 (ix2 p q) 0) (0 : Fin 1)) :
    k3_pay1 (F := Ideal) x0 x1 = fun y => scaleRows 1654784 16 A Nn (e2 y) := by
  funext y
  obtain ⟨p, q, rfl⟩ : ∃ (p : Fin 8192) (q : Fin 16), y = ix2 p q := ⟨y 0, y 1, eq_ix2 y⟩
  rw [scale_pay16, hx0, hx1]
  show A (e0 (ix2 p q)) * Nn (e1 (ix2 p 0)) = A (e2 (ix2 p q)) * Nn (ix2 (e2 (ix2 p q) 0) 0)
  rw [h0, h1 p q]
  rfl

/-- The three windows' block indices at point t: block row t, block column 0 (decided over the 202 points). -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- An index of the output array is in point t's block iff each coordinate is in the block's range. -/
theorem mem_blk3 (t : Fin cfg3.N) (i : S1654784x16.Idx) :
    i ∈ ((cfg3.win 2).blk t).view.set ↔ ∀ a : Fin 2, win3_2.index t a * S8192x16.size a ≤ (i a).val ∧ (i a).val < win3_2.index t a * S8192x16.size a + S8192x16.size a := by
  show i ∈ ((View.whole main_v62).slice (win3_2.rect t)).set ↔ _
  rw [View.set_slice_whole, Rect.mem_set_unit]
  exact Iff.rfl

/-- Row r of the output array is in the block of point r / 8192. -/
theorem cover3 (i : S1654784x16.Idx) : ∃ t : Fin cfg3.N, (cfg3.win 2).flush t = true ∧ i ∈ ((cfg3.win 2).blk t).view.set := by
  have hi0 : (i 0).val < 1654784 := (i 0).isLt
  have hi1 : (i 1).val < 16 := (i 1).isLt
  have hN : grid3.N = 202 := N_3
  have ht : (i 0).val / 8192 < grid3.N := by rw [hN]; omega
  obtain ⟨-, -, -, -, c0, c1⟩ := idx3 ⟨(i 0).val / 8192, ht⟩
  refine ⟨⟨(i 0).val / 8192, ht⟩, flush3_2 _, ?_⟩
  rw [mem_blk3]
  intro a
  match a with
  | ⟨0, _⟩ =>
    show win3_2.index ⟨(i 0).val / 8192, ht⟩ (0 : Fin 2) * 8192 ≤ (i 0).val ∧ (i 0).val < win3_2.index ⟨(i 0).val / 8192, ht⟩ (0 : Fin 2) * 8192 + 8192
    rw [c0]; show (i 0).val / 8192 * 8192 ≤ (i 0).val ∧ (i 0).val < (i 0).val / 8192 * 8192 + 8192; omega
  | ⟨1, _⟩ =>
    show win3_2.index ⟨(i 0).val / 8192, ht⟩ (1 : Fin 2) * 16 ≤ (i 1).val ∧ (i 1).val < win3_2.index ⟨(i 0).val / 8192, ht⟩ (1 : Fin 2) * 16 + 16
    rw [c1]; omega

/-- What point t writes back is block t of the scaled array. -/
theorem flushed3 (c : Dev nD) (t : Fin cfg3.N) :
    (dat3 (F := Ideal) V c).flushed 2 t = ((cfg3.win 2).blk t).view.read (Elt Ideal)
      (scaleRows 1654784 16 (V c main_v61) (V c main_v34)) := by
  show (cfg3.win 2).cut (grid3.coords t) ((dat3 V c).after 2 t) = _
  rw [after3_2]
  unfold out3_2
  rw [View.canon_unit_zero hz]
  simp only [View.ld_unit_zero (S := S8192x16) hz, View.ld_unit_zero (S := S8192x1) hz]
  obtain ⟨a0, a1, b0, b1, c0, c1⟩ := idx3 t
  refine scale_block16 (V c main_v61) (V c main_v34) (iblk3 V c 0 t) (iblk3 V c 1 t)
    (fun y => ((cfg3.win 0).blk t).view.emb y) (fun y => ((cfg3.win 2).blk t).view.emb y) (fun y => ((cfg3.win 1).blk t).view.emb y)
    rfl rfl (fun y => ?_) (fun p q => ?_)
  · funext a; apply Fin.ext
    match a with
    | ⟨0, _⟩ => show win3_0.index t (0 : Fin 2) * 8192 + 1 * (y 0).val = win3_2.index t (0 : Fin 2) * 8192 + 1 * (y 0).val; omega
    | ⟨1, _⟩ => show win3_0.index t (1 : Fin 2) * 16 + 1 * (y 1).val = win3_2.index t (1 : Fin 2) * 16 + 1 * (y 1).val; omega
  · funext a; apply Fin.ext
    match a with
    | ⟨0, _⟩ => show win3_1.index t (0 : Fin 2) * 8192 + 1 * p.val = win3_2.index t (0 : Fin 2) * 8192 + 1 * p.val; omega
    | ⟨1, _⟩ => show win3_1.index t (1 : Fin 2) * 1 + 1 * 0 = 0; omega

/-- The output array after region 3: every row of the first array scaled by its entry of the column. -/
theorem arr3 (c : Dev nD) : (dat3 (F := Ideal) V c).arrAt 2 cfg3.N = scaleRows 1654784 16 (V c main_v61) (V c main_v34) :=
  (dat3 (F := Ideal) V c).arrAt_eq_of_cover 2 (scaleRows 1654784 16 (V c main_v61) (V c main_v34)) (fun t _ => flushed3 V c t) cover3

/-! ## Region 0: a 50000×256 array times a 256×128 matrix, 5000 rows at a point -/

/-- The body's dimension numbers are those of a plain product. -/
theorem dims0 : dot_S5000x256_S256x128_S5000x128_1_0_0_1_n_n = DotDims.plain 5000 256 128 := rfl

/-- The body's stored value at (p, q), when its first block holds the rows r of an array A and its second block is
    the matrix B: entry (r p, q) of the product of A and B (the truncations are the identity here, the accumulator
    is the zero splat). -/
theorem mm_pay0 (A : S50000x256.Idx → EReal) (B : S256x128.Idx → EReal)
    (x0 : Vec Ideal S5000x256 .f32) (x1 : Vec Ideal S256x128 .f32) (r : Fin 5000 → Fin 50000)
    (hx0 : ∀ (p : Fin 5000) (k : Fin 256), x0 (ix2 p k) = A (ix2 (r p) k))
    (hx1 : ∀ (k : Fin 256) (q : Fin 128), x1 (ix2 k q) = B (ix2 k q)) (p : Fin 5000) (q : Fin 128) :
    k0_pay1 (F := Ideal) x0 x1 (ix2 p q) = BlockProd.matProd 50000 256 128 A B (ix2 (r p) q) := by
  unfold k0_pay1
  exact BlockProd.matmul_rows 50000 256 128 5000 none (truncf .bf16 x0 bitsLt_bf16_f32) (truncf .bf16 x1 bitsLt_bf16_f32)
    A B r hx0 hx1 p q

/-- The same for whole blocks read through index maps: the first block the rows r of A, the second block B, the
    output block the rows r of the product. -/
theorem mm_block0 (A : S50000x256.Idx → EReal) (B : S256x128.Idx → EReal)
    (x0 : Vec Ideal S5000x256 .f32) (x1 : Vec Ideal S256x128 .f32) (r : Fin 5000 → Fin 50000)
    (e0 : S5000x256.Idx → S50000x256.Idx) (e1 : S256x128.Idx → S256x128.Idx) (e2 : S5000x128.Idx → S50000x128.Idx)
    (hx0 : x0 = fun y => A (e0 y)) (hx1 : x1 = fun y => B (e1 y))
    (h0 : ∀ (p : Fin 5000) (k : Fin 256), e0 (ix2 p k) = ix2 (r p) k)
    (h1 : ∀ (k : Fin 256) (q : Fin 128), e1 (ix2 k q) = ix2 k q)
    (h2 : ∀ (p : Fin 5000) (q : Fin 128), e2 (ix2 p q) = ix2 (r p) q) :
    k0_pay1 (F := Ideal) x0 x1 = fun y => BlockProd.matProd 50000 256 128 A B (e2 y) := by
  funext y
  obtain ⟨p, q, rfl⟩ : ∃ (p : Fin 5000) (q : Fin 128), y = ix2 p q := ⟨y 0, y 1, eq_ix2 y⟩
  rw [h2 p q]
  refine mm_pay0 A B x0 x1 r (fun p k => ?_) (fun k q => ?_) p q
  · rw [hx0]; exact congrArg A (h0 p k)
  · rw [hx1]; exact congrArg B (h1 k q)

/-- The three windows' block indices at point t: the first operand's and the output's block row t, the matrix's
    one block (decided over the 10 points). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- An index of the output array is in point t's block iff each coordinate is in the block's range. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v36).slice (win0_2.rect t)).set ↔ _
  rw [View.set_slice_whole, Rect.mem_set_unit]
  exact Iff.rfl

/-- Row r of the output array is in the block of point r / 5000. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 10 := N_0
  have ht : (i 0).val / 5000 < grid0.N := by rw [hN]; omega
  obtain ⟨-, -, -, -, c0, c1⟩ := idx0 ⟨(i 0).val / 5000, ht⟩
  refine ⟨⟨(i 0).val / 5000, ht⟩, flush0_2 _, ?_⟩
  rw [mem_blk0]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [c0]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    rw [c1]; omega

/-- What point t writes back is block t of the product. -/
theorem flushed0 (c : Dev nD) (t : Fin cfg0.N) :
    (dat0 (F := Ideal) V c).flushed 2 t = ((cfg0.win 2).blk t).view.read (Elt Ideal)
      (BlockProd.matProd 50000 256 128 (V c main_arg0) (V c main_arg3)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  obtain ⟨a0, a1, b0, b1, c0, c1⟩ := idx0 t
  have hN : grid0.N = 10 := N_0
  have ht : t.val < 10 := hN ▸ t.isLt
  refine mm_block0 (V c main_arg0) (V c main_arg3) (iblk0 V c 0 t) (iblk0 V c 1 t)
    (fun p => ⟨t.val * 5000 + p.val, by have := p.isLt; omega⟩)
    (fun y => ((cfg0.win 0).blk t).view.emb y) (fun y => ((cfg0.win 1).blk t).view.emb y) (fun y => ((cfg0.win 2).blk t).view.emb y)
    rfl rfl (fun p k => ?_) (fun k q => ?_) (fun p q => ?_)
  · funext a; apply Fin.ext
    match a with
    | ⟨0, _⟩ => show win0_0.index t (0 : Fin 2) * 5000 + 1 * p.val = t.val * 5000 + p.val; omega
    | ⟨1, _⟩ => show win0_0.index t (1 : Fin 2) * 256 + 1 * k.val = k.val; omega
  · funext a; apply Fin.ext
    match a with
    | ⟨0, _⟩ => show win0_1.index t (0 : Fin 2) * 256 + 1 * k.val = k.val; omega
    | ⟨1, _⟩ => show win0_1.index t (1 : Fin 2) * 128 + 1 * q.val = q.val; omega
  · funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega

/-- The output array after region 0: the product of the first array and the matrix. -/
theorem arr0 (c : Dev nD) : (dat0 (F := Ideal) V c).arrAt 2 cfg0.N = BlockProd.matProd 50000 256 128 (V c main_arg0) (V c main_arg3) :=
  (dat0 (F := Ideal) V c).arrAt_eq_of_cover 2 (BlockProd.matProd 50000 256 128 (V c main_arg0) (V c main_arg3)) (fun t _ => flushed0 V c t) cover0

/-! ## Region 2: a 50000×128 array times a 128×16 matrix, 5000 rows at a point -/

/-- The body's dimension numbers are those of a plain product. -/
theorem dims2 : dot_S5000x128_S128x16_S5000x16_1_0_0_1_n_n = DotDims.plain 5000 128 16 := rfl

/-- The body's stored value at (p, q), when its first block holds the rows r of an array A and its second block is
    the matrix B: entry (r p, q) of the product of A and B (the shape cast and the truncations are the identity here, the
    accumulator is the zero splat). -/
theorem mm_pay2 (A : S50000x128.Idx → EReal) (B : S128x16.Idx → EReal)
    (x0 : Vec Ideal S5000x128 .f32) (x1 : Vec Ideal S128x16 .f32) (r : Fin 5000 → Fin 50000)
    (hx0 : ∀ (p : Fin 5000) (k : Fin 128), x0 (ix2 p k) = A (ix2 (r p) k))
    (hx1 : ∀ (k : Fin 128) (q : Fin 16), x1 (ix2 k q) = B (ix2 k q)) (p : Fin 5000) (q : Fin 16) :
    k2_pay1 (F := Ideal) x0 x1 (ix2 p q) = BlockProd.matProd 50000 128 16 A B (ix2 (r p) q) := by
  unfold k2_pay1
  rw [shapeCast_self]
  exact BlockProd.matmul_rows 50000 128 16 5000 none (truncf .bf16 x0 bitsLt_bf16_f32) (truncf .bf16 x1 bitsLt_bf16_f32)
    A B r hx0 hx1 p q

/-- The same for whole blocks read through index maps: the first block the rows r of A, the second block B, the
    output block the rows r of the product. -/
theorem mm_block2 (A : S50000x128.Idx → EReal) (B : S128x16.Idx → EReal)
    (x0 : Vec Ideal S5000x128 .f32) (x1 : Vec Ideal S128x16 .f32) (r : Fin 5000 → Fin 50000)
    (e0 : S5000x128.Idx → S50000x128.Idx) (e1 : S128x16.Idx → S128x16.Idx) (e2 : S5000x16.Idx → S50000x16.Idx)
    (hx0 : x0 = fun y => A (e0 y)) (hx1 : x1 = fun y => B (e1 y))
    (h0 : ∀ (p : Fin 5000) (k : Fin 128), e0 (ix2 p k) = ix2 (r p) k)
    (h1 : ∀ (k : Fin 128) (q : Fin 16), e1 (ix2 k q) = ix2 k q)
    (h2 : ∀ (p : Fin 5000) (q : Fin 16), e2 (ix2 p q) = ix2 (r p) q) :
    k2_pay1 (F := Ideal) x0 x1 = fun y => BlockProd.matProd 50000 128 16 A B (e2 y) := by
  funext y
  obtain ⟨p, q, rfl⟩ : ∃ (p : Fin 5000) (q : Fin 16), y = ix2 p q := ⟨y 0, y 1, eq_ix2 y⟩
  rw [h2 p q]
  refine mm_pay2 A B x0 x1 r (fun p k => ?_) (fun k q => ?_) p q
  · rw [hx0]; exact congrArg A (h0 p k)
  · rw [hx1]; exact congrArg B (h1 k q)

/-- The three windows' block indices at point t: the first operand's and the output's block row t, the matrix's
    one block (decided over the 10 points). -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- An index of the output array is in point t's block iff each coordinate is in the block's range. -/
theorem mem_blk2 (t : Fin cfg2.N) (i : S50000x16.Idx) :
    i ∈ ((cfg2.win 2).blk t).view.set ↔ ∀ a : Fin 2, win2_2.index t a * S5000x16.size a ≤ (i a).val ∧ (i a).val < win2_2.index t a * S5000x16.size a + S5000x16.size a := by
  show i ∈ ((View.whole main_v53).slice (win2_2.rect t)).set ↔ _
  rw [View.set_slice_whole, Rect.mem_set_unit]
  exact Iff.rfl

/-- Row r of the output array is in the block of point r / 5000. -/
theorem cover2 (i : S50000x16.Idx) : ∃ t : Fin cfg2.N, (cfg2.win 2).flush t = true ∧ i ∈ ((cfg2.win 2).blk t).view.set := by
  have hi0 : (i 0).val < 50000 := (i 0).isLt
  have hi1 : (i 1).val < 16 := (i 1).isLt
  have hN : grid2.N = 10 := N_2
  have ht : (i 0).val / 5000 < grid2.N := by rw [hN]; omega
  obtain ⟨-, -, -, -, c0, c1⟩ := idx2 ⟨(i 0).val / 5000, ht⟩
  refine ⟨⟨(i 0).val / 5000, ht⟩, flush2_2 _, ?_⟩
  rw [mem_blk2]
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    rw [c0]; show (i 0).val / 5000 * 5000 ≤ (i 0).val ∧ (i 0).val < (i 0).val / 5000 * 5000 + 5000; omega
  | ⟨1, _⟩ =>
    show win2_2.index ⟨(i 0).val / 5000, ht⟩ (1 : Fin 2) * 16 ≤ (i 1).val ∧ (i 1).val < win2_2.index ⟨(i 0).val / 5000, ht⟩ (1 : Fin 2) * 16 + 16
    rw [c1]; omega

/-- What point t writes back is block t of the product. -/
theorem flushed2 (c : Dev nD) (t : Fin cfg2.N) :
    (dat2 (F := Ideal) V c).flushed 2 t = ((cfg2.win 2).blk t).view.read (Elt Ideal)
      (BlockProd.matProd 50000 128 16 (V c main_v52) (V c main_arg5)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x16) hz]
  obtain ⟨a0, a1, b0, b1, c0, c1⟩ := idx2 t
  have hN : grid2.N = 10 := N_2
  have ht : t.val < 10 := hN ▸ t.isLt
  refine mm_block2 (V c main_v52) (V c main_arg5) (iblk2 V c 0 t) (iblk2 V c 1 t)
    (fun p => ⟨t.val * 5000 + p.val, by have := p.isLt; omega⟩)
    (fun y => ((cfg2.win 0).blk t).view.emb y) (fun y => ((cfg2.win 1).blk t).view.emb y) (fun y => ((cfg2.win 2).blk t).view.emb y)
    rfl rfl (fun p k => ?_) (fun k q => ?_) (fun p q => ?_)
  · funext a; apply Fin.ext
    match a with
    | ⟨0, _⟩ => show win2_0.index t (0 : Fin 2) * 5000 + 1 * p.val = t.val * 5000 + p.val; omega
    | ⟨1, _⟩ => show win2_0.index t (1 : Fin 2) * 128 + 1 * k.val = k.val; omega
  · funext a; apply Fin.ext
    match a with
    | ⟨0, _⟩ => show win2_1.index t (0 : Fin 2) * 128 + 1 * k.val = k.val; omega
    | ⟨1, _⟩ => show win2_1.index t (1 : Fin 2) * 16 + 1 * q.val = q.val; omega
  · funext a; apply Fin.ext
    match a with
    | ⟨0, _⟩ => show win2_2.index t (0 : Fin 2) * 5000 + 1 * p.val = t.val * 5000 + p.val; omega
    | ⟨1, _⟩ => show win2_2.index t (1 : Fin 2) * 16 + 1 * q.val = q.val; omega

/-- The output array after region 2: the product of the first array and the matrix. -/
theorem arr2 (c : Dev nD) : (dat2 (F := Ideal) V c).arrAt 2 cfg2.N = BlockProd.matProd 50000 128 16 (V c main_v52) (V c main_arg5) :=
  (dat2 (F := Ideal) V c).arrAt_eq_of_cover 2 (BlockProd.matProd 50000 128 16 (V c main_v52) (V c main_arg5)) (fun t _ => flushed2 V c t) cover2

end Cert.KernelIdeal.RegVal
end
-- ==== Proof.ProdBridge.lean ====
/-
  The two projections of the graph convolution, as matrix products: the reference's dot_general of a 50000×256
  array with a 256×128 matrix, and of a 50000×128 array with a 128×16 matrix, are the products whose entry (p, q)
  is ∑ k, a[p, k] · b[k, q]. The reference's dimension numbers are those of a plain product (contract the left
  operand's axis 1 with the right operand's axis 0, no batch axis).
-/
import proofs.«155868_j58506044506617_2_alg».proof.Proof.LibBlockProd
import proofs.«155868_j58506044506617_2_alg».proof.Proof.RefSpec

set_option maxRecDepth 16384

noncomputable section

namespace Cert.ProdBridge

open Cert.ReferenceIdeal Idealize.ShloMosaic

/-- The first projection's dimension numbers are those of a plain 50000×256 by 256×128 product. -/
theorem dims128 : dot_S50000x256_S256x128_S50000x128_1_0_0_1_n_n = DotDims.plain 50000 256 128 := rfl

/-- The second projection's dimension numbers are those of a plain 50000×128 by 128×16 product. -/
theorem dims16 : dot_S50000x128_S128x16_S50000x16_1_0_0_1_n_n = DotDims.plain 50000 128 16 := rfl

/-- The product of x and W is the reference's first projection. -/
theorem hx128_eq (x : FVec Ideal S50000x256 .f32) (W : FVec Ideal S256x128 .f32) :
    BlockProd.matProd 50000 256 128 x W = RefSpec.hx128 x W :=
  (BlockProd.dotGeneral_eq 50000 256 128 none .single x W).symm

/-- The product of h and W is the reference's second projection. -/
theorem hx16_eq (h : FVec Ideal S50000x128 .f32) (W : FVec Ideal S128x16 .f32) :
    BlockProd.matProd 50000 128 16 h W = RefSpec.hx16 h W :=
  (BlockProd.dotGeneral_eq 50000 128 16 none .single h W).symm

end Cert.ProdBridge

end
-- ==== Proof.LibRowGather.lean ====
/-
  A row gather read at an index.

  What `x[idx]` of a table `x : [N, D]` at a vector of row numbers lowers to: a gather with offset axis 1, collapsed
  axis 0, start index map [0] and slice sizes [1, D] over the row numbers as an `[E, 1]` array. The entry (e, j) of the
  result is the table's entry (r, j), where r is the row number `idx[e, 0]` read as a signed integer and clamped into
  [0, N − 1]: the column passes through, the row is looked up.
-/
import Idealize.ShloMosaic.Lib.ValueIdx

noncomputable section

namespace Idealize.ShloMosaic.RowGather

open Idealize.ShloMosaic Idealize.ShloMosaic.ValueIdx

variable {α : Type}

/-- The dimension numbers of a row gather: table `[N, D]`, row numbers `[E, 1]`, result `[E, D]`. -/
abbrev rowDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row a row number selects: read signed, clamped into `[0, N − 1]`. -/
abbrev rowOf {N w : Nat} (hN : 0 < N) (b : BitVec w) : Fin N := ⟨min b.toInt.toNat (N - 1), by omega⟩

/-- THE ROW GATHER READ AT `(e, j)`: the table at the selected row and the same column. -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowDims N E D wf) x idx (ix2 e j) = x (ix2 (rowOf hN (idx (ix2 e (0 : Fin 1)))) j) := by
  unfold Host.gather
  congr 1
  funext a
  refine Fin.ext ?_
  match a with
  | ⟨0, _⟩ =>
    show (rowDims N E D wf).start (ix2 e j) idx 0 + (rowDims N E D wf).batchCoord (ix2 e j) 0
      + (rowDims N E D wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E D wf).startIndexMap from List.mem_singleton.mpr rfl)]
    have hsi : (rowDims N E D wf).siIdx (ix2 e j) ⟨List.idxOf (0 : Fin 2) (rowDims N E D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E D wf).start (ix2 e j) idx 1 + (rowDims N E D wf).batchCoord (ix2 e j) 1
      + (rowDims N E D wf).offCoord (ix2 e j) 1 = j.val
    rw [GatherDims.batchCoord_eq_zero _ _ _ List.not_mem_nil]
    unfold GatherDims.start
    rw [dif_neg (show (1 : Fin 2) ∉ (rowDims N E D wf).startIndexMap from fun h =>
      absurd (show (1 : Nat) = 0 from congrArg Fin.val (List.mem_singleton.mp h)) (by decide))]
    simp only [Nat.add_zero, Nat.zero_add]
    rfl

end Idealize.ShloMosaic.RowGather

end
-- ==== Proof.LibVecGather.lean ====
/-
  A gather from a vector read at an index.

  What `x[idx]` of a vector `x : [N]` at a vector of positions lowers to: a gather with no offset axis, collapsed
  axis 0, start index map [0] and slice size 1 over the positions as an `[E, 1]` array. Entry e of the result is the
  vector's entry r, where r is the position `idx[e, 0]` read as a signed integer and clamped into [0, N − 1].
-/
import Idealize.ShloMosaic.Lib.ValueIdx
import proofs.«155868_j58506044506617_2_alg».proof.Proof.LibRowGather

noncomputable section

namespace Idealize.ShloMosaic.RowGather

open Idealize.ShloMosaic Idealize.ShloMosaic.ValueIdx

variable {α : Type}

/-- The dimension numbers of a gather from a vector: vector `[N]`, positions `[E, 1]`, result `[E]`. -/
abbrev vecDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT e: the vector at the selected position. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e) = x (ix1 (rowOf hN (idx (ix2 e (0 : Fin 1))))) := by
  unfold Host.gather
  congr 1
  funext a
  refine Fin.ext ?_
  match a with
  | ⟨0, _⟩ =>
    show (vecDims N E wf).start (ix1 e) idx 0 + (vecDims N E wf).batchCoord (ix1 e) 0
      + (vecDims N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecDims N E wf).startIndexMap from List.mem_singleton.mpr rfl)]
    have hsi : (vecDims N E wf).siIdx (ix1 e) ⟨List.idxOf (0 : Fin 1) (vecDims N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

end Idealize.ShloMosaic.RowGather

end
-- ==== Proof.LibRowScatter.lean ====
/-
  Where the updates of a row scatter land.

  What `x.at[idx].add(u)` of a table `x : [N, D]` (or a vector `x : [N]`) at a vector of row numbers lowers to: a
  scatter with inserted window axis 0, scatter-dims-to-operand-dims [0], the row numbers an `[E, 1]` array, and the
  updates `[E, D]` with window axis 1 (or `[E]` with no window axis). The update (e, j') lands at the table's entry
  (i, j) exactly when the row number `idx[e, 0]`, read as a signed integer and NOT clamped, is i, and j' = j; an
  update whose row number is outside 0 … N − 1 lands nowhere.
-/
import Idealize.ShloMosaic.Lib.ValueIdx

noncomputable section

namespace Idealize.ShloMosaic.RowScatter

open Idealize.ShloMosaic Idealize.ShloMosaic.ValueIdx

/-- The dimension numbers of a row scatter into a table: operand `[N, D]`, row numbers `[E, 1]`, updates `[E, D]`. -/
abbrev rowDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- The dimension numbers of a scatter into a vector: operand `[N]`, row numbers `[E, 1]`, updates `[E]`. -/
abbrev vecDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Table

variable {N E D w : Nat} (wf : ScatterDims.WF ⟨2, ![N, D]⟩ ⟨2, ![E, 1]⟩ ⟨2, ![E, D]⟩ [1] [0] [0] 1)
  (idx : IVec ⟨2, ![E, 1]⟩ w) (e : Fin E) (j' : Fin D)

/-- On the row axis the window starts at the update's row number, read signed. -/
theorem row_start_zero : (rowDims N E D wf).start (ix2 e j') idx 0 = (idx (ix2 e (0 : Fin 1))).toInt := by
  unfold ScatterDims.start
  rw [dif_pos (show (0 : Fin 2) ∈ (rowDims N E D wf).scatterDimsToOperandDims from List.mem_singleton.mpr rfl)]
  have hsi : (rowDims N E D wf).siIdx (ix2 e j') ⟨List.idxOf (0 : Fin 2) (rowDims N E D wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at zero. -/
theorem row_start_one : (rowDims N E D wf).start (ix2 e j') idx 1 = 0 := by
  unfold ScatterDims.start
  rw [dif_neg (show (1 : Fin 2) ∉ (rowDims N E D wf).scatterDimsToOperandDims from fun h =>
    absurd (show (1 : Nat) = 0 from congrArg Fin.val (List.mem_singleton.mp h)) (by decide))]

/-- The row axis is inserted: no window coordinate. -/
theorem row_window_zero : (rowDims N E D wf).window (ix2 e j') 0 = 0 := by
  unfold ScatterDims.window
  rw [dif_neg (show (0 : Fin 2) ∉ (rowDims N E D wf).sKept by simp [ScatterDims.sKept, Shape.kept, List.mem_filter, List.mem_finRange])]

/-- The column axis carries the update's column. -/
theorem row_window_one : (rowDims N E D wf).window (ix2 e j') 1 = j'.val := by
  unfold ScatterDims.window
  rw [dif_pos (show (1 : Fin 2) ∈ (rowDims N E D wf).sKept by simp [ScatterDims.sKept, Shape.kept, List.mem_filter, List.mem_finRange])]
  rfl

/-- WHERE A TABLE UPDATE LANDS: update (e, j') lands at (i, j) iff its row number read signed is i and j' = j. -/
theorem row_resultIdx_iff (i : Fin N) (j : Fin D) :
    (rowDims N E D wf).resultIdx? (ix2 e j') idx = some (ix2 i j)
      ↔ (idx (ix2 e (0 : Fin 1))).toInt = (i.val : Int) ∧ j' = j := by
  unfold ScatterDims.resultIdx?
  have hi := i.isLt
  have hj := j'.isLt
  split
  · rename_i h
    rw [Option.some.injEq]
    constructor
    · intro heq
      have e0 := congrArg (fun f => (f 0).val) heq
      have e1 := congrArg (fun f => (f 1).val) heq
      have h0 := h 0
      simp only [row_start_zero, row_start_one, row_window_zero, row_window_one] at e0 e1 h0
      change _ = i.val at e0
      change _ = j.val at e1
      refine ⟨by omega, Fin.ext (by omega)⟩
    · rintro ⟨hr, rfl⟩
      funext a; refine Fin.ext ?_
      match a with
      | ⟨0, _⟩ =>
        show ((rowDims N E D wf).start (ix2 e j') idx 0 + ((rowDims N E D wf).window (ix2 e j') 0 : Nat)).toNat = i.val
        rw [row_start_zero, row_window_zero, hr]; simp
      | ⟨1, _⟩ =>
        show ((rowDims N E D wf).start (ix2 e j') idx 1 + ((rowDims N E D wf).window (ix2 e j') 1 : Nat)).toNat = j'.val
        rw [row_start_one, row_window_one]; simp
  · rename_i h
    constructor
    · intro heq; exact absurd heq (by simp)
    · rintro ⟨hr, rfl⟩
      exfalso; apply h
      intro a
      match a with
      | ⟨0, _⟩ =>
        show 0 ≤ (rowDims N E D wf).start (ix2 e j') idx 0 + ((rowDims N E D wf).window (ix2 e j') 0 : Nat)
          ∧ (rowDims N E D wf).start (ix2 e j') idx 0 + ((rowDims N E D wf).window (ix2 e j') 0 : Nat) < (N : Int)
        rw [row_start_zero, row_window_zero, hr]; constructor <;> omega
      | ⟨1, _⟩ =>
        show 0 ≤ (rowDims N E D wf).start (ix2 e j') idx 1 + ((rowDims N E D wf).window (ix2 e j') 1 : Nat)
          ∧ (rowDims N E D wf).start (ix2 e j') idx 1 + ((rowDims N E D wf).window (ix2 e j') 1 : Nat) < (D : Int)
        rw [row_start_one, row_window_one]; constructor <;> omega

end Table

section Vector

variable {N E w : Nat} (wf : ScatterDims.WF ⟨1, ![N]⟩ ⟨2, ![E, 1]⟩ ⟨1, ![E]⟩ [] [0] [0] 1)
  (idx : IVec ⟨2, ![E, 1]⟩ w) (e : Fin E)

/-- The window starts at the update's row number, read signed. -/
theorem vec_start_zero : (vecDims N E wf).start (ix1 e) idx 0 = (idx (ix2 e (0 : Fin 1))).toInt := by
  unfold ScatterDims.start
  rw [dif_pos (show (0 : Fin 1) ∈ (vecDims N E wf).scatterDimsToOperandDims from List.mem_singleton.mpr rfl)]
  have hsi : (vecDims N E wf).siIdx (ix1 e) ⟨List.idxOf (0 : Fin 1) (vecDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one axis is inserted: no window coordinate. -/
theorem vec_window_zero : (vecDims N E wf).window (ix1 e) 0 = 0 := by
  unfold ScatterDims.window
  rw [dif_neg (show (0 : Fin 1) ∉ (vecDims N E wf).sKept by simp [ScatterDims.sKept, Shape.kept, List.mem_filter, List.mem_finRange])]

/-- WHERE A VECTOR UPDATE LANDS: update e lands at i iff its row number read signed is i. -/
theorem vec_resultIdx_iff (i : Fin N) :
    (vecDims N E wf).resultIdx? (ix1 e) idx = some (ix1 i) ↔ (idx (ix2 e (0 : Fin 1))).toInt = (i.val : Int) := by
  unfold ScatterDims.resultIdx?
  have hi := i.isLt
  split
  · rename_i h
    rw [Option.some.injEq]
    constructor
    · intro heq
      have e0 := congrArg (fun f => (f 0).val) heq
      have h0 := h 0
      simp only [vec_start_zero, vec_window_zero] at e0 h0
      change _ = i.val at e0
      omega
    · intro hr
      funext a; refine Fin.ext ?_
      match a with
      | ⟨0, _⟩ =>
        show ((vecDims N E wf).start (ix1 e) idx 0 + ((vecDims N E wf).window (ix1 e) 0 : Nat)).toNat = i.val
        rw [vec_start_zero, vec_window_zero, hr]; simp
  · rename_i h
    constructor
    · intro heq; exact absurd heq (by simp)
    · intro hr
      exfalso; apply h
      intro a
      match a with
      | ⟨0, _⟩ =>
        show 0 ≤ (vecDims N E wf).start (ix1 e) idx 0 + ((vecDims N E wf).window (ix1 e) 0 : Nat)
          ∧ (vecDims N E wf).start (ix1 e) idx 0 + ((vecDims N E wf).window (ix1 e) 0 : Nat) < (N : Int)
        rw [vec_start_zero, vec_window_zero, hr]; constructor <;> omega

end Vector

end Idealize.ShloMosaic.RowScatter

end
-- ==== Proof.LibScatterSum.lean ====
/-
  A row scatter-add read at an index, on the extended reals.

  The host's accumulating scatter of updates `[E, D]` (or `[E]`) into a table `[N, D]` (or a vector `[N]`) at row
  numbers `[E, 1]`: the entry (i, j) of the result is the operand's entry plus the sum, over the updates e whose row
  number read signed is i, of the update's entry (e, j). Updates whose row number is outside 0 … N − 1 contribute
  nothing.
-/
import Idealize.ShloMosaic.Lib.ValueIdx
import Idealize.ShloMosaic.PureOps.Ideal
import proofs.«155868_j58506044506617_2_alg».proof.Proof.LibRowScatter

noncomputable section

open scoped BigOperators

namespace Idealize.ShloMosaic.RowScatter

open Idealize.ShloMosaic Idealize.ShloMosaic.ValueIdx

/-- THE TABLE SCATTER-ADD READ AT (i, j). -/
theorem rowScatterAdd_apply {N E D w : Nat} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w) (upd : (⟨2, ![E, D]⟩ : Shape).Idx → EReal)
    (i : Fin N) (j : Fin D) :
    Ideal.hostScatterAdd (rowDims N E D wf) x idx upd (ix2 i j)
      = x (ix2 i j) + ∑ e ∈ Finset.univ.filter (fun e : Fin E => (idx (ix2 e (0 : Fin 1))).toInt = (i.val : Int)), upd (ix2 e j) := by
  unfold Ideal.hostScatterAdd
  congr 1
  symm
  refine Finset.sum_bij (fun e _ => ix2 e j) ?_ ?_ ?_ ?_
  · intro e he
    rw [Finset.mem_filter] at he ⊢
    exact ⟨Finset.mem_univ _, (row_resultIdx_iff wf idx e j i j).mpr ⟨he.2, rfl⟩⟩
  · intro e₁ _ e₂ _ h
    have h0 := congrFun h 0
    exact Fin.ext (congrArg Fin.val h0)
  · intro p hp
    rw [Finset.mem_filter] at hp
    obtain ⟨e, j', rfl⟩ : ∃ (e : Fin E) (j' : Fin D), p = ix2 e j' := ⟨p 0, p 1, eq_ix2 p⟩
    obtain ⟨h1, rfl⟩ := (row_resultIdx_iff wf idx e j' i j).mp hp.2
    exact ⟨e, Finset.mem_filter.mpr ⟨Finset.mem_univ _, h1⟩, rfl⟩
  · intro e _; rfl

/-- THE VECTOR SCATTER-ADD READ AT i. -/
theorem vecScatterAdd_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (i : Fin N) :
    Ideal.hostScatterAdd (vecDims N E wf) x idx upd (ix1 i)
      = x (ix1 i) + ∑ e ∈ Finset.univ.filter (fun e : Fin E => (idx (ix2 e (0 : Fin 1))).toInt = (i.val : Int)), upd (ix1 e) := by
  unfold Ideal.hostScatterAdd
  congr 1
  symm
  refine Finset.sum_bij (fun e _ => ix1 e) ?_ ?_ ?_ ?_
  · intro e he
    rw [Finset.mem_filter] at he ⊢
    exact ⟨Finset.mem_univ _, (vec_resultIdx_iff wf idx e i).mpr he.2⟩
  · intro e₁ _ e₂ _ h
    have h0 := congrFun h 0
    exact Fin.ext (congrArg Fin.val h0)
  · intro p hp
    rw [Finset.mem_filter] at hp
    obtain ⟨e, rfl⟩ : ∃ e : Fin E, p = ix1 e := ⟨p 0, eq_ix1 p⟩
    exact ⟨e, Finset.mem_filter.mpr ⟨Finset.mem_univ _, (vec_resultIdx_iff wf idx e i).mp hp.2⟩, rfl⟩
  · intro e _; rfl

end Idealize.ShloMosaic.RowScatter

end
-- ==== Proof.LibHostKeepdims.lean ====
/-
  The host's keepdims layout forms and its one-axis sum of a matrix, read at an index.

  * `bcast_a_a1_apply`: an `[a]` vector placed along axis 0 of an `[a, 1]` column reads, at `(p, u)`, the vector at `p`.
  * `bcast_a1_ab_apply`: an `[a, 1]` column spread over `b` columns reads, at `(p, q)`, the column at `(p, 0)`.
  * `bcast_b_1b_apply`: a `[b]` vector placed along axis 1 of a `[1, b]` row reads, at `(u, k)`, the vector at `k`.
  * `hostRowSum_apply`: at the ideal values the host's sum of an `[a, b]` matrix along axis 1, from the initial value
    `init`, is at `p` the initial value plus the sum over `k` of the entries `(p, k)`.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.LibHostKeepdims

open Idealize.ShloMosaic Idealize.ShloMosaic.ValueIdx

variable {α : Type}

/-- An `[a]` vector placed along axis 0 of an `[a, 1]` column reads, at `(p, u)`, the vector at `p`. -/
theorem bcast_a_a1_apply {a : ℕ} (h : (⟨1, ![a]⟩ : Shape).BroadcastsInDim ⟨2, ![a, 1]⟩ ![0]) (v : (⟨1, ![a]⟩ : Shape).Idx → α)
    (p : Fin a) (u : Fin 1) : broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- An `[a, 1]` column spread over `b` columns reads, at `(p, q)`, the column at `(p, 0)`. -/
theorem bcast_a1_ab_apply {a b : ℕ} (h : (⟨2, ![a, 1]⟩ : Shape).BroadcastsInDim ⟨2, ![a, b]⟩ ![0, 1]) (v : (⟨2, ![a, 1]⟩ : Shape).Idx → α)
    (p : Fin a) (q : Fin b) : broadcastInDim ⟨2, ![a, b]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if a = 1 then 0 else p.val
    split
    · have := p.isLt; omega
    · rfl
  | ⟨1, _⟩ => rfl

/-- A `[b]` vector placed along axis 1 of a `[1, b]` row reads, at `(u, k)`, the vector at `k`. -/
theorem bcast_b_1b_apply {b : ℕ} (h : (⟨1, ![b]⟩ : Shape).BroadcastsInDim ⟨2, ![1, b]⟩ ![1]) (v : (⟨1, ![b]⟩ : Shape).Idx → α)
    (u : Fin 1) (k : Fin b) : broadcastInDim ⟨2, ![1, b]⟩ ![1] h v (ix2 u k) = v (ix1 k) := by
  refine broadcastInDim_apply ![1] h v (ix2 u k) (ix1 k) fun ax => ?_
  match ax with
  | ⟨0, _⟩ =>
    show k.val = if b = 1 then 0 else k.val
    split
    · have := k.isLt; omega
    · rfl

/-- At the ideal values the host's sum of an `[a, b]` matrix along axis 1 is, at `p`, the initial value plus the sum over
    `k` of the entries `(p, k)`. -/
theorem hostRowSum_apply {a b : ℕ} {φ : FTy} (x : FVec Ideal ⟨2, ![a, b]⟩ φ) (init : (⟨0, ![]⟩ : Shape).Idx → Ideal φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduceAdd x init h' hu (ix1 p) = init (Shape.Idx.first hu) + ∑ k : Fin b, x (ix2 p k) := by
  refine (hostReduceAdd_apply x init h' hu (ix1 p)).trans ?_
  refine (Ideal.hostReduceAdd_single h' h x _ (ix1 p)).trans ?_
  refine congrArg (init (Shape.Idx.first hu) + ·) (Finset.sum_congr rfl fun k _ => congrArg x (funext fun ax => Fin.ext ?_))
  match ax with
  | ⟨0, _⟩ => rfl
  | ⟨1, _⟩ => rfl

end Cert.LibHostKeepdims

end
-- ==== Proof.LibGcnLaws.lean ====
/-
  Algebraic laws of a graph-convolution layer on the extended reals.

  A layer  D (A + I) D z  with a 0/1 adjacency matrix A, the identity I and a nonnegative finite
  diagonal D can be evaluated row by row as  d i * ((∑ j, a i j * (d j * z j)) + d i * z i)  or with the
  normalised matrix formed first,  ∑ j, ((d i * (a i j + e i j)) * d j) * z j.  On the extended reals
  multiplication does not distribute over addition in general, but it does for a nonnegative finite
  multiplier on the left and for a sum of two nonnegative multipliers on the right; that is all the
  two evaluations need to agree for arbitrary (possibly infinite) z.

  Also here: an invariant of a scatter that overwrites entries, the degree sum of A + I, finiteness of
  a sum of zeros and ones, and the float literals the layer spells.
-/
import Idealize.ShloMosaic.PureOps.Ideal
import Idealize.ShloMosaic.PureOps.ShapeOps

noncomputable section

open scoped BigOperators

namespace Idealize.ShloMosaic.GcnLaws

open Idealize.ShloMosaic

/-- An invariant of a left fold: a property that holds at the start and is kept by every step holds
    at the end. -/
theorem foldl_invariant {β γ : Type} (Q : β → Prop) (f : β → γ → β) (hf : ∀ b c, Q b → Q (f b c)) :
    ∀ (l : List γ) (b : β), Q b → Q (l.foldl f b)
  | [], _, hb => hb
  | c :: l, b, hb => foldl_invariant Q f hf l (f b c) (hf b c hb)

/-- A scatter whose body returns the update leaves every entry either the operand's or one of the
    updates': a property that holds of all the operand's entries and of all the updates holds of every
    entry of the result. Each step of the fold either keeps the running result or overwrites one entry
    with an update, so the property of all entries is kept along the fold. -/
theorem scatter_set_ind {α : Type} {s si u : Shape} {w : Nat} (d : ScatterDims s si u) (x : s.Idx → α)
    (idx : IVec si w) (upd : u.Idx → α) (P : α → Prop) (hx : ∀ i, P (x i)) (hu : ∀ j, P (upd j))
    (i : s.Idx) : P (Host.scatter d (fun _ b => b) x idx upd i) := by
  unfold Host.scatter
  refine foldl_invariant (fun r : s.Idx → α => ∀ i, P (r i)) _ ?_ _ x hx i
  intro r n hr i'
  dsimp only
  generalize d.resultIdx? (u.rowMajor.symm n) idx = o
  cases o with
  | none => exact hr i'
  | some k =>
    dsimp only
    split_ifs
    · exact hu _
    · exact hr _

/-- A nonnegative finite constant multiplies through a finite sum of extended reals. -/
theorem mul_sum_of_nonneg_ne_top {ι : Type} (s : Finset ι) (c : EReal) (hc0 : 0 ≤ c) (hct : c ≠ ⊤)
    (f : ι → EReal) : c * ∑ j ∈ s, f j = ∑ j ∈ s, c * f j := by
  classical
  induction s using Finset.induction_on with
  | empty => simp
  | insert a s ha ih =>
    rw [Finset.sum_insert ha, Finset.sum_insert ha, EReal.left_distrib_of_nonneg_of_ne_top hc0 hct, ih]

/-- The two evaluations of one row of the layer D (A + I) D z agree for every z: with a 0/1 matrix a,
    the identity e and a nonnegative finite diagonal d,
    d i * ((∑ j, a i j * (d j * z j)) + d i * z i) = ∑ j, ((d i * (a i j + e i j)) * d j) * z j.
    Every multiplier that is distributed over a sum is nonnegative and finite (on the left) or a sum of
    two nonnegative terms (on the right), where the extended reals do distribute. -/
theorem layer_law {n : ℕ} (a e : Fin n → Fin n → EReal) (d z : Fin n → EReal)
    (ha : ∀ i j, a i j = 0 ∨ a i j = 1) (he : ∀ i j, e i j = if i = j then 1 else 0)
    (hd0 : ∀ i, 0 ≤ d i) (hdt : ∀ i, d i ≠ ⊤) (i : Fin n) :
    d i * ((∑ j, a i j * (d j * z j)) + d i * z i) = ∑ j, ((d i * (a i j + e i j)) * d j) * z j := by
  have ha0 : ∀ j, 0 ≤ a i j := fun j => by rcases ha i j with h | h <;> rw [h] <;> norm_num
  have he0 : ∀ j, 0 ≤ e i j := fun j => by rw [he]; split_ifs <;> norm_num
  have hterm : ∀ j, ((d i * (a i j + e i j)) * d j) * z j
      = d i * (a i j * (d j * z j)) + d i * (e i j * (d j * z j)) := by
    intro j
    rw [EReal.left_distrib_of_nonneg_of_ne_top (hd0 i) (hdt i),
      EReal.right_distrib_of_nonneg (mul_nonneg (hd0 i) (ha0 j)) (mul_nonneg (hd0 i) (he0 j)),
      EReal.right_distrib_of_nonneg (mul_nonneg (mul_nonneg (hd0 i) (ha0 j)) (hd0 j))
        (mul_nonneg (mul_nonneg (hd0 i) (he0 j)) (hd0 j))]
    simp only [mul_assoc]
  rw [Finset.sum_congr rfl (fun j _ => hterm j), Finset.sum_add_distrib,
    ← mul_sum_of_nonneg_ne_top _ _ (hd0 i) (hdt i), ← mul_sum_of_nonneg_ne_top _ _ (hd0 i) (hdt i),
    ← EReal.left_distrib_of_nonneg_of_ne_top (hd0 i) (hdt i)]
  congr 2
  rw [Finset.sum_eq_single i]
  · rw [he, if_pos rfl, one_mul]
  · intro j _ hji
    rw [he, if_neg (Ne.symm hji), zero_mul]
  · intro h
    exact absurd (Finset.mem_univ i) h

/-- The entries of one row of the identity matrix sum to one. -/
theorem sum_identity_row {n : ℕ} (e : Fin n → Fin n → EReal) (he : ∀ i j, e i j = if i = j then 1 else 0)
    (i : Fin n) : ∑ j, e i j = 1 := by
  rw [Finset.sum_eq_single i]
  · rw [he, if_pos rfl]
  · intro j _ hji
    rw [he, if_neg (Ne.symm hji)]
  · intro h
    exact absurd (Finset.mem_univ i) h

/-- The degree of a vertex with its self-loop, summed from zero over the row of A + I, is the row sum of
    A (each entry times one) plus one: additive rearrangement and the identity's row sum. -/
theorem degree_law {n : ℕ} (a e : Fin n → Fin n → EReal) (he : ∀ i j, e i j = if i = j then 1 else 0)
    (i : Fin n) : (0 + ∑ j, (a i j + e i j)) = (∑ j, a i j * 1) + 1 := by
  rw [zero_add, Finset.sum_add_distrib, sum_identity_row e he i]
  simp only [mul_one]

/-- A finite sum of zeros and ones is a nonnegative real. -/
theorem sum_zero_one_real {ι : Type} (s : Finset ι) (a : ι → EReal) (ha : ∀ j, a j = 0 ∨ a j = 1) :
    ∃ r : ℝ, 0 ≤ r ∧ ∑ j ∈ s, a j = (r : EReal) := by
  classical
  induction s using Finset.induction_on with
  | empty => exact ⟨0, le_refl _, by simp⟩
  | insert b s hb ih =>
    obtain ⟨r, hr0, hr⟩ := ih
    rw [Finset.sum_insert hb, hr]
    rcases ha b with h | h
    · exact ⟨r, hr0, by rw [h, zero_add]⟩
    · exact ⟨1 + r, by positivity, by rw [h, EReal.coe_add, EReal.coe_one]⟩

/-- The f32 pattern `0x3F800000` is the extended real one. -/
theorem ofBits_one_f32 : Ideal.ofBits .f32 0x3F800000#32 = 1 := by
  rw [show (1 : EReal) = ((1 : ℝ) : EReal) by norm_cast]
  simp [Ideal.ofBits, Ideal.ieee, -EReal.coe_mul]; norm_num

/-- The bf16 pattern `0x3F80` is the extended real one. -/
theorem ofBits_one_bf16 : Ideal.ofBits .bf16 0x3F80#16 = 1 := by
  rw [show (1 : EReal) = ((1 : ℝ) : EReal) by norm_cast]
  simp [Ideal.ofBits, Ideal.ieee, -EReal.coe_mul]; norm_num

/-- The bf16 pattern of zero is the extended real zero. -/
theorem ofBits_zero_bf16 : Ideal.ofBits .bf16 0x0000#16 = 0 := by simp [Ideal.ofBits, Ideal.ieee]

/-- The f32 pattern `0x322BCC77` (sign 0, exponent 100, fraction 2870391) is the real
    11258999 · 2⁻⁵⁰. -/
theorem ofBits_eps_f32_val :
    Ideal.ofBits .f32 0x322BCC77#32 = (((11258999 : ℝ) * (2 : ℝ) ^ (-50 : ℤ) : ℝ) : EReal) := by
  simp [Ideal.ofBits, Ideal.ieee, -EReal.coe_mul]

/-- The f32 pattern `0x322BCC77` is a nonnegative real. -/
theorem ofBits_eps_f32 : ∃ e : ℝ, 0 ≤ e ∧ Ideal.ofBits .f32 0x322BCC77#32 = (e : EReal) :=
  ⟨(11258999 : ℝ) * (2 : ℝ) ^ (-50 : ℤ), by positivity, ofBits_eps_f32_val⟩

/-- The f32 pattern `0xBF000000` (sign 1, exponent 126, fraction 0) is the real -1/2. -/
theorem ofBits_neg_half_f32_val : Ideal.ofBits .f32 0xBF000000#32 = ((-(1 / 2 : ℝ) : ℝ) : EReal) := by
  simp [Ideal.ofBits, Ideal.ieee, -EReal.coe_mul, -EReal.coe_neg]; norm_num

/-- The f32 pattern `0xBF000000` is a real. -/
theorem ofBits_neg_half_f32 : ∃ p : ℝ, Ideal.ofBits .f32 0xBF000000#32 = (p : EReal) :=
  ⟨-(1 / 2 : ℝ), ofBits_neg_half_f32_val⟩

/-- The inverse square root of a degree: for a nonnegative real r, (r + 1 + ε) to the power -1/2, with
    ε and -1/2 the two f32 literals, is a nonnegative extended real and is not ⊤. Base and exponent are
    reals, the base nonnegative, so the power is a real power of a nonnegative real. -/
theorem dinv_nonneg_finite (r : ℝ) (hr : 0 ≤ r) :
    0 ≤ Ideal.pow (((r : ℝ) : EReal) + 1 + Ideal.ofBits .f32 0x322BCC77#32) (Ideal.ofBits .f32 0xBF000000#32)
    ∧ Ideal.pow ((r : EReal) + 1 + Ideal.ofBits .f32 0x322BCC77#32) (Ideal.ofBits .f32 0xBF000000#32) ≠ ⊤ := by
  obtain ⟨e, he0, he⟩ := ofBits_eps_f32
  obtain ⟨p, hp⟩ := ofBits_neg_half_f32
  rw [he, hp, ← EReal.coe_one, ← EReal.coe_add, ← EReal.coe_add, Ideal.pow_coe_coe]
  exact ⟨EReal.coe_nonneg.mpr (Real.rpow_nonneg (by linarith) p), EReal.coe_ne_top _⟩

end Idealize.ShloMosaic.GcnLaws

end
-- ==== Proof.LibGcnWords.lean ====
/-
  The message-passing operations of a graph convolution read at an index, on the extended reals.

  The row numbers of the messages come as 32-bit words. A message is READ from the row its source word names after
  the usual treatment of a gather (a negative word wrapped once by the number of nodes, then clamped into range);
  it is DELIVERED to row i exactly when its target word, read as a signed integer, is i — words outside the range
  deliver nothing. A message delivered to row i has target row i also under the gather's treatment. The degree of a
  node is the number of messages delivered to it, and the normalization coefficient — the inverse square root of a
  positive degree, zero otherwise — is a nonnegative real.
-/
import Idealize.ShloMosaic.Lib.ValueIdx
import Idealize.ShloMosaic.Lib.ValueLayout
import Idealize.ShloMosaic.PureOps.Ideal.Laws
import proofs.«155868_j58506044506617_2_alg».proof.Proof.LibRowGather
import proofs.«155868_j58506044506617_2_alg».proof.Proof.LibVecGather
import proofs.«155868_j58506044506617_2_alg».proof.Proof.LibScatterSum
import proofs.«155868_j58506044506617_2_alg».proof.Proof.LibHostKeepdims
import proofs.«155868_j58506044506617_2_alg».proof.Proof.LibGcnLaws

noncomputable section

open scoped BigOperators

namespace Cert.GcnRead

open Idealize.ShloMosaic Idealize.ShloMosaic.ValueIdx Idealize.ShloMosaic.RowGather

variable {N E : ℕ}

/-- The row a word names under a gather's treatment: wrapped once if negative, then clamped. -/
def node (hN : 0 < N) (v z n : IVec ⟨1, ![E]⟩ 32) (e : Fin E) : Fin N :=
  rowOf hN (select (cmpi .slt v z) (addi v n) v (ix1 e))

/-- Message e is delivered to row i. -/
def lands (v : IVec ⟨1, ![E]⟩ 32) (e : Fin E) (i : Fin N) : Prop := (v (ix1 e)).toInt = (i.val : Int)

instance (v : IVec ⟨1, ![E]⟩ 32) (e : Fin E) (i : Fin N) : Decidable (lands v e i) := by unfold lands; infer_instance

/-- A message delivered to row i names row i under the gather's treatment too: its word is a nonnegative in-range
    integer, so it is neither wrapped nor clamped. -/
theorem node_of_lands (hN : 0 < N) (v z n : IVec ⟨1, ![E]⟩ 32) (e : Fin E) (i : Fin N) (hz : z (ix1 e) = 0#32)
    (h : lands v e i) : node hN v z n e = i := by
  unfold lands at h
  unfold node
  rw [select_apply]
  have hc : cmpi .slt v z (ix1 e) = 0#1 := by
    show IntOp.cmpi .slt (v (ix1 e)) (z (ix1 e)) = 0#1
    rw [hz]
    unfold IntOp.cmpi
    have : (v (ix1 e)).slt 0#32 = false := by
      rw [BitVec.slt, h]
      simp
    simp [this]
  rw [hc]
  show rowOf hN (v (ix1 e)) = i
  refine Fin.ext ?_
  show min (v (ix1 e)).toInt.toNat (N - 1) = i.val
  rw [h, Int.toNat_natCast]
  have := i.isLt
  omega

/-- The degree of row i: the messages delivered to it, counted from the float zero in float ones. -/
def deg (v : IVec ⟨1, ![E]⟩ 32) (i : Fin N) : EReal :=
  Ideal.ofBits .f32 0x00000000#32
    + ∑ _e ∈ Finset.univ.filter (fun e : Fin E => lands v e i), Ideal.ofBits .f32 0x3F800000#32

/-- The normalization coefficient of row i. -/
def coef (v : IVec ⟨1, ![E]⟩ 32) (i : Fin N) : EReal :=
  Scalar.select (Ideal.cmp .ogt (deg v i) (Ideal.ofBits .f32 0x00000000#32)) (Ideal.rsqrt (deg v i))
    (Ideal.ofBits .f32 0x00000000#32)

/-- A degree is a nonnegative real. -/
theorem deg_real (v : IVec ⟨1, ![E]⟩ 32) (i : Fin N) : ∃ r : ℝ, 0 ≤ r ∧ deg v i = (r : EReal) := by
  obtain ⟨r, hr0, hr⟩ := GcnLaws.sum_zero_one_real (Finset.univ.filter (fun e : Fin E => lands v e i))
    (fun _ => Ideal.ofBits .f32 0x3F800000#32) (fun _ => Or.inr GcnLaws.ofBits_one_f32)
  exact ⟨r, hr0, by unfold deg; rw [Ideal.ofBits_zero_f32, zero_add, hr]⟩

/-- A coefficient is nonnegative and finite: zero at degree zero, the inverse square root of a positive real
    otherwise. -/
theorem coef_bounds (v : IVec ⟨1, ![E]⟩ 32) (i : Fin N) : 0 ≤ coef v i ∧ coef v i ≠ ⊤ := by
  obtain ⟨r, hr0, hr⟩ := deg_real v i
  unfold coef
  rw [hr, Ideal.ofBits_zero_f32]
  unfold Scalar.select
  split
  · rename_i hc
    have hpos : 0 < r := by
      unfold Ideal.cmp at hc
      by_contra hneg
      have h0 : r = 0 := le_antisymm (not_lt.mp hneg) hr0
      subst h0
      simp at hc
    have hrs : Ideal.rsqrt (r : EReal) = (((Real.sqrt r)⁻¹ : ℝ) : EReal) := by
      show (if r < 0 then (⊥ : EReal) else if r = 0 then ⊤ else (((Real.sqrt r)⁻¹ : ℝ) : EReal)) = _
      rw [if_neg (not_lt.mpr hr0), if_neg (ne_of_gt hpos)]
    rw [hrs]
    exact ⟨EReal.coe_nonneg.mpr (inv_nonneg.mpr (Real.sqrt_nonneg r)), EReal.coe_ne_top _⟩
  · exact ⟨le_refl _, EReal.zero_ne_top⟩

end Cert.GcnRead

end
-- ==== Proof.LibGcnColumn.lean ====
/-
  Gathers and accumulating scatters at a COLUMN of words, read at an index.

  The programs hand the row numbers to a gather or a scatter as an [E, 1] column spread from a length-E vector of
  words. Read at an index, a row gather returns the table's row named by the word (clamped), and an accumulating
  scatter returns the operand's entry plus the sum of the updates whose word, read signed, is the row.
-/
import proofs.«155868_j58506044506617_2_alg».proof.Proof.LibGcnWords

noncomputable section

open scoped BigOperators

namespace Cert.GcnRead

open Idealize.ShloMosaic Idealize.ShloMosaic.ValueIdx Idealize.ShloMosaic.RowGather

variable {N E D : ℕ}

/-- Rows of a table gathered at a column of words. -/
theorem gatherRows_apply {α : Type} (hN : 0 < N)
    (wf : GatherDims.WF ⟨2, ![N, D]⟩ ⟨2, ![E, 1]⟩ ⟨2, ![E, D]⟩ [1] [0] [] [0] [] 1 ![1, D])
    (bc : (⟨1, ![E]⟩ : Shape).BroadcastsInDim ⟨2, ![E, 1]⟩ ![0])
    (X : (⟨2, ![N, D]⟩ : Shape).Idx → α) (v : IVec ⟨1, ![E]⟩ 32) (e : Fin E) (j : Fin D) :
    Host.gather (rowDims N E D wf) X (broadcastInDim ⟨2, ![E, 1]⟩ ![0] bc v) (ix2 e j) = X (ix2 (rowOf hN (v (ix1 e))) j) := by
  rw [rowGather_apply hN wf, LibHostKeepdims.bcast_a_a1_apply]

/-- Entries of a vector gathered at a column of words. -/
theorem gatherVec_apply {α : Type} (hN : 0 < N)
    (wf : GatherDims.WF ⟨1, ![N]⟩ ⟨2, ![E, 1]⟩ ⟨1, ![E]⟩ [] [0] [] [0] [] 1 ![1])
    (bc : (⟨1, ![E]⟩ : Shape).BroadcastsInDim ⟨2, ![E, 1]⟩ ![0])
    (X : (⟨1, ![N]⟩ : Shape).Idx → α) (v : IVec ⟨1, ![E]⟩ 32) (e : Fin E) :
    Host.gather (vecDims N E wf) X (broadcastInDim ⟨2, ![E, 1]⟩ ![0] bc v) (ix1 e) = X (ix1 (rowOf hN (v (ix1 e)))) := by
  rw [vecGather_apply hN wf, LibHostKeepdims.bcast_a_a1_apply]

/-- Rows added up at a column of words. -/
theorem scatterRows_apply (wf : ScatterDims.WF ⟨2, ![N, D]⟩ ⟨2, ![E, 1]⟩ ⟨2, ![E, D]⟩ [1] [0] [0] 1)
    (bc : (⟨1, ![E]⟩ : Shape).BroadcastsInDim ⟨2, ![E, 1]⟩ ![0])
    (Z : FVec Ideal ⟨2, ![N, D]⟩ .f32) (v : IVec ⟨1, ![E]⟩ 32) (U : FVec Ideal ⟨2, ![E, D]⟩ .f32) (i : Fin N) (j : Fin D) :
    Host.scatterAdd (RowScatter.rowDims N E D wf) Z (broadcastInDim ⟨2, ![E, 1]⟩ ![0] bc v) U (ix2 i j)
      = Z (ix2 i j) + ∑ e ∈ Finset.univ.filter (fun e : Fin E => lands v e i), U (ix2 e j) := by
  refine (RowScatter.rowScatterAdd_apply wf Z _ U i j).trans ?_
  congr 1
  refine Finset.sum_congr (Finset.filter_congr fun e _ => ?_) fun _ _ => rfl
  unfold lands
  rw [LibHostKeepdims.bcast_a_a1_apply]

/-- Entries added up at a column of words. -/
theorem scatterVec_apply (wf : ScatterDims.WF ⟨1, ![N]⟩ ⟨2, ![E, 1]⟩ ⟨1, ![E]⟩ [] [0] [0] 1)
    (bc : (⟨1, ![E]⟩ : Shape).BroadcastsInDim ⟨2, ![E, 1]⟩ ![0])
    (Z : FVec Ideal ⟨1, ![N]⟩ .f32) (v : IVec ⟨1, ![E]⟩ 32) (U : FVec Ideal ⟨1, ![E]⟩ .f32) (i : Fin N) :
    Host.scatterAdd (RowScatter.vecDims N E wf) Z (broadcastInDim ⟨2, ![E, 1]⟩ ![0] bc v) U (ix1 i)
      = Z (ix1 i) + ∑ e ∈ Finset.univ.filter (fun e : Fin E => lands v e i), U (ix1 e) := by
  refine (RowScatter.vecScatterAdd_apply wf Z _ U i).trans ?_
  congr 1
  refine Finset.sum_congr (Finset.filter_congr fun e _ => ?_) fun _ _ => rfl
  unfold lands
  rw [LibHostKeepdims.bcast_a_a1_apply]

end Cert.GcnRead

end
-- ==== Proof.LibGcnPieces.lean ====
/-
  The pieces of a message-passing layer read at an index, on the extended reals.

  A scalar spread over an array; rows (or vector entries) gathered at a column of wrapped words; updates added up
  from a zero array at a column of words; and the coefficient vector — the inverse square root of a positive degree,
  zero otherwise — read as the coefficient of a row.
-/
import proofs.«155868_j58506044506617_2_alg».proof.Proof.LibGcnColumn

noncomputable section

open scoped BigOperators

namespace Cert.GcnRead

open Idealize.ShloMosaic Idealize.ShloMosaic.ValueIdx Idealize.ShloMosaic.RowGather

variable {N E D : ℕ}

/-- A float scalar spread over an array reads the scalar everywhere. -/
theorem splat_apply {t : Shape} {φ : FTy} (h : (⟨0, ![]⟩ : Shape).BroadcastsInDim t ![]) (w : BitVec φ.bits) (j : t.Idx) :
    broadcastInDim t ![] h (constant (F := Ideal) ⟨0, ![]⟩ φ w) j = Ideal.ofBits φ w := rfl

/-- A word spread over an array reads the word everywhere. -/
theorem splatI_apply {t : Shape} {w : ℕ} (h : (⟨0, ![]⟩ : Shape).BroadcastsInDim t ![]) (b : BitVec w) (j : t.Idx) :
    broadcastInDim t ![] h (constantI ⟨0, ![]⟩ w b) j = b := rfl

/-- Rows gathered at a column of wrapped words: message e reads the row of its source node. -/
theorem gatherWrapped_apply {α : Type} (hN : 0 < N)
    (wf : GatherDims.WF ⟨2, ![N, D]⟩ ⟨2, ![E, 1]⟩ ⟨2, ![E, D]⟩ [1] [0] [] [0] [] 1 ![1, D])
    (bc : (⟨1, ![E]⟩ : Shape).BroadcastsInDim ⟨2, ![E, 1]⟩ ![0])
    (X : (⟨2, ![N, D]⟩ : Shape).Idx → α) (s z n : IVec ⟨1, ![E]⟩ 32) (e : Fin E) (j : Fin D) :
    Host.gather (rowDims N E D wf) X (broadcastInDim ⟨2, ![E, 1]⟩ ![0] bc (select (cmpi .slt s z) (addi s n) s)) (ix2 e j)
      = X (ix2 (node hN s z n e) j) := by
  rw [gatherRows_apply hN]
  rfl

/-- Vector entries gathered at a column of wrapped words. -/
theorem gatherVecWrapped_apply {α : Type} (hN : 0 < N)
    (wf : GatherDims.WF ⟨1, ![N]⟩ ⟨2, ![E, 1]⟩ ⟨1, ![E]⟩ [] [0] [] [0] [] 1 ![1])
    (bc : (⟨1, ![E]⟩ : Shape).BroadcastsInDim ⟨2, ![E, 1]⟩ ![0])
    (X : (⟨1, ![N]⟩ : Shape).Idx → α) (s z n : IVec ⟨1, ![E]⟩ 32) (e : Fin E) :
    Host.gather (vecDims N E wf) X (broadcastInDim ⟨2, ![E, 1]⟩ ![0] bc (select (cmpi .slt s z) (addi s n) s)) (ix1 e)
      = X (ix1 (node hN s z n e)) := by
  rw [gatherVec_apply hN]
  rfl

/-- Updates added up from the zero array at a column of words. -/
theorem scatterZero_apply (wf : ScatterDims.WF ⟨2, ![N, D]⟩ ⟨2, ![E, 1]⟩ ⟨2, ![E, D]⟩ [1] [0] [0] 1)
    (bc : (⟨1, ![E]⟩ : Shape).BroadcastsInDim ⟨2, ![E, 1]⟩ ![0])
    (bz : (⟨0, ![]⟩ : Shape).BroadcastsInDim ⟨2, ![N, D]⟩ ![])
    (d : IVec ⟨1, ![E]⟩ 32) (U : FVec Ideal ⟨2, ![E, D]⟩ .f32) (i : Fin N) (j : Fin D) :
    Host.scatterAdd (RowScatter.rowDims N E D wf) (broadcastInDim ⟨2, ![N, D]⟩ ![] bz (constant (F := Ideal) ⟨0, ![]⟩ .f32 0x00000000#32))
        (broadcastInDim ⟨2, ![E, 1]⟩ ![0] bc d) U (ix2 i j)
      = 0 + ∑ e ∈ Finset.univ.filter (fun e : Fin E => lands d e i), U (ix2 e j) := by
  rw [scatterRows_apply, splat_apply, Ideal.ofBits_zero_f32]

/-- The coefficient vector read at a row. -/
theorem coefVec_apply (wf : ScatterDims.WF ⟨1, ![N]⟩ ⟨2, ![E, 1]⟩ ⟨1, ![E]⟩ [] [0] [0] 1)
    (bc : (⟨1, ![E]⟩ : Shape).BroadcastsInDim ⟨2, ![E, 1]⟩ ![0])
    (bzN : (⟨0, ![]⟩ : Shape).BroadcastsInDim ⟨1, ![N]⟩ ![]) (bzE : (⟨0, ![]⟩ : Shape).BroadcastsInDim ⟨1, ![E]⟩ ![])
    (d : IVec ⟨1, ![E]⟩ 32) (i : Fin N) :
    select
        (cmpf (F := Ideal) .ogt
          (Host.scatterAdd (RowScatter.vecDims N E wf) (broadcastInDim ⟨1, ![N]⟩ ![] bzN (constant (F := Ideal) ⟨0, ![]⟩ .f32 0x00000000#32))
            (broadcastInDim ⟨2, ![E, 1]⟩ ![0] bc d) (broadcastInDim ⟨1, ![E]⟩ ![] bzE (constant (F := Ideal) ⟨0, ![]⟩ .f32 0x3F800000#32)))
          (broadcastInDim ⟨1, ![N]⟩ ![] bzN (constant (F := Ideal) ⟨0, ![]⟩ .f32 0x00000000#32)))
        (Host.rsqrt (F := Ideal)
          (Host.scatterAdd (RowScatter.vecDims N E wf) (broadcastInDim ⟨1, ![N]⟩ ![] bzN (constant (F := Ideal) ⟨0, ![]⟩ .f32 0x00000000#32))
            (broadcastInDim ⟨2, ![E, 1]⟩ ![0] bc d) (broadcastInDim ⟨1, ![E]⟩ ![] bzE (constant (F := Ideal) ⟨0, ![]⟩ .f32 0x3F800000#32))))
        (broadcastInDim ⟨1, ![N]⟩ ![] bzN (constant (F := Ideal) ⟨0, ![]⟩ .f32 0x00000000#32)) (ix1 i)
      = coef d i := by
  have hdeg : Host.scatterAdd (RowScatter.vecDims N E wf) (broadcastInDim ⟨1, ![N]⟩ ![] bzN (constant (F := Ideal) ⟨0, ![]⟩ .f32 0x00000000#32))
      (broadcastInDim ⟨2, ![E, 1]⟩ ![0] bc d) (broadcastInDim ⟨1, ![E]⟩ ![] bzE (constant (F := Ideal) ⟨0, ![]⟩ .f32 0x3F800000#32)) (ix1 i)
      = deg d i := by
    rw [scatterVec_apply]
    rfl
  rw [select_apply, cmpf_apply]
  show Scalar.select (Ideal.cmp .ogt _ (Ideal.ofBits .f32 0x00000000#32)) (Ideal.rsqrt _) (Ideal.ofBits .f32 0x00000000#32) = _
  rw [hdeg]
  rfl

end Cert.GcnRead

end
-- ==== Proof.LibSplitSum.lean ====
/-
  A filtered sum over an index set cut in two.

  The indices below n = a + b are the first a indices followed by b more. A sum over those indices that satisfy a
  predicate is the sum over the first part plus the sum over the second part; and when the second part holds exactly
  one index that satisfies the predicate, its sum is that one term.
-/
import Mathlib.Algebra.BigOperators.Fin
import Mathlib.Algebra.BigOperators.Group.Finset.Basic

open scoped BigOperators

namespace Cert.SplitSum

variable {M : Type} [AddCommMonoid M]

/-- The index e < a of the first part, among the n indices. -/
abbrev inl {a b n : ℕ} (h : a + b = n) (e : Fin a) : Fin n := ⟨e.val, by have := e.isLt; omega⟩

/-- The index a + j of the second part, among the n indices. -/
abbrev inr {a b n : ℕ} (h : a + b = n) (j : Fin b) : Fin n := ⟨a + j.val, by have := j.isLt; omega⟩

/-- A filtered sum over n = a + b indices is the filtered sum over the first a plus the filtered sum over the last b. -/
theorem sum_filter_split {a b n : ℕ} (h : a + b = n) (P : Fin n → Prop) [DecidablePred P] (f : Fin n → M) :
    ∑ e ∈ Finset.univ.filter P, f e
      = (∑ e ∈ Finset.univ.filter (fun e : Fin a => P (inl h e)), f (inl h e))
        + ∑ j ∈ Finset.univ.filter (fun j : Fin b => P (inr h j)), f (inr h j) := by
  subst h
  simp only [Finset.sum_filter]
  exact Fin.sum_univ_add (fun e => if P e then f e else 0)

/-- A filtered sum over b indices of which exactly the index i satisfies the predicate is the term at i. -/
theorem sum_filter_single {b : ℕ} (i : Fin b) (P : Fin b → Prop) [DecidablePred P] (hP : ∀ j, P j ↔ j = i) (l : Fin b → M) :
    ∑ j ∈ Finset.univ.filter P, l j = l i := by
  have : Finset.univ.filter P = {i} := by
    ext j
    simp [hP j]
  rw [this, Finset.sum_singleton]

/-- The two together: a filtered sum over a + b indices whose first part agrees term by term with a sum over a indices
    and whose second part delivers only the term of index i. -/
theorem sum_filter_loop {a b n : ℕ} (h : a + b = n) (P : Fin n → Prop) [DecidablePred P] (Q : Fin a → Prop) [DecidablePred Q]
    (i : Fin b) (f : Fin n → M) (g : Fin a → M) (l : Fin b → M)
    (hP1 : ∀ e, P (inl h e) ↔ Q e) (hP2 : ∀ j, P (inr h j) ↔ j = i)
    (hf1 : ∀ e, f (inl h e) = g e) (hf2 : ∀ j, f (inr h j) = l j) :
    ∑ e ∈ Finset.univ.filter P, f e = (∑ e ∈ Finset.univ.filter Q, g e) + l i := by
  rw [sum_filter_split h P f]
  congr 1
  · exact Finset.sum_congr (Finset.filter_congr fun e _ => hP1 e) fun e _ => hf1 e
  · rw [sum_filter_single i _ hP2 (fun j => f (inr h j))]
    exact hf2 i

end Cert.SplitSum
-- ==== Proof.LibPadRows.lean ====
/-
  The host's pad that appends entries at the END of axis 0, read at an index, for any element type.

  With low padding 0, interior padding 0 and high padding p on axis 0 (and no padding on a second axis), the
  padded array keeps the operand's entry at every index whose axis-0 coordinate is below the operand's extent n,
  and holds the padding value — the one entry of the padding operand — at every index from n on. Stated for a
  vector of n entries padded to m, and for an n×d matrix padded to m×d along its rows.
-/
import Idealize.ShloMosaic.PureOps.ShapeOps
import Idealize.ShloMosaic.Lib.ValueIdx
import Idealize.ShloMosaic.Lib.Pipeline.Value
import Idealize.ShloMosaic.Lib.KernelVsHost

noncomputable section

namespace Cert.PadRows

open Idealize.ShloMosaic Idealize.ShloMosaic.ValueIdx

variable {α : Type}

/-- A vector padded at its end, read below the operand's length: the operand's entry. -/
theorem padVec_lt {n m p : Nat} (x : (⟨1, ![n]⟩ : Shape).Idx → α) {u : Shape} (v : u.Idx → α)
    (h : (⟨1, ![n]⟩ : Shape).Pads (![0] : Fin 1 → Nat) ![p] ![0] ⟨1, ![m]⟩) (hu : 0 < u.numel)
    (e : Fin m) (he : e.val < n) :
    pad ⟨1, ![m]⟩ ![0] ![p] ![0] x v h hu (ix1 e) = x (ix1 ⟨e.val, he⟩) :=
  pad_apply_of_inside _ _ _ x v h hu (ix1 e) (ix1 (⟨e.val, he⟩ : Fin n)) (by
    intro a
    have ha : a = 0 := Subsingleton.elim _ _
    subst ha
    show e.val = 0 + e.val * (0 + 1); omega)

/-- A vector padded at its end, read from the operand's length on: the padding value. -/
theorem padVec_ge {n m p : Nat} (x : (⟨1, ![n]⟩ : Shape).Idx → α) {u : Shape} (v : u.Idx → α)
    (h : (⟨1, ![n]⟩ : Shape).Pads (![0] : Fin 1 → Nat) ![p] ![0] ⟨1, ![m]⟩) (hu : 0 < u.numel)
    (e : Fin m) (he : n ≤ e.val) :
    pad ⟨1, ![m]⟩ ![0] ![p] ![0] x v h hu (ix1 e) = v (Shape.Idx.first hu) :=
  pad_apply_of_not_inside _ _ _ x v h hu (ix1 e) (0 : Fin 1) (by
    intro hin
    have e3 : (e.val - 0) / (0 + 1) < n := hin.2.2
    rw [Nat.sub_zero, Nat.zero_add, Nat.div_one] at e3
    omega)

/-- A matrix padded with rows at its end, read at a row below the operand's row count: the operand's entry. -/
theorem padRows_lt {n m p d : Nat} (x : (⟨2, ![n, d]⟩ : Shape).Idx → α) {u : Shape} (v : u.Idx → α)
    (h : (⟨2, ![n, d]⟩ : Shape).Pads (![0, 0] : Fin 2 → Nat) ![p, 0] ![0, 0] ⟨2, ![m, d]⟩) (hu : 0 < u.numel)
    (e : Fin m) (j : Fin d) (he : e.val < n) :
    pad ⟨2, ![m, d]⟩ ![0, 0] ![p, 0] ![0, 0] x v h hu (ix2 e j) = x (ix2 ⟨e.val, he⟩ j) :=
  pad_apply_of_inside _ _ _ x v h hu (ix2 e j) (ix2 (⟨e.val, he⟩ : Fin n) j) (by
    intro a
    match a with
    | ⟨0, _⟩ => show e.val = 0 + e.val * (0 + 1); omega
    | ⟨1, _⟩ => show j.val = 0 + j.val * (0 + 1); omega)

/-- A matrix padded with rows at its end, read at a row from the operand's row count on: the padding value. -/
theorem padRows_ge {n m p d : Nat} (x : (⟨2, ![n, d]⟩ : Shape).Idx → α) {u : Shape} (v : u.Idx → α)
    (h : (⟨2, ![n, d]⟩ : Shape).Pads (![0, 0] : Fin 2 → Nat) ![p, 0] ![0, 0] ⟨2, ![m, d]⟩) (hu : 0 < u.numel)
    (e : Fin m) (j : Fin d) (he : n ≤ e.val) :
    pad ⟨2, ![m, d]⟩ ![0, 0] ![p, 0] ![0, 0] x v h hu (ix2 e j) = v (Shape.Idx.first hu) :=
  pad_apply_of_not_inside _ _ _ x v h hu (ix2 e j) (0 : Fin 2) (by
    intro hin
    have e3 : (e.val - 0) / (0 + 1) < n := hin.2.2
    rw [Nat.sub_zero, Nat.zero_add, Nat.div_one] at e3
    omega)

end Cert.PadRows

end
-- ==== Proof.LibKeepdims.lean ====
/-
  Small layout operations and one-axis sums of a matrix, read at an index: a vector turned into a column
  ([a] → [a, 1]), a column broadcast along its rows ([a, 1] → [a, b]), the sum of a matrix along its rows
  ([a, b] → [a], at `i` the sum over `k` of the entries `(i, k)`) and the sum of a column ([a, 1] → [1]), the two
  sums at the ideal values, where a float sum is the sum of the extended reals.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the ideal values the sum of an `[a, b]` matrix along its rows is, at `i`, the sum over `k` of the entries `(i, k)`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src (funext fun ax => Fin.ext ?_)
  match ax with
  | ⟨0, _⟩ => rfl
  | ⟨1, _⟩ => rfl

/-- At the ideal values the sum of an `[a, 1]` column is, at its one index, the sum over `r` of the entries `(r, 0)`. -/
theorem colSum_apply {a : ℕ} {φ : FTy} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ) (u : Fin 1) :
    multiReduction .add [0] ⟨1, ![1]⟩ src acc h hφ hacc (ix1 u) = ∑ r : Fin a, src (ix2 r (0 : Fin 1)) := by
  refine (Ideal.multiReduction_add_single src acc h hφ hacc (ix1 u)).trans ?_
  refine Finset.sum_congr rfl fun r _ => congrArg src (funext fun ax => Fin.ext ?_)
  have hu : u.val = 0 := by omega
  match ax with
  | ⟨0, _⟩ => rfl
  | ⟨1, _⟩ => exact hu

end Cert.LibKeepdims

end
-- ==== Proof.PaddedLayer.lean ====
/-
  A message-passing layer over a message list padded to a whole number of blocks equals the layer over the list itself.

  The layer adds to row i of a zero table every message whose target word, read signed, is i, then adds the bias. In the
  padded form the list of E messages is followed by P more: their target word is 0, their gathered row is zero and
  their coefficient is zero, so each of them carries the term 0 · 0 = 0; they add zero to row 0 and nothing
  elsewhere. The first E messages carry, in the padded form, the gathered row times the coefficient, and in the plain
  form the coefficient times the gathered row: the same extended real, multiplication being commutative. A filtered
  sum over E + P indices is the filtered sum over the first E plus the one over the last P, which is zero.
-/
import proofs.«155868_j58506044506617_2_alg».proof.Proof.KerSpec
import proofs.«155868_j58506044506617_2_alg».proof.Proof.RefSpec
import proofs.«155868_j58506044506617_2_alg».proof.Proof.RegionValues
import proofs.«155868_j58506044506617_2_alg».proof.Proof.LibGcnPieces
import proofs.«155868_j58506044506617_2_alg».proof.Proof.LibSplitSum
import proofs.«155868_j58506044506617_2_alg».proof.Proof.LibPadRows
import proofs.«155868_j58506044506617_2_alg».proof.Proof.LibKeepdims
import proofs.«155868_j58506044506617_2_alg».proof.Proof.LibHostKeepdims

set_option maxRecDepth 16384

noncomputable section

open scoped BigOperators

namespace Cert.PaddedLayer

open Idealize.ShloMosaic Idealize.ShloMosaic.ValueIdx
open Cert.KernelIdeal.RegVal (scaleRows)

variable {N E P M D : ℕ}

/-- The float made from the word zero is zero. -/
theorem sitofp_zero_apply (j : (⟨0, ![]⟩ : Shape).Idx) :
    (sitofp (F := Ideal) .f32 (constantI ⟨0, ![]⟩ 32 0#32) : FVec Ideal ⟨0, ![]⟩ .f32) j = 0 := by
  show (((0#32 : BitVec 32).toInt : ℝ) : EReal) = 0
  simp

/-- The padded target list keeps the target word of each of the first E messages. -/
theorem colsP_lt (hM : E + P = M) (cols : IVec ⟨1, ![E]⟩ 32)
    (hpV : (⟨1, ![E]⟩ : Shape).Pads (![0] : Fin 1 → Nat) ![P] ![0] ⟨1, ![M]⟩) (hu : 0 < (⟨0, ![]⟩ : Shape).numel)
    (e : Fin E) :
    pad ⟨1, ![M]⟩ ![0] ![P] ![0] cols (constantI ⟨0, ![]⟩ 32 0#32) hpV hu (ix1 (SplitSum.inl hM e)) = cols (ix1 e) :=
  PadRows.padVec_lt cols _ hpV hu (SplitSum.inl hM e) e.isLt

/-- The padded message of each of the first E: the gathered row times the coefficient. -/
theorem msg_lt (hM : E + P = M) (nrm : FVec Ideal ⟨1, ![E]⟩ .f32) (G : FVec Ideal ⟨2, ![E, D]⟩ .f32)
    (hpV : (⟨1, ![E]⟩ : Shape).Pads (![0] : Fin 1 → Nat) ![P] ![0] ⟨1, ![M]⟩)
    (hpR : (⟨2, ![E, D]⟩ : Shape).Pads (![0, 0] : Fin 2 → Nat) ![P, 0] ![0, 0] ⟨2, ![M, D]⟩)
    (hsc : (⟨1, ![M]⟩ : Shape).ShapeCasts ⟨2, ![M, 1]⟩) (hu : 0 < (⟨0, ![]⟩ : Shape).numel) (e : Fin E) (j : Fin D) :
    scaleRows M D (pad ⟨2, ![M, D]⟩ ![0, 0] ![P, 0] ![0, 0] G (sitofp (F := Ideal) .f32 (constantI ⟨0, ![]⟩ 32 0#32)) hpR hu)
        (shapeCast ⟨2, ![M, 1]⟩ (pad ⟨1, ![M]⟩ ![0] ![P] ![0] nrm (sitofp (F := Ideal) .f32 (constantI ⟨0, ![]⟩ 32 0#32)) hpV hu) hsc)
        (ix2 (SplitSum.inl hM e) j)
      = G (ix2 e j) * nrm (ix1 e) := by
  refine (Cert.KernelIdeal.RegVal.scaleRows_apply M D _ _ (SplitSum.inl hM e) j).trans ?_
  refine congrArg₂ (· * ·) ?_ ?_
  · exact PadRows.padRows_lt G _ hpR hu (SplitSum.inl hM e) j e.isLt
  · refine (LibKeepdims.shapeCast_a_a1_apply _ hsc (SplitSum.inl hM e) (0 : Fin 1)).trans ?_
    exact PadRows.padVec_lt nrm _ hpV hu (SplitSum.inl hM e) e.isLt

/-- The padded message of each of the last P is zero. -/
theorem msg_ge (hM : E + P = M) (nrm : FVec Ideal ⟨1, ![E]⟩ .f32) (G : FVec Ideal ⟨2, ![E, D]⟩ .f32)
    (hpV : (⟨1, ![E]⟩ : Shape).Pads (![0] : Fin 1 → Nat) ![P] ![0] ⟨1, ![M]⟩)
    (hpR : (⟨2, ![E, D]⟩ : Shape).Pads (![0, 0] : Fin 2 → Nat) ![P, 0] ![0, 0] ⟨2, ![M, D]⟩)
    (hsc : (⟨1, ![M]⟩ : Shape).ShapeCasts ⟨2, ![M, 1]⟩) (hu : 0 < (⟨0, ![]⟩ : Shape).numel) (p : Fin P) (j : Fin D) :
    scaleRows M D (pad ⟨2, ![M, D]⟩ ![0, 0] ![P, 0] ![0, 0] G (sitofp (F := Ideal) .f32 (constantI ⟨0, ![]⟩ 32 0#32)) hpR hu)
        (shapeCast ⟨2, ![M, 1]⟩ (pad ⟨1, ![M]⟩ ![0] ![P] ![0] nrm (sitofp (F := Ideal) .f32 (constantI ⟨0, ![]⟩ 32 0#32)) hpV hu) hsc)
        (ix2 (SplitSum.inr hM p) j)
      = 0 := by
  refine (Cert.KernelIdeal.RegVal.scaleRows_apply M D _ _ (SplitSum.inr hM p) j).trans ?_
  have h0 : pad ⟨2, ![M, D]⟩ ![0, 0] ![P, 0] ![0, 0] G (sitofp (F := Ideal) .f32 (constantI ⟨0, ![]⟩ 32 0#32)) hpR hu
      (ix2 (SplitSum.inr hM p) j) = 0 :=
    (PadRows.padRows_ge G _ hpR hu (SplitSum.inr hM p) j (Nat.le_add_right E p.val)).trans (sitofp_zero_apply _)
  rw [h0, zero_mul]

/-- THE PADDED ACCUMULATION IS THE PLAIN ONE, entry by entry. -/
theorem padded_scatter_eq (hM : E + P = M)
    (wfK : ScatterDims.WF ⟨2, ![N, D]⟩ ⟨2, ![M, 1]⟩ ⟨2, ![M, D]⟩ [1] [0] [0] 1)
    (wfR : ScatterDims.WF ⟨2, ![N, D]⟩ ⟨2, ![E, 1]⟩ ⟨2, ![E, D]⟩ [1] [0] [0] 1)
    (bcK : (⟨1, ![M]⟩ : Shape).BroadcastsInDim ⟨2, ![M, 1]⟩ ![0])
    (bcR : (⟨1, ![E]⟩ : Shape).BroadcastsInDim ⟨2, ![E, 1]⟩ ![0])
    (bzK bzR : (⟨0, ![]⟩ : Shape).BroadcastsInDim ⟨2, ![N, D]⟩ ![])
    (hpV : (⟨1, ![E]⟩ : Shape).Pads (![0] : Fin 1 → Nat) ![P] ![0] ⟨1, ![M]⟩)
    (hpR : (⟨2, ![E, D]⟩ : Shape).Pads (![0, 0] : Fin 2 → Nat) ![P, 0] ![0, 0] ⟨2, ![M, D]⟩)
    (hsc : (⟨1, ![M]⟩ : Shape).ShapeCasts ⟨2, ![M, 1]⟩)
    (hb1 : (⟨1, ![E]⟩ : Shape).BroadcastsInDim ⟨2, ![E, 1]⟩ ![0])
    (hb2 : (⟨2, ![E, 1]⟩ : Shape).BroadcastsInDim ⟨2, ![E, D]⟩ ![0, 1])
    (hu : 0 < (⟨0, ![]⟩ : Shape).numel)
    (nrm : FVec Ideal ⟨1, ![E]⟩ .f32) (cols : IVec ⟨1, ![E]⟩ 32) (G : FVec Ideal ⟨2, ![E, D]⟩ .f32)
    (i : Fin N) (j : Fin D) :
    Host.scatterAdd (RowScatter.rowDims N M D wfK)
        (broadcastInDim ⟨2, ![N, D]⟩ ![] bzK (constant (F := Ideal) ⟨0, ![]⟩ .f32 0x00000000#32))
        (broadcastInDim ⟨2, ![M, 1]⟩ ![0] bcK (pad ⟨1, ![M]⟩ ![0] ![P] ![0] cols (constantI ⟨0, ![]⟩ 32 0#32) hpV hu))
        (scaleRows M D (pad ⟨2, ![M, D]⟩ ![0, 0] ![P, 0] ![0, 0] G (sitofp (F := Ideal) .f32 (constantI ⟨0, ![]⟩ 32 0#32)) hpR hu)
          (shapeCast ⟨2, ![M, 1]⟩ (pad ⟨1, ![M]⟩ ![0] ![P] ![0] nrm (sitofp (F := Ideal) .f32 (constantI ⟨0, ![]⟩ 32 0#32)) hpV hu) hsc))
        (ix2 i j)
      = Host.scatterAdd (RowScatter.rowDims N E D wfR)
          (broadcastInDim ⟨2, ![N, D]⟩ ![] bzR (constant (F := Ideal) ⟨0, ![]⟩ .f32 0x00000000#32))
          (broadcastInDim ⟨2, ![E, 1]⟩ ![0] bcR cols)
          (mulf (broadcastInDim ⟨2, ![E, D]⟩ ![0, 1] hb2 (broadcastInDim ⟨2, ![E, 1]⟩ ![0] hb1 nrm)) G)
          (ix2 i j) := by
  refine (GcnRead.scatterZero_apply wfK bcK bzK _ _ i j).trans ?_
  refine Eq.trans ?_ (GcnRead.scatterZero_apply wfR bcR bzR _ _ i j).symm
  refine congrArg (0 + ·) ?_
  refine (SplitSum.sum_filter_split hM _ _).trans ?_
  have h2 : ∀ p ∈ Finset.univ.filter (fun p : Fin P => GcnRead.lands
      (pad ⟨1, ![M]⟩ ![0] ![P] ![0] cols (constantI ⟨0, ![]⟩ 32 0#32) hpV hu) (SplitSum.inr hM p) i),
      scaleRows M D (pad ⟨2, ![M, D]⟩ ![0, 0] ![P, 0] ![0, 0] G (sitofp (F := Ideal) .f32 (constantI ⟨0, ![]⟩ 32 0#32)) hpR hu)
        (shapeCast ⟨2, ![M, 1]⟩ (pad ⟨1, ![M]⟩ ![0] ![P] ![0] nrm (sitofp (F := Ideal) .f32 (constantI ⟨0, ![]⟩ 32 0#32)) hpV hu) hsc)
        (ix2 (SplitSum.inr hM p) j) = 0 :=
    fun p _ => msg_ge hM nrm G hpV hpR hsc hu p j
  rw [Finset.sum_eq_zero h2, add_zero]
  refine Finset.sum_congr (Finset.filter_congr fun e _ => ?_) fun e _ => ?_
  · unfold GcnRead.lands
    rw [colsP_lt hM cols hpV hu e]
  · refine (msg_lt hM nrm G hpV hpR hsc hu e j).trans ?_
    refine Eq.trans (mul_comm _ _) ?_
    refine Eq.symm ((mulf_apply _ _ _).trans ?_)
    exact congrArg (· * G (ix2 e j))
      ((LibHostKeepdims.bcast_a1_ab_apply hb2 _ e j).trans (LibHostKeepdims.bcast_a_a1_apply hb1 _ e (0 : Fin 1)))

/-- The width-128 layer over the padded messages is the reference's layer. -/
theorem layer128_bridge (nrm : FVec Ideal Cert.ReferenceIdeal.S1650000 .f32) (rows cols : IVec Cert.ReferenceIdeal.S1650000 32)
    (hx : FVec Ideal Cert.ReferenceIdeal.S50000x128 .f32) (b : FVec Ideal Cert.ReferenceIdeal.S128 .f32) :
    KerSpec.layerK128 (scaleRows 1654784 128 (KerSpec.gathPad128 hx rows) (KerSpec.padNorm nrm)) (KerSpec.padCols cols) b
      = RefSpec.layer128 nrm rows cols hx b := by
  have key : ∀ (i : Fin 50000) (j : Fin 128),
      KerSpec.layerK128 (scaleRows 1654784 128 (KerSpec.gathPad128 hx rows) (KerSpec.padNorm nrm)) (KerSpec.padCols cols) b
          (ix2 i j)
        = RefSpec.layer128 nrm rows cols hx b (ix2 i j) := by
    intro i j
    unfold KerSpec.layerK128 KerSpec.gathPad128 KerSpec.padNorm KerSpec.padCols RefSpec.layer128
    refine (addf_apply _ _ _).trans ?_
    refine Eq.trans ?_ (addf_apply _ _ _).symm
    refine congrArg₂ (· + ·) ?_ rfl
    exact padded_scatter_eq (N := 50000) (E := 1650000) (P := 4784) (M := 1654784) (D := 128) (by norm_num)
      _ _ _ _ _ _ _ _ _ _ _ _ nrm cols _ i j
  funext idx
  rw [eq_ix2 idx]
  exact key (idx 0) (idx 1)

/-- The width-16 layer over the padded messages is the reference's layer. -/
theorem layer16_bridge (nrm : FVec Ideal Cert.ReferenceIdeal.S1650000 .f32) (rows cols : IVec Cert.ReferenceIdeal.S1650000 32)
    (hx : FVec Ideal Cert.ReferenceIdeal.S50000x16 .f32) (b : FVec Ideal Cert.ReferenceIdeal.S16 .f32) :
    KerSpec.layerK16 (scaleRows 1654784 16 (KerSpec.gathPad16 hx rows) (KerSpec.padNorm nrm)) (KerSpec.padCols cols) b
      = RefSpec.layer16 nrm rows cols hx b := by
  have key : ∀ (i : Fin 50000) (j : Fin 16),
      KerSpec.layerK16 (scaleRows 1654784 16 (KerSpec.gathPad16 hx rows) (KerSpec.padNorm nrm)) (KerSpec.padCols cols) b
          (ix2 i j)
        = RefSpec.layer16 nrm rows cols hx b (ix2 i j) := by
    intro i j
    unfold KerSpec.layerK16 KerSpec.gathPad16 KerSpec.padNorm KerSpec.padCols RefSpec.layer16
    refine (addf_apply _ _ _).trans ?_
    refine Eq.trans ?_ (addf_apply _ _ _).symm
    refine congrArg₂ (· + ·) ?_ rfl
    exact padded_scatter_eq (N := 50000) (E := 1650000) (P := 4784) (M := 1654784) (D := 16) (by norm_num)
      _ _ _ _ _ _ _ _ _ _ _ _ nrm cols _ i j
  funext idx
  rw [eq_ix2 idx]
  exact key (idx 0) (idx 1)

end Cert.PaddedLayer

end
-- ==== Proof.KerLayers.lean ====
/-
  The kernel program's values from the launch to its output rows: what each buffer holds after each stretch of host
  operations and each region, as the whole-array functions of the arguments that the reference's stages are.
-/
import proofs.«155868_j58506044506617_2_alg».proof.Proof.Gen.KernelIdeal.Frame
import Idealize.ShloMosaic.Lib.StableHlo.Run
import proofs.«155868_j58506044506617_2_alg».proof.Proof.KerSpec
import proofs.«155868_j58506044506617_2_alg».proof.Proof.RefSpec
import proofs.«155868_j58506044506617_2_alg».proof.Proof.RegionValues
import proofs.«155868_j58506044506617_2_alg».proof.Proof.ProdBridge
import proofs.«155868_j58506044506617_2_alg».proof.Proof.PaddedLayer

set_option maxRecDepth 16384

noncomputable section

namespace Cert.KerLayers

open Cert.KernelIdeal Cert.KernelIdeal.Gen Idealize.ShloMosaic Idealize.ShloMosaic.TcCoe Idealize.SL.Sem
open Idealize.ShloMosaic.StableHlo

macro "results_rw" : tactic => `(tactic| repeat (first | rw [nullary_result] | rw [unary_result] | rw [binary_result] | rw [ternary_result] | rw [reshape_result] | (rw [nullary_result_ne]; rotate_left; decide) | (rw [unary_result_ne]; rotate_left; decide) | (rw [binary_result_ne]; rotate_left; decide) | (rw [ternary_result_ne]; rotate_left; decide) | (rw [reshape_result_ne]; rotate_left; decide)))

/-! ## A buffer a stretch does not write keeps its contents -/

theorem keep_hostOps0 (V : Valuation τ sig (Elt Ideal)) (r : Ref sig .tc)
    (hr : r ∉ [main_v0, main_v1, main_v2, main_v3, main_v4, main_v5, main_v6, main_cst, main_v7, main_v8, main_cst_0, main_v9, main_v10, main_v11, main_cst_1, main_v12, main_v13, main_cst_2, main_v14, main_v15, main_cst_3]) :
    StableHlo.after hostOps0 V (Proc.devRef .tc r) = V (Proc.devRef .tc r) := by
  refine StableHlo.after_of_forall_not_mem (b := Proc.devRef .tc r) _ _ (List.forall_iff_forall_mem.mp ?_)
  simp only [hostOps0, List.Forall, StableHlo.nullary_writes, StableHlo.unary_writes, StableHlo.binary_writes, StableHlo.ternary_writes, StableHlo.reshape_writes, Finset.mem_singleton]
  simp only [List.mem_cons, List.not_mem_nil, or_false, not_or] at hr
  obtain ⟨h0, h1, h2, h3, h4, h5, h6, h7, h8, h9, h10, h11, h12, h13, h14, h15, h16, h17, h18, h19, h20⟩ := hr
  exact ⟨devRef_ne_of_ne h0, devRef_ne_of_ne h1, devRef_ne_of_ne h2, devRef_ne_of_ne h3, devRef_ne_of_ne h4, devRef_ne_of_ne h5, devRef_ne_of_ne h6, devRef_ne_of_ne h7, devRef_ne_of_ne h8, devRef_ne_of_ne h9, devRef_ne_of_ne h10, devRef_ne_of_ne h11, devRef_ne_of_ne h12, devRef_ne_of_ne h13, devRef_ne_of_ne h14, devRef_ne_of_ne h15, devRef_ne_of_ne h16, devRef_ne_of_ne h17, devRef_ne_of_ne h18, devRef_ne_of_ne h19, devRef_ne_of_ne h20⟩

theorem keep_hostOps0_1 (V : Valuation τ sig (Elt Ideal)) (r : Ref sig .tc)
    (hr : r ∉ [main_call0_v0, main_call0_v1, main_v16]) :
    StableHlo.after hostOps0_1 V (Proc.devRef .tc r) = V (Proc.devRef .tc r) := by
  refine StableHlo.after_of_forall_not_mem (b := Proc.devRef .tc r) _ _ (List.forall_iff_forall_mem.mp ?_)
  simp only [hostOps0_1, List.Forall, StableHlo.nullary_writes, StableHlo.unary_writes, StableHlo.binary_writes, StableHlo.ternary_writes, StableHlo.reshape_writes, Finset.mem_singleton]
  simp only [List.mem_cons, List.not_mem_nil, or_false, not_or] at hr
  obtain ⟨h0, h1, h2⟩ := hr
  exact ⟨devRef_ne_of_ne h0, devRef_ne_of_ne h1, devRef_ne_of_ne h2⟩

theorem keep_hostOps0_2 (V : Valuation τ sig (Elt Ideal)) (r : Ref sig .tc)
    (hr : r ∉ [main_c, main_v17, main_v18, main_c_4, main_v19, main_v20, main_v21, main_v22, main_v23, main_v24, main_c_5, main_v25, main_v26, main_c_6, main_v27, main_v28, main_v29, main_v30, main_v31, main_v32, main_c_7]) :
    StableHlo.after hostOps0_2 V (Proc.devRef .tc r) = V (Proc.devRef .tc r) := by
  refine StableHlo.after_of_forall_not_mem (b := Proc.devRef .tc r) _ _ (List.forall_iff_forall_mem.mp ?_)
  simp only [hostOps0_2, List.Forall, StableHlo.nullary_writes, StableHlo.unary_writes, StableHlo.binary_writes, StableHlo.ternary_writes, StableHlo.reshape_writes, Finset.mem_singleton]
  simp only [List.mem_cons, List.not_mem_nil, or_false, not_or] at hr
  obtain ⟨h0, h1, h2, h3, h4, h5, h6, h7, h8, h9, h10, h11, h12, h13, h14, h15, h16, h17, h18, h19, h20⟩ := hr
  exact ⟨devRef_ne_of_ne h0, devRef_ne_of_ne h1, devRef_ne_of_ne h2, devRef_ne_of_ne h3, devRef_ne_of_ne h4, devRef_ne_of_ne h5, devRef_ne_of_ne h6, devRef_ne_of_ne h7, devRef_ne_of_ne h8, devRef_ne_of_ne h9, devRef_ne_of_ne h10, devRef_ne_of_ne h11, devRef_ne_of_ne h12, devRef_ne_of_ne h13, devRef_ne_of_ne h14, devRef_ne_of_ne h15, devRef_ne_of_ne h16, devRef_ne_of_ne h17, devRef_ne_of_ne h18, devRef_ne_of_ne h19, devRef_ne_of_ne h20⟩

theorem keep_hostOps0_3 (V : Valuation τ sig (Elt Ideal)) (r : Ref sig .tc)
    (hr : r ∉ [main_call1_v0, main_v33]) :
    StableHlo.after hostOps0_3 V (Proc.devRef .tc r) = V (Proc.devRef .tc r) := by
  refine StableHlo.after_of_forall_not_mem (b := Proc.devRef .tc r) _ _ (List.forall_iff_forall_mem.mp ?_)
  simp only [hostOps0_3, List.Forall, StableHlo.nullary_writes, StableHlo.unary_writes, StableHlo.binary_writes, StableHlo.ternary_writes, StableHlo.reshape_writes, Finset.mem_singleton]
  simp only [List.mem_cons, List.not_mem_nil, or_false, not_or] at hr
  obtain ⟨h0, h1⟩ := hr
  exact ⟨devRef_ne_of_ne h0, devRef_ne_of_ne h1⟩

theorem keep_hostOps0_4 (V : Valuation τ sig (Elt Ideal)) (r : Ref sig .tc)
    (hr : r ∉ [main_v34, main_c_8]) :
    StableHlo.after hostOps0_4 V (Proc.devRef .tc r) = V (Proc.devRef .tc r) := by
  refine StableHlo.after_of_forall_not_mem (b := Proc.devRef .tc r) _ _ (List.forall_iff_forall_mem.mp ?_)
  simp only [hostOps0_4, List.Forall, StableHlo.nullary_writes, StableHlo.unary_writes, StableHlo.binary_writes, StableHlo.ternary_writes, StableHlo.reshape_writes, Finset.mem_singleton]
  simp only [List.mem_cons, List.not_mem_nil, or_false, not_or] at hr
  obtain ⟨h0, h1⟩ := hr
  exact ⟨devRef_ne_of_ne h0, devRef_ne_of_ne h1⟩

theorem keep_hostOps0_5 (V : Valuation τ sig (Elt Ideal)) (r : Ref sig .tc)
    (hr : r ∉ [main_call2_v0, main_v35]) :
    StableHlo.after hostOps0_5 V (Proc.devRef .tc r) = V (Proc.devRef .tc r) := by
  refine StableHlo.after_of_forall_not_mem (b := Proc.devRef .tc r) _ _ (List.forall_iff_forall_mem.mp ?_)
  simp only [hostOps0_5, List.Forall, StableHlo.nullary_writes, StableHlo.unary_writes, StableHlo.binary_writes, StableHlo.ternary_writes, StableHlo.reshape_writes, Finset.mem_singleton]
  simp only [List.mem_cons, List.not_mem_nil, or_false, not_or] at hr
  obtain ⟨h0, h1⟩ := hr
  exact ⟨devRef_ne_of_ne h0, devRef_ne_of_ne h1⟩

theorem keep_hostOps1 (V : Valuation τ sig (Elt Ideal)) (r : Ref sig .tc)
    (hr : r ∉ [main_c_9, main_v37, main_v38, main_c_10, main_v39, main_v40, main_v41, main_v42, main_v43, main_c_11]) :
    StableHlo.after hostOps1 V (Proc.devRef .tc r) = V (Proc.devRef .tc r) := by
  refine StableHlo.after_of_forall_not_mem (b := Proc.devRef .tc r) _ _ (List.forall_iff_forall_mem.mp ?_)
  simp only [hostOps1, List.Forall, StableHlo.nullary_writes, StableHlo.unary_writes, StableHlo.binary_writes, StableHlo.ternary_writes, StableHlo.reshape_writes, Finset.mem_singleton]
  simp only [List.mem_cons, List.not_mem_nil, or_false, not_or] at hr
  obtain ⟨h0, h1, h2, h3, h4, h5, h6, h7, h8, h9⟩ := hr
  exact ⟨devRef_ne_of_ne h0, devRef_ne_of_ne h1, devRef_ne_of_ne h2, devRef_ne_of_ne h3, devRef_ne_of_ne h4, devRef_ne_of_ne h5, devRef_ne_of_ne h6, devRef_ne_of_ne h7, devRef_ne_of_ne h8, devRef_ne_of_ne h9⟩

theorem keep_hostOps1_1 (V : Valuation τ sig (Elt Ideal)) (r : Ref sig .tc)
    (hr : r ∉ [main_call3_v0, main_v44]) :
    StableHlo.after hostOps1_1 V (Proc.devRef .tc r) = V (Proc.devRef .tc r) := by
  refine StableHlo.after_of_forall_not_mem (b := Proc.devRef .tc r) _ _ (List.forall_iff_forall_mem.mp ?_)
  simp only [hostOps1_1, List.Forall, StableHlo.nullary_writes, StableHlo.unary_writes, StableHlo.binary_writes, StableHlo.ternary_writes, StableHlo.reshape_writes, Finset.mem_singleton]
  simp only [List.mem_cons, List.not_mem_nil, or_false, not_or] at hr
  obtain ⟨h0, h1⟩ := hr
  exact ⟨devRef_ne_of_ne h0, devRef_ne_of_ne h1⟩

theorem keep_hostOps2 (V : Valuation τ sig (Elt Ideal)) (r : Ref sig .tc)
    (hr : r ∉ [main_cst_12, main_v46, main_v47, main_v48, main_v49, main_v50, main_v51]) :
    StableHlo.after hostOps2 V (Proc.devRef .tc r) = V (Proc.devRef .tc r) := by
  refine StableHlo.after_of_forall_not_mem (b := Proc.devRef .tc r) _ _ (List.forall_iff_forall_mem.mp ?_)
  simp only [hostOps2, List.Forall, StableHlo.nullary_writes, StableHlo.unary_writes, StableHlo.binary_writes, StableHlo.ternary_writes, StableHlo.reshape_writes, Finset.mem_singleton]
  simp only [List.mem_cons, List.not_mem_nil, or_false, not_or] at hr
  obtain ⟨h0, h1, h2, h3, h4, h5, h6⟩ := hr
  exact ⟨devRef_ne_of_ne h0, devRef_ne_of_ne h1, devRef_ne_of_ne h2, devRef_ne_of_ne h3, devRef_ne_of_ne h4, devRef_ne_of_ne h5, devRef_ne_of_ne h6⟩

theorem keep_hostOps2_1 (V : Valuation τ sig (Elt Ideal)) (r : Ref sig .tc)
    (hr : r ∉ [main_call4_cst, main_call4_v0, main_v52]) :
    StableHlo.after hostOps2_1 V (Proc.devRef .tc r) = V (Proc.devRef .tc r) := by
  refine StableHlo.after_of_forall_not_mem (b := Proc.devRef .tc r) _ _ (List.forall_iff_forall_mem.mp ?_)
  simp only [hostOps2_1, List.Forall, StableHlo.nullary_writes, StableHlo.unary_writes, StableHlo.binary_writes, StableHlo.ternary_writes, StableHlo.reshape_writes, Finset.mem_singleton]
  simp only [List.mem_cons, List.not_mem_nil, or_false, not_or] at hr
  obtain ⟨h0, h1, h2⟩ := hr
  exact ⟨devRef_ne_of_ne h0, devRef_ne_of_ne h1, devRef_ne_of_ne h2⟩

theorem keep_hostOps3 (V : Valuation τ sig (Elt Ideal)) (r : Ref sig .tc)
    (hr : r ∉ [main_c_13, main_v54, main_v55, main_c_14, main_v56, main_v57, main_v58, main_v59, main_v60, main_c_15]) :
    StableHlo.after hostOps3 V (Proc.devRef .tc r) = V (Proc.devRef .tc r) := by
  refine StableHlo.after_of_forall_not_mem (b := Proc.devRef .tc r) _ _ (List.forall_iff_forall_mem.mp ?_)
  simp only [hostOps3, List.Forall, StableHlo.nullary_writes, StableHlo.unary_writes, StableHlo.binary_writes, StableHlo.ternary_writes, StableHlo.reshape_writes, Finset.mem_singleton]
  simp only [List.mem_cons, List.not_mem_nil, or_false, not_or] at hr
  obtain ⟨h0, h1, h2, h3, h4, h5, h6, h7, h8, h9⟩ := hr
  exact ⟨devRef_ne_of_ne h0, devRef_ne_of_ne h1, devRef_ne_of_ne h2, devRef_ne_of_ne h3, devRef_ne_of_ne h4, devRef_ne_of_ne h5, devRef_ne_of_ne h6, devRef_ne_of_ne h7, devRef_ne_of_ne h8, devRef_ne_of_ne h9⟩

theorem keep_hostOps3_1 (V : Valuation τ sig (Elt Ideal)) (r : Ref sig .tc)
    (hr : r ∉ [main_call5_v0, main_v61]) :
    StableHlo.after hostOps3_1 V (Proc.devRef .tc r) = V (Proc.devRef .tc r) := by
  refine StableHlo.after_of_forall_not_mem (b := Proc.devRef .tc r) _ _ (List.forall_iff_forall_mem.mp ?_)
  simp only [hostOps3_1, List.Forall, StableHlo.nullary_writes, StableHlo.unary_writes, StableHlo.binary_writes, StableHlo.ternary_writes, StableHlo.reshape_writes, Finset.mem_singleton]
  simp only [List.mem_cons, List.not_mem_nil, or_false, not_or] at hr
  obtain ⟨h0, h1⟩ := hr
  exact ⟨devRef_ne_of_ne h0, devRef_ne_of_ne h1⟩

theorem keep_hostOps4 (V : Valuation τ sig (Elt Ideal)) (r : Ref sig .tc)
    (hr : r ∉ [main_cst_16, main_v63, main_v64, main_v65, main_v66, main_v67, main_v68, main_cst_17, main_v69, main_v70, main_v71, main_cst_18, main_v72, main_v73, main_cst_19, main_v74, main_v75, main_cst_20]) :
    StableHlo.after hostOps4 V (Proc.devRef .tc r) = V (Proc.devRef .tc r) := by
  refine StableHlo.after_of_forall_not_mem (b := Proc.devRef .tc r) _ _ (List.forall_iff_forall_mem.mp ?_)
  simp only [hostOps4, List.Forall, StableHlo.nullary_writes, StableHlo.unary_writes, StableHlo.binary_writes, StableHlo.ternary_writes, StableHlo.reshape_writes, Finset.mem_singleton]
  simp only [List.mem_cons, List.not_mem_nil, or_false, not_or] at hr
  obtain ⟨h0, h1, h2, h3, h4, h5, h6, h7, h8, h9, h10, h11, h12, h13, h14, h15, h16, h17⟩ := hr
  exact ⟨devRef_ne_of_ne h0, devRef_ne_of_ne h1, devRef_ne_of_ne h2, devRef_ne_of_ne h3, devRef_ne_of_ne h4, devRef_ne_of_ne h5, devRef_ne_of_ne h6, devRef_ne_of_ne h7, devRef_ne_of_ne h8, devRef_ne_of_ne h9, devRef_ne_of_ne h10, devRef_ne_of_ne h11, devRef_ne_of_ne h12, devRef_ne_of_ne h13, devRef_ne_of_ne h14, devRef_ne_of_ne h15, devRef_ne_of_ne h16, devRef_ne_of_ne h17⟩

theorem keep_hostOps4_1 (V : Valuation τ sig (Elt Ideal)) (r : Ref sig .tc)
    (hr : r ∉ [main_call6_v0, main_call6_v1, main_v76]) :
    StableHlo.after hostOps4_1 V (Proc.devRef .tc r) = V (Proc.devRef .tc r) := by
  refine StableHlo.after_of_forall_not_mem (b := Proc.devRef .tc r) _ _ (List.forall_iff_forall_mem.mp ?_)
  simp only [hostOps4_1, List.Forall, StableHlo.nullary_writes, StableHlo.unary_writes, StableHlo.binary_writes, StableHlo.ternary_writes, StableHlo.reshape_writes, Finset.mem_singleton]
  simp only [List.mem_cons, List.not_mem_nil, or_false, not_or] at hr
  obtain ⟨h0, h1, h2⟩ := hr
  exact ⟨devRef_ne_of_ne h0, devRef_ne_of_ne h1, devRef_ne_of_ne h2⟩

theorem keep_hostOps4_2 (V : Valuation τ sig (Elt Ideal)) (r : Ref sig .tc)
    (hr : r ∉ [main_c_21, main_v77, main_v78, main_c_22, main_v79, main_v80, main_v81, main_v82, main_v83, main_v84, main_c_23, main_v85, main_v86, main_c_24, main_v87, main_v88, main_v89, main_v90, main_v91, main_c_25, main_v92, main_v93, main_c_26, main_v94, main_v95, main_v96, main_v97, main_v98, main_c_27]) :
    StableHlo.after hostOps4_2 V (Proc.devRef .tc r) = V (Proc.devRef .tc r) := by
  refine StableHlo.after_of_forall_not_mem (b := Proc.devRef .tc r) _ _ (List.forall_iff_forall_mem.mp ?_)
  simp only [hostOps4_2, List.Forall, StableHlo.nullary_writes, StableHlo.unary_writes, StableHlo.binary_writes, StableHlo.ternary_writes, StableHlo.reshape_writes, Finset.mem_singleton]
  simp only [List.mem_cons, List.not_mem_nil, or_false, not_or] at hr
  obtain ⟨h0, h1, h2, h3, h4, h5, h6, h7, h8, h9, h10, h11, h12, h13, h14, h15, h16, h17, h18, h19, h20, h21, h22, h23, h24, h25, h26, h27, h28⟩ := hr
  exact ⟨devRef_ne_of_ne h0, devRef_ne_of_ne h1, devRef_ne_of_ne h2, devRef_ne_of_ne h3, devRef_ne_of_ne h4, devRef_ne_of_ne h5, devRef_ne_of_ne h6, devRef_ne_of_ne h7, devRef_ne_of_ne h8, devRef_ne_of_ne h9, devRef_ne_of_ne h10, devRef_ne_of_ne h11, devRef_ne_of_ne h12, devRef_ne_of_ne h13, devRef_ne_of_ne h14, devRef_ne_of_ne h15, devRef_ne_of_ne h16, devRef_ne_of_ne h17, devRef_ne_of_ne h18, devRef_ne_of_ne h19, devRef_ne_of_ne h20, devRef_ne_of_ne h21, devRef_ne_of_ne h22, devRef_ne_of_ne h23, devRef_ne_of_ne h24, devRef_ne_of_ne h25, devRef_ne_of_ne h26, devRef_ne_of_ne h27, devRef_ne_of_ne h28⟩

theorem keep_hostOps4_3 (V : Valuation τ sig (Elt Ideal)) (r : Ref sig .tc)
    (hr : r ∉ [main_call7_v0, main_v99]) :
    StableHlo.after hostOps4_3 V (Proc.devRef .tc r) = V (Proc.devRef .tc r) := by
  refine StableHlo.after_of_forall_not_mem (b := Proc.devRef .tc r) _ _ (List.forall_iff_forall_mem.mp ?_)
  simp only [hostOps4_3, List.Forall, StableHlo.nullary_writes, StableHlo.unary_writes, StableHlo.binary_writes, StableHlo.ternary_writes, StableHlo.reshape_writes, Finset.mem_singleton]
  simp only [List.mem_cons, List.not_mem_nil, or_false, not_or] at hr
  obtain ⟨h0, h1⟩ := hr
  exact ⟨devRef_ne_of_ne h0, devRef_ne_of_ne h1⟩

theorem keep_hostOps4_4 (V : Valuation τ sig (Elt Ideal)) (r : Ref sig .tc)
    (hr : r ∉ [main_c_28]) :
    StableHlo.after hostOps4_4 V (Proc.devRef .tc r) = V (Proc.devRef .tc r) := by
  refine StableHlo.after_of_forall_not_mem (b := Proc.devRef .tc r) _ _ (List.forall_iff_forall_mem.mp ?_)
  simp only [hostOps4_4, List.Forall, StableHlo.nullary_writes, StableHlo.unary_writes, StableHlo.binary_writes, StableHlo.ternary_writes, StableHlo.reshape_writes, Finset.mem_singleton]
  simp only [List.mem_cons, List.not_mem_nil, or_false] at hr
  exact devRef_ne_of_ne hr

theorem keep_hostOps4_5 (V : Valuation τ sig (Elt Ideal)) (r : Ref sig .tc)
    (hr : r ∉ [main_call8_v0, main_v100]) :
    StableHlo.after hostOps4_5 V (Proc.devRef .tc r) = V (Proc.devRef .tc r) := by
  refine StableHlo.after_of_forall_not_mem (b := Proc.devRef .tc r) _ _ (List.forall_iff_forall_mem.mp ?_)
  simp only [hostOps4_5, List.Forall, StableHlo.nullary_writes, StableHlo.unary_writes, StableHlo.binary_writes, StableHlo.ternary_writes, StableHlo.reshape_writes, Finset.mem_singleton]
  simp only [List.mem_cons, List.not_mem_nil, or_false, not_or] at hr
  obtain ⟨h0, h1⟩ := hr
  exact ⟨devRef_ne_of_ne h0, devRef_ne_of_ne h1⟩

theorem keep_hostOps4_6 (V : Valuation τ sig (Elt Ideal)) (r : Ref sig .tc)
    (hr : r ∉ [main_c_29]) :
    StableHlo.after hostOps4_6 V (Proc.devRef .tc r) = V (Proc.devRef .tc r) := by
  refine StableHlo.after_of_forall_not_mem (b := Proc.devRef .tc r) _ _ (List.forall_iff_forall_mem.mp ?_)
  simp only [hostOps4_6, List.Forall, StableHlo.nullary_writes, StableHlo.unary_writes, StableHlo.binary_writes, StableHlo.ternary_writes, StableHlo.reshape_writes, Finset.mem_singleton]
  simp only [List.mem_cons, List.not_mem_nil, or_false] at hr
  exact devRef_ne_of_ne hr

theorem keep_hostOps4_7 (V : Valuation τ sig (Elt Ideal)) (r : Ref sig .tc)
    (hr : r ∉ [main_call9_v0, main_v101]) :
    StableHlo.after hostOps4_7 V (Proc.devRef .tc r) = V (Proc.devRef .tc r) := by
  refine StableHlo.after_of_forall_not_mem (b := Proc.devRef .tc r) _ _ (List.forall_iff_forall_mem.mp ?_)
  simp only [hostOps4_7, List.Forall, StableHlo.nullary_writes, StableHlo.unary_writes, StableHlo.binary_writes, StableHlo.ternary_writes, StableHlo.reshape_writes, Finset.mem_singleton]
  simp only [List.mem_cons, List.not_mem_nil, or_false, not_or] at hr
  obtain ⟨h0, h1⟩ := hr
  exact ⟨devRef_ne_of_ne h0, devRef_ne_of_ne h1⟩

theorem keep_hostOps4_8 (V : Valuation τ sig (Elt Ideal)) (r : Ref sig .tc)
    (hr : r ∉ [main_v102]) :
    StableHlo.after hostOps4_8 V (Proc.devRef .tc r) = V (Proc.devRef .tc r) := by
  refine StableHlo.after_of_forall_not_mem (b := Proc.devRef .tc r) _ _ (List.forall_iff_forall_mem.mp ?_)
  simp only [hostOps4_8, List.Forall, StableHlo.nullary_writes, StableHlo.unary_writes, StableHlo.binary_writes, StableHlo.ternary_writes, StableHlo.reshape_writes, Finset.mem_singleton]
  simp only [List.mem_cons, List.not_mem_nil, or_false] at hr
  exact devRef_ne_of_ne hr

theorem keep_hostOps5 (V : Valuation τ sig (Elt Ideal)) (r : Ref sig .tc)
    (hr : r ∉ [main_v104, main_cst_30, main_v105]) :
    StableHlo.after hostOps5 V (Proc.devRef .tc r) = V (Proc.devRef .tc r) := by
  refine StableHlo.after_of_forall_not_mem (b := Proc.devRef .tc r) _ _ (List.forall_iff_forall_mem.mp ?_)
  simp only [hostOps5, List.Forall, StableHlo.nullary_writes, StableHlo.unary_writes, StableHlo.binary_writes, StableHlo.ternary_writes, StableHlo.reshape_writes, Finset.mem_singleton]
  simp only [List.mem_cons, List.not_mem_nil, or_false, not_or] at hr
  obtain ⟨h0, h1, h2⟩ := hr
  exact ⟨devRef_ne_of_ne h0, devRef_ne_of_ne h1, devRef_ne_of_ne h2⟩

/-! ## Each stretch of host operations, over any contents at its entry -/

section Stages
variable (V : Valuation τ sig (Elt Ideal))

theorem s1_v1 (ei : IVec S2x1600000 32) (h1 : V (Proc.devRef .tc main_arg1) = ei) :
    StableHlo.after hostOps0 V (Proc.devRef .tc main_v1) = RefSpec.rowW ei := by
  subst_vars; after_results_simp <;> results_rw <;> rfl
theorem s1_v3 (ei : IVec S2x1600000 32) (h1 : V (Proc.devRef .tc main_arg1) = ei) :
    StableHlo.after hostOps0 V (Proc.devRef .tc main_v3) = RefSpec.colW ei := by
  subst_vars; after_results_simp <;> results_rw <;> rfl
theorem s1_v5 (ei : IVec S2x1600000 32) (h1 : V (Proc.devRef .tc main_arg1) = ei) :
    StableHlo.after hostOps0 V (Proc.devRef .tc main_v5) = RefSpec.selfLoops (RefSpec.rowW ei) := by
  subst_vars; after_results_simp <;> results_rw <;> rfl
theorem s1_v6 (ei : IVec S2x1600000 32) (h1 : V (Proc.devRef .tc main_arg1) = ei) :
    StableHlo.after hostOps0 V (Proc.devRef .tc main_v6) = RefSpec.selfLoops (RefSpec.colW ei) := by
  subst_vars; after_results_simp <;> results_rw <;> rfl
theorem s1_v8 (w : FVec Ideal S1600000 .f32) (h2 : V (Proc.devRef .tc main_arg2) = w) :
    StableHlo.after hostOps0 V (Proc.devRef .tc main_v8) = RefSpec.wsF w := by
  subst_vars; after_results_simp <;> results_rw <;> rfl
theorem s1_v13 (ei : IVec S2x1600000 32) (h1 : V (Proc.devRef .tc main_arg1) = ei) (w : FVec Ideal S1600000 .f32) (h2 : V (Proc.devRef .tc main_arg2) = w) :
    StableHlo.after hostOps0 V (Proc.devRef .tc main_v13) = cmpf (F := Ideal) .ogt (RefSpec.degF (RefSpec.selfLoops (RefSpec.colW ei)) (RefSpec.wsF w)) (broadcastInDim S50000 ![] bcast_S_S50000 (constant (F := Ideal) S_ .f32 0x00000000#32)) := by
  subst_vars; after_results_simp <;> results_rw <;> rfl
theorem s1_v15 (ei : IVec S2x1600000 32) (h1 : V (Proc.devRef .tc main_arg1) = ei) (w : FVec Ideal S1600000 .f32) (h2 : V (Proc.devRef .tc main_arg2) = w) :
    StableHlo.after hostOps0 V (Proc.devRef .tc main_v15)
      = Host.powf (RefSpec.degF (RefSpec.selfLoops (RefSpec.colW ei)) (RefSpec.wsF w)) (broadcastInDim S50000 ![] bcast_S_S50000 (constant (F := Ideal) S_ .f32 0xBF000000#32)) := by
  subst_vars; after_results_simp <;> results_rw <;> rfl
theorem s1_cst_3 :
    StableHlo.after hostOps0 V (Proc.devRef .tc main_cst_3) = constant (F := Ideal) S_ .f32 0x00000000#32 := by
  subst_vars; after_results_simp <;> results_rw <;> rfl

theorem s2_v16 (a13 : IVec S50000 1) (a15 : FVec Ideal S50000 .f32) (a3 : FVec Ideal S_ .f32)
    (h13 : V (Proc.devRef .tc main_v13) = a13) (h15 : V (Proc.devRef .tc main_v15) = a15) (h3 : V (Proc.devRef .tc main_cst_3) = a3) :
    StableHlo.after hostOps0_1 V (Proc.devRef .tc main_v16) = select a13 a15 (broadcastInDim S50000 ![] bcast_S_S50000 a3) := by
  subst_vars; after_results_simp <;> (try simp only [TRef.toBuf, TRef.ofBuf, cast_eq]) <;> (try rfl)

theorem s3_v32 (a5 a6 : IVec S1650000 32) (a8 : FVec Ideal S1650000 .f32) (a16 : FVec Ideal S50000 .f32)
    (h5 : V (Proc.devRef .tc main_v5) = a5) (h6 : V (Proc.devRef .tc main_v6) = a6) (h8 : V (Proc.devRef .tc main_v8) = a8) (h16 : V (Proc.devRef .tc main_v16) = a16) :
    StableHlo.after hostOps0_2 V (Proc.devRef .tc main_v32) = RefSpec.normOf a16 a5 a6 a8 := by
  subst_vars; after_results_simp <;> results_rw <;> rfl
theorem s3_c_7 :
    StableHlo.after hostOps0_2 V (Proc.devRef .tc main_c_7) = constantI S_ 32 0#32 := by
  subst_vars; after_results_simp <;> results_rw <;> rfl

theorem s4_v33 (a7 : IVec S_ 32) (a32 : FVec Ideal S1650000 .f32) (h7 : V (Proc.devRef .tc main_c_7) = a7) (h32 : V (Proc.devRef .tc main_v32) = a32) :
    StableHlo.after hostOps0_3 V (Proc.devRef .tc main_v33)
      = pad S1654784 ![0] ![4784] ![0] a32 (sitofp (F := Ideal) .f32 a7) pads_S1650000_S1654784_047840 h_S_ := by
  subst_vars; after_results_simp <;> (try simp only [TRef.toBuf, TRef.ofBuf, cast_eq]) <;> (try rfl)

theorem s5_v34 (a33 : FVec Ideal S1654784 .f32) (h33 : V (Proc.devRef .tc main_v33) = a33) :
    StableHlo.after hostOps0_4 V (Proc.devRef .tc main_v34) = shapeCast S1654784x1 a33 shapeCasts_S1654784_S1654784x1 := by
  subst_vars; after_results_simp <;> results_rw <;> rfl
theorem s5_c_8 :
    StableHlo.after hostOps0_4 V (Proc.devRef .tc main_c_8) = constantI S_ 32 0#32 := by
  subst_vars; after_results_simp <;> results_rw <;> rfl

theorem s6_v35 (a8 : IVec S_ 32) (a6 : IVec S1650000 32) (h8 : V (Proc.devRef .tc main_c_8) = a8) (h6 : V (Proc.devRef .tc main_v6) = a6) :
    StableHlo.after hostOps0_5 V (Proc.devRef .tc main_v35)
      = pad S1654784 ![0] ![4784] ![0] a6 a8 pads_S1650000_S1654784_047840 h_S_ := by
  subst_vars; after_results_simp <;> (try simp only [TRef.toBuf, TRef.ofBuf, cast_eq]) <;> (try rfl)

theorem s8_v43 (a5 : IVec S1650000 32) (a36 : FVec Ideal S50000x128 .f32) (h5 : V (Proc.devRef .tc main_v5) = a5) (h36 : V (Proc.devRef .tc main_v36) = a36) :
    StableHlo.after hostOps1 V (Proc.devRef .tc main_v43)
      = Host.gather gather_S50000x128_S1650000x1_S1650000x128_1_0_n_n_0_1_1128 a36 (broadcastInDim S1650000x1 ![0] bcast_S1650000_S1650000x1_0 (select (cmpi .slt a5 (broadcastInDim S1650000 ![] bcast_S_S1650000 (constantI S_ 32 0#32))) (addi a5 (broadcastInDim S1650000 ![] bcast_S_S1650000 (constantI S_ 32 50000#32))) a5)) := by
  subst_vars; after_results_simp <;> results_rw <;> rfl
theorem s8_c_11 :
    StableHlo.after hostOps1 V (Proc.devRef .tc main_c_11) = constantI S_ 32 0#32 := by
  subst_vars; after_results_simp <;> results_rw <;> rfl

theorem s9_v44 (a11 : IVec S_ 32) (a43 : FVec Ideal S1650000x128 .f32) (h11 : V (Proc.devRef .tc main_c_11) = a11) (h43 : V (Proc.devRef .tc main_v43) = a43) :
    StableHlo.after hostOps1_1 V (Proc.devRef .tc main_v44)
      = pad S1654784x128 ![0, 0] ![4784, 0] ![0, 0] a43 (sitofp (F := Ideal) .f32 a11) pads_S1650000x128_S1654784x128_047840_000 h_S_ := by
  subst_vars; after_results_simp <;> (try simp only [TRef.toBuf, TRef.ofBuf, cast_eq]) <;> (try rfl)

theorem s11_v51 (a35 : IVec S1654784 32) (a45 : FVec Ideal S1654784x128 .f32) (b1 : FVec Ideal S128 .f32)
    (h35 : V (Proc.devRef .tc main_v35) = a35) (h45 : V (Proc.devRef .tc main_v45) = a45) (h4 : V (Proc.devRef .tc main_arg4) = b1) :
    StableHlo.after hostOps2 V (Proc.devRef .tc main_v51) = KerSpec.layerK128 a45 a35 b1 := by
  subst_vars; after_results_simp <;> results_rw <;> rfl

theorem s12_v52 (a51 : FVec Ideal S50000x128 .f32) (h51 : V (Proc.devRef .tc main_v51) = a51) :
    StableHlo.after hostOps2_1 V (Proc.devRef .tc main_v52) = KerSpec.reluK128 a51 := by
  subst_vars; after_results_simp <;> (try simp only [TRef.toBuf, TRef.ofBuf, cast_eq]) <;> (try rfl)

theorem s14_v60 (a5 : IVec S1650000 32) (a53 : FVec Ideal S50000x16 .f32) (h5 : V (Proc.devRef .tc main_v5) = a5) (h53 : V (Proc.devRef .tc main_v53) = a53) :
    StableHlo.after hostOps3 V (Proc.devRef .tc main_v60)
      = Host.gather gather_S50000x16_S1650000x1_S1650000x16_1_0_n_n_0_1_116 a53 (broadcastInDim S1650000x1 ![0] bcast_S1650000_S1650000x1_0 (select (cmpi .slt a5 (broadcastInDim S1650000 ![] bcast_S_S1650000 (constantI S_ 32 0#32))) (addi a5 (broadcastInDim S1650000 ![] bcast_S_S1650000 (constantI S_ 32 50000#32))) a5)) := by
  subst_vars; after_results_simp <;> results_rw <;> rfl
theorem s14_c_15 :
    StableHlo.after hostOps3 V (Proc.devRef .tc main_c_15) = constantI S_ 32 0#32 := by
  subst_vars; after_results_simp <;> results_rw <;> rfl

theorem s15_v61 (a15 : IVec S_ 32) (a60 : FVec Ideal S1650000x16 .f32) (h15 : V (Proc.devRef .tc main_c_15) = a15) (h60 : V (Proc.devRef .tc main_v60) = a60) :
    StableHlo.after hostOps3_1 V (Proc.devRef .tc main_v61)
      = pad S1654784x16 ![0, 0] ![4784, 0] ![0, 0] a60 (sitofp (F := Ideal) .f32 a15) pads_S1650000x16_S1654784x16_047840_000 h_S_ := by
  subst_vars; after_results_simp <;> (try simp only [TRef.toBuf, TRef.ofBuf, cast_eq]) <;> (try rfl)

theorem s17_v68 (a35 : IVec S1654784 32) (a62 : FVec Ideal S1654784x16 .f32) (b2 : FVec Ideal S16 .f32)
    (h35 : V (Proc.devRef .tc main_v35) = a35) (h62 : V (Proc.devRef .tc main_v62) = a62) (h6 : V (Proc.devRef .tc main_arg6) = b2) :
    StableHlo.after hostOps4 V (Proc.devRef .tc main_v68) = KerSpec.layerK16 a62 a35 b2 := by
  subst_vars; after_results_simp <;> results_rw <;> rfl
theorem s17_v73 (a3 : IVec S1600000 32) (w : FVec Ideal S1600000 .f32) (h3 : V (Proc.devRef .tc main_v3) = a3) (h2 : V (Proc.devRef .tc main_arg2) = w) :
    StableHlo.after hostOps4 V (Proc.devRef .tc main_v73) = cmpf (F := Ideal) .ogt (Host.scatterAdd scatter_S50000_S1600000x1_S1600000_n_0_0_1 (broadcastInDim S50000 ![] bcast_S_S50000 (constant (F := Ideal) S_ .f32 0x00000000#32)) (broadcastInDim S1600000x1 ![0] bcast_S1600000_S1600000x1_0 a3) w) (broadcastInDim S50000 ![] bcast_S_S50000 (constant (F := Ideal) S_ .f32 0x00000000#32)) := by
  subst_vars; after_results_simp <;> results_rw <;> rfl
theorem s17_v75 (a3 : IVec S1600000 32) (w : FVec Ideal S1600000 .f32) (h3 : V (Proc.devRef .tc main_v3) = a3) (h2 : V (Proc.devRef .tc main_arg2) = w) :
    StableHlo.after hostOps4 V (Proc.devRef .tc main_v75) = Host.divf (broadcastInDim S50000 ![] bcast_S_S50000 (constant (F := Ideal) S_ .f32 0x3F800000#32)) (Host.scatterAdd scatter_S50000_S1600000x1_S1600000_n_0_0_1 (broadcastInDim S50000 ![] bcast_S_S50000 (constant (F := Ideal) S_ .f32 0x00000000#32)) (broadcastInDim S1600000x1 ![0] bcast_S1600000_S1600000x1_0 a3) w) := by
  subst_vars; after_results_simp <;> results_rw <;> rfl
theorem s17_cst_20 :
    StableHlo.after hostOps4 V (Proc.devRef .tc main_cst_20) = constant (F := Ideal) S_ .f32 0x00000000#32 := by
  subst_vars; after_results_simp <;> results_rw <;> rfl

end Stages

variable (m : (ℓ : Loc nD τ sig) → Buf (Elt Ideal) ℓ) (ρ : Dev nD → PrngReg)

/-! ## The arguments and the reference's intermediate values, named -/

/-- The node features. -/
abbrev aX (c : Dev nD) : FVec Ideal S50000x256 .f32 := m ((c : Thread nD τ).loc main_arg0)
/-- The edge list. -/
abbrev aEi (c : Dev nD) : IVec S2x1600000 32 := m ((c : Thread nD τ).loc main_arg1)
/-- The edge weights. -/
abbrev aW (c : Dev nD) : FVec Ideal S1600000 .f32 := m ((c : Thread nD τ).loc main_arg2)
/-- The first layer's matrix and bias, the second layer's matrix and bias. -/
abbrev aW1 (c : Dev nD) : FVec Ideal S256x128 .f32 := m ((c : Thread nD τ).loc main_arg3)
abbrev aB1 (c : Dev nD) : FVec Ideal S128 .f32 := m ((c : Thread nD τ).loc main_arg4)
abbrev aW2 (c : Dev nD) : FVec Ideal S128x16 .f32 := m ((c : Thread nD τ).loc main_arg5)
abbrev aB2 (c : Dev nD) : FVec Ideal S16 .f32 := m ((c : Thread nD τ).loc main_arg6)
/-- The source and target lists with the self loops, the normalization, and the layers' values. -/
abbrev tRows (c : Dev nD) : IVec S1650000 32 := RefSpec.selfLoops (RefSpec.rowW (aEi m c))
abbrev tCols (c : Dev nD) : IVec S1650000 32 := RefSpec.selfLoops (RefSpec.colW (aEi m c))
abbrev tNorm (c : Dev nD) : FVec Ideal S1650000 .f32 := RefSpec.norm (aEi m c) (aW m c)
abbrev tH1 (c : Dev nD) : FVec Ideal S50000x128 .f32 := RefSpec.hx128 (aX m c) (aW1 m c)
abbrev tL1 (c : Dev nD) : FVec Ideal S50000x128 .f32 := RefSpec.layer128 (tNorm m c) (tRows m c) (tCols m c) (tH1 m c) (aB1 m c)
abbrev tR1 (c : Dev nD) : FVec Ideal S50000x128 .f32 := RefSpec.relu128 (tL1 m c)
abbrev tH2 (c : Dev nD) : FVec Ideal S50000x16 .f32 := RefSpec.hx16 (tR1 m c) (aW2 m c)

/-! ## The chain from the launch -/

theorem W0_arg0 (c : Dev nD) : W0 m ρ c (Proc.devRef .tc main_arg0) = aX m c := rfl
theorem W0_arg1 (c : Dev nD) : W0 m ρ c (Proc.devRef .tc main_arg1) = aEi m c := rfl
theorem W0_arg2 (c : Dev nD) : W0 m ρ c (Proc.devRef .tc main_arg2) = aW m c := rfl
theorem W0_arg3 (c : Dev nD) : W0 m ρ c (Proc.devRef .tc main_arg3) = aW1 m c := rfl
theorem W0_arg4 (c : Dev nD) : W0 m ρ c (Proc.devRef .tc main_arg4) = aB1 m c := rfl
theorem W0_arg5 (c : Dev nD) : W0 m ρ c (Proc.devRef .tc main_arg5) = aW2 m c := rfl
theorem W0_arg6 (c : Dev nD) : W0 m ρ c (Proc.devRef .tc main_arg6) = aB2 m c := rfl

theorem W1_arg0 (c : Dev nD) : W1 m ρ c (Proc.devRef .tc main_arg0) = aX m c :=
  (keep_hostOps0 (W0 m ρ c) main_arg0 (by decide)).trans (W0_arg0 m ρ c)
theorem W2_arg0 (c : Dev nD) : W2 m ρ c (Proc.devRef .tc main_arg0) = aX m c :=
  (keep_hostOps0_1 (W1 m ρ c) main_arg0 (by decide)).trans (W1_arg0 m ρ c)
theorem W3_arg0 (c : Dev nD) : W3 m ρ c (Proc.devRef .tc main_arg0) = aX m c :=
  (keep_hostOps0_2 (W2 m ρ c) main_arg0 (by decide)).trans (W2_arg0 m ρ c)
theorem W4_arg0 (c : Dev nD) : W4 m ρ c (Proc.devRef .tc main_arg0) = aX m c :=
  (keep_hostOps0_3 (W3 m ρ c) main_arg0 (by decide)).trans (W3_arg0 m ρ c)
theorem W5_arg0 (c : Dev nD) : W5 m ρ c (Proc.devRef .tc main_arg0) = aX m c :=
  (keep_hostOps0_4 (W4 m ρ c) main_arg0 (by decide)).trans (W4_arg0 m ρ c)
theorem W6_arg0 (c : Dev nD) : W6 m ρ c (Proc.devRef .tc main_arg0) = aX m c :=
  (keep_hostOps0_5 (W5 m ρ c) main_arg0 (by decide)).trans (W5_arg0 m ρ c)
theorem W1_arg3 (c : Dev nD) : W1 m ρ c (Proc.devRef .tc main_arg3) = aW1 m c :=
  (keep_hostOps0 (W0 m ρ c) main_arg3 (by decide)).trans (W0_arg3 m ρ c)
theorem W2_arg3 (c : Dev nD) : W2 m ρ c (Proc.devRef .tc main_arg3) = aW1 m c :=
  (keep_hostOps0_1 (W1 m ρ c) main_arg3 (by decide)).trans (W1_arg3 m ρ c)
theorem W3_arg3 (c : Dev nD) : W3 m ρ c (Proc.devRef .tc main_arg3) = aW1 m c :=
  (keep_hostOps0_2 (W2 m ρ c) main_arg3 (by decide)).trans (W2_arg3 m ρ c)
theorem W4_arg3 (c : Dev nD) : W4 m ρ c (Proc.devRef .tc main_arg3) = aW1 m c :=
  (keep_hostOps0_3 (W3 m ρ c) main_arg3 (by decide)).trans (W3_arg3 m ρ c)
theorem W5_arg3 (c : Dev nD) : W5 m ρ c (Proc.devRef .tc main_arg3) = aW1 m c :=
  (keep_hostOps0_4 (W4 m ρ c) main_arg3 (by decide)).trans (W4_arg3 m ρ c)
theorem W6_arg3 (c : Dev nD) : W6 m ρ c (Proc.devRef .tc main_arg3) = aW1 m c :=
  (keep_hostOps0_5 (W5 m ρ c) main_arg3 (by decide)).trans (W5_arg3 m ρ c)
theorem W1_arg4 (c : Dev nD) : W1 m ρ c (Proc.devRef .tc main_arg4) = aB1 m c :=
  (keep_hostOps0 (W0 m ρ c) main_arg4 (by decide)).trans (W0_arg4 m ρ c)
theorem W2_arg4 (c : Dev nD) : W2 m ρ c (Proc.devRef .tc main_arg4) = aB1 m c :=
  (keep_hostOps0_1 (W1 m ρ c) main_arg4 (by decide)).trans (W1_arg4 m ρ c)
theorem W3_arg4 (c : Dev nD) : W3 m ρ c (Proc.devRef .tc main_arg4) = aB1 m c :=
  (keep_hostOps0_2 (W2 m ρ c) main_arg4 (by decide)).trans (W2_arg4 m ρ c)
theorem W4_arg4 (c : Dev nD) : W4 m ρ c (Proc.devRef .tc main_arg4) = aB1 m c :=
  (keep_hostOps0_3 (W3 m ρ c) main_arg4 (by decide)).trans (W3_arg4 m ρ c)
theorem W5_arg4 (c : Dev nD) : W5 m ρ c (Proc.devRef .tc main_arg4) = aB1 m c :=
  (keep_hostOps0_4 (W4 m ρ c) main_arg4 (by decide)).trans (W4_arg4 m ρ c)
theorem W6_arg4 (c : Dev nD) : W6 m ρ c (Proc.devRef .tc main_arg4) = aB1 m c :=
  (keep_hostOps0_5 (W5 m ρ c) main_arg4 (by decide)).trans (W5_arg4 m ρ c)
theorem W7_arg4 (c : Dev nD) : W7 m ρ c (Proc.devRef .tc main_arg4) = aB1 m c :=
  (W7_of_ne m ρ c main_arg4 (by decide)).trans (W6_arg4 m ρ c)
theorem W8_arg4 (c : Dev nD) : W8 m ρ c (Proc.devRef .tc main_arg4) = aB1 m c :=
  (keep_hostOps1 (W7 m ρ c) main_arg4 (by decide)).trans (W7_arg4 m ρ c)
theorem W9_arg4 (c : Dev nD) : W9 m ρ c (Proc.devRef .tc main_arg4) = aB1 m c :=
  (keep_hostOps1_1 (W8 m ρ c) main_arg4 (by decide)).trans (W8_arg4 m ρ c)
theorem W10_arg4 (c : Dev nD) : W10 m ρ c (Proc.devRef .tc main_arg4) = aB1 m c :=
  (W10_of_ne m ρ c main_arg4 (by decide)).trans (W9_arg4 m ρ c)
theorem W1_arg5 (c : Dev nD) : W1 m ρ c (Proc.devRef .tc main_arg5) = aW2 m c :=
  (keep_hostOps0 (W0 m ρ c) main_arg5 (by decide)).trans (W0_arg5 m ρ c)
theorem W2_arg5 (c : Dev nD) : W2 m ρ c (Proc.devRef .tc main_arg5) = aW2 m c :=
  (keep_hostOps0_1 (W1 m ρ c) main_arg5 (by decide)).trans (W1_arg5 m ρ c)
theorem W3_arg5 (c : Dev nD) : W3 m ρ c (Proc.devRef .tc main_arg5) = aW2 m c :=
  (keep_hostOps0_2 (W2 m ρ c) main_arg5 (by decide)).trans (W2_arg5 m ρ c)
theorem W4_arg5 (c : Dev nD) : W4 m ρ c (Proc.devRef .tc main_arg5) = aW2 m c :=
  (keep_hostOps0_3 (W3 m ρ c) main_arg5 (by decide)).trans (W3_arg5 m ρ c)
theorem W5_arg5 (c : Dev nD) : W5 m ρ c (Proc.devRef .tc main_arg5) = aW2 m c :=
  (keep_hostOps0_4 (W4 m ρ c) main_arg5 (by decide)).trans (W4_arg5 m ρ c)
theorem W6_arg5 (c : Dev nD) : W6 m ρ c (Proc.devRef .tc main_arg5) = aW2 m c :=
  (keep_hostOps0_5 (W5 m ρ c) main_arg5 (by decide)).trans (W5_arg5 m ρ c)
theorem W7_arg5 (c : Dev nD) : W7 m ρ c (Proc.devRef .tc main_arg5) = aW2 m c :=
  (W7_of_ne m ρ c main_arg5 (by decide)).trans (W6_arg5 m ρ c)
theorem W8_arg5 (c : Dev nD) : W8 m ρ c (Proc.devRef .tc main_arg5) = aW2 m c :=
  (keep_hostOps1 (W7 m ρ c) main_arg5 (by decide)).trans (W7_arg5 m ρ c)
theorem W9_arg5 (c : Dev nD) : W9 m ρ c (Proc.devRef .tc main_arg5) = aW2 m c :=
  (keep_hostOps1_1 (W8 m ρ c) main_arg5 (by decide)).trans (W8_arg5 m ρ c)
theorem W10_arg5 (c : Dev nD) : W10 m ρ c (Proc.devRef .tc main_arg5) = aW2 m c :=
  (W10_of_ne m ρ c main_arg5 (by decide)).trans (W9_arg5 m ρ c)
theorem W11_arg5 (c : Dev nD) : W11 m ρ c (Proc.devRef .tc main_arg5) = aW2 m c :=
  (keep_hostOps2 (W10 m ρ c) main_arg5 (by decide)).trans (W10_arg5 m ρ c)
theorem W12_arg5 (c : Dev nD) : W12 m ρ c (Proc.devRef .tc main_arg5) = aW2 m c :=
  (keep_hostOps2_1 (W11 m ρ c) main_arg5 (by decide)).trans (W11_arg5 m ρ c)
theorem W1_arg6 (c : Dev nD) : W1 m ρ c (Proc.devRef .tc main_arg6) = aB2 m c :=
  (keep_hostOps0 (W0 m ρ c) main_arg6 (by decide)).trans (W0_arg6 m ρ c)
theorem W2_arg6 (c : Dev nD) : W2 m ρ c (Proc.devRef .tc main_arg6) = aB2 m c :=
  (keep_hostOps0_1 (W1 m ρ c) main_arg6 (by decide)).trans (W1_arg6 m ρ c)
theorem W3_arg6 (c : Dev nD) : W3 m ρ c (Proc.devRef .tc main_arg6) = aB2 m c :=
  (keep_hostOps0_2 (W2 m ρ c) main_arg6 (by decide)).trans (W2_arg6 m ρ c)
theorem W4_arg6 (c : Dev nD) : W4 m ρ c (Proc.devRef .tc main_arg6) = aB2 m c :=
  (keep_hostOps0_3 (W3 m ρ c) main_arg6 (by decide)).trans (W3_arg6 m ρ c)
theorem W5_arg6 (c : Dev nD) : W5 m ρ c (Proc.devRef .tc main_arg6) = aB2 m c :=
  (keep_hostOps0_4 (W4 m ρ c) main_arg6 (by decide)).trans (W4_arg6 m ρ c)
theorem W6_arg6 (c : Dev nD) : W6 m ρ c (Proc.devRef .tc main_arg6) = aB2 m c :=
  (keep_hostOps0_5 (W5 m ρ c) main_arg6 (by decide)).trans (W5_arg6 m ρ c)
theorem W7_arg6 (c : Dev nD) : W7 m ρ c (Proc.devRef .tc main_arg6) = aB2 m c :=
  (W7_of_ne m ρ c main_arg6 (by decide)).trans (W6_arg6 m ρ c)
theorem W8_arg6 (c : Dev nD) : W8 m ρ c (Proc.devRef .tc main_arg6) = aB2 m c :=
  (keep_hostOps1 (W7 m ρ c) main_arg6 (by decide)).trans (W7_arg6 m ρ c)
theorem W9_arg6 (c : Dev nD) : W9 m ρ c (Proc.devRef .tc main_arg6) = aB2 m c :=
  (keep_hostOps1_1 (W8 m ρ c) main_arg6 (by decide)).trans (W8_arg6 m ρ c)
theorem W10_arg6 (c : Dev nD) : W10 m ρ c (Proc.devRef .tc main_arg6) = aB2 m c :=
  (W10_of_ne m ρ c main_arg6 (by decide)).trans (W9_arg6 m ρ c)
theorem W11_arg6 (c : Dev nD) : W11 m ρ c (Proc.devRef .tc main_arg6) = aB2 m c :=
  (keep_hostOps2 (W10 m ρ c) main_arg6 (by decide)).trans (W10_arg6 m ρ c)
theorem W12_arg6 (c : Dev nD) : W12 m ρ c (Proc.devRef .tc main_arg6) = aB2 m c :=
  (keep_hostOps2_1 (W11 m ρ c) main_arg6 (by decide)).trans (W11_arg6 m ρ c)
theorem W13_arg6 (c : Dev nD) : W13 m ρ c (Proc.devRef .tc main_arg6) = aB2 m c :=
  (W13_of_ne m ρ c main_arg6 (by decide)).trans (W12_arg6 m ρ c)
theorem W14_arg6 (c : Dev nD) : W14 m ρ c (Proc.devRef .tc main_arg6) = aB2 m c :=
  (keep_hostOps3 (W13 m ρ c) main_arg6 (by decide)).trans (W13_arg6 m ρ c)
theorem W15_arg6 (c : Dev nD) : W15 m ρ c (Proc.devRef .tc main_arg6) = aB2 m c :=
  (keep_hostOps3_1 (W14 m ρ c) main_arg6 (by decide)).trans (W14_arg6 m ρ c)
theorem W16_arg6 (c : Dev nD) : W16 m ρ c (Proc.devRef .tc main_arg6) = aB2 m c :=
  (W16_of_ne m ρ c main_arg6 (by decide)).trans (W15_arg6 m ρ c)
theorem W1_arg2 (c : Dev nD) : W1 m ρ c (Proc.devRef .tc main_arg2) = aW m c :=
  (keep_hostOps0 (W0 m ρ c) main_arg2 (by decide)).trans (W0_arg2 m ρ c)
theorem W2_arg2 (c : Dev nD) : W2 m ρ c (Proc.devRef .tc main_arg2) = aW m c :=
  (keep_hostOps0_1 (W1 m ρ c) main_arg2 (by decide)).trans (W1_arg2 m ρ c)
theorem W3_arg2 (c : Dev nD) : W3 m ρ c (Proc.devRef .tc main_arg2) = aW m c :=
  (keep_hostOps0_2 (W2 m ρ c) main_arg2 (by decide)).trans (W2_arg2 m ρ c)
theorem W4_arg2 (c : Dev nD) : W4 m ρ c (Proc.devRef .tc main_arg2) = aW m c :=
  (keep_hostOps0_3 (W3 m ρ c) main_arg2 (by decide)).trans (W3_arg2 m ρ c)
theorem W5_arg2 (c : Dev nD) : W5 m ρ c (Proc.devRef .tc main_arg2) = aW m c :=
  (keep_hostOps0_4 (W4 m ρ c) main_arg2 (by decide)).trans (W4_arg2 m ρ c)
theorem W6_arg2 (c : Dev nD) : W6 m ρ c (Proc.devRef .tc main_arg2) = aW m c :=
  (keep_hostOps0_5 (W5 m ρ c) main_arg2 (by decide)).trans (W5_arg2 m ρ c)
theorem W7_arg2 (c : Dev nD) : W7 m ρ c (Proc.devRef .tc main_arg2) = aW m c :=
  (W7_of_ne m ρ c main_arg2 (by decide)).trans (W6_arg2 m ρ c)
theorem W8_arg2 (c : Dev nD) : W8 m ρ c (Proc.devRef .tc main_arg2) = aW m c :=
  (keep_hostOps1 (W7 m ρ c) main_arg2 (by decide)).trans (W7_arg2 m ρ c)
theorem W9_arg2 (c : Dev nD) : W9 m ρ c (Proc.devRef .tc main_arg2) = aW m c :=
  (keep_hostOps1_1 (W8 m ρ c) main_arg2 (by decide)).trans (W8_arg2 m ρ c)
theorem W10_arg2 (c : Dev nD) : W10 m ρ c (Proc.devRef .tc main_arg2) = aW m c :=
  (W10_of_ne m ρ c main_arg2 (by decide)).trans (W9_arg2 m ρ c)
theorem W11_arg2 (c : Dev nD) : W11 m ρ c (Proc.devRef .tc main_arg2) = aW m c :=
  (keep_hostOps2 (W10 m ρ c) main_arg2 (by decide)).trans (W10_arg2 m ρ c)
theorem W12_arg2 (c : Dev nD) : W12 m ρ c (Proc.devRef .tc main_arg2) = aW m c :=
  (keep_hostOps2_1 (W11 m ρ c) main_arg2 (by decide)).trans (W11_arg2 m ρ c)
theorem W13_arg2 (c : Dev nD) : W13 m ρ c (Proc.devRef .tc main_arg2) = aW m c :=
  (W13_of_ne m ρ c main_arg2 (by decide)).trans (W12_arg2 m ρ c)
theorem W14_arg2 (c : Dev nD) : W14 m ρ c (Proc.devRef .tc main_arg2) = aW m c :=
  (keep_hostOps3 (W13 m ρ c) main_arg2 (by decide)).trans (W13_arg2 m ρ c)
theorem W15_arg2 (c : Dev nD) : W15 m ρ c (Proc.devRef .tc main_arg2) = aW m c :=
  (keep_hostOps3_1 (W14 m ρ c) main_arg2 (by decide)).trans (W14_arg2 m ρ c)
theorem W16_arg2 (c : Dev nD) : W16 m ρ c (Proc.devRef .tc main_arg2) = aW m c :=
  (W16_of_ne m ρ c main_arg2 (by decide)).trans (W15_arg2 m ρ c)
theorem W17_arg2 (c : Dev nD) : W17 m ρ c (Proc.devRef .tc main_arg2) = aW m c :=
  (keep_hostOps4 (W16 m ρ c) main_arg2 (by decide)).trans (W16_arg2 m ρ c)

theorem W1_v1 (c : Dev nD) : W1 m ρ c (Proc.devRef .tc main_v1) = RefSpec.rowW (aEi m c) := s1_v1 (W0 m ρ c) _ (W0_arg1 m ρ c)
theorem W1_v3 (c : Dev nD) : W1 m ρ c (Proc.devRef .tc main_v3) = RefSpec.colW (aEi m c) := s1_v3 (W0 m ρ c) _ (W0_arg1 m ρ c)
theorem W1_v5 (c : Dev nD) : W1 m ρ c (Proc.devRef .tc main_v5) = tRows m c := s1_v5 (W0 m ρ c) _ (W0_arg1 m ρ c)
theorem W1_v6 (c : Dev nD) : W1 m ρ c (Proc.devRef .tc main_v6) = tCols m c := s1_v6 (W0 m ρ c) _ (W0_arg1 m ρ c)
theorem W1_v8 (c : Dev nD) : W1 m ρ c (Proc.devRef .tc main_v8) = RefSpec.wsF (aW m c) := s1_v8 (W0 m ρ c) _ (W0_arg2 m ρ c)
theorem W1_v13 (c : Dev nD) : W1 m ρ c (Proc.devRef .tc main_v13)
    = cmpf (F := Ideal) .ogt (RefSpec.degF (tCols m c) (RefSpec.wsF (aW m c))) (broadcastInDim S50000 ![] bcast_S_S50000 (constant (F := Ideal) S_ .f32 0x00000000#32)) :=
  s1_v13 (W0 m ρ c) _ (W0_arg1 m ρ c) _ (W0_arg2 m ρ c)
theorem W1_v15 (c : Dev nD) : W1 m ρ c (Proc.devRef .tc main_v15)
    = Host.powf (RefSpec.degF (tCols m c) (RefSpec.wsF (aW m c))) (broadcastInDim S50000 ![] bcast_S_S50000 (constant (F := Ideal) S_ .f32 0xBF000000#32)) :=
  s1_v15 (W0 m ρ c) _ (W0_arg1 m ρ c) _ (W0_arg2 m ρ c)
theorem W1_cst_3 (c : Dev nD) : W1 m ρ c (Proc.devRef .tc main_cst_3) = constant (F := Ideal) S_ .f32 0x00000000#32 := s1_cst_3 (W0 m ρ c)
theorem W2_v1 (c : Dev nD) : W2 m ρ c (Proc.devRef .tc main_v1) = RefSpec.rowW (aEi m c) :=
  (keep_hostOps0_1 (W1 m ρ c) main_v1 (by decide)).trans (W1_v1 m ρ c)
theorem W3_v1 (c : Dev nD) : W3 m ρ c (Proc.devRef .tc main_v1) = RefSpec.rowW (aEi m c) :=
  (keep_hostOps0_2 (W2 m ρ c) main_v1 (by decide)).trans (W2_v1 m ρ c)
theorem W4_v1 (c : Dev nD) : W4 m ρ c (Proc.devRef .tc main_v1) = RefSpec.rowW (aEi m c) :=
  (keep_hostOps0_3 (W3 m ρ c) main_v1 (by decide)).trans (W3_v1 m ρ c)
theorem W5_v1 (c : Dev nD) : W5 m ρ c (Proc.devRef .tc main_v1) = RefSpec.rowW (aEi m c) :=
  (keep_hostOps0_4 (W4 m ρ c) main_v1 (by decide)).trans (W4_v1 m ρ c)
theorem W6_v1 (c : Dev nD) : W6 m ρ c (Proc.devRef .tc main_v1) = RefSpec.rowW (aEi m c) :=
  (keep_hostOps0_5 (W5 m ρ c) main_v1 (by decide)).trans (W5_v1 m ρ c)
theorem W7_v1 (c : Dev nD) : W7 m ρ c (Proc.devRef .tc main_v1) = RefSpec.rowW (aEi m c) :=
  (W7_of_ne m ρ c main_v1 (by decide)).trans (W6_v1 m ρ c)
theorem W8_v1 (c : Dev nD) : W8 m ρ c (Proc.devRef .tc main_v1) = RefSpec.rowW (aEi m c) :=
  (keep_hostOps1 (W7 m ρ c) main_v1 (by decide)).trans (W7_v1 m ρ c)
theorem W9_v1 (c : Dev nD) : W9 m ρ c (Proc.devRef .tc main_v1) = RefSpec.rowW (aEi m c) :=
  (keep_hostOps1_1 (W8 m ρ c) main_v1 (by decide)).trans (W8_v1 m ρ c)
theorem W10_v1 (c : Dev nD) : W10 m ρ c (Proc.devRef .tc main_v1) = RefSpec.rowW (aEi m c) :=
  (W10_of_ne m ρ c main_v1 (by decide)).trans (W9_v1 m ρ c)
theorem W11_v1 (c : Dev nD) : W11 m ρ c (Proc.devRef .tc main_v1) = RefSpec.rowW (aEi m c) :=
  (keep_hostOps2 (W10 m ρ c) main_v1 (by decide)).trans (W10_v1 m ρ c)
theorem W12_v1 (c : Dev nD) : W12 m ρ c (Proc.devRef .tc main_v1) = RefSpec.rowW (aEi m c) :=
  (keep_hostOps2_1 (W11 m ρ c) main_v1 (by decide)).trans (W11_v1 m ρ c)
theorem W13_v1 (c : Dev nD) : W13 m ρ c (Proc.devRef .tc main_v1) = RefSpec.rowW (aEi m c) :=
  (W13_of_ne m ρ c main_v1 (by decide)).trans (W12_v1 m ρ c)
theorem W14_v1 (c : Dev nD) : W14 m ρ c (Proc.devRef .tc main_v1) = RefSpec.rowW (aEi m c) :=
  (keep_hostOps3 (W13 m ρ c) main_v1 (by decide)).trans (W13_v1 m ρ c)
theorem W15_v1 (c : Dev nD) : W15 m ρ c (Proc.devRef .tc main_v1) = RefSpec.rowW (aEi m c) :=
  (keep_hostOps3_1 (W14 m ρ c) main_v1 (by decide)).trans (W14_v1 m ρ c)
theorem W16_v1 (c : Dev nD) : W16 m ρ c (Proc.devRef .tc main_v1) = RefSpec.rowW (aEi m c) :=
  (W16_of_ne m ρ c main_v1 (by decide)).trans (W15_v1 m ρ c)
theorem W17_v1 (c : Dev nD) : W17 m ρ c (Proc.devRef .tc main_v1) = RefSpec.rowW (aEi m c) :=
  (keep_hostOps4 (W16 m ρ c) main_v1 (by decide)).trans (W16_v1 m ρ c)
theorem W2_v3 (c : Dev nD) : W2 m ρ c (Proc.devRef .tc main_v3) = RefSpec.colW (aEi m c) :=
  (keep_hostOps0_1 (W1 m ρ c) main_v3 (by decide)).trans (W1_v3 m ρ c)
theorem W3_v3 (c : Dev nD) : W3 m ρ c (Proc.devRef .tc main_v3) = RefSpec.colW (aEi m c) :=
  (keep_hostOps0_2 (W2 m ρ c) main_v3 (by decide)).trans (W2_v3 m ρ c)
theorem W4_v3 (c : Dev nD) : W4 m ρ c (Proc.devRef .tc main_v3) = RefSpec.colW (aEi m c) :=
  (keep_hostOps0_3 (W3 m ρ c) main_v3 (by decide)).trans (W3_v3 m ρ c)
theorem W5_v3 (c : Dev nD) : W5 m ρ c (Proc.devRef .tc main_v3) = RefSpec.colW (aEi m c) :=
  (keep_hostOps0_4 (W4 m ρ c) main_v3 (by decide)).trans (W4_v3 m ρ c)
theorem W6_v3 (c : Dev nD) : W6 m ρ c (Proc.devRef .tc main_v3) = RefSpec.colW (aEi m c) :=
  (keep_hostOps0_5 (W5 m ρ c) main_v3 (by decide)).trans (W5_v3 m ρ c)
theorem W7_v3 (c : Dev nD) : W7 m ρ c (Proc.devRef .tc main_v3) = RefSpec.colW (aEi m c) :=
  (W7_of_ne m ρ c main_v3 (by decide)).trans (W6_v3 m ρ c)
theorem W8_v3 (c : Dev nD) : W8 m ρ c (Proc.devRef .tc main_v3) = RefSpec.colW (aEi m c) :=
  (keep_hostOps1 (W7 m ρ c) main_v3 (by decide)).trans (W7_v3 m ρ c)
theorem W9_v3 (c : Dev nD) : W9 m ρ c (Proc.devRef .tc main_v3) = RefSpec.colW (aEi m c) :=
  (keep_hostOps1_1 (W8 m ρ c) main_v3 (by decide)).trans (W8_v3 m ρ c)
theorem W10_v3 (c : Dev nD) : W10 m ρ c (Proc.devRef .tc main_v3) = RefSpec.colW (aEi m c) :=
  (W10_of_ne m ρ c main_v3 (by decide)).trans (W9_v3 m ρ c)
theorem W11_v3 (c : Dev nD) : W11 m ρ c (Proc.devRef .tc main_v3) = RefSpec.colW (aEi m c) :=
  (keep_hostOps2 (W10 m ρ c) main_v3 (by decide)).trans (W10_v3 m ρ c)
theorem W12_v3 (c : Dev nD) : W12 m ρ c (Proc.devRef .tc main_v3) = RefSpec.colW (aEi m c) :=
  (keep_hostOps2_1 (W11 m ρ c) main_v3 (by decide)).trans (W11_v3 m ρ c)
theorem W13_v3 (c : Dev nD) : W13 m ρ c (Proc.devRef .tc main_v3) = RefSpec.colW (aEi m c) :=
  (W13_of_ne m ρ c main_v3 (by decide)).trans (W12_v3 m ρ c)
theorem W14_v3 (c : Dev nD) : W14 m ρ c (Proc.devRef .tc main_v3) = RefSpec.colW (aEi m c) :=
  (keep_hostOps3 (W13 m ρ c) main_v3 (by decide)).trans (W13_v3 m ρ c)
theorem W15_v3 (c : Dev nD) : W15 m ρ c (Proc.devRef .tc main_v3) = RefSpec.colW (aEi m c) :=
  (keep_hostOps3_1 (W14 m ρ c) main_v3 (by decide)).trans (W14_v3 m ρ c)
theorem W16_v3 (c : Dev nD) : W16 m ρ c (Proc.devRef .tc main_v3) = RefSpec.colW (aEi m c) :=
  (W16_of_ne m ρ c main_v3 (by decide)).trans (W15_v3 m ρ c)
theorem W17_v3 (c : Dev nD) : W17 m ρ c (Proc.devRef .tc main_v3) = RefSpec.colW (aEi m c) :=
  (keep_hostOps4 (W16 m ρ c) main_v3 (by decide)).trans (W16_v3 m ρ c)
theorem W2_v5 (c : Dev nD) : W2 m ρ c (Proc.devRef .tc main_v5) = tRows m c :=
  (keep_hostOps0_1 (W1 m ρ c) main_v5 (by decide)).trans (W1_v5 m ρ c)
theorem W3_v5 (c : Dev nD) : W3 m ρ c (Proc.devRef .tc main_v5) = tRows m c :=
  (keep_hostOps0_2 (W2 m ρ c) main_v5 (by decide)).trans (W2_v5 m ρ c)
theorem W4_v5 (c : Dev nD) : W4 m ρ c (Proc.devRef .tc main_v5) = tRows m c :=
  (keep_hostOps0_3 (W3 m ρ c) main_v5 (by decide)).trans (W3_v5 m ρ c)
theorem W5_v5 (c : Dev nD) : W5 m ρ c (Proc.devRef .tc main_v5) = tRows m c :=
  (keep_hostOps0_4 (W4 m ρ c) main_v5 (by decide)).trans (W4_v5 m ρ c)
theorem W6_v5 (c : Dev nD) : W6 m ρ c (Proc.devRef .tc main_v5) = tRows m c :=
  (keep_hostOps0_5 (W5 m ρ c) main_v5 (by decide)).trans (W5_v5 m ρ c)
theorem W7_v5 (c : Dev nD) : W7 m ρ c (Proc.devRef .tc main_v5) = tRows m c :=
  (W7_of_ne m ρ c main_v5 (by decide)).trans (W6_v5 m ρ c)
theorem W8_v5 (c : Dev nD) : W8 m ρ c (Proc.devRef .tc main_v5) = tRows m c :=
  (keep_hostOps1 (W7 m ρ c) main_v5 (by decide)).trans (W7_v5 m ρ c)
theorem W9_v5 (c : Dev nD) : W9 m ρ c (Proc.devRef .tc main_v5) = tRows m c :=
  (keep_hostOps1_1 (W8 m ρ c) main_v5 (by decide)).trans (W8_v5 m ρ c)
theorem W10_v5 (c : Dev nD) : W10 m ρ c (Proc.devRef .tc main_v5) = tRows m c :=
  (W10_of_ne m ρ c main_v5 (by decide)).trans (W9_v5 m ρ c)
theorem W11_v5 (c : Dev nD) : W11 m ρ c (Proc.devRef .tc main_v5) = tRows m c :=
  (keep_hostOps2 (W10 m ρ c) main_v5 (by decide)).trans (W10_v5 m ρ c)
theorem W12_v5 (c : Dev nD) : W12 m ρ c (Proc.devRef .tc main_v5) = tRows m c :=
  (keep_hostOps2_1 (W11 m ρ c) main_v5 (by decide)).trans (W11_v5 m ρ c)
theorem W13_v5 (c : Dev nD) : W13 m ρ c (Proc.devRef .tc main_v5) = tRows m c :=
  (W13_of_ne m ρ c main_v5 (by decide)).trans (W12_v5 m ρ c)
theorem W2_v6 (c : Dev nD) : W2 m ρ c (Proc.devRef .tc main_v6) = tCols m c :=
  (keep_hostOps0_1 (W1 m ρ c) main_v6 (by decide)).trans (W1_v6 m ρ c)
theorem W3_v6 (c : Dev nD) : W3 m ρ c (Proc.devRef .tc main_v6) = tCols m c :=
  (keep_hostOps0_2 (W2 m ρ c) main_v6 (by decide)).trans (W2_v6 m ρ c)
theorem W4_v6 (c : Dev nD) : W4 m ρ c (Proc.devRef .tc main_v6) = tCols m c :=
  (keep_hostOps0_3 (W3 m ρ c) main_v6 (by decide)).trans (W3_v6 m ρ c)
theorem W5_v6 (c : Dev nD) : W5 m ρ c (Proc.devRef .tc main_v6) = tCols m c :=
  (keep_hostOps0_4 (W4 m ρ c) main_v6 (by decide)).trans (W4_v6 m ρ c)
theorem W2_v8 (c : Dev nD) : W2 m ρ c (Proc.devRef .tc main_v8) = RefSpec.wsF (aW m c) :=
  (keep_hostOps0_1 (W1 m ρ c) main_v8 (by decide)).trans (W1_v8 m ρ c)

theorem W2_v16 (c : Dev nD) : W2 m ρ c (Proc.devRef .tc main_v16) = RefSpec.dinvOf (RefSpec.degF (tCols m c) (RefSpec.wsF (aW m c))) :=
  s2_v16 (W1 m ρ c) _ _ _ (W1_v13 m ρ c) (W1_v15 m ρ c) (W1_cst_3 m ρ c)
theorem W3_v32 (c : Dev nD) : W3 m ρ c (Proc.devRef .tc main_v32) = tNorm m c :=
  s3_v32 (W2 m ρ c) _ _ _ _ (W2_v5 m ρ c) (W2_v6 m ρ c) (W2_v8 m ρ c) (W2_v16 m ρ c)
theorem W3_c_7 (c : Dev nD) : W3 m ρ c (Proc.devRef .tc main_c_7) = constantI S_ 32 0#32 := s3_c_7 (W2 m ρ c)
theorem W4_v33 (c : Dev nD) : W4 m ρ c (Proc.devRef .tc main_v33)
    = pad S1654784 ![0] ![4784] ![0] (tNorm m c) (sitofp (F := Ideal) .f32 (constantI S_ 32 0#32)) pads_S1650000_S1654784_047840 h_S_ :=
  s4_v33 (W3 m ρ c) _ _ (W3_c_7 m ρ c) (W3_v32 m ρ c)
theorem W5_v34 (c : Dev nD) : W5 m ρ c (Proc.devRef .tc main_v34) = KerSpec.padNorm (tNorm m c) := s5_v34 (W4 m ρ c) _ (W4_v33 m ρ c)
theorem W5_c_8 (c : Dev nD) : W5 m ρ c (Proc.devRef .tc main_c_8) = constantI S_ 32 0#32 := s5_c_8 (W4 m ρ c)
theorem W6_v34 (c : Dev nD) : W6 m ρ c (Proc.devRef .tc main_v34) = KerSpec.padNorm (tNorm m c) :=
  (keep_hostOps0_5 (W5 m ρ c) main_v34 (by decide)).trans (W5_v34 m ρ c)
theorem W7_v34 (c : Dev nD) : W7 m ρ c (Proc.devRef .tc main_v34) = KerSpec.padNorm (tNorm m c) :=
  (W7_of_ne m ρ c main_v34 (by decide)).trans (W6_v34 m ρ c)
theorem W8_v34 (c : Dev nD) : W8 m ρ c (Proc.devRef .tc main_v34) = KerSpec.padNorm (tNorm m c) :=
  (keep_hostOps1 (W7 m ρ c) main_v34 (by decide)).trans (W7_v34 m ρ c)
theorem W9_v34 (c : Dev nD) : W9 m ρ c (Proc.devRef .tc main_v34) = KerSpec.padNorm (tNorm m c) :=
  (keep_hostOps1_1 (W8 m ρ c) main_v34 (by decide)).trans (W8_v34 m ρ c)
theorem W10_v34 (c : Dev nD) : W10 m ρ c (Proc.devRef .tc main_v34) = KerSpec.padNorm (tNorm m c) :=
  ((W10_arr m ρ c 1).trans (((dat1 (V9 m ρ) c).arrAt_in 1 rfl _).trans (A_eq1 (V9 m ρ) c 1))).trans (W9_v34 m ρ c)
theorem W11_v34 (c : Dev nD) : W11 m ρ c (Proc.devRef .tc main_v34) = KerSpec.padNorm (tNorm m c) :=
  (keep_hostOps2 (W10 m ρ c) main_v34 (by decide)).trans (W10_v34 m ρ c)
theorem W12_v34 (c : Dev nD) : W12 m ρ c (Proc.devRef .tc main_v34) = KerSpec.padNorm (tNorm m c) :=
  (keep_hostOps2_1 (W11 m ρ c) main_v34 (by decide)).trans (W11_v34 m ρ c)
theorem W13_v34 (c : Dev nD) : W13 m ρ c (Proc.devRef .tc main_v34) = KerSpec.padNorm (tNorm m c) :=
  (W13_of_ne m ρ c main_v34 (by decide)).trans (W12_v34 m ρ c)
theorem W14_v34 (c : Dev nD) : W14 m ρ c (Proc.devRef .tc main_v34) = KerSpec.padNorm (tNorm m c) :=
  (keep_hostOps3 (W13 m ρ c) main_v34 (by decide)).trans (W13_v34 m ρ c)
theorem W15_v34 (c : Dev nD) : W15 m ρ c (Proc.devRef .tc main_v34) = KerSpec.padNorm (tNorm m c) :=
  (keep_hostOps3_1 (W14 m ρ c) main_v34 (by decide)).trans (W14_v34 m ρ c)

theorem W6_v35 (c : Dev nD) : W6 m ρ c (Proc.devRef .tc main_v35) = KerSpec.padCols (tCols m c) :=
  s6_v35 (W5 m ρ c) _ _ (W5_c_8 m ρ c) (W5_v6 m ρ c)
theorem W7_v35 (c : Dev nD) : W7 m ρ c (Proc.devRef .tc main_v35) = KerSpec.padCols (tCols m c) :=
  (W7_of_ne m ρ c main_v35 (by decide)).trans (W6_v35 m ρ c)
theorem W8_v35 (c : Dev nD) : W8 m ρ c (Proc.devRef .tc main_v35) = KerSpec.padCols (tCols m c) :=
  (keep_hostOps1 (W7 m ρ c) main_v35 (by decide)).trans (W7_v35 m ρ c)
theorem W9_v35 (c : Dev nD) : W9 m ρ c (Proc.devRef .tc main_v35) = KerSpec.padCols (tCols m c) :=
  (keep_hostOps1_1 (W8 m ρ c) main_v35 (by decide)).trans (W8_v35 m ρ c)
theorem W10_v35 (c : Dev nD) : W10 m ρ c (Proc.devRef .tc main_v35) = KerSpec.padCols (tCols m c) :=
  (W10_of_ne m ρ c main_v35 (by decide)).trans (W9_v35 m ρ c)
theorem W11_v35 (c : Dev nD) : W11 m ρ c (Proc.devRef .tc main_v35) = KerSpec.padCols (tCols m c) :=
  (keep_hostOps2 (W10 m ρ c) main_v35 (by decide)).trans (W10_v35 m ρ c)
theorem W12_v35 (c : Dev nD) : W12 m ρ c (Proc.devRef .tc main_v35) = KerSpec.padCols (tCols m c) :=
  (keep_hostOps2_1 (W11 m ρ c) main_v35 (by decide)).trans (W11_v35 m ρ c)
theorem W13_v35 (c : Dev nD) : W13 m ρ c (Proc.devRef .tc main_v35) = KerSpec.padCols (tCols m c) :=
  (W13_of_ne m ρ c main_v35 (by decide)).trans (W12_v35 m ρ c)
theorem W14_v35 (c : Dev nD) : W14 m ρ c (Proc.devRef .tc main_v35) = KerSpec.padCols (tCols m c) :=
  (keep_hostOps3 (W13 m ρ c) main_v35 (by decide)).trans (W13_v35 m ρ c)
theorem W15_v35 (c : Dev nD) : W15 m ρ c (Proc.devRef .tc main_v35) = KerSpec.padCols (tCols m c) :=
  (keep_hostOps3_1 (W14 m ρ c) main_v35 (by decide)).trans (W14_v35 m ρ c)
theorem W16_v35 (c : Dev nD) : W16 m ρ c (Proc.devRef .tc main_v35) = KerSpec.padCols (tCols m c) :=
  (W16_of_ne m ρ c main_v35 (by decide)).trans (W15_v35 m ρ c)

/-- After region 0: the first projection. -/
theorem W7_v36 (c : Dev nD) : W7 m ρ c (Proc.devRef .tc main_v36) = tH1 m c :=
  (W7_arr m ρ c 2).trans ((RegVal.arr0 (V6 m ρ) c).trans
    ((congrArg₂ (BlockProd.matProd 50000 256 128) (W6_arg0 m ρ c) (W6_arg3 m ρ c)).trans (ProdBridge.hx128_eq _ _)))

theorem W8_v43 (c : Dev nD) : W8 m ρ c (Proc.devRef .tc main_v43)
    = Host.gather gather_S50000x128_S1650000x1_S1650000x128_1_0_n_n_0_1_1128 (tH1 m c) (broadcastInDim S1650000x1 ![0] bcast_S1650000_S1650000x1_0 (select (cmpi .slt (tRows m c) (broadcastInDim S1650000 ![] bcast_S_S1650000 (constantI S_ 32 0#32))) (addi (tRows m c) (broadcastInDim S1650000 ![] bcast_S_S1650000 (constantI S_ 32 50000#32))) (tRows m c))) :=
  s8_v43 (W7 m ρ c) _ _ (W7_v5 m ρ c) (W7_v36 m ρ c)
theorem W8_c_11 (c : Dev nD) : W8 m ρ c (Proc.devRef .tc main_c_11) = constantI S_ 32 0#32 := s8_c_11 (W7 m ρ c)
theorem W9_v44 (c : Dev nD) : W9 m ρ c (Proc.devRef .tc main_v44) = KerSpec.gathPad128 (tH1 m c) (tRows m c) :=
  s9_v44 (W8 m ρ c) _ _ (W8_c_11 m ρ c) (W8_v43 m ρ c)
/-- After region 1: the padded gathered rows scaled by the padded normalization. -/
theorem W10_v45 (c : Dev nD) : W10 m ρ c (Proc.devRef .tc main_v45) = RegVal.scaleRows 1654784 128 (KerSpec.gathPad128 (tH1 m c) (tRows m c)) (KerSpec.padNorm (tNorm m c)) :=
  (W10_arr m ρ c 2).trans ((RegVal.arr1 (V9 m ρ) c).trans
    (congrArg₂ (RegVal.scaleRows 1654784 128) (W9_v44 m ρ c) (W9_v34 m ρ c)))
theorem W11_v51 (c : Dev nD) : W11 m ρ c (Proc.devRef .tc main_v51) = tL1 m c :=
  (s11_v51 (W10 m ρ c) _ _ _ (W10_v35 m ρ c) (W10_v45 m ρ c) (W10_arg4 m ρ c)).trans
    (PaddedLayer.layer128_bridge (tNorm m c) (tRows m c) (tCols m c) (tH1 m c) (aB1 m c))
theorem W12_v52 (c : Dev nD) : W12 m ρ c (Proc.devRef .tc main_v52) = tR1 m c := s12_v52 (W11 m ρ c) _ (W11_v51 m ρ c)
/-- After region 2: the second projection. -/
theorem W13_v53 (c : Dev nD) : W13 m ρ c (Proc.devRef .tc main_v53) = tH2 m c :=
  (W13_arr m ρ c 2).trans ((RegVal.arr2 (V12 m ρ) c).trans
    ((congrArg₂ (BlockProd.matProd 50000 128 16) (W12_v52 m ρ c) (W12_arg5 m ρ c)).trans (ProdBridge.hx16_eq _ _)))
theorem W14_v60 (c : Dev nD) : W14 m ρ c (Proc.devRef .tc main_v60)
    = Host.gather gather_S50000x16_S1650000x1_S1650000x16_1_0_n_n_0_1_116 (tH2 m c) (broadcastInDim S1650000x1 ![0] bcast_S1650000_S1650000x1_0 (select (cmpi .slt (tRows m c) (broadcastInDim S1650000 ![] bcast_S_S1650000 (constantI S_ 32 0#32))) (addi (tRows m c) (broadcastInDim S1650000 ![] bcast_S_S1650000 (constantI S_ 32 50000#32))) (tRows m c))) :=
  s14_v60 (W13 m ρ c) _ _ (W13_v5 m ρ c) (W13_v53 m ρ c)
theorem W14_c_15 (c : Dev nD) : W14 m ρ c (Proc.devRef .tc main_c_15) = constantI S_ 32 0#32 := s14_c_15 (W13 m ρ c)
theorem W15_v61 (c : Dev nD) : W15 m ρ c (Proc.devRef .tc main_v61) = KerSpec.gathPad16 (tH2 m c) (tRows m c) :=
  s15_v61 (W14 m ρ c) _ _ (W14_c_15 m ρ c) (W14_v60 m ρ c)
/-- After region 3: the padded gathered rows scaled by the padded normalization. -/
theorem W16_v62 (c : Dev nD) : W16 m ρ c (Proc.devRef .tc main_v62) = RegVal.scaleRows 1654784 16 (KerSpec.gathPad16 (tH2 m c) (tRows m c)) (KerSpec.padNorm (tNorm m c)) :=
  (W16_arr m ρ c 2).trans ((RegVal.arr3 (V15 m ρ) c).trans
    (congrArg₂ (RegVal.scaleRows 1654784 16) (W15_v61 m ρ c) (W15_v34 m ρ c)))

/-! ## The output rows and the pieces of the column weights -/

/-- THE OUTPUT ROWS ARE THE REFERENCE'S. -/
theorem W17_v68 (c : Dev nD) : W17 m ρ c (Proc.devRef .tc main_v68)
    = RefSpec.logits (aX m c) (aEi m c) (aW m c) (aW1 m c) (aB1 m c) (aW2 m c) (aB2 m c) :=
  (s17_v68 (W16 m ρ c) _ _ _ (W16_v35 m ρ c) (W16_v62 m ρ c) (W16_arg6 m ρ c)).trans
    (PaddedLayer.layer16_bridge (tNorm m c) (tRows m c) (tCols m c) (tH2 m c) (aB2 m c))

/-- The sum of the edge weights at each target node. -/
abbrev colSum (c : Dev nD) : FVec Ideal S50000 .f32 := (Host.scatterAdd scatter_S50000_S1600000x1_S1600000_n_0_0_1 (broadcastInDim S50000 ![] bcast_S_S50000 (constant (F := Ideal) S_ .f32 0x00000000#32)) (broadcastInDim S1600000x1 ![0] bcast_S1600000_S1600000x1_0 (RefSpec.colW (aEi m c))) (aW m c))

theorem W17_v73 (c : Dev nD) : W17 m ρ c (Proc.devRef .tc main_v73) = cmpf (F := Ideal) .ogt (colSum m c) (broadcastInDim S50000 ![] bcast_S_S50000 (constant (F := Ideal) S_ .f32 0x00000000#32)) :=
  s17_v73 (W16 m ρ c) _ _ (W16_v3 m ρ c) (W16_arg2 m ρ c)
theorem W17_v75 (c : Dev nD) : W17 m ρ c (Proc.devRef .tc main_v75) = Host.divf (broadcastInDim S50000 ![] bcast_S_S50000 (constant (F := Ideal) S_ .f32 0x3F800000#32)) (colSum m c) :=
  s17_v75 (W16 m ρ c) _ _ (W16_v3 m ρ c) (W16_arg2 m ρ c)
theorem W17_cst_20 (c : Dev nD) : W17 m ρ c (Proc.devRef .tc main_cst_20) = constant (F := Ideal) S_ .f32 0x00000000#32 := s17_cst_20 (W16 m ρ c)

/-- The three pieces make the reference's guarded inverse of the column sums. -/
theorem rinv_pieces (c : Dev nD) :
    select (cmpf (F := Ideal) .ogt (colSum m c) (broadcastInDim S50000 ![] bcast_S_S50000 (constant (F := Ideal) S_ .f32 0x00000000#32))) (Host.divf (broadcastInDim S50000 ![] bcast_S_S50000 (constant (F := Ideal) S_ .f32 0x3F800000#32)) (colSum m c))
        (broadcastInDim S50000 ![] bcast_S_S50000 (constant (F := Ideal) S_ .f32 0x00000000#32))
      = RefSpec.rinvOf (RefSpec.colW (aEi m c)) (aW m c) := rfl

end Cert.KerLayers

end
-- ==== Proof.RegionAccum.lean ====
/-
  Region 4 of the idealized kernel program: the grid accumulator of `cc4__kl_kernel`.

  The region runs 391 grid points over ONE [1,1] output block whose index never moves. At the first point the body
  stores the zero splat into the block and then adds the point's contribution; at every later point it adds the
  point's contribution to what the block holds. The contribution of point `t` is the payload `k4_pay3` of the three
  input blocks at `t` (left opaque here). The block is written back after the last point only, and it is the whole
  [1,1] array, so the array ends holding  ((0 + p 0) + p 1) + … + p 390.  Over the extended reals `0 + x = x` and
  finite sums are built by adding one term at a time, so this ordered chain IS the finite sum  ∑ t, p t  — no
  finiteness of the terms is needed.

    out_A, out_B      what each control case leaves in the output block, as payloads (any float instance)
    outsAt_zero/succ  the recursion of the block's contents over the points (any float instance)
    outsAt_sum        at the extended reals: after point n the block holds ∑ s ≤ n, p s   (induction on the point)
    arr4              the output array after the region is the constant  ∑ t, p t
-/
import proofs.«155868_j58506044506617_2_alg».proof.Proof.Gen.KernelIdeal.Frame
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.RegAcc

open Cert.KernelIdeal Cert.KernelIdeal.Gen

/-! ## What each control case leaves in the output block (any float instance) -/

section Generic

variable {F : FTy → Type} [FloatOps F]

/-- The zero offsets of a rank-2 access, however spelt. -/
theorem hz : (![0, 0] : Fin 2 → Nat) = fun _ => 0 := funext fun a => by fin_cases a <;> rfl

/-- A later point (the reset not taken): the body's one covering store leaves, in the output block holding `xo`,
    the sum payload `k4_pay1` of the point's contribution and `xo`; its loads read the whole staging buffers. -/
theorem out_B (c : Dev nD) (i : grid4.Coords) (a1 : Memref sig .tc .vmem S4096x16 .f32) (h1 : a1.IsWhole)
    (a2 : Memref sig .tc .vmem S4096x16 .f32) (h2 : a2.IsWhole) (a3 : Memref sig .tc .vmem S4096x1 .f32) (h3 : a3.IsWhole)
    (a4 : Memref sig .tc .vmem S1x1 .f32) (h4 : a4.IsWhole) (hc : ¬cond4_0 i)
    (x0 : Vec F S4096x16 .f32) (x1 : Vec F S4096x16 .f32) (x2 : Vec F S4096x1 .f32) (xo : Vec F S1x1 .f32) :
    out4_B_3 c i a1 h1 a2 h2 a3 h3 a4 h4 hc x0 x1 x2 xo = k4_pay1 (k4_pay3 x1 x0 x2) xo := by
  unfold out4_B_3
  rw [View.read_writes_eq_canon _ _ _ (cover4_B_3 c i a1 h1 a2 h2 a3 h3 a4 h4 hc x0 x1 x2 xo)]
  unfold kernelRun4_B
  dsimp only
  sl_unfold_words
  rw [View.canon_unit_zero (S := S1x1) hz]
  simp only [View.readAt_eq_ld, h1.read_unread, h2.read_unread, h3.read_unread, h4.read_unread,
    View.ld_unit_zero (S := S4096x16) hz, View.ld_unit_zero (S := S4096x1) hz, View.ld_unit_zero (S := S1x1) hz]

/-- The first point (the reset taken): the body stores the zero splat `k4_pay2`, reads it back, and its last
    covering store leaves the sum payload of the point's contribution and that zero splat. -/
theorem out_A (c : Dev nD) (i : grid4.Coords) (a1 : Memref sig .tc .vmem S4096x16 .f32) (h1 : a1.IsWhole)
    (a2 : Memref sig .tc .vmem S4096x16 .f32) (h2 : a2.IsWhole) (a3 : Memref sig .tc .vmem S4096x1 .f32) (h3 : a3.IsWhole)
    (a4 : Memref sig .tc .vmem S1x1 .f32) (h4 : a4.IsWhole) (hc : cond4_0 i)
    (x0 : Vec F S4096x16 .f32) (x1 : Vec F S4096x16 .f32) (x2 : Vec F S4096x1 .f32) :
    out4_A_3 c i a1 h1 a2 h2 a3 h3 a4 h4 hc x0 x1 x2 = k4_pay1 (k4_pay3 x1 x0 x2) (k4_pay2 (F := F)) := by
  unfold out4_A_3
  rw [View.read_writes_eq_canon _ _ _ (cover4_A_3 c i a1 h1 a2 h2 a3 h3 a4 h4 hc x0 x1 x2)]
  unfold kernelRun4_A
  dsimp only
  sl_unfold_words
  rw [View.canon_cons_unit_zero (S := S1x1) hz, View.readCov_unit_zero (S := S1x1) _ hz]
  simp only [View.readAt_eq_ld, h1.read_unread, h2.read_unread, h3.read_unread,
    View.ld_unit_zero (S := S4096x16) hz, View.ld_unit_zero (S := S4096x1) hz]

variable (V : (c : Dev nD) → (b : Ref sig .tc) → Buf (Elt F) ((c : Thread nD τ).loc b))

/-- The contribution of grid point `t`: the body's payload of the three input blocks at `t`, a [1,1] vector. -/
def term (c : Dev nD) (t : Fin cfg4.N) : Vec F S1x1 .f32 :=
  k4_pay3 (iblk4 V c 1 t) (iblk4 V c 0 t) (iblk4 V c 2 t)

/-- After the first point the block holds the sum payload of its contribution and the zero splat. -/
theorem outsAt_zero (c : Dev nD) (h0 : 0 < cfg4.N) :
    outsAt4 V c 0 h0 = k4_pay1 (term V c ⟨0, h0⟩) (k4_pay2 (F := F)) :=
  (outsAt4_A V c ⟨0, h0⟩ (Nat.zero_mod _)).trans
    (out_A c (grid4.coords ⟨0, h0⟩) (ms4_0 ⟨0, h0⟩) (hs4_0 ⟨0, h0⟩) (ms4_1 ⟨0, h0⟩) (hs4_1 ⟨0, h0⟩) (ms4_2 ⟨0, h0⟩) (hs4_2 ⟨0, h0⟩)
      (ms4_3 ⟨0, h0⟩) (hs4_3 ⟨0, h0⟩) ((hcond4_0 ⟨0, h0⟩).mpr (Nat.zero_mod _)) (iblk4 V c 0 ⟨0, h0⟩) (iblk4 V c 1 ⟨0, h0⟩) (iblk4 V c 2 ⟨0, h0⟩))

/-- After a later point the block holds the sum payload of its contribution and what the point before left. -/
theorem outsAt_succ (c : Dev nD) (n : ℕ) (hn : n + 1 < cfg4.N) :
    outsAt4 V c (n + 1) hn = k4_pay1 (term V c ⟨n + 1, hn⟩) (outsAt4 V c n (Nat.lt_of_succ_lt hn)) := by
  have hn' : n + 1 < 391 := lt_of_lt_of_eq hn (show cfg4.N = 391 from N_4)
  have hB : ¬(⟨n + 1, hn⟩ : Fin cfg4.N).val % 391 = 0 := by dsimp only; omega
  exact (outsAt4_B V c ⟨n + 1, hn⟩ hB).trans
    (out_B c (grid4.coords ⟨n + 1, hn⟩) (ms4_0 ⟨n + 1, hn⟩) (hs4_0 ⟨n + 1, hn⟩) (ms4_1 ⟨n + 1, hn⟩) (hs4_1 ⟨n + 1, hn⟩)
      (ms4_2 ⟨n + 1, hn⟩) (hs4_2 ⟨n + 1, hn⟩) (ms4_3 ⟨n + 1, hn⟩) (hs4_3 ⟨n + 1, hn⟩) (fun h => hB ((hcond4_0 ⟨n + 1, hn⟩).mp h))
      (iblk4 V c 0 ⟨n + 1, hn⟩) (iblk4 V c 1 ⟨n + 1, hn⟩) (iblk4 V c 2 ⟨n + 1, hn⟩) (outsAt4 V c n (Nat.lt_of_succ_lt hn)))

end Generic

/-! ## At the extended reals: the block's contents are the partial sums -/

section AtIdeal

variable (V : (c : Dev nD) → (b : Ref sig .tc) → Buf (Elt Ideal) ((c : Thread nD τ).loc b))

/-- The one index of a [1,1] block. -/
abbrev e00 : S1x1.Idx := ix2 (0 : Fin 1) (0 : Fin 1)

/-- Every index of a [1,1] block is that one. -/
theorem idx_eq (j : S1x1.Idx) : j = e00 := by
  funext a
  apply Fin.ext
  match a with
  | ⟨0, _⟩ => have h : (j 0).val < 1 := (j 0).isLt; show (j 0).val = 0; omega
  | ⟨1, _⟩ => have h : (j 1).val < 1 := (j 1).isLt; show (j 1).val = 0; omega

/-- The sum payload at the extended reals: the cast between equal shapes is the identity, and the float addition
    is the addition of the extended reals — the block's contents plus the point's contribution. -/
theorem pay1_ideal (a : FVec Ideal S1x1 .f32) (b : Vec Ideal S1x1 .f32) (j : S1x1.Idx) :
    k4_pay1 (F := Ideal) a b j = b j + a j := by
  unfold k4_pay1
  rw [shapeCast_self]
  rfl

/-- The zero splat at the extended reals is zero. -/
theorem pay2_ideal (j : S1x1.Idx) : k4_pay2 (F := Ideal) j = 0 := by
  unfold k4_pay2
  exact Ideal.ofBits_zero_f32

/-- The contribution of position `s` of the grid, as an extended real (past the grid: zero, never summed). -/
def q (c : Dev nD) (s : ℕ) : Ideal .f32 := if h : s < cfg4.N then term V c ⟨s, h⟩ e00 else 0

theorem q_of_lt (c : Dev nD) (s : ℕ) (h : s < cfg4.N) : q V c s = term V c ⟨s, h⟩ e00 := dif_pos h

/-- THE INVARIANT. After point `n` the output block holds the sum of the contributions of the points up to `n`:
    the first point leaves `0 + p 0`, each later one adds its own to what the one before left. -/
theorem outsAt_sum (c : Dev nD) : ∀ (n : ℕ) (hn : n < cfg4.N), outsAt4 V c n hn e00 = ∑ s ∈ Finset.range (n + 1), q V c s
  | 0, hn => by
    rw [outsAt_zero V c hn, pay1_ideal, pay2_ideal, zero_add, Finset.sum_range_one, q_of_lt V c 0 hn]
  | n + 1, hn => by
    rw [outsAt_succ V c n hn, pay1_ideal, outsAt_sum c n (Nat.lt_of_succ_lt hn), Finset.sum_range_succ _ (n + 1),
      q_of_lt V c (n + 1) hn]

/-- After the last point the block holds the sum over the whole grid. -/
theorem outsAt_last (c : Dev nD) (t : Fin cfg4.N) (ht : t.val = 390) :
    outsAt4 V c t.val t.isLt e00 = ∑ s : Fin cfg4.N, term V c s e00 := by
  rw [outsAt_sum V c t.val t.isLt, ht, show 390 + 1 = cfg4.N from N_4.symm, Finset.sum_range]
  exact Finset.sum_congr rfl fun s _ => q_of_lt V c s.val s.isLt

end AtIdeal

/-! ## The output array after the region -/

section Array

variable (V : (c : Dev nD) → (b : Ref sig .tc) → Buf (Elt Ideal) ((c : Thread nD τ).loc b))

/-- The array the region leaves: its one entry the sum of the contributions of all the grid's points. -/
def total (c : Dev nD) : Buf (Elt Ideal) ((c : Thread nD τ).loc main_v103) :=
  fun _ => (∑ s : Fin cfg4.N, term V c s e00 : Ideal .f32)

/-- The last grid point, the only one that writes the block back. -/
abbrev tLast : Fin cfg4.N := ⟨390, lt_of_lt_of_eq (by decide : 390 < 391) N_4.symm⟩

/-- The one write-back writes the sum: it happens after the last point, when the block holds the sum over the
    whole grid, and the block's one entry is the array's. -/
theorem flushed_eq (c : Dev nD) (t : Fin cfg4.N) (hf : (cfg4.win 3).flush t = true) :
    (dat4 V c).flushed 3 t = ((cfg4.win 3).blk t).view.read (Elt Ideal) (total V c) := by
  have hN : t.val < 391 := lt_of_lt_of_eq t.isLt (show cfg4.N = 391 from N_4)
  have ht : t.val = 390 := by have := (flush4_3 t).mp hf; omega
  show (cfg4.win 3).cut (grid4.coords t) ((dat4 V c).after 3 t) = _
  rw [after4_3]
  funext y
  rw [View.read_apply]
  show outsAt4 V c t.val t.isLt ((cfg4.win 3).xinj (grid4.coords t) y) = ∑ s : Fin cfg4.N, term V c s e00
  exact (congrArg (outsAt4 V c t.val t.isLt) (idx_eq _)).trans (outsAt_last V c t ht)

/-- THE RESULT. After the region the [1,1] output array holds the sum over the grid of the points' contributions:
    the block written back after the last point is the whole array. -/
theorem arr4 (c : Dev nD) : (dat4 V c).arrAt 3 cfg4.N = total V c :=
  (dat4 V c).arrAt_eq_of_cover 3 (total V c) (flushed_eq V c) fun i =>
    ⟨tLast, (flush4_3 tLast).mpr rfl, by
      show i ∈ ((View.whole main_v103).slice (win4_3.rect tLast)).set
      rw [View.set_slice_whole, Rect.mem_set_unit]
      intro a
      have h0 : (i 0 : Nat) < 1 := (i 0).isLt
      have h1 : (i 1 : Nat) < 1 := (i 1).isLt
      match a with
      | ⟨0, _⟩ => show win4_3.index tLast 0 * win4_3.size 0 ≤ (i 0 : Nat) ∧ (i 0 : Nat) < win4_3.index tLast 0 * win4_3.size 0 + win4_3.xsize (grid4.coords tLast) 0
                  rw [show win4_3.index tLast 0 * win4_3.size 0 = 0 from by decide +kernel, show win4_3.xsize (grid4.coords tLast) 0 = 1 from by decide +kernel]; omega
      | ⟨1, _⟩ => show win4_3.index tLast 1 * win4_3.size 1 ≤ (i 1 : Nat) ∧ (i 1 : Nat) < win4_3.index tLast 1 * win4_3.size 1 + win4_3.xsize (grid4.coords tLast) 1
                  rw [show win4_3.index tLast 1 * win4_3.size 1 = 0 from by decide +kernel, show win4_3.xsize (grid4.coords tLast) 1 = 1 from by decide +kernel]; omega⟩

/-- The same, entry by entry and with the contribution spelt out: every entry of the array is
    ∑ t, k4_pay3 (block of window 1 at t) (block of window 0 at t) (block of window 2 at t) at the block's one index. -/
theorem arr4_apply (c : Dev nD) :
    (dat4 V c).arrAt 3 cfg4.N = fun _ => ∑ t : Fin cfg4.N,
      k4_pay3 (F := Ideal) (iblk4 V c 1 t) (iblk4 V c 0 t) (iblk4 V c 2 t) (ix2 (0 : Fin 1) (0 : Fin 1)) :=
  arr4 V c

/-- The same sum over the 391 points named by their position. -/
theorem arr4_fin (c : Dev nD) :
    (dat4 V c).arrAt 3 cfg4.N = fun _ => ∑ t : Fin 391,
      k4_pay3 (F := Ideal) (iblk4 V c 1 (Fin.cast N_4.symm t)) (iblk4 V c 0 (Fin.cast N_4.symm t)) (iblk4 V c 2 (Fin.cast N_4.symm t))
        (ix2 (0 : Fin 1) (0 : Fin 1)) := by
  rw [arr4_apply V c]
  funext _
  exact (Equiv.sum_comp (finCongr N_4.symm) fun t : Fin cfg4.N =>
    k4_pay3 (F := Ideal) (iblk4 V c 1 t) (iblk4 V c 0 t) (iblk4 V c 2 t) (ix2 (0 : Fin 1) (0 : Fin 1))).symm

end Array

end Cert.KernelIdeal.RegAcc
end
-- ==== Proof.LibRowMax.lean ====
/-
  The maximum of a matrix along its rows, read at an index at the ideal values: a `vector.multi_reduction <maximumf>`
  of an [a, b] matrix along axis 1 is, at row i, the fold of max from the accumulator's value over the entries (i, k).
-/
import Idealize.ShloMosaic.Lib.ValueIdx
import Idealize.ShloMosaic.PureOps.Ideal.Laws

noncomputable section

namespace Cert.LibRowMax

open Idealize.ShloMosaic Idealize.ShloMosaic.ValueIdx

/-- At the ideal values the maximum of an `[a, b]` matrix along its rows is, at `i`, the fold of `max` from the
    accumulator's value over the entries `(i, k)`. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  refine congrArg (fun f => (Finset.univ : Finset (Fin b)).fold max (Ideal.ofBits φ acc) f)
    (funext fun k => congrArg src (funext fun ax => Fin.ext ?_))
  match ax with
  | ⟨0, _⟩ => rfl
  | ⟨1, _⟩ => rfl

end Cert.LibRowMax

end
-- ==== Proof.LibSoftmaxKL.lean ====
/-
  Softmax, log-softmax and the Kullback–Leibler term of two rows, on the extended reals.

  For a row y of C entries let M be its maximum taken from the bottom element (max of ⊥ and the fold of max from ⊥),
  t k = y k − M the shifted entries and S = ∑ k, exp (t k). The log-softmax of the row is t k − log S and its softmax
  exp (t k) / S. When every entry of the row is a real number and the row is not empty, M is real, S is a positive
  real, both functions are real, and the exponential of the log-softmax IS the softmax: exp (t − log S) = exp t / S.
  Hence the Kullback–Leibler term ∑ k, p k · (log p k − log q k) is the same whether the weights p are taken as the
  softmax of the row or as the exponential of its log-softmax, and it is a real number when both rows are real.
-/
import Idealize.ShloMosaic.PureOps.Ideal
import proofs.«155868_j58506044506617_2_alg».proof.Proof.LibRealMean

noncomputable section

open scoped BigOperators

namespace Cert.SoftmaxKL

open Idealize.ShloMosaic Cert.RealMean

/-- The f32 word of minus infinity is the bottom element. -/
theorem ofBits_neg_inf_f32 : Ideal.ofBits .f32 0xFF800000#32 = ⊥ := by simp [Ideal.ofBits, Ideal.ieee]

variable {C : ℕ}

/-- The maximum of a row, taken from the bottom element. -/
def rowMax (y : Fin C → EReal) : EReal := max ⊥ ((Finset.univ : Finset (Fin C)).fold max ⊥ y)

/-- The row shifted by its maximum. -/
def shifted (y : Fin C → EReal) (k : Fin C) : EReal := y k - rowMax y

/-- The sum of the exponentials of the shifted row. -/
def sumExp (y : Fin C → EReal) : EReal := ∑ k, Ideal.exp (shifted y k)

/-- The log-softmax of a row. -/
def logSoftmax (y : Fin C → EReal) (k : Fin C) : EReal := shifted y k - Ideal.log (sumExp y)

/-- The softmax of a row. -/
def softmax (y : Fin C → EReal) (k : Fin C) : EReal := Ideal.div (Ideal.exp (shifted y k)) (sumExp y)

/-- A fold of max over real entries is its start or a real. -/
theorem fold_max_start_or_real {ι : Type} [DecidableEq ι] (s : Finset ι) (y : ι → EReal) (b : EReal)
    (hy : ∀ i ∈ s, IsReal (y i)) : s.fold max b y = b ∨ IsReal (s.fold max b y) := by
  induction s using Finset.induction_on with
  | empty => exact Or.inl (Finset.fold_empty)
  | insert a s ha ih =>
    rw [Finset.fold_insert ha]
    have hya : IsReal (y a) := hy a (Finset.mem_insert_self a s)
    rcases ih (fun i hi => hy i (Finset.mem_insert_of_mem hi)) with h | h
    · rw [h]
      rcases max_choice (y a) b with h' | h'
      · right; rw [h']; exact hya
      · left; exact h'
    · exact Or.inr (hya.max h)

/-- The maximum of a nonempty real row is real. -/
theorem rowMax_real (hC : 0 < C) (y : Fin C → EReal) (hy : ∀ k, IsReal (y k)) : IsReal (rowMax y) := by
  unfold rowMax
  rw [max_eq_right bot_le]
  rcases fold_max_start_or_real Finset.univ y ⊥ (fun i _ => hy i) with h | h
  · exfalso
    have hle : y ⟨0, hC⟩ ≤ (Finset.univ : Finset (Fin C)).fold max ⊥ y :=
      (Finset.le_fold_max _).mpr (Or.inr ⟨⟨0, hC⟩, Finset.mem_univ _, le_refl _⟩)
    obtain ⟨r, hr⟩ := hy ⟨0, hC⟩
    rw [h, hr] at hle
    exact absurd (le_bot_iff.mp hle) (EReal.coe_ne_bot r)
  · exact h

/-- The real picture of a nonempty real row: real shifted entries and a positive real sum of their exponentials. -/
theorem real_picture (hC : 0 < C) (y : Fin C → EReal) (hy : ∀ k, IsReal (y k)) :
    ∃ (t : Fin C → ℝ) (S : ℝ), 0 < S ∧ (∀ k, shifted y k = ((t k : ℝ) : EReal)) ∧ sumExp y = ((S : ℝ) : EReal)
      ∧ S = ∑ k, Real.exp (t k) := by
  obtain ⟨M, hM⟩ := rowMax_real hC y hy
  choose r hr using hy
  refine ⟨fun k => r k - M, ∑ k, Real.exp (r k - M), ?_, ?_, ?_, rfl⟩
  · exact Finset.sum_pos (fun k _ => Real.exp_pos _) ⟨⟨0, hC⟩, Finset.mem_univ _⟩
  · intro k
    unfold shifted
    rw [hM, hr k, EReal.coe_sub]
  · unfold sumExp
    rw [coe_sum]
    refine Finset.sum_congr rfl fun k _ => ?_
    unfold shifted
    rw [hM, hr k, ← EReal.coe_sub, Ideal.exp_coe]

/-- The log-softmax of a nonempty real row, as a real. -/
theorem logSoftmax_coe (hC : 0 < C) (y : Fin C → EReal) (hy : ∀ k, IsReal (y k)) :
    ∃ (t : Fin C → ℝ) (S : ℝ), 0 < S ∧ (∀ k, logSoftmax y k = ((t k - Real.log S : ℝ) : EReal))
      ∧ (∀ k, softmax y k = ((Real.exp (t k) / S : ℝ) : EReal)) := by
  obtain ⟨t, S, hS, ht, hsum, -⟩ := real_picture hC y hy
  refine ⟨t, S, hS, fun k => ?_, fun k => ?_⟩
  · unfold logSoftmax
    rw [ht k, hsum, Ideal.log_coe, if_neg (not_le.mpr hS), EReal.coe_sub]
  · unfold softmax
    rw [ht k, hsum, Ideal.exp_coe, Ideal.div_coe (ne_of_gt hS), ← EReal.coe_mul]
    congr 1
    ring

/-- THE EXPONENTIAL OF THE LOG-SOFTMAX IS THE SOFTMAX, on a nonempty real row. -/
theorem exp_logSoftmax (hC : 0 < C) (y : Fin C → EReal) (hy : ∀ k, IsReal (y k)) (k : Fin C) :
    Ideal.exp (logSoftmax y k) = softmax y k := by
  obtain ⟨t, S, hS, hl, hs⟩ := logSoftmax_coe hC y hy
  rw [hl k, hs k, Ideal.exp_coe]
  congr 1
  rw [Real.exp_sub, Real.exp_log hS]

theorem logSoftmax_real (hC : 0 < C) (y : Fin C → EReal) (hy : ∀ k, IsReal (y k)) (k : Fin C) : IsReal (logSoftmax y k) := by
  obtain ⟨t, S, -, hl, -⟩ := logSoftmax_coe hC y hy
  exact ⟨_, hl k⟩

theorem softmax_real (hC : 0 < C) (y : Fin C → EReal) (hy : ∀ k, IsReal (y k)) (k : Fin C) : IsReal (softmax y k) := by
  obtain ⟨t, S, -, -, hs⟩ := logSoftmax_coe hC y hy
  exact ⟨_, hs k⟩

/-- A difference of reals is real. -/
theorem IsReal.sub {x y : EReal} (hx : IsReal x) (hy : IsReal y) : IsReal (x - y) := by
  obtain ⟨a, rfl⟩ := hx; obtain ⟨b, rfl⟩ := hy
  exact ⟨a - b, (EReal.coe_sub a b).symm⟩

/-- The Kullback–Leibler term with the weights taken as the softmax of the first row. -/
def klSoftmax (y z : Fin C → EReal) : EReal := ∑ k, softmax y k * (logSoftmax y k - logSoftmax z k)

/-- The Kullback–Leibler term with the weights taken as the exponential of the log-softmax of the first row. -/
def klExpLog (y z : Fin C → EReal) : EReal := ∑ k, Ideal.exp (logSoftmax y k) * (logSoftmax y k - logSoftmax z k)

/-- The two forms of the term agree when the first row is a nonempty real row. -/
theorem klExpLog_eq (hC : 0 < C) (y z : Fin C → EReal) (hy : ∀ k, IsReal (y k)) : klExpLog y z = klSoftmax y z :=
  Finset.sum_congr rfl fun k _ => by rw [exp_logSoftmax hC y hy k]

/-- The term of two nonempty real rows is real. -/
theorem klSoftmax_real (hC : 0 < C) (y z : Fin C → EReal) (hy : ∀ k, IsReal (y k)) (hz : ∀ k, IsReal (z k)) :
    IsReal (klSoftmax y z) :=
  IsReal.sum _ _ fun k _ => (softmax_real hC y hy k).mul (IsReal.sub (logSoftmax_real hC y hy k) (logSoftmax_real hC z hz k))

/-- Zero times a real is zero. -/
theorem zero_mul_real {x : EReal} (_hx : IsReal x) : (0 : EReal) * x = 0 := zero_mul x

end Cert.SoftmaxKL

end
-- ==== Proof.KlPayload.lean ====
/-
  The payload of the Kullback–Leibler kernel, read at its one index.

  For two [a, b] matrices y (the targets) and z (the predictions) and an [a, 1] column w of weights, the vector
  operations take, row by row, the log-softmax of each matrix — the row maximum from minus infinity, the shifted
  row, the sum of its exponentials, its logarithm subtracted —, then the lane sum of exp(logt) · (logt − logp),
  the product with the weight of the row, and the sum of the column. Read at the ideal values every step is the
  row function of the same name on the extended reals, and the result is
  ∑ r, w r · klExpLog (row r of y) (row r of z).
-/
import proofs.«155868_j58506044506617_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«155868_j58506044506617_2_alg».proof.Proof.LibKeepdims
import proofs.«155868_j58506044506617_2_alg».proof.Proof.LibRowMax
import proofs.«155868_j58506044506617_2_alg».proof.Proof.LibSoftmaxKL

noncomputable section

open scoped BigOperators

namespace Cert.KernelIdeal.KlPay

open Idealize.ShloMosaic Idealize.ShloMosaic.ValueIdx Cert.KernelIdeal Cert.KernelIdeal.Gen
open Cert.LibKeepdims Cert.LibRowMax

variable {a b : ℕ}

/-- The row maxima as the vector operations take them: the maximum along axis 1 from the word of minus infinity,
    then the maximum with the splat of minus infinity. -/
def vMax (x : FVec Ideal ⟨2, ![a, b]⟩ .f32) (hr : (⟨2, ![a, b]⟩ : Shape).Reduces [1] ⟨1, ![a]⟩) :
    FVec Ideal ⟨1, ![a]⟩ .f32 :=
  maximumf (broadcast ⟨1, ![a]⟩ (Scalar.ofBits (F := Ideal) .f32 0xFF800000#32))
    (multiReduction (F := Ideal) .maximumf [1] ⟨1, ![a]⟩ x 0xFF800000#32 hr (.inl rfl) rfl)

/-- At row `i` it is the maximum of the row taken from the bottom element. -/
theorem vMax_apply (x : FVec Ideal ⟨2, ![a, b]⟩ .f32) (hr : (⟨2, ![a, b]⟩ : Shape).Reduces [1] ⟨1, ![a]⟩) (i : Fin a) :
    vMax x hr (ix1 i) = SoftmaxKL.rowMax (fun k : Fin b => x (ix2 i k)) := by
  have h1 : multiReduction (F := Ideal) .maximumf [1] ⟨1, ![a]⟩ x 0xFF800000#32 hr (.inl rfl) rfl (ix1 i)
      = (Finset.univ : Finset (Fin b)).fold max ⊥ (fun k : Fin b => x (ix2 i k)) :=
    (rowMax_apply x _ hr _ _ i).trans
      (congrArg (fun s => (Finset.univ : Finset (Fin b)).fold max s (fun k : Fin b => x (ix2 i k)))
        SoftmaxKL.ofBits_neg_inf_f32)
  unfold vMax SoftmaxKL.rowMax
  refine (maximumf_apply _ _ _).trans ?_
  exact congrArg₂ max SoftmaxKL.ofBits_neg_inf_f32 h1

/-- The matrix shifted by its row maxima: the maxima cast to a column, broadcast along the rows, subtracted. -/
def vShift (x : FVec Ideal ⟨2, ![a, b]⟩ .f32) (hr : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩) :
    FVec Ideal ⟨2, ![a, b]⟩ .f32 :=
  subf x (broadcastTo ⟨2, ![a, b]⟩ (shapeCast ⟨2, ![a, 1]⟩ (vMax x hr) hc) hb)

theorem vShift_apply (x : FVec Ideal ⟨2, ![a, b]⟩ .f32) (hr : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩)
    (i : Fin a) (k : Fin b) :
    vShift x hr hc hb (ix2 i k) = SoftmaxKL.shifted (fun k : Fin b => x (ix2 i k)) k := by
  unfold vShift SoftmaxKL.shifted
  refine (subf_apply _ _ _).trans ?_
  rw [broadcastTo_a1_ab_apply, shapeCast_a_a1_apply, vMax_apply]

/-- The sums of the exponentials of the shifted rows: the sum along axis 1 from the zero word. -/
def vSum (x : FVec Ideal ⟨2, ![a, b]⟩ .f32) (hr : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩) :
    FVec Ideal ⟨1, ![a]⟩ .f32 :=
  multiReduction (F := Ideal) .add [1] ⟨1, ![a]⟩ (exp (vShift x hr hc hb)) 0x00000000#32 hr (.inl rfl) rfl

theorem vSum_apply (x : FVec Ideal ⟨2, ![a, b]⟩ .f32) (hr : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩)
    (i : Fin a) :
    vSum x hr hc hb (ix1 i) = SoftmaxKL.sumExp (fun k : Fin b => x (ix2 i k)) := by
  unfold vSum SoftmaxKL.sumExp
  refine (rowSum_apply _ _ hr _ _ i).trans ?_
  refine Finset.sum_congr rfl fun k _ => ?_
  show Ideal.exp (vShift x hr hc hb (ix2 i k)) = _
  rw [vShift_apply]

/-- The log-softmax of the rows: the shifted matrix minus the logarithm of the sums, cast to a column and broadcast. -/
def vLsm (x : FVec Ideal ⟨2, ![a, b]⟩ .f32) (hr : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩) :
    FVec Ideal ⟨2, ![a, b]⟩ .f32 :=
  subf (vShift x hr hc hb) (broadcastTo ⟨2, ![a, b]⟩ (log (shapeCast ⟨2, ![a, 1]⟩ (vSum x hr hc hb) hc)) hb)

theorem vLsm_apply (x : FVec Ideal ⟨2, ![a, b]⟩ .f32) (hr : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩)
    (i : Fin a) (k : Fin b) :
    vLsm x hr hc hb (ix2 i k) = SoftmaxKL.logSoftmax (fun k : Fin b => x (ix2 i k)) k := by
  unfold vLsm SoftmaxKL.logSoftmax
  refine (subf_apply _ _ _).trans ?_
  rw [broadcastTo_a1_ab_apply, vShift_apply]
  show _ - Ideal.log (shapeCast ⟨2, ![a, 1]⟩ (vSum x hr hc hb) hc (ix2 i (0 : Fin 1))) = _
  rw [shapeCast_a_a1_apply, vSum_apply]

/-- The Kullback–Leibler term of each row: the lane sum of exp(logt) · (logt − logp). -/
def vKlRow (y z : FVec Ideal ⟨2, ![a, b]⟩ .f32) (hr : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩) :
    FVec Ideal ⟨1, ![a]⟩ .f32 :=
  multiReduction (F := Ideal) .add [1] ⟨1, ![a]⟩
    (mulf (exp (vLsm y hr hc hb)) (subf (vLsm y hr hc hb) (vLsm z hr hc hb))) 0x00000000#32 hr (.inl rfl) rfl

theorem vKlRow_apply (y z : FVec Ideal ⟨2, ![a, b]⟩ .f32) (hr : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩)
    (i : Fin a) :
    vKlRow y z hr hc hb (ix1 i)
      = SoftmaxKL.klExpLog (fun k : Fin b => y (ix2 i k)) (fun k : Fin b => z (ix2 i k)) := by
  unfold vKlRow SoftmaxKL.klExpLog
  refine (rowSum_apply _ _ hr _ _ i).trans ?_
  refine Finset.sum_congr rfl fun k _ => ?_
  show Ideal.exp (vLsm y hr hc hb (ix2 i k)) * (vLsm y hr hc hb (ix2 i k) - vLsm z hr hc hb (ix2 i k)) = _
  rw [vLsm_apply, vLsm_apply]

/-- The weighted total: the row terms cast to a column, times the weights, summed along axis 0, cast to [1, 1]. -/
def vKl (y z : FVec Ideal ⟨2, ![a, b]⟩ .f32) (w : FVec Ideal ⟨2, ![a, 1]⟩ .f32)
    (hr : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩)
    (h0 : (⟨2, ![a, 1]⟩ : Shape).Reduces [0] ⟨1, ![1]⟩) (h1 : (⟨1, ![1]⟩ : Shape).ShapeCasts ⟨2, ![1, 1]⟩) :
    FVec Ideal ⟨2, ![1, 1]⟩ .f32 :=
  shapeCast ⟨2, ![1, 1]⟩
    (multiReduction (F := Ideal) .add [0] ⟨1, ![1]⟩
      (mulf w (shapeCast ⟨2, ![a, 1]⟩ (vKlRow y z hr hc hb) hc)) 0x00000000#32 h0 (.inl rfl) rfl) h1

theorem vKl_apply (y z : FVec Ideal ⟨2, ![a, b]⟩ .f32) (w : FVec Ideal ⟨2, ![a, 1]⟩ .f32)
    (hr : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩)
    (h0 : (⟨2, ![a, 1]⟩ : Shape).Reduces [0] ⟨1, ![1]⟩) (h1 : (⟨1, ![1]⟩ : Shape).ShapeCasts ⟨2, ![1, 1]⟩) :
    vKl y z w hr hc hb h0 h1 (ix2 (0 : Fin 1) (0 : Fin 1))
      = ∑ r : Fin a, w (ix2 r (0 : Fin 1))
          * SoftmaxKL.klExpLog (fun k : Fin b => y (ix2 r k)) (fun k : Fin b => z (ix2 r k)) := by
  unfold vKl
  refine (shapeCast_a_a1_apply _ h1 (0 : Fin 1) (0 : Fin 1)).trans ?_
  refine (colSum_apply _ _ h0 _ _ (0 : Fin 1)).trans ?_
  refine Finset.sum_congr rfl fun r _ => ?_
  show w (ix2 r (0 : Fin 1)) * shapeCast ⟨2, ![a, 1]⟩ (vKlRow y z hr hc hb) hc (ix2 r (0 : Fin 1)) = _
  rw [shapeCast_a_a1_apply, vKlRow_apply]

/-- The payload IS the weighted total of the two blocks (their identity casts kept). -/
theorem k4_pay3_eq_vKl (x3 x17 : Vec Ideal S4096x16 .f32) (x36 : Vec Ideal S4096x1 .f32) :
    k4_pay3 (F := Ideal) x3 x17 x36
      = vKl (shapeCast S4096x16 x17 shapeCasts_S4096x16_S4096x16) (shapeCast S4096x16 x3 shapeCasts_S4096x16_S4096x16)
          (shapeCast S4096x1 x36 shapeCasts_S4096x1_S4096x1)
          reduces_S4096x16_S4096 shapeCasts_S4096_S4096x1 broadcasts_S4096x1_S4096x16 reduces_S4096x1_S1 shapeCasts_S1_S1x1 :=
  rfl

/-- THE PAYLOAD AT ITS INDEX: the sum over the rows of the weight times the Kullback–Leibler term of the row of the
    targets against the row of the predictions. -/
theorem kl_payload (x3 x17 : Vec Ideal S4096x16 .f32) (x36 : Vec Ideal S4096x1 .f32) :
    k4_pay3 (F := Ideal) x3 x17 x36 (ix2 (0 : Fin 1) (0 : Fin 1))
      = ∑ r : Fin 4096, x36 (ix2 r (0 : Fin 1))
          * SoftmaxKL.klExpLog (fun k : Fin 16 => x17 (ix2 r k)) (fun k : Fin 16 => x3 (ix2 r k)) := by
  rw [k4_pay3_eq_vKl, shapeCast_self, shapeCast_self, shapeCast_self]
  exact vKl_apply x17 x3 x36 _ _ _ _ _

end Cert.KernelIdeal.KlPay

end
-- ==== Proof.RegionKlRows.lean ====
/-
  Region 4 of the idealized kernel program, read over the rows of its arrays.

  The region's three input windows cut their arrays — two [1601536,16] matrices and a [1601536,1] column of
  weights — into 391 blocks of 4096 rows, block `t` at grid point `t`. The contribution of a grid point is the sum
  over the 4096 rows of its blocks of the row's weight times the Kullback–Leibler term of the row of the first
  matrix against the row of the second; the region leaves in its [1,1] output array the sum of the contributions
  over the grid. A row of a block is a row of the array (row r of block t is row 4096·t + r), and
  1601536 = 391 · 4096, so the double sum over points and rows of a block is the single sum over all the rows of
  the arrays.

    iblk4_0_apply, iblk4_1_apply, iblk4_2_apply   a block read at (r, k) is the array read at (4096·t + r, k)
    sum_blocks                                    a sum over m·n positions as m blocks of n
    term_rows                                     a grid point's contribution as the sum over its rows
    arr4_rows                                     the output array after the region: the sum over all the rows
-/
import proofs.«155868_j58506044506617_2_alg».proof.Proof.RegionAccum
import proofs.«155868_j58506044506617_2_alg».proof.Proof.KlPayload
import proofs.«155868_j58506044506617_2_alg».proof.Proof.LibSoftmaxKL

noncomputable section

open scoped BigOperators
open Idealize.ShloMosaic Idealize.ShloMosaic.TcCoe Idealize.SL.Sem
open Idealize.ShloMosaic.Pipeline (Dat)
open Idealize.ShloMosaic.ValueIdx

namespace Cert.KernelIdeal.RegKl

open Cert.KernelIdeal Cert.KernelIdeal.Gen Cert.KernelIdeal.RegAcc

variable (V : (c : Dev nD) → (b : Ref sig .tc) → Buf (Elt Ideal) ((c : Thread nD τ).loc b))

/-! ## The input blocks are rows of the arrays -/

/-- Where the three input windows sit at grid point `t`: block `t` along the rows, block 0 along the lanes. -/
theorem idx_facts : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = t.val ∧ win4_2.index t (1 : Fin 2) = 0) :=
  (by decide +kernel : ∀ t : Fin grid4.N, _)

/-- Row `r` of block `t` is a row of the array: 391 blocks of 4096 rows are its 1601536 rows. -/
theorem row_lt (t : Fin cfg4.N) (r : Fin 4096) : 4096 * t.val + r.val < 1601536 := by
  have ht : t.val < 391 := lt_of_lt_of_eq t.isLt (show cfg4.N = 391 from N_4)
  have hr := r.isLt
  omega

/-- Window 0's block at point `t`, read at (r, k), is its array at (4096·t + r, k): a block's coordinate is the
    block index times the block size plus the coordinate inside the block. -/
theorem iblk4_0_apply (c : Dev nD) (t : Fin cfg4.N) (r : Fin 4096) (k : Fin 16) :
    (iblk4 V c 0 t : Vec Ideal S4096x16 .f32) (ix2 r k) = V c main_v99 (ix2 ⟨4096 * t.val + r.val, row_lt t r⟩ k) := by
  unfold iblk4
  rw [View.read_apply]
  show V c main_v99 _ = V c main_v99 _
  congr 1
  funext a
  apply Fin.ext
  match a with
  | ⟨0, _⟩ => show win4_0.index t 0 * 4096 + 1 * r.val = 4096 * t.val + r.val; rw [(idx_facts t).1.1]; omega
  | ⟨1, _⟩ => show win4_0.index t 1 * 16 + 1 * k.val = k.val; rw [(idx_facts t).1.2]; omega

/-- Window 1's block, the same way. -/
theorem iblk4_1_apply (c : Dev nD) (t : Fin cfg4.N) (r : Fin 4096) (k : Fin 16) :
    (iblk4 V c 1 t : Vec Ideal S4096x16 .f32) (ix2 r k) = V c main_v100 (ix2 ⟨4096 * t.val + r.val, row_lt t r⟩ k) := by
  unfold iblk4
  rw [View.read_apply]
  show V c main_v100 _ = V c main_v100 _
  congr 1
  funext a
  apply Fin.ext
  match a with
  | ⟨0, _⟩ => show win4_1.index t 0 * 4096 + 1 * r.val = 4096 * t.val + r.val; rw [(idx_facts t).2.1.1]; omega
  | ⟨1, _⟩ => show win4_1.index t 1 * 16 + 1 * k.val = k.val; rw [(idx_facts t).2.1.2]; omega

/-- Window 2's block (a column), the same way. -/
theorem iblk4_2_apply (c : Dev nD) (t : Fin cfg4.N) (r : Fin 4096) (k : Fin 1) :
    (iblk4 V c 2 t : Vec Ideal S4096x1 .f32) (ix2 r k) = V c main_v102 (ix2 ⟨4096 * t.val + r.val, row_lt t r⟩ k) := by
  unfold iblk4
  rw [View.read_apply]
  show V c main_v102 _ = V c main_v102 _
  congr 1
  funext a
  apply Fin.ext
  match a with
  | ⟨0, _⟩ => show win4_2.index t 0 * 4096 + 1 * r.val = 4096 * t.val + r.val; rw [(idx_facts t).2.2.1]; omega
  | ⟨1, _⟩ => show win4_2.index t 1 * 1 + 1 * k.val = k.val; rw [(idx_facts t).2.2.2]; omega

/-! ## The sum over the grid of the sums over the blocks' rows is the sum over the arrays' rows -/

/-- A sum over `m · n` positions is the sum over `m` blocks of the sums over the `n` positions of each block
    (in an additive commutative monoid: no finiteness of the terms is asked). -/
theorem sum_blocks {M : Type} [AddCommMonoid M] (m n N : ℕ) (hN : m * n = N) (f : Fin N → M)
    (hlt : ∀ (t : Fin m) (r : Fin n), n * t.val + r.val < N) :
    ∑ e : Fin N, f e = ∑ t : Fin m, ∑ r : Fin n, f ⟨n * t.val + r.val, hlt t r⟩ := by
  subst hN
  rw [← finProdFinEquiv.sum_comp f, Fintype.sum_prod_type]
  refine Finset.sum_congr rfl fun t _ => Finset.sum_congr rfl fun r _ => congrArg f (Fin.ext ?_)
  show r.val + n * t.val = n * t.val + r.val
  exact Nat.add_comm _ _

/-- The term of row `e` for a column `w` of weights and two matrices `y`, `z`: the weight of the row times the
    Kullback–Leibler term of row `e` of `y` against row `e` of `z`. -/
def rowKl (w : S1601536x1.Idx → EReal) (y z : S1601536x16.Idx → EReal) (e : Fin 1601536) : EReal :=
  w (ix2 e (0 : Fin 1)) * SoftmaxKL.klExpLog (fun k : Fin 16 => y (ix2 e k)) (fun k : Fin 16 => z (ix2 e k))

/-- The term of row `e` of the region's arrays: the weights are window 2's array, the two matrices window 0's and
    window 1's. -/
def rowTerm (c : Dev nD) (e : Fin 1601536) : EReal :=
  rowKl (V c main_v102) (V c main_v99) (V c main_v100) e

/-- The contribution of grid point `t` is the sum of the terms of the 4096 rows of its blocks. -/
theorem term_rows (c : Dev nD) (t : Fin cfg4.N) :
    term V c t e00 = ∑ r : Fin 4096, rowTerm V c ⟨4096 * t.val + r.val, row_lt t r⟩ := by
  unfold term
  refine (KlPay.kl_payload (iblk4 V c 1 t) (iblk4 V c 0 t) (iblk4 V c 2 t)).trans ?_
  refine Finset.sum_congr rfl fun r _ => ?_
  unfold rowTerm rowKl
  exact congrArg₂ (· * ·) (iblk4_2_apply V c t r 0)
    (congrArg₂ SoftmaxKL.klExpLog (funext fun k => iblk4_0_apply V c t r k) (funext fun k => iblk4_1_apply V c t r k))

/-- THE RESULT. After the region the [1,1] output array holds the sum over ALL the rows of the arrays of the row's
    weight times its Kullback–Leibler term. -/
theorem arr4_rowTerm (c : Dev nD) : (dat4 V c).arrAt 3 cfg4.N = fun _ => (∑ e : Fin 1601536, rowTerm V c e : EReal) := by
  rw [arr4 V c]
  funext _
  show ∑ t : Fin cfg4.N, term V c t e00 = _
  rw [sum_blocks cfg4.N 4096 1601536 (by rw [show cfg4.N = 391 from N_4]) (rowTerm V c) (fun t r => row_lt t r)]
  exact Finset.sum_congr rfl fun t _ => term_rows V c t

/-- The same with the three arrays named. -/
theorem arr4_rows (c : Dev nD) :
    (dat4 V c).arrAt 3 cfg4.N
      = fun _ => (∑ e : Fin 1601536, rowKl (V c main_v102) (V c main_v99) (V c main_v100) e : EReal) :=
  arr4_rowTerm V c

end Cert.KernelIdeal.RegKl
end
-- ==== Proof.LibHostRowFold.lean ====
/-
  A fold along the rows of a matrix, as the host computes it.

  The host's one-operand reduce with a commutative and associative body, taken along axis 1 of an `[a, b]` array and
  read at row `i`, is the fold of the body over the entries `(i, 0), …, (i, b − 1)` of that row, started from the
  initial value's one element.  Commutativity and associativity make the fold independent of the order in which the
  row is visited, so it is a fold over the finite set of column numbers.
-/
import Idealize.ShloMosaic.PureOps.Reduce
import Idealize.ShloMosaic.PureOps.Contract
import Idealize.ShloMosaic.Lib.ValueIdx

namespace Cert.LibHostRowFold

open Idealize.ShloMosaic Idealize.ShloMosaic.ValueIdx

/-- For a commutative and associative operation `f` the host's reduce of an `[a, b]` array along axis 1 is, at row
    `i`, the fold of `f` from the initial value over the column numbers `k` of the entries `(i, k)`. -/
theorem hostReduce_rows {α : Type} {a b : ℕ} {u : Shape} (f : α → α → α) [Std.Commutative f] [Std.Associative f]
    (x : (⟨2, ![a, b]⟩ : Shape).Idx → α) (init : u.Idx → α)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduce f x init h' hu (ix1 i)
      = (Finset.univ : Finset (Fin b)).fold f (init (Shape.Idx.first hu)) (fun k => x (ix2 i k)) := by
  rw [Host.reduce_eq_fold_single f x init h' h hu]
  refine congrArg (fun g => (Finset.univ : Finset (Fin b)).fold f (init (Shape.Idx.first hu)) g) (funext fun k => ?_)
  refine congrArg x (funext fun ax => Fin.ext ?_)
  match ax with
  | ⟨0, _⟩ => rfl
  | ⟨1, _⟩ => rfl

end Cert.LibHostRowFold
-- ==== Proof.RefKl.lean ====
/-
  The reference's log-softmax, softmax and weighted Kullback–Leibler sum, read at an index at the ideal values.

  For an [a, b] matrix y the host takes the row maxima from minus infinity (a reduce with max along axis 1, then the
  maximum with the splat of minus infinity), spreads them over the rows ([a] → [a, 1] → [a, b]), subtracts, takes the
  exponentials, sums them along axis 1 from zero, and either subtracts the logarithm of the sums (the log-softmax)
  or divides by them (the softmax). Every step read at (e, k) is the row function of the same name on the extended
  reals. The tail sums tgt · (logt − logp) along the rows, multiplies by the weight of the row, sums the vector to
  a scalar and divides by a constant: with tgt, logt the softmax and log-softmax of y and logp the log-softmax of z
  it is the weighted sum of the rows' Kullback–Leibler terms, divided by that constant.
-/
import proofs.«155868_j58506044506617_2_alg».proof.Proof.RefSpec
import Idealize.ShloMosaic.Lib.ValueIdx
import Idealize.ShloMosaic.Lib.IdealHost
import Idealize.ShloMosaic.Lib.Pipeline.Value
import Idealize.ShloMosaic.PureOps.Ideal.Laws
import proofs.«155868_j58506044506617_2_alg».proof.Proof.LibHostKeepdims
import proofs.«155868_j58506044506617_2_alg».proof.Proof.LibHostRowFold
import proofs.«155868_j58506044506617_2_alg».proof.Proof.LibSoftmaxKL

set_option maxRecDepth 16384

noncomputable section

open scoped BigOperators

namespace Cert.RefKl

open Idealize.ShloMosaic Idealize.ShloMosaic.ValueIdx Cert.ReferenceIdeal Cert.ReferenceIdeal.Gen
open Cert.LibHostKeepdims Cert.LibHostRowFold

variable {a b : ℕ}

/-- The row maxima as the host takes them. -/
def hMax (y : FVec Ideal ⟨2, ![a, b]⟩ .f32) (hs0 : (⟨0, ![]⟩ : Shape).BroadcastsInDim ⟨1, ![a]⟩ ![])
    (hr' : (⟨2, ![a, b]⟩ : Shape).ReducesTo [1] ⟨1, ![a]⟩) (hu : 0 < (⟨0, ![]⟩ : Shape).numel) :
    FVec Ideal ⟨1, ![a]⟩ .f32 :=
  maximumf (broadcastInDim ⟨1, ![a]⟩ ![] hs0 (constant (F := Ideal) ⟨0, ![]⟩ .f32 0xFF800000#32))
    (Host.reduce FloatOps.maximumf y (constant (F := Ideal) ⟨0, ![]⟩ .f32 0xFF800000#32) hr' hu)

theorem hMax_apply (y : FVec Ideal ⟨2, ![a, b]⟩ .f32) (hs0 : (⟨0, ![]⟩ : Shape).BroadcastsInDim ⟨1, ![a]⟩ ![])
    (hr' : (⟨2, ![a, b]⟩ : Shape).ReducesTo [1] ⟨1, ![a]⟩) (hr : (⟨2, ![a, b]⟩ : Shape).Reduces [1] ⟨1, ![a]⟩)
    (hu : 0 < (⟨0, ![]⟩ : Shape).numel) (i : Fin a) :
    hMax y hs0 hr' hu (ix1 i) = SoftmaxKL.rowMax (fun k : Fin b => y (ix2 i k)) := by
  have h1 : Host.reduce (max : EReal → EReal → EReal) y (constant (F := Ideal) ⟨0, ![]⟩ .f32 0xFF800000#32) hr' hu (ix1 i)
      = (Finset.univ : Finset (Fin b)).fold max ⊥ (fun k : Fin b => y (ix2 i k)) :=
    (hostReduce_rows (max : EReal → EReal → EReal) y _ hr' hr hu i).trans
      (congrArg (fun s => (Finset.univ : Finset (Fin b)).fold max s (fun k : Fin b => y (ix2 i k)))
        SoftmaxKL.ofBits_neg_inf_f32)
  unfold hMax SoftmaxKL.rowMax
  refine (maximumf_apply _ _ _).trans ?_
  exact congrArg₂ max ((broadcastInDim_scalar_apply hs0 _ _).trans SoftmaxKL.ofBits_neg_inf_f32) h1

/-- The matrix shifted by its row maxima. -/
def hShift (y : FVec Ideal ⟨2, ![a, b]⟩ .f32) (hs0 : (⟨0, ![]⟩ : Shape).BroadcastsInDim ⟨1, ![a]⟩ ![])
    (hb1 : (⟨1, ![a]⟩ : Shape).BroadcastsInDim ⟨2, ![a, 1]⟩ ![0])
    (hb2 : (⟨2, ![a, 1]⟩ : Shape).BroadcastsInDim ⟨2, ![a, b]⟩ ![0, 1])
    (hr' : (⟨2, ![a, b]⟩ : Shape).ReducesTo [1] ⟨1, ![a]⟩) (hu : 0 < (⟨0, ![]⟩ : Shape).numel) :
    FVec Ideal ⟨2, ![a, b]⟩ .f32 :=
  subf y (broadcastInDim ⟨2, ![a, b]⟩ ![0, 1] hb2 (broadcastInDim ⟨2, ![a, 1]⟩ ![0] hb1 (hMax y hs0 hr' hu)))

theorem hShift_apply (y : FVec Ideal ⟨2, ![a, b]⟩ .f32) (hs0 : (⟨0, ![]⟩ : Shape).BroadcastsInDim ⟨1, ![a]⟩ ![])
    (hb1 : (⟨1, ![a]⟩ : Shape).BroadcastsInDim ⟨2, ![a, 1]⟩ ![0])
    (hb2 : (⟨2, ![a, 1]⟩ : Shape).BroadcastsInDim ⟨2, ![a, b]⟩ ![0, 1])
    (hr' : (⟨2, ![a, b]⟩ : Shape).ReducesTo [1] ⟨1, ![a]⟩) (hr : (⟨2, ![a, b]⟩ : Shape).Reduces [1] ⟨1, ![a]⟩)
    (hu : 0 < (⟨0, ![]⟩ : Shape).numel) (i : Fin a) (k : Fin b) :
    hShift y hs0 hb1 hb2 hr' hu (ix2 i k) = SoftmaxKL.shifted (fun k : Fin b => y (ix2 i k)) k := by
  unfold hShift SoftmaxKL.shifted
  refine (subf_apply _ _ _).trans ?_
  exact congrArg (y (ix2 i k) - ·)
    ((bcast_a1_ab_apply hb2 _ i k).trans ((bcast_a_a1_apply hb1 _ i (0 : Fin 1)).trans (hMax_apply y hs0 hr' hr hu i)))

/-- The sums of the exponentials of the shifted rows, from the zero constant. -/
def hSum (y : FVec Ideal ⟨2, ![a, b]⟩ .f32) (hs0 : (⟨0, ![]⟩ : Shape).BroadcastsInDim ⟨1, ![a]⟩ ![])
    (hb1 : (⟨1, ![a]⟩ : Shape).BroadcastsInDim ⟨2, ![a, 1]⟩ ![0])
    (hb2 : (⟨2, ![a, 1]⟩ : Shape).BroadcastsInDim ⟨2, ![a, b]⟩ ![0, 1])
    (hr' : (⟨2, ![a, b]⟩ : Shape).ReducesTo [1] ⟨1, ![a]⟩) (hu : 0 < (⟨0, ![]⟩ : Shape).numel) :
    FVec Ideal ⟨1, ![a]⟩ .f32 :=
  Host.reduceAdd (Host.exp (hShift y hs0 hb1 hb2 hr' hu)) (constant (F := Ideal) ⟨0, ![]⟩ .f32 0x00000000#32) hr' hu

theorem hSum_apply (y : FVec Ideal ⟨2, ![a, b]⟩ .f32) (hs0 : (⟨0, ![]⟩ : Shape).BroadcastsInDim ⟨1, ![a]⟩ ![])
    (hb1 : (⟨1, ![a]⟩ : Shape).BroadcastsInDim ⟨2, ![a, 1]⟩ ![0])
    (hb2 : (⟨2, ![a, 1]⟩ : Shape).BroadcastsInDim ⟨2, ![a, b]⟩ ![0, 1])
    (hr' : (⟨2, ![a, b]⟩ : Shape).ReducesTo [1] ⟨1, ![a]⟩) (hr : (⟨2, ![a, b]⟩ : Shape).Reduces [1] ⟨1, ![a]⟩)
    (hu : 0 < (⟨0, ![]⟩ : Shape).numel) (i : Fin a) :
    hSum y hs0 hb1 hb2 hr' hu (ix1 i) = SoftmaxKL.sumExp (fun k : Fin b => y (ix2 i k)) := by
  unfold hSum SoftmaxKL.sumExp
  refine (hostRowSum_apply _ _ hr' hr hu i).trans ?_
  show Ideal.ofBits .f32 0x00000000#32 + _ = _
  rw [Ideal.ofBits_zero_f32, zero_add]
  refine Finset.sum_congr rfl fun k _ => ?_
  exact congrArg Ideal.exp (hShift_apply y hs0 hb1 hb2 hr' hr hu i k)

/-- The log-softmax of the rows as the host takes it. -/
def hLsm (y : FVec Ideal ⟨2, ![a, b]⟩ .f32) (hs0 : (⟨0, ![]⟩ : Shape).BroadcastsInDim ⟨1, ![a]⟩ ![])
    (hb1 : (⟨1, ![a]⟩ : Shape).BroadcastsInDim ⟨2, ![a, 1]⟩ ![0])
    (hb2 : (⟨2, ![a, 1]⟩ : Shape).BroadcastsInDim ⟨2, ![a, b]⟩ ![0, 1])
    (hr' : (⟨2, ![a, b]⟩ : Shape).ReducesTo [1] ⟨1, ![a]⟩) (hu : 0 < (⟨0, ![]⟩ : Shape).numel) :
    FVec Ideal ⟨2, ![a, b]⟩ .f32 :=
  subf (hShift y hs0 hb1 hb2 hr' hu)
    (broadcastInDim ⟨2, ![a, b]⟩ ![0, 1] hb2
      (Host.log (broadcastInDim ⟨2, ![a, 1]⟩ ![0] hb1 (hSum y hs0 hb1 hb2 hr' hu))))

theorem hLsm_apply (y : FVec Ideal ⟨2, ![a, b]⟩ .f32) (hs0 : (⟨0, ![]⟩ : Shape).BroadcastsInDim ⟨1, ![a]⟩ ![])
    (hb1 : (⟨1, ![a]⟩ : Shape).BroadcastsInDim ⟨2, ![a, 1]⟩ ![0])
    (hb2 : (⟨2, ![a, 1]⟩ : Shape).BroadcastsInDim ⟨2, ![a, b]⟩ ![0, 1])
    (hr' : (⟨2, ![a, b]⟩ : Shape).ReducesTo [1] ⟨1, ![a]⟩) (hr : (⟨2, ![a, b]⟩ : Shape).Reduces [1] ⟨1, ![a]⟩)
    (hu : 0 < (⟨0, ![]⟩ : Shape).numel) (i : Fin a) (k : Fin b) :
    hLsm y hs0 hb1 hb2 hr' hu (ix2 i k) = SoftmaxKL.logSoftmax (fun k : Fin b => y (ix2 i k)) k := by
  unfold hLsm SoftmaxKL.logSoftmax
  refine (subf_apply _ _ _).trans ?_
  refine congrArg₂ (· - ·) (hShift_apply y hs0 hb1 hb2 hr' hr hu i k) ?_
  refine (bcast_a1_ab_apply hb2 _ i k).trans ?_
  show Ideal.log (broadcastInDim ⟨2, ![a, 1]⟩ ![0] hb1 (hSum y hs0 hb1 hb2 hr' hu) (ix2 i (0 : Fin 1))) = _
  exact congrArg Ideal.log ((bcast_a_a1_apply hb1 _ i (0 : Fin 1)).trans (hSum_apply y hs0 hb1 hb2 hr' hr hu i))

/-- The softmax of the rows as the host takes it. -/
def hSm (y : FVec Ideal ⟨2, ![a, b]⟩ .f32) (hs0 : (⟨0, ![]⟩ : Shape).BroadcastsInDim ⟨1, ![a]⟩ ![])
    (hb1 : (⟨1, ![a]⟩ : Shape).BroadcastsInDim ⟨2, ![a, 1]⟩ ![0])
    (hb2 : (⟨2, ![a, 1]⟩ : Shape).BroadcastsInDim ⟨2, ![a, b]⟩ ![0, 1])
    (hr' : (⟨2, ![a, b]⟩ : Shape).ReducesTo [1] ⟨1, ![a]⟩) (hu : 0 < (⟨0, ![]⟩ : Shape).numel) :
    FVec Ideal ⟨2, ![a, b]⟩ .f32 :=
  Host.divf (Host.exp (hShift y hs0 hb1 hb2 hr' hu))
    (broadcastInDim ⟨2, ![a, b]⟩ ![0, 1] hb2 (broadcastInDim ⟨2, ![a, 1]⟩ ![0] hb1 (hSum y hs0 hb1 hb2 hr' hu)))

theorem hSm_apply (y : FVec Ideal ⟨2, ![a, b]⟩ .f32) (hs0 : (⟨0, ![]⟩ : Shape).BroadcastsInDim ⟨1, ![a]⟩ ![])
    (hb1 : (⟨1, ![a]⟩ : Shape).BroadcastsInDim ⟨2, ![a, 1]⟩ ![0])
    (hb2 : (⟨2, ![a, 1]⟩ : Shape).BroadcastsInDim ⟨2, ![a, b]⟩ ![0, 1])
    (hr' : (⟨2, ![a, b]⟩ : Shape).ReducesTo [1] ⟨1, ![a]⟩) (hr : (⟨2, ![a, b]⟩ : Shape).Reduces [1] ⟨1, ![a]⟩)
    (hu : 0 < (⟨0, ![]⟩ : Shape).numel) (i : Fin a) (k : Fin b) :
    hSm y hs0 hb1 hb2 hr' hu (ix2 i k) = SoftmaxKL.softmax (fun k : Fin b => y (ix2 i k)) k := by
  unfold hSm SoftmaxKL.softmax
  refine (hostDivf_apply _ _ _).trans ?_
  refine congrArg₂ Ideal.div ?_ ?_
  · exact congrArg Ideal.exp (hShift_apply y hs0 hb1 hb2 hr' hr hu i k)
  · exact (bcast_a1_ab_apply hb2 _ i k).trans
      ((bcast_a_a1_apply hb1 _ i (0 : Fin 1)).trans (hSum_apply y hs0 hb1 hb2 hr' hr hu i))

/-- The indices of an `[a]` vector are its coordinates. -/
def idx1Equiv : (⟨1, ![a]⟩ : Shape).Idx ≃ Fin a where
  toFun j := j 0
  invFun := ix1
  left_inv j := (eq_ix1 j).symm
  right_inv _ := rfl

/-- At the ideal values the host's sum of an `[a]` vector to a scalar is the initial value plus the sum over `e` of
    the entries. -/
theorem hostVecSum_apply {φ : FTy} (x : FVec Ideal ⟨1, ![a]⟩ φ) (init : (⟨0, ![]⟩ : Shape).Idx → Ideal φ)
    (h' : (⟨1, ![a]⟩ : Shape).ReducesTo [0] ⟨0, ![]⟩) (hu : 0 < (⟨0, ![]⟩ : Shape).numel)
    (j : (⟨0, ![]⟩ : Shape).Idx) :
    Host.reduceAdd x init h' hu j = init (Shape.Idx.first hu) + ∑ e : Fin a, x (ix1 e) := by
  refine (hostReduceAdd_apply x init h' hu j).trans ?_
  refine (Ideal.hostReduceAdd_total h' (fun b => b.elim0) x _ j).trans ?_
  exact congrArg (init (Shape.Idx.first hu) + ·)
    (Fintype.sum_equiv idx1Equiv _ _ fun j => congrArg x (eq_ix1 j))

/-- The tail: the row sums of tgt · (logt − logp), times the weights, summed to a scalar, divided by a constant. -/
def hTail (tgt logt logp : FVec Ideal ⟨2, ![a, b]⟩ .f32) (nw : FVec Ideal ⟨1, ![a]⟩ .f32)
    (hr' : (⟨2, ![a, b]⟩ : Shape).ReducesTo [1] ⟨1, ![a]⟩) (hr0' : (⟨1, ![a]⟩ : Shape).ReducesTo [0] ⟨0, ![]⟩)
    (hu : 0 < (⟨0, ![]⟩ : Shape).numel) (c : BitVec 32) : FVec Ideal ⟨0, ![]⟩ .f32 :=
  Host.divf
    (Host.reduceAdd
      (mulf nw (Host.reduceAdd (mulf tgt (subf logt logp)) (constant (F := Ideal) ⟨0, ![]⟩ .f32 0x00000000#32) hr' hu))
      (constant (F := Ideal) ⟨0, ![]⟩ .f32 0x00000000#32) hr0' hu)
    (constant (F := Ideal) ⟨0, ![]⟩ .f32 c)

theorem hTail_apply (tgt logt logp : FVec Ideal ⟨2, ![a, b]⟩ .f32) (nw : FVec Ideal ⟨1, ![a]⟩ .f32)
    (hr' : (⟨2, ![a, b]⟩ : Shape).ReducesTo [1] ⟨1, ![a]⟩) (hr : (⟨2, ![a, b]⟩ : Shape).Reduces [1] ⟨1, ![a]⟩)
    (hr0' : (⟨1, ![a]⟩ : Shape).ReducesTo [0] ⟨0, ![]⟩)
    (hu : 0 < (⟨0, ![]⟩ : Shape).numel) (c : BitVec 32) (j : (⟨0, ![]⟩ : Shape).Idx) :
    hTail tgt logt logp nw hr' hr0' hu c j
      = Ideal.div (∑ e : Fin a, nw (ix1 e) * ∑ k : Fin b, tgt (ix2 e k) * (logt (ix2 e k) - logp (ix2 e k)))
          (Ideal.ofBits .f32 c) := by
  unfold hTail
  refine (hostDivf_apply _ _ _).trans ?_
  refine congrArg₂ Ideal.div ?_ rfl
  refine (hostVecSum_apply _ _ hr0' hu j).trans ?_
  show Ideal.ofBits .f32 0x00000000#32 + _ = _
  rw [Ideal.ofBits_zero_f32, zero_add]
  refine Finset.sum_congr rfl fun e _ => ?_
  refine (mulf_apply _ _ _).trans ?_
  refine congrArg (nw (ix1 e) * ·) ?_
  refine (hostRowSum_apply _ _ hr' hr hu e).trans ?_
  show Ideal.ofBits .f32 0x00000000#32 + _ = _
  rw [Ideal.ofBits_zero_f32, zero_add]
  rfl

/-! ## The reference's stages -/

theorem reduces_rows : S1600000x16.Reduces [1] S1600000 := by decide

theorem lsm_eq (y : FVec Ideal S1600000x16 .f32) :
    RefSpec.lsm y = hLsm y bcast_S_S1600000 bcast_S1600000_S1600000x1_0 bcast_S1600000x1_S1600000x16_0_1
      reducesTo_S1600000x16_S1600000_d1 h_S_ := rfl

theorem sm_eq (y : FVec Ideal S1600000x16 .f32) :
    RefSpec.sm y = hSm y bcast_S_S1600000 bcast_S1600000_S1600000x1_0 bcast_S1600000x1_S1600000x16_0_1
      reducesTo_S1600000x16_S1600000_d1 h_S_ := rfl

/-- The reference's log-softmax at `(e, k)` is the log-softmax of row `e` at `k`. -/
theorem lsm_apply (y : FVec Ideal S1600000x16 .f32) (e : Fin 1600000) (k : Fin 16) :
    RefSpec.lsm y (ix2 e k) = SoftmaxKL.logSoftmax (fun k : Fin 16 => y (ix2 e k)) k :=
  (congrFun (lsm_eq y) (ix2 e k)).trans (hLsm_apply y _ _ _ _ reduces_rows _ e k)

/-- The reference's softmax at `(e, k)` is the softmax of row `e` at `k`. -/
theorem sm_apply (y : FVec Ideal S1600000x16 .f32) (e : Fin 1600000) (k : Fin 16) :
    RefSpec.sm y (ix2 e k) = SoftmaxKL.softmax (fun k : Fin 16 => y (ix2 e k)) k :=
  (congrFun (sm_eq y) (ix2 e k)).trans (hSm_apply y _ _ _ _ reduces_rows _ e k)

theorem ncrTail_eq (tgt logt logp : FVec Ideal S1600000x16 .f32) (nw : FVec Ideal S1600000 .f32) :
    RefSpec.ncrTail tgt logt logp nw
      = hTail tgt logt logp nw reducesTo_S1600000x16_S1600000_d1 reducesTo_S1600000_S_d0 h_S_ 0x47435000#32 := rfl

/-- THE REFERENCE'S TERM: the weighted sum over the rows of the Kullback–Leibler terms (weights the softmax of the
    first matrix), divided by the constant. -/
theorem ncrTail_apply (y z : FVec Ideal S1600000x16 .f32) (nw : FVec Ideal S1600000 .f32) :
    RefSpec.ncrTail (RefSpec.sm y) (RefSpec.lsm y) (RefSpec.lsm z) nw ix0
      = Ideal.div (∑ e : Fin 1600000, nw (ix1 e)
          * SoftmaxKL.klSoftmax (fun k : Fin 16 => y (ix2 e k)) (fun k : Fin 16 => z (ix2 e k)))
          (Ideal.ofBits .f32 0x47435000#32) := by
  rw [ncrTail_eq]
  refine (hTail_apply _ _ _ _ _ reduces_rows _ _ _ ix0).trans ?_
  refine congrArg (Ideal.div · (Ideal.ofBits .f32 0x47435000#32))
    (Finset.sum_congr rfl fun e _ => congrArg (nw (ix1 e) * ·) ?_)
  unfold SoftmaxKL.klSoftmax
  refine Finset.sum_congr rfl fun k _ => ?_
  rw [sm_apply, lsm_apply, lsm_apply]

end Cert.RefKl

end
-- ==== Proof.NcrBridge.lean ====
/-
  The consistency term of the two programs is one number when the output rows are real.

  The kernel program sums, over the 1601536 rows of its padded arrays, the row's weight times the Kullback–Leibler
  term (weights the exponential of the log-softmax) of the row of the first padded matrix against the row of the
  second, and divides by a constant. The reference sums, over the 1600000 edges, the edge's weight times the
  Kullback–Leibler term (weights the softmax) of the two gathered rows, and divides by the same constant.

  1601536 = 1600000 + 1536. A padded row has weight 0 — the integer zero converted — and 0 · x = 0 for every
  extended real x, so the last 1536 terms vanish whatever their Kullback–Leibler terms are. A row below 1600000
  has the edge's weight, and its two rows are the gathered rows of the reference: rows of the real matrix L, so
  real, and on a nonempty real row the two forms of the Kullback–Leibler term agree. The two sums are then equal
  term by term, and both programs divide by the same word.
-/
import proofs.«155868_j58506044506617_2_alg».proof.Proof.KerSpec
import proofs.«155868_j58506044506617_2_alg».proof.Proof.RefSpec
import proofs.«155868_j58506044506617_2_alg».proof.Proof.RefKl
import proofs.«155868_j58506044506617_2_alg».proof.Proof.RegionKlRows
import proofs.«155868_j58506044506617_2_alg».proof.Proof.LibSoftmaxKL
import proofs.«155868_j58506044506617_2_alg».proof.Proof.LibRealOps
import proofs.«155868_j58506044506617_2_alg».proof.Proof.RealLogits
import proofs.«155868_j58506044506617_2_alg».proof.Proof.LibKeepdims
import proofs.«155868_j58506044506617_2_alg».proof.Proof.LibPadRows
import Idealize.ShloMosaic.Lib.KernelVsHost
import Idealize.ShloMosaic.Lib.IdealHost
import Idealize.ShloMosaic.Lib.ValueIdx

noncomputable section

open scoped BigOperators

namespace Cert.NcrBridge

open Idealize.ShloMosaic Idealize.ShloMosaic.ValueIdx Cert.RealMean Cert.RealOps

/-! ## A sum over a + b positions -/

/-- A sum over `n = a + b` positions is the sum over the first `a` plus the sum over the last `b`. -/
theorem sum_split {M : Type} [AddCommMonoid M] {a b n : ℕ} (h : a + b = n) (f : Fin n → M) :
    ∑ e : Fin n, f e
      = (∑ e : Fin a, f ⟨e.val, by have := e.isLt; omega⟩) + ∑ j : Fin b, f ⟨a + j.val, by have := j.isLt; omega⟩ := by
  subst h
  exact Fin.sum_univ_add f

/-! ## The padded arrays read at a row -/

/-- The padding value — the integer zero converted to a float — is zero. -/
theorem padValue_zero (i : Cert.KernelIdeal.S_.Idx) :
    (sitofp .f32 (constantI Cert.KernelIdeal.S_ 32 0#32) : FVec Ideal Cert.KernelIdeal.S_ .f32) i = 0 :=
  sitofp_zero

/-- The padded weights, as a column, at a row below 1600000: the edge's weight. -/
theorem nwPad_lt (nw : FVec Ideal Cert.KernelIdeal.S1600000 .f32) (e : Fin 1601536) (he : e.val < 1600000) :
    KerSpec.nwPad nw (ix2 e (0 : Fin 1)) = nw (ix1 ⟨e.val, he⟩) := by
  unfold KerSpec.nwPad
  refine (LibKeepdims.shapeCast_a_a1_apply _ _ e 0).trans ?_
  exact PadRows.padVec_lt nw _ _ _ e he

/-- The padded weights at a row from 1600000 on: zero. -/
theorem nwPad_ge (nw : FVec Ideal Cert.KernelIdeal.S1600000 .f32) (e : Fin 1601536) (he : 1600000 ≤ e.val) :
    KerSpec.nwPad nw (ix2 e (0 : Fin 1)) = 0 := by
  unfold KerSpec.nwPad
  refine (LibKeepdims.shapeCast_a_a1_apply _ _ e 0).trans ?_
  exact (PadRows.padVec_ge nw _ _ _ e he).trans (padValue_zero _)

/-- The padded gathered rows at a row below 1600000: the reference's gathered rows (the two programs gather with
    the same dimension numbers at the same wrapped indices). -/
theorem yPad_lt (L : FVec Ideal Cert.KernelIdeal.S50000x16 .f32) (v : IVec Cert.KernelIdeal.S1600000 32)
    (e : Fin 1601536) (k : Fin 16) (he : e.val < 1600000) :
    KerSpec.yPad L v (ix2 e k) = RefSpec.gath16 L v (ix2 ⟨e.val, he⟩ k) := by
  unfold KerSpec.yPad
  refine (PadRows.padRows_lt _ _ _ _ e k he).trans ?_
  rfl

/-! ## The two sums -/

/-- The kernel program's sum over its 1601536 padded rows is the reference's sum over the 1600000 edges, when the
    output rows are real. -/
theorem ker_sum (L : FVec Ideal Cert.ReferenceIdeal.S50000x16 .f32) (hL : AllReal L)
    (row col : IVec Cert.ReferenceIdeal.S1600000 32) (nw : FVec Ideal Cert.ReferenceIdeal.S1600000 .f32) :
    (∑ e : Fin 1601536, Cert.KernelIdeal.RegKl.rowKl (KerSpec.nwPad nw) (KerSpec.yPad L row) (KerSpec.yPad L col) e : EReal)
      = ∑ e : Fin 1600000, nw (ix1 e)
          * SoftmaxKL.klSoftmax (fun k : Fin 16 => RefSpec.gath16 L row (ix2 e k)) (fun k : Fin 16 => RefSpec.gath16 L col (ix2 e k)) := by
  rw [sum_split (a := 1600000) (b := 1536) (by norm_num)
    (Cert.KernelIdeal.RegKl.rowKl (KerSpec.nwPad nw) (KerSpec.yPad L row) (KerSpec.yPad L col))]
  have tail : (∑ j : Fin 1536, Cert.KernelIdeal.RegKl.rowKl (KerSpec.nwPad nw) (KerSpec.yPad L row) (KerSpec.yPad L col)
      ⟨1600000 + j.val, by have := j.isLt; omega⟩) = 0 :=
    Finset.sum_eq_zero fun j _ => by
      unfold Cert.KernelIdeal.RegKl.rowKl
      rw [nwPad_ge nw _ (Nat.le_add_right _ _), zero_mul]
  rw [tail, add_zero]
  refine Finset.sum_congr rfl fun e _ => ?_
  unfold Cert.KernelIdeal.RegKl.rowKl
  have hw : KerSpec.nwPad nw (ix2 (⟨e.val, by have := e.isLt; omega⟩ : Fin 1601536) (0 : Fin 1)) = nw (ix1 e) :=
    nwPad_lt nw _ e.isLt
  have hy : (fun k : Fin 16 => KerSpec.yPad L row (ix2 (⟨e.val, by have := e.isLt; omega⟩ : Fin 1601536) k))
      = fun k : Fin 16 => RefSpec.gath16 L row (ix2 e k) := funext fun k => yPad_lt L row _ k e.isLt
  have hz : (fun k : Fin 16 => KerSpec.yPad L col (ix2 (⟨e.val, by have := e.isLt; omega⟩ : Fin 1601536) k))
      = fun k : Fin 16 => RefSpec.gath16 L col (ix2 e k) := funext fun k => yPad_lt L col _ k e.isLt
  rw [hw, hy, hz, SoftmaxKL.klExpLog_eq (by norm_num) _ _ (fun k => RealLogits.gath16_real hL row (ix2 e k))]

/-- THE BRIDGE. The kernel program's final division of its sum is the reference's consistency term of the same
    gathered rows and weights, when the output rows are real. -/
theorem ncr_bridge (L : FVec Ideal Cert.ReferenceIdeal.S50000x16 .f32) (hL : AllReal L)
    (row col : IVec Cert.ReferenceIdeal.S1600000 32) (nw : FVec Ideal Cert.ReferenceIdeal.S1600000 .f32) :
    KerSpec.ncrOut (fun _ => (∑ e : Fin 1601536,
        Cert.KernelIdeal.RegKl.rowKl (KerSpec.nwPad nw) (KerSpec.yPad L row) (KerSpec.yPad L col) e : EReal))
      = RefSpec.ncrTail (RefSpec.sm (RefSpec.gath16 L row)) (RefSpec.lsm (RefSpec.gath16 L row))
          (RefSpec.lsm (RefSpec.gath16 L col)) nw := by
  funext j
  obtain rfl := eq_ix0 j
  rw [RefKl.ncrTail_apply]
  unfold KerSpec.ncrOut
  refine (hostDivf_apply _ _ _).trans ?_
  exact congrArg₂ Ideal.div (ker_sum L hL row col nw) rfl

end Cert.NcrBridge

end
-- ==== Proof.KerTail.lean ====
/-
  The kernel program's value chain from the output rows to the consistency term.

  After the fourth region the program holds the network's output rows L, the two edge-list rows, the edge weights, and
  the pieces of the guarded reciprocal of the weights' column sums (the comparison, the quotient, the zero). From
  there eight host stretches select the guarded reciprocal, form the column-normalized weights, gather the output
  rows at the two edge ends, and pad the two gathered matrices and the weights with zero rows to a whole number of
  row blocks; the fifth region then leaves in its one-element output the sum, over all the padded rows, of the row's
  weight times the Kullback–Leibler term of the two rows; and a last stretch divides that sum by a constant. Read
  stage by stage, the padded arrays are the reference's gathered rows and weights padded, so the sum and its quotient
  are the reference's consistency term when L is all real; and no stage after the fourth region writes the buffer of
  the output rows, which therefore ends as it stood.
-/
import proofs.«155868_j58506044506617_2_alg».proof.Proof.Gen.KernelIdeal.Frame
import Idealize.ShloMosaic.Lib.StableHlo.Run
import proofs.«155868_j58506044506617_2_alg».proof.Proof.KerSpec
import proofs.«155868_j58506044506617_2_alg».proof.Proof.RefSpec
import proofs.«155868_j58506044506617_2_alg».proof.Proof.RegionKlRows
import proofs.«155868_j58506044506617_2_alg».proof.Proof.NcrBridge
import proofs.«155868_j58506044506617_2_alg».proof.Proof.LibRealOps

set_option maxRecDepth 16384

noncomputable section

open scoped BigOperators

namespace Cert.KerTail

open Cert.KernelIdeal Cert.KernelIdeal.Gen Idealize.ShloMosaic Idealize.ShloMosaic.TcCoe Idealize.SL.Sem
open Idealize.ShloMosaic.StableHlo

/-! ## The eight host stretches between the fourth and the fifth region, over any entry contents -/

/-- The buffer contents after the eight host stretches, from contents `V`. -/
abbrev tail25 (V : Valuation τ sig (Elt Ideal)) : Valuation τ sig (Elt Ideal) :=
  StableHlo.after hostOps4_8 (StableHlo.after hostOps4_7 (StableHlo.after hostOps4_6 (StableHlo.after hostOps4_5
    (StableHlo.after hostOps4_4 (StableHlo.after hostOps4_3 (StableHlo.after hostOps4_2 (StableHlo.after hostOps4_1 V)))))))

/-- The padded weights: the column-normalized weights — the edge weight times the guarded reciprocal gathered at the
    edge target — padded with zeros and turned into a column. -/
theorem tail25_v102 (V : Valuation τ sig (Elt Ideal)) (P : IVec S50000 1) (Q : FVec Ideal S50000 .f32) (z : FVec Ideal S_ .f32)
    (C0 : IVec S1600000 32) (w : FVec Ideal S1600000 .f32)
    (h73 : V (Proc.devRef .tc main_v73) = P) (h75 : V (Proc.devRef .tc main_v75) = Q)
    (h20 : V (Proc.devRef .tc main_cst_20) = z) (h3 : V (Proc.devRef .tc main_v3) = C0)
    (hw : V (Proc.devRef .tc main_arg2) = w) :
    tail25 V (Proc.devRef .tc main_v102)
      = KerSpec.nwPad (RefSpec.nwOf (select P Q (broadcastInDim S50000 ![] bcast_S_S50000 z)) C0 w) := by
  subst_vars
  after_results_simp
  simp only [TRef.toBuf, TRef.ofBuf, cast_eq]
  rfl

/-- The first padded matrix: the output rows gathered at the first edge-list row, padded with zero rows. -/
theorem tail25_v99 (V : Valuation τ sig (Elt Ideal)) (L : FVec Ideal S50000x16 .f32) (R0 : IVec S1600000 32)
    (h68 : V (Proc.devRef .tc main_v68) = L) (h1 : V (Proc.devRef .tc main_v1) = R0) :
    tail25 V (Proc.devRef .tc main_v99) = KerSpec.yPad L R0 := by
  subst_vars
  after_results_simp
  simp only [TRef.toBuf, TRef.ofBuf, cast_eq]
  rfl

/-- The second padded matrix: the output rows gathered at the second edge-list row, padded with zero rows. -/
theorem tail25_v100 (V : Valuation τ sig (Elt Ideal)) (L : FVec Ideal S50000x16 .f32) (C0 : IVec S1600000 32)
    (h68 : V (Proc.devRef .tc main_v68) = L) (h3 : V (Proc.devRef .tc main_v3) = C0) :
    tail25 V (Proc.devRef .tc main_v100) = KerSpec.yPad L C0 := by
  subst_vars
  after_results_simp
  simp only [TRef.toBuf, TRef.ofBuf, cast_eq]
  rfl

/-- None of the eight stretches writes the buffer of the output rows. -/
theorem tail25_v68 (V : Valuation τ sig (Elt Ideal)) (L : FVec Ideal S50000x16 .f32)
    (h68 : V (Proc.devRef .tc main_v68) = L) : tail25 V (Proc.devRef .tc main_v68) = L := by
  subst h68; after_results_simp

/-! ## The last stretch, over any entry contents -/

/-- The last stretch divides the fifth region's one-element result by the constant. -/
theorem last_v105 (V : Valuation τ sig (Elt Ideal)) (A : FVec Ideal S1x1 .f32) (h : V (Proc.devRef .tc main_v103) = A) :
    StableHlo.after hostOps5 V (Proc.devRef .tc main_v105) = KerSpec.ncrOut A := by
  subst h
  after_results_simp
  rfl

/-- The last stretch does not write the buffer of the output rows. -/
theorem last_v68 (V : Valuation τ sig (Elt Ideal)) (L : FVec Ideal S50000x16 .f32)
    (h68 : V (Proc.devRef .tc main_v68) = L) : StableHlo.after hostOps5 V (Proc.devRef .tc main_v68) = L := by
  subst h68; after_results_simp

/-! ## The chain at the program's own contents -/

variable (m : (ℓ : Loc nD τ sig) → Buf (Elt Ideal) ℓ) (ρ : Dev nD → PrngReg)

/-- The fifth region's output array is the buffer of the one-element sum. -/
theorem arr4_out : Pipeline.arrRef spec4 3 = main_v103 := rfl

/-- The buffer of the output rows is none of the fifth region's arrays. -/
theorem v68_not_arr4 : ∀ w : Fin cfg4.W, Pipeline.arrRef spec4 w ≠ main_v68 := by
  intro w; fin_cases w <;> decide

/-- A sum over the rows of three arrays depends on the arrays only. -/
theorem rows_congr {A A' : S1601536x1.Idx → EReal} {B B' C C' : S1601536x16.Idx → EReal} (hA : A = A') (hB : B = B')
    (hC : C = C') :
    (fun _ => (∑ e : Fin 1601536, RegKl.rowKl A B C e : EReal) : S1x1.Idx → EReal)
      = fun _ => (∑ e : Fin 1601536, RegKl.rowKl A' B' C' e : EReal) := by
  subst hA hB hC; rfl

/-- After the fifth region its output holds the sum over the padded rows of the weight times the Kullback–Leibler
    term, at the padded arrays the eight stretches leave. -/
theorem W26_v103 (c : Dev nD) (L : FVec Ideal S50000x16 .f32) (R0 C0 : IVec S1600000 32) (w : FVec Ideal S1600000 .f32)
    (P : IVec S50000 1) (Q : FVec Ideal S50000 .f32) (z : FVec Ideal S_ .f32)
    (h68 : W17 m ρ c (Proc.devRef .tc main_v68) = L) (h1 : W17 m ρ c (Proc.devRef .tc main_v1) = R0)
    (h3 : W17 m ρ c (Proc.devRef .tc main_v3) = C0) (hw : W17 m ρ c (Proc.devRef .tc main_arg2) = w)
    (h73 : W17 m ρ c (Proc.devRef .tc main_v73) = P) (h75 : W17 m ρ c (Proc.devRef .tc main_v75) = Q)
    (h20 : W17 m ρ c (Proc.devRef .tc main_cst_20) = z) :
    W26 m ρ c (Proc.devRef .tc main_v103)
      = fun _ => (∑ e : Fin 1601536, RegKl.rowKl
          (KerSpec.nwPad (RefSpec.nwOf (select P Q (broadcastInDim S50000 ![] bcast_S_S50000 z)) C0 w))
          (KerSpec.yPad L R0) (KerSpec.yPad L C0) e : EReal) := by
  refine (W26_arr m ρ c 3).trans ?_
  refine (RegKl.arr4_rows (V25 m ρ) c).trans ?_
  exact rows_congr (tail25_v102 (W17 m ρ c) P Q z C0 w h73 h75 h20 h3 hw) (tail25_v99 (W17 m ρ c) L R0 h68 h1)
    (tail25_v100 (W17 m ρ c) L C0 h68 h3)

/-- THE OUTPUT ROWS END AS THEY STOOD after the fourth region's host stretch: no later stage writes their buffer. -/
theorem tail_v68 (c : Dev nD) (L : FVec Ideal S50000x16 .f32) (h68 : W17 m ρ c (Proc.devRef .tc main_v68) = L) :
    W27 m ρ c (Proc.devRef .tc main_v68) = L :=
  last_v68 (W26 m ρ c) L ((W26_of_ne m ρ c main_v68 v68_not_arr4).trans (tail25_v68 (W17 m ρ c) L h68))

/-- THE CONSISTENCY TERM: the program's last result is the reference's consistency term of the output rows, the two
    edge-list rows and the column-normalized weights, when the output rows are all real. -/
theorem tail_v105 (c : Dev nD) (L : FVec Ideal S50000x16 .f32) (R0 C0 : IVec S1600000 32) (w : FVec Ideal S1600000 .f32)
    (P : IVec S50000 1) (Q : FVec Ideal S50000 .f32) (z : FVec Ideal S_ .f32)
    (h68 : W17 m ρ c (Proc.devRef .tc main_v68) = L) (h1 : W17 m ρ c (Proc.devRef .tc main_v1) = R0)
    (h3 : W17 m ρ c (Proc.devRef .tc main_v3) = C0) (hw : W17 m ρ c (Proc.devRef .tc main_arg2) = w)
    (h73 : W17 m ρ c (Proc.devRef .tc main_v73) = P) (h75 : W17 m ρ c (Proc.devRef .tc main_v75) = Q)
    (h20 : W17 m ρ c (Proc.devRef .tc main_cst_20) = z) (hL : Cert.RealOps.AllReal L) :
    W27 m ρ c (Proc.devRef .tc main_v105)
      = RefSpec.ncrTail (RefSpec.sm (RefSpec.gath16 L R0)) (RefSpec.lsm (RefSpec.gath16 L R0)) (RefSpec.lsm (RefSpec.gath16 L C0))
          (RefSpec.nwOf (select P Q (broadcastInDim S50000 ![] bcast_S_S50000 z)) C0 w) := by
  have h103 := W26_v103 m ρ c L R0 C0 w P Q z h68 h1 h3 hw h73 h75 h20
  have h105 := last_v105 (W26 m ρ c) _ h103
  have hb := NcrBridge.ncr_bridge L hL R0 C0 (RefSpec.nwOf (select P Q (broadcastInDim S50000 ![] bcast_S_S50000 z)) C0 w)
  exact h105.trans hb

end Cert.KerTail

end
-- ==== Proof.RefSegsA.lean ====
/-
  The reference's host operations 0–106 (the degree normalization, the first layer, the rectifier, the second normalization), read stage by stage: for each stage (a literal stretch of the program's operation list) and each buffer a later stage reads, the buffer's contents after the stage as a function of the contents of the buffers the stage reads — over ANY valuation, the inputs variables — and, for a buffer the stage does not write, that it keeps its contents.
-/
import proofs.«155868_j58506044506617_2_alg».proof.Proof.RefRun
import proofs.«155868_j58506044506617_2_alg».proof.Proof.RefSpec

set_option maxRecDepth 16384

noncomputable section

namespace Cert.RefSegs

open Cert.ReferenceIdeal Cert.ReferenceIdeal.Gen Cert.RefSpec Idealize.ShloMosaic Idealize.ShloMosaic.TcCoe Idealize.SL.Sem Idealize.ShloMosaic.StableHlo

/-- The operations' results rewritten one at a time, also under a concatenate's list of pieces. -/
local macro "results_rw" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

section Defs
variable {F : FTy → Type} [FloatOps F]
abbrev seg0 : List (HloOp τ sig (Elt F)) :=
  [
    unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_v4 (iotaInDim S50000 32 0),
    binary main_v1 main_v4 main_v5 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    binary main_v3 main_v4 main_v6 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    nullary main_cst (constant S_ .f32 0x3F800000#32),
    unary main_cst main_v7 (broadcastInDim S50000 ![] bcast_S_S50000 : (⟨S_, .f32⟩ : BufTy).Contents (Elt F) → (⟨S50000, .f32⟩ : BufTy).Contents (Elt F)),
    binary main_arg2 main_v7 main_v8 ((fun a b => concatenate S1650000 0 [⟨S1600000, a⟩, ⟨S50000, b⟩] concatenates_S1600000_S50000_S1650000_d0) : (⟨S1600000, .f32⟩ : BufTy).Contents (Elt F) → (⟨S50000, .f32⟩ : BufTy).Contents (Elt F) → (⟨S1650000, .f32⟩ : BufTy).Contents (Elt F)),
    nullary main_cst_0 (constant S_ .f32 0x00000000#32),
    unary main_cst_0 main_v9 (broadcastInDim S50000 ![] bcast_S_S50000 : (⟨S_, .f32⟩ : BufTy).Contents (Elt F) → (⟨S50000, .f32⟩ : BufTy).Contents (Elt F)),
    unary main_v6 main_v10 (broadcastInDim S1650000x1 ![0] bcast_S1650000_S1650000x1_0 : (⟨S1650000, .i32⟩ : BufTy).Contents (Elt F) → (⟨S1650000x1, .i32⟩ : BufTy).Contents (Elt F)),
    ternary main_v9 main_v10 main_v8 main_v11 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    nullary main_cst_1 (constant S_ .f32 0x00000000#32),
    unary main_cst_1 main_v12 (broadcastInDim S50000 ![] bcast_S_S50000 : (⟨S_, .f32⟩ : BufTy).Contents (Elt F) → (⟨S50000, .f32⟩ : BufTy).Contents (Elt F)),
    binary main_v11 main_v12 main_v13 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0xBF000000#32),
    unary main_cst_2 main_v14 (broadcastInDim S50000 ![] bcast_S_S50000 : (⟨S_, .f32⟩ : BufTy).Contents (Elt F) → (⟨S50000, .f32⟩ : BufTy).Contents (Elt F)),
    binary main_v11 main_v14 main_v15 (Host.powf : (⟨S50000, .f32⟩ : BufTy).Contents (Elt F) → (⟨S50000, .f32⟩ : BufTy).Contents (Elt F) → (⟨S50000, .f32⟩ : BufTy).Contents (Elt F)),
    nullary main_cst_3 (constant S_ .f32 0x00000000#32) ]

abbrev seg1 : List (HloOp τ sig (Elt F)) :=
  [
    TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v13) (TRef.of (T := ⟨S50000, .f32⟩) main_v15) (TRef.of (T := ⟨S50000, .f32⟩) main_call0_v1) (TRef.of (T := ⟨S50000, .f32⟩) main_v16) select ]

abbrev seg2 : List (HloOp τ sig (Elt F)) :=
  [
    nullary main_c (constantI S_ 32 0#32),
    unary main_c main_v17 (broadcastInDim S1650000 ![] bcast_S_S1650000 : (⟨S_, .i32⟩ : BufTy).Contents (Elt F) → (⟨S1650000, .i32⟩ : BufTy).Contents (Elt F)),
    binary main_v5 main_v17 main_v18 (cmpi .slt : (⟨S1650000, .i32⟩ : BufTy).Contents (Elt F) → (⟨S1650000, .i32⟩ : BufTy).Contents (Elt F) → (⟨S1650000, .i1⟩ : BufTy).Contents (Elt F)),
    nullary main_c_4 (constantI S_ 32 50000#32),
    unary main_c_4 main_v19 (broadcastInDim S1650000 ![] bcast_S_S1650000 : (⟨S_, .i32⟩ : BufTy).Contents (Elt F) → (⟨S1650000, .i32⟩ : BufTy).Contents (Elt F)),
    binary main_v5 main_v19 main_v20 (addi : (⟨S1650000, .i32⟩ : BufTy).Contents (Elt F) → (⟨S1650000, .i32⟩ : BufTy).Contents (Elt F) → (⟨S1650000, .i32⟩ : BufTy).Contents (Elt F)),
    ternary main_v18 main_v20 main_v5 main_v21 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v21 main_v22 (broadcastInDim S1650000x1 ![0] bcast_S1650000_S1650000x1_0 : (⟨S1650000, .i32⟩ : BufTy).Contents (Elt F) → (⟨S1650000x1, .i32⟩ : BufTy).Contents (Elt F)),
    binary main_v16 main_v22 main_v23 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    binary main_v23 main_v8 main_v24 (mulf : (⟨S1650000, .f32⟩ : BufTy).Contents (Elt F) → (⟨S1650000, .f32⟩ : BufTy).Contents (Elt F) → (⟨S1650000, .f32⟩ : BufTy).Contents (Elt F)),
    nullary main_c_5 (constantI S_ 32 0#32),
    unary main_c_5 main_v25 (broadcastInDim S1650000 ![] bcast_S_S1650000 : (⟨S_, .i32⟩ : BufTy).Contents (Elt F) → (⟨S1650000, .i32⟩ : BufTy).Contents (Elt F)),
    binary main_v6 main_v25 main_v26 (cmpi .slt : (⟨S1650000, .i32⟩ : BufTy).Contents (Elt F) → (⟨S1650000, .i32⟩ : BufTy).Contents (Elt F) → (⟨S1650000, .i1⟩ : BufTy).Contents (Elt F)),
    nullary main_c_6 (constantI S_ 32 50000#32),
    unary main_c_6 main_v27 (broadcastInDim S1650000 ![] bcast_S_S1650000 : (⟨S_, .i32⟩ : BufTy).Contents (Elt F) → (⟨S1650000, .i32⟩ : BufTy).Contents (Elt F)),
    binary main_v6 main_v27 main_v28 (addi : (⟨S1650000, .i32⟩ : BufTy).Contents (Elt F) → (⟨S1650000, .i32⟩ : BufTy).Contents (Elt F) → (⟨S1650000, .i32⟩ : BufTy).Contents (Elt F)),
    ternary main_v26 main_v28 main_v6 main_v29 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v29 main_v30 (broadcastInDim S1650000x1 ![0] bcast_S1650000_S1650000x1_0 : (⟨S1650000, .i32⟩ : BufTy).Contents (Elt F) → (⟨S1650000x1, .i32⟩ : BufTy).Contents (Elt F)),
    binary main_v16 main_v30 main_v31 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    binary main_v24 main_v31 main_v32 (mulf : (⟨S1650000, .f32⟩ : BufTy).Contents (Elt F) → (⟨S1650000, .f32⟩ : BufTy).Contents (Elt F) → (⟨S1650000, .f32⟩ : BufTy).Contents (Elt F)) ]

abbrev seg3 : List (HloOp τ sig (Elt F)) :=
  [
    binary main_arg0 main_arg3 main_v33 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_v32 main_v34 (broadcastInDim S1650000x1 ![0] bcast_S1650000_S1650000x1_0 : (⟨S1650000, .f32⟩ : BufTy).Contents (Elt F) → (⟨S1650000x1, .f32⟩ : BufTy).Contents (Elt F)),
    nullary main_c_7 (constantI S_ 32 0#32),
    unary main_c_7 main_v35 (broadcastInDim S1650000 ![] bcast_S_S1650000 : (⟨S_, .i32⟩ : BufTy).Contents (Elt F) → (⟨S1650000, .i32⟩ : BufTy).Contents (Elt F)),
    binary main_v5 main_v35 main_v36 (cmpi .slt : (⟨S1650000, .i32⟩ : BufTy).Contents (Elt F) → (⟨S1650000, .i32⟩ : BufTy).Contents (Elt F) → (⟨S1650000, .i1⟩ : BufTy).Contents (Elt F)),
    nullary main_c_8 (constantI S_ 32 50000#32),
    unary main_c_8 main_v37 (broadcastInDim S1650000 ![] bcast_S_S1650000 : (⟨S_, .i32⟩ : BufTy).Contents (Elt F) → (⟨S1650000, .i32⟩ : BufTy).Contents (Elt F)),
    binary main_v5 main_v37 main_v38 (addi : (⟨S1650000, .i32⟩ : BufTy).Contents (Elt F) → (⟨S1650000, .i32⟩ : BufTy).Contents (Elt F) → (⟨S1650000, .i32⟩ : BufTy).Contents (Elt F)),
    ternary main_v36 main_v38 main_v5 main_v39 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v39 main_v40 (broadcastInDim S1650000x1 ![0] bcast_S1650000_S1650000x1_0 : (⟨S1650000, .i32⟩ : BufTy).Contents (Elt F) → (⟨S1650000x1, .i32⟩ : BufTy).Contents (Elt F)),
    binary main_v33 main_v40 main_v41 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    unary main_v34 main_v42 (broadcastInDim S1650000x128 ![0, 1] bcast_S1650000x1_S1650000x128_0_1 : (⟨S1650000x1, .f32⟩ : BufTy).Contents (Elt F) → (⟨S1650000x128, .f32⟩ : BufTy).Contents (Elt F)),
    binary main_v42 main_v41 main_v43 (mulf : (⟨S1650000x128, .f32⟩ : BufTy).Contents (Elt F) → (⟨S1650000x128, .f32⟩ : BufTy).Contents (Elt F) → (⟨S1650000x128, .f32⟩ : BufTy).Contents (Elt F)),
    nullary main_cst_9 (constant S_ .f32 0x00000000#32),
    unary main_cst_9 main_v44 (broadcastInDim S50000x128 ![] bcast_S_S50000x128 : (⟨S_, .f32⟩ : BufTy).Contents (Elt F) → (⟨S50000x128, .f32⟩ : BufTy).Contents (Elt F)),
    unary main_v6 main_v45 (broadcastInDim S1650000x1 ![0] bcast_S1650000_S1650000x1_0 : (⟨S1650000, .i32⟩ : BufTy).Contents (Elt F) → (⟨S1650000x1, .i32⟩ : BufTy).Contents (Elt F)),
    ternary main_v44 main_v45 main_v43 main_v46 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)),
    unary main_arg4 main_v47 (broadcastInDim S1x128 ![1] bcast_S128_S1x128_1 : (⟨S128, .f32⟩ : BufTy).Contents (Elt F) → (⟨S1x128, .f32⟩ : BufTy).Contents (Elt F)),
    unary main_v47 main_v48 (broadcastInDim S50000x128 ![0, 1] bcast_S1x128_S50000x128_0_1 : (⟨S1x128, .f32⟩ : BufTy).Contents (Elt F) → (⟨S50000x128, .f32⟩ : BufTy).Contents (Elt F)),
    binary main_v46 main_v48 main_v49 (addf : (⟨S50000x128, .f32⟩ : BufTy).Contents (Elt F) → (⟨S50000x128, .f32⟩ : BufTy).Contents (Elt F) → (⟨S50000x128, .f32⟩ : BufTy).Contents (Elt F)) ]

abbrev seg4 : List (HloOp τ sig (Elt F)) :=
  [
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v49) (TRef.of (T := ⟨S50000x128, .f32⟩) main_call1_v0) (TRef.of (T := ⟨S50000x128, .f32⟩) main_v50) maximumf ]

abbrev seg5 : List (HloOp τ sig (Elt F)) :=
  [
    nullary main_v51 (iotaInDim S50000 32 0),
    binary main_v1 main_v51 main_v52 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    binary main_v3 main_v51 main_v53 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    nullary main_cst_10 (constant S_ .f32 0x3F800000#32),
    unary main_cst_10 main_v54 (broadcastInDim S50000 ![] bcast_S_S50000 : (⟨S_, .f32⟩ : BufTy).Contents (Elt F) → (⟨S50000, .f32⟩ : BufTy).Contents (Elt F)),
    binary main_arg2 main_v54 main_v55 ((fun a b => concatenate S1650000 0 [⟨S1600000, a⟩, ⟨S50000, b⟩] concatenates_S1600000_S50000_S1650000_d0) : (⟨S1600000, .f32⟩ : BufTy).Contents (Elt F) → (⟨S50000, .f32⟩ : BufTy).Contents (Elt F) → (⟨S1650000, .f32⟩ : BufTy).Contents (Elt F)),
    nullary main_cst_11 (constant S_ .f32 0x00000000#32),
    unary main_cst_11 main_v56 (broadcastInDim S50000 ![] bcast_S_S50000 : (⟨S_, .f32⟩ : BufTy).Contents (Elt F) → (⟨S50000, .f32⟩ : BufTy).Contents (Elt F)),
    unary main_v53 main_v57 (broadcastInDim S1650000x1 ![0] bcast_S1650000_S1650000x1_0 : (⟨S1650000, .i32⟩ : BufTy).Contents (Elt F) → (⟨S1650000x1, .i32⟩ : BufTy).Contents (Elt F)),
    ternary main_v56 main_v57 main_v55 main_v58 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    nullary main_cst_12 (constant S_ .f32 0x00000000#32),
    unary main_cst_12 main_v59 (broadcastInDim S50000 ![] bcast_S_S50000 : (⟨S_, .f32⟩ : BufTy).Contents (Elt F) → (⟨S50000, .f32⟩ : BufTy).Contents (Elt F)),
    binary main_v58 main_v59 main_v60 (cmpf .ogt : (⟨S50000, .f32⟩ : BufTy).Contents (Elt F) → (⟨S50000, .f32⟩ : BufTy).Contents (Elt F) → (⟨S50000, .i1⟩ : BufTy).Contents (Elt F)),
    nullary main_cst_13 (constant S_ .f32 0xBF000000#32),
    unary main_cst_13 main_v61 (broadcastInDim S50000 ![] bcast_S_S50000 : (⟨S_, .f32⟩ : BufTy).Contents (Elt F) → (⟨S50000, .f32⟩ : BufTy).Contents (Elt F)),
    binary main_v58 main_v61 main_v62 (Host.powf : (⟨S50000, .f32⟩ : BufTy).Contents (Elt F) → (⟨S50000, .f32⟩ : BufTy).Contents (Elt F) → (⟨S50000, .f32⟩ : BufTy).Contents (Elt F)),
    nullary main_cst_14 (constant S_ .f32 0x00000000#32) ]

abbrev seg6 : List (HloOp τ sig (Elt F)) :=
  [
    TRef.unary (TRef.of (T := ⟨S_, .f32⟩) main_cst_14) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v60) (TRef.of (T := ⟨S50000, .f32⟩) main_v62) (TRef.of (T := ⟨S50000, .f32⟩) main_call2_v1) (TRef.of (T := ⟨S50000, .f32⟩) main_v63) select ]

abbrev seg7 : List (HloOp τ sig (Elt F)) :=
  [
    nullary main_c_15 (constantI S_ 32 0#32),
    unary main_c_15 main_v64 (broadcastInDim S1650000 ![] bcast_S_S1650000 : (⟨S_, .i32⟩ : BufTy).Contents (Elt F) → (⟨S1650000, .i32⟩ : BufTy).Contents (Elt F)),
    binary main_v52 main_v64 main_v65 (cmpi .slt : (⟨S1650000, .i32⟩ : BufTy).Contents (Elt F) → (⟨S1650000, .i32⟩ : BufTy).Contents (Elt F) → (⟨S1650000, .i1⟩ : BufTy).Contents (Elt F)),
    nullary main_c_16 (constantI S_ 32 50000#32),
    unary main_c_16 main_v66 (broadcastInDim S1650000 ![] bcast_S_S1650000 : (⟨S_, .i32⟩ : BufTy).Contents (Elt F) → (⟨S1650000, .i32⟩ : BufTy).Contents (Elt F)),
    binary main_v52 main_v66 main_v67 (addi : (⟨S1650000, .i32⟩ : BufTy).Contents (Elt F) → (⟨S1650000, .i32⟩ : BufTy).Contents (Elt F) → (⟨S1650000, .i32⟩ : BufTy).Contents (Elt F)),
    ternary main_v65 main_v67 main_v52 main_v68 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v68 main_v69 (broadcastInDim S1650000x1 ![0] bcast_S1650000_S1650000x1_0 : (⟨S1650000, .i32⟩ : BufTy).Contents (Elt F) → (⟨S1650000x1, .i32⟩ : BufTy).Contents (Elt F)),
    binary main_v63 main_v69 main_v70 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    binary main_v70 main_v55 main_v71 (mulf : (⟨S1650000, .f32⟩ : BufTy).Contents (Elt F) → (⟨S1650000, .f32⟩ : BufTy).Contents (Elt F) → (⟨S1650000, .f32⟩ : BufTy).Contents (Elt F)),
    nullary main_c_17 (constantI S_ 32 0#32),
    unary main_c_17 main_v72 (broadcastInDim S1650000 ![] bcast_S_S1650000 : (⟨S_, .i32⟩ : BufTy).Contents (Elt F) → (⟨S1650000, .i32⟩ : BufTy).Contents (Elt F)),
    binary main_v53 main_v72 main_v73 (cmpi .slt : (⟨S1650000, .i32⟩ : BufTy).Contents (Elt F) → (⟨S1650000, .i32⟩ : BufTy).Contents (Elt F) → (⟨S1650000, .i1⟩ : BufTy).Contents (Elt F)),
    nullary main_c_18 (constantI S_ 32 50000#32),
    unary main_c_18 main_v74 (broadcastInDim S1650000 ![] bcast_S_S1650000 : (⟨S_, .i32⟩ : BufTy).Contents (Elt F) → (⟨S1650000, .i32⟩ : BufTy).Contents (Elt F)),
    binary main_v53 main_v74 main_v75 (addi : (⟨S1650000, .i32⟩ : BufTy).Contents (Elt F) → (⟨S1650000, .i32⟩ : BufTy).Contents (Elt F) → (⟨S1650000, .i32⟩ : BufTy).Contents (Elt F)),
    ternary main_v73 main_v75 main_v53 main_v76 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v76 main_v77 (broadcastInDim S1650000x1 ![0] bcast_S1650000_S1650000x1_0 : (⟨S1650000, .i32⟩ : BufTy).Contents (Elt F) → (⟨S1650000x1, .i32⟩ : BufTy).Contents (Elt F)),
    binary main_v63 main_v77 main_v78 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    binary main_v71 main_v78 main_v79 (mulf : (⟨S1650000, .f32⟩ : BufTy).Contents (Elt F) → (⟨S1650000, .f32⟩ : BufTy).Contents (Elt F) → (⟨S1650000, .f32⟩ : BufTy).Contents (Elt F)) ]

end Defs

theorem s0_main_arg0 (V : Valuation τ sig (Elt Ideal)) (T : FVec Ideal S50000x256 .f32) (h : V (Proc.devRef .tc main_arg0) = T) :
    after (seg0 (F := Ideal)) V (Proc.devRef .tc main_arg0) = T := by
  subst h
  after_results_simp

theorem s0_main_arg2 (V : Valuation τ sig (Elt Ideal)) (T : FVec Ideal S1600000 .f32) (h : V (Proc.devRef .tc main_arg2) = T) :
    after (seg0 (F := Ideal)) V (Proc.devRef .tc main_arg2) = T := by
  subst h
  after_results_simp

theorem s0_main_arg3 (V : Valuation τ sig (Elt Ideal)) (T : FVec Ideal S256x128 .f32) (h : V (Proc.devRef .tc main_arg3) = T) :
    after (seg0 (F := Ideal)) V (Proc.devRef .tc main_arg3) = T := by
  subst h
  after_results_simp

theorem s0_main_arg4 (V : Valuation τ sig (Elt Ideal)) (T : FVec Ideal S128 .f32) (h : V (Proc.devRef .tc main_arg4) = T) :
    after (seg0 (F := Ideal)) V (Proc.devRef .tc main_arg4) = T := by
  subst h
  after_results_simp

theorem s0_main_arg5 (V : Valuation τ sig (Elt Ideal)) (T : FVec Ideal S128x16 .f32) (h : V (Proc.devRef .tc main_arg5) = T) :
    after (seg0 (F := Ideal)) V (Proc.devRef .tc main_arg5) = T := by
  subst h
  after_results_simp

theorem s0_main_arg6 (V : Valuation τ sig (Elt Ideal)) (T : FVec Ideal S16 .f32) (h : V (Proc.devRef .tc main_arg6) = T) :
    after (seg0 (F := Ideal)) V (Proc.devRef .tc main_arg6) = T := by
  subst h
  after_results_simp

theorem s0_main_v1 (V : Valuation τ sig (Elt Ideal)) (a_arg1 : IVec S2x1600000 32) (h_arg1 : V (Proc.devRef .tc main_arg1) = a_arg1) :
    after (seg0 (F := Ideal)) V (Proc.devRef .tc main_v1) = rowW a_arg1 := by
  subst_vars
  after_results_simp
  results_rw
  try rfl

theorem s0_main_v3 (V : Valuation τ sig (Elt Ideal)) (a_arg1 : IVec S2x1600000 32) (h_arg1 : V (Proc.devRef .tc main_arg1) = a_arg1) :
    after (seg0 (F := Ideal)) V (Proc.devRef .tc main_v3) = colW a_arg1 := by
  subst_vars
  after_results_simp
  results_rw
  try rfl

theorem s0_main_v5 (V : Valuation τ sig (Elt Ideal)) (a_arg1 : IVec S2x1600000 32) (h_arg1 : V (Proc.devRef .tc main_arg1) = a_arg1) :
    after (seg0 (F := Ideal)) V (Proc.devRef .tc main_v5) = selfLoops (rowW a_arg1) := by
  subst_vars
  after_results_simp
  results_rw
  try rfl

theorem s0_main_v6 (V : Valuation τ sig (Elt Ideal)) (a_arg1 : IVec S2x1600000 32) (h_arg1 : V (Proc.devRef .tc main_arg1) = a_arg1) :
    after (seg0 (F := Ideal)) V (Proc.devRef .tc main_v6) = selfLoops (colW a_arg1) := by
  subst_vars
  after_results_simp
  results_rw
  try rfl

theorem s0_main_v8 (V : Valuation τ sig (Elt Ideal)) (a_arg2 : FVec Ideal S1600000 .f32) (h_arg2 : V (Proc.devRef .tc main_arg2) = a_arg2) :
    after (seg0 (F := Ideal)) V (Proc.devRef .tc main_v8) = wsF a_arg2 := by
  subst_vars
  after_results_simp
  results_rw
  try rfl

theorem s0_main_v13 (V : Valuation τ sig (Elt Ideal)) (a_arg1 : IVec S2x1600000 32) (a_arg2 : FVec Ideal S1600000 .f32) (h_arg1 : V (Proc.devRef .tc main_arg1) = a_arg1) (h_arg2 : V (Proc.devRef .tc main_arg2) = a_arg2) :
    after (seg0 (F := Ideal)) V (Proc.devRef .tc main_v13) = cmpf (F := Ideal) .ogt (Host.scatterAdd scatter_S50000_S1650000x1_S1650000_n_0_0_1 (broadcastInDim S50000 ![] bcast_S_S50000 (constant (F := Ideal) S_ .f32 0x00000000#32)) (broadcastInDim S1650000x1 ![0] bcast_S1650000_S1650000x1_0 (concatenate S1650000 0 [⟨S1600000, (shapeCast _ (extractStridedSlice S1x1600000 ![1, 0] a_arg1 slices_S2x1600000_S1x1600000_1_0) shapeCasts_S1x1600000_S1600000)⟩, ⟨S50000, (iotaInDim S50000 32 0)⟩] concatenates_S1600000_S50000_S1650000_d0)) (concatenate S1650000 0 [⟨S1600000, a_arg2⟩, ⟨S50000, (broadcastInDim S50000 ![] bcast_S_S50000 (constant (F := Ideal) S_ .f32 0x3F800000#32))⟩] concatenates_S1600000_S50000_S1650000_d0)) (broadcastInDim S50000 ![] bcast_S_S50000 (constant (F := Ideal) S_ .f32 0x00000000#32)) := by
  subst_vars
  after_results_simp
  results_rw
  try rfl

theorem s0_main_v15 (V : Valuation τ sig (Elt Ideal)) (a_arg1 : IVec S2x1600000 32) (a_arg2 : FVec Ideal S1600000 .f32) (h_arg1 : V (Proc.devRef .tc main_arg1) = a_arg1) (h_arg2 : V (Proc.devRef .tc main_arg2) = a_arg2) :
    after (seg0 (F := Ideal)) V (Proc.devRef .tc main_v15) = Host.powf (Host.scatterAdd scatter_S50000_S1650000x1_S1650000_n_0_0_1 (broadcastInDim S50000 ![] bcast_S_S50000 (constant (F := Ideal) S_ .f32 0x00000000#32)) (broadcastInDim S1650000x1 ![0] bcast_S1650000_S1650000x1_0 (concatenate S1650000 0 [⟨S1600000, (shapeCast _ (extractStridedSlice S1x1600000 ![1, 0] a_arg1 slices_S2x1600000_S1x1600000_1_0) shapeCasts_S1x1600000_S1600000)⟩, ⟨S50000, (iotaInDim S50000 32 0)⟩] concatenates_S1600000_S50000_S1650000_d0)) (concatenate S1650000 0 [⟨S1600000, a_arg2⟩, ⟨S50000, (broadcastInDim S50000 ![] bcast_S_S50000 (constant (F := Ideal) S_ .f32 0x3F800000#32))⟩] concatenates_S1600000_S50000_S1650000_d0)) (broadcastInDim S50000 ![] bcast_S_S50000 (constant (F := Ideal) S_ .f32 0xBF000000#32)) := by
  subst_vars
  after_results_simp
  results_rw
  try rfl

theorem s0_main_cst_3 (V : Valuation τ sig (Elt Ideal))   :
    after (seg0 (F := Ideal)) V (Proc.devRef .tc main_cst_3) = constant (F := Ideal) S_ .f32 0x00000000#32 := by
  subst_vars
  after_results_simp
  results_rw
  try rfl

theorem s1_main_arg0 (V : Valuation τ sig (Elt Ideal)) (T : FVec Ideal S50000x256 .f32) (h : V (Proc.devRef .tc main_arg0) = T) :
    after (seg1 (F := Ideal)) V (Proc.devRef .tc main_arg0) = T := by
  subst h
  after_results_simp

theorem s1_main_arg2 (V : Valuation τ sig (Elt Ideal)) (T : FVec Ideal S1600000 .f32) (h : V (Proc.devRef .tc main_arg2) = T) :
    after (seg1 (F := Ideal)) V (Proc.devRef .tc main_arg2) = T := by
  subst h
  after_results_simp

theorem s1_main_arg3 (V : Valuation τ sig (Elt Ideal)) (T : FVec Ideal S256x128 .f32) (h : V (Proc.devRef .tc main_arg3) = T) :
    after (seg1 (F := Ideal)) V (Proc.devRef .tc main_arg3) = T := by
  subst h
  after_results_simp

theorem s1_main_arg4 (V : Valuation τ sig (Elt Ideal)) (T : FVec Ideal S128 .f32) (h : V (Proc.devRef .tc main_arg4) = T) :
    after (seg1 (F := Ideal)) V (Proc.devRef .tc main_arg4) = T := by
  subst h
  after_results_simp

theorem s1_main_arg5 (V : Valuation τ sig (Elt Ideal)) (T : FVec Ideal S128x16 .f32) (h : V (Proc.devRef .tc main_arg5) = T) :
    after (seg1 (F := Ideal)) V (Proc.devRef .tc main_arg5) = T := by
  subst h
  after_results_simp

theorem s1_main_arg6 (V : Valuation τ sig (Elt Ideal)) (T : FVec Ideal S16 .f32) (h : V (Proc.devRef .tc main_arg6) = T) :
    after (seg1 (F := Ideal)) V (Proc.devRef .tc main_arg6) = T := by
  subst h
  after_results_simp

theorem s1_main_v1 (V : Valuation τ sig (Elt Ideal)) (T : IVec S1600000 32) (h : V (Proc.devRef .tc main_v1) = T) :
    after (seg1 (F := Ideal)) V (Proc.devRef .tc main_v1) = T := by
  subst h
  after_results_simp

theorem s1_main_v3 (V : Valuation τ sig (Elt Ideal)) (T : IVec S1600000 32) (h : V (Proc.devRef .tc main_v3) = T) :
    after (seg1 (F := Ideal)) V (Proc.devRef .tc main_v3) = T := by
  subst h
  after_results_simp

theorem s1_main_v5 (V : Valuation τ sig (Elt Ideal)) (T : IVec S1650000 32) (h : V (Proc.devRef .tc main_v5) = T) :
    after (seg1 (F := Ideal)) V (Proc.devRef .tc main_v5) = T := by
  subst h
  after_results_simp

theorem s1_main_v6 (V : Valuation τ sig (Elt Ideal)) (T : IVec S1650000 32) (h : V (Proc.devRef .tc main_v6) = T) :
    after (seg1 (F := Ideal)) V (Proc.devRef .tc main_v6) = T := by
  subst h
  after_results_simp

theorem s1_main_v8 (V : Valuation τ sig (Elt Ideal)) (T : FVec Ideal S1650000 .f32) (h : V (Proc.devRef .tc main_v8) = T) :
    after (seg1 (F := Ideal)) V (Proc.devRef .tc main_v8) = T := by
  subst h
  after_results_simp

theorem s1_main_v16 (V : Valuation τ sig (Elt Ideal)) (a_v13 : IVec S50000 1) (a_v15 : FVec Ideal S50000 .f32) (a_cst_3 : FVec Ideal S_ .f32) (h_v13 : V (Proc.devRef .tc main_v13) = a_v13) (h_v15 : V (Proc.devRef .tc main_v15) = a_v15) (h_cst_3 : V (Proc.devRef .tc main_cst_3) = a_cst_3) :
    after (seg1 (F := Ideal)) V (Proc.devRef .tc main_v16) = select a_v13 a_v15 (broadcastInDim S50000 ![] bcast_S_S50000 a_cst_3) := by
  subst_vars
  after_results_simp
  simp only [TRef.toBuf, TRef.ofBuf, cast_cast]
  repeat rw [cast_eq]
  try rfl

theorem s2_main_arg0 (V : Valuation τ sig (Elt Ideal)) (T : FVec Ideal S50000x256 .f32) (h : V (Proc.devRef .tc main_arg0) = T) :
    after (seg2 (F := Ideal)) V (Proc.devRef .tc main_arg0) = T := by
  subst h
  after_results_simp

theorem s2_main_arg2 (V : Valuation τ sig (Elt Ideal)) (T : FVec Ideal S1600000 .f32) (h : V (Proc.devRef .tc main_arg2) = T) :
    after (seg2 (F := Ideal)) V (Proc.devRef .tc main_arg2) = T := by
  subst h
  after_results_simp

theorem s2_main_arg3 (V : Valuation τ sig (Elt Ideal)) (T : FVec Ideal S256x128 .f32) (h : V (Proc.devRef .tc main_arg3) = T) :
    after (seg2 (F := Ideal)) V (Proc.devRef .tc main_arg3) = T := by
  subst h
  after_results_simp

theorem s2_main_arg4 (V : Valuation τ sig (Elt Ideal)) (T : FVec Ideal S128 .f32) (h : V (Proc.devRef .tc main_arg4) = T) :
    after (seg2 (F := Ideal)) V (Proc.devRef .tc main_arg4) = T := by
  subst h
  after_results_simp

theorem s2_main_arg5 (V : Valuation τ sig (Elt Ideal)) (T : FVec Ideal S128x16 .f32) (h : V (Proc.devRef .tc main_arg5) = T) :
    after (seg2 (F := Ideal)) V (Proc.devRef .tc main_arg5) = T := by
  subst h
  after_results_simp

theorem s2_main_arg6 (V : Valuation τ sig (Elt Ideal)) (T : FVec Ideal S16 .f32) (h : V (Proc.devRef .tc main_arg6) = T) :
    after (seg2 (F := Ideal)) V (Proc.devRef .tc main_arg6) = T := by
  subst h
  after_results_simp

theorem s2_main_v1 (V : Valuation τ sig (Elt Ideal)) (T : IVec S1600000 32) (h : V (Proc.devRef .tc main_v1) = T) :
    after (seg2 (F := Ideal)) V (Proc.devRef .tc main_v1) = T := by
  subst h
  after_results_simp

theorem s2_main_v3 (V : Valuation τ sig (Elt Ideal)) (T : IVec S1600000 32) (h : V (Proc.devRef .tc main_v3) = T) :
    after (seg2 (F := Ideal)) V (Proc.devRef .tc main_v3) = T := by
  subst h
  after_results_simp

theorem s2_main_v5 (V : Valuation τ sig (Elt Ideal)) (T : IVec S1650000 32) (h : V (Proc.devRef .tc main_v5) = T) :
    after (seg2 (F := Ideal)) V (Proc.devRef .tc main_v5) = T := by
  subst h
  after_results_simp

theorem s2_main_v6 (V : Valuation τ sig (Elt Ideal)) (T : IVec S1650000 32) (h : V (Proc.devRef .tc main_v6) = T) :
    after (seg2 (F := Ideal)) V (Proc.devRef .tc main_v6) = T := by
  subst h
  after_results_simp

theorem s2_main_v32 (V : Valuation τ sig (Elt Ideal)) (a_v16 : FVec Ideal S50000 .f32) (a_v5 : IVec S1650000 32) (a_v8 : FVec Ideal S1650000 .f32) (a_v6 : IVec S1650000 32) (h_v16 : V (Proc.devRef .tc main_v16) = a_v16) (h_v5 : V (Proc.devRef .tc main_v5) = a_v5) (h_v8 : V (Proc.devRef .tc main_v8) = a_v8) (h_v6 : V (Proc.devRef .tc main_v6) = a_v6) :
    after (seg2 (F := Ideal)) V (Proc.devRef .tc main_v32) = normOf a_v16 a_v5 a_v6 a_v8 := by
  subst_vars
  after_results_simp
  results_rw
  try rfl

theorem s3_main_arg2 (V : Valuation τ sig (Elt Ideal)) (T : FVec Ideal S1600000 .f32) (h : V (Proc.devRef .tc main_arg2) = T) :
    after (seg3 (F := Ideal)) V (Proc.devRef .tc main_arg2) = T := by
  subst h
  after_results_simp

theorem s3_main_arg5 (V : Valuation τ sig (Elt Ideal)) (T : FVec Ideal S128x16 .f32) (h : V (Proc.devRef .tc main_arg5) = T) :
    after (seg3 (F := Ideal)) V (Proc.devRef .tc main_arg5) = T := by
  subst h
  after_results_simp

theorem s3_main_arg6 (V : Valuation τ sig (Elt Ideal)) (T : FVec Ideal S16 .f32) (h : V (Proc.devRef .tc main_arg6) = T) :
    after (seg3 (F := Ideal)) V (Proc.devRef .tc main_arg6) = T := by
  subst h
  after_results_simp

theorem s3_main_v1 (V : Valuation τ sig (Elt Ideal)) (T : IVec S1600000 32) (h : V (Proc.devRef .tc main_v1) = T) :
    after (seg3 (F := Ideal)) V (Proc.devRef .tc main_v1) = T := by
  subst h
  after_results_simp

theorem s3_main_v3 (V : Valuation τ sig (Elt Ideal)) (T : IVec S1600000 32) (h : V (Proc.devRef .tc main_v3) = T) :
    after (seg3 (F := Ideal)) V (Proc.devRef .tc main_v3) = T := by
  subst h
  after_results_simp

theorem s3_main_v49 (V : Valuation τ sig (Elt Ideal)) (a_v6 : IVec S1650000 32) (a_v32 : FVec Ideal S1650000 .f32) (a_arg0 : FVec Ideal S50000x256 .f32) (a_arg3 : FVec Ideal S256x128 .f32) (a_v5 : IVec S1650000 32) (a_arg4 : FVec Ideal S128 .f32) (h_v6 : V (Proc.devRef .tc main_v6) = a_v6) (h_v32 : V (Proc.devRef .tc main_v32) = a_v32) (h_arg0 : V (Proc.devRef .tc main_arg0) = a_arg0) (h_arg3 : V (Proc.devRef .tc main_arg3) = a_arg3) (h_v5 : V (Proc.devRef .tc main_v5) = a_v5) (h_arg4 : V (Proc.devRef .tc main_arg4) = a_arg4) :
    after (seg3 (F := Ideal)) V (Proc.devRef .tc main_v49) = layer128 a_v32 a_v5 a_v6 (hx128 a_arg0 a_arg3) a_arg4 := by
  subst_vars
  after_results_simp
  results_rw
  try rfl

theorem s4_main_arg2 (V : Valuation τ sig (Elt Ideal)) (T : FVec Ideal S1600000 .f32) (h : V (Proc.devRef .tc main_arg2) = T) :
    after (seg4 (F := Ideal)) V (Proc.devRef .tc main_arg2) = T := by
  subst h
  after_results_simp

theorem s4_main_arg5 (V : Valuation τ sig (Elt Ideal)) (T : FVec Ideal S128x16 .f32) (h : V (Proc.devRef .tc main_arg5) = T) :
    after (seg4 (F := Ideal)) V (Proc.devRef .tc main_arg5) = T := by
  subst h
  after_results_simp

theorem s4_main_arg6 (V : Valuation τ sig (Elt Ideal)) (T : FVec Ideal S16 .f32) (h : V (Proc.devRef .tc main_arg6) = T) :
    after (seg4 (F := Ideal)) V (Proc.devRef .tc main_arg6) = T := by
  subst h
  after_results_simp

theorem s4_main_v1 (V : Valuation τ sig (Elt Ideal)) (T : IVec S1600000 32) (h : V (Proc.devRef .tc main_v1) = T) :
    after (seg4 (F := Ideal)) V (Proc.devRef .tc main_v1) = T := by
  subst h
  after_results_simp

theorem s4_main_v3 (V : Valuation τ sig (Elt Ideal)) (T : IVec S1600000 32) (h : V (Proc.devRef .tc main_v3) = T) :
    after (seg4 (F := Ideal)) V (Proc.devRef .tc main_v3) = T := by
  subst h
  after_results_simp

theorem s4_main_v50 (V : Valuation τ sig (Elt Ideal)) (a_v49 : FVec Ideal S50000x128 .f32) (h_v49 : V (Proc.devRef .tc main_v49) = a_v49) :
    after (seg4 (F := Ideal)) V (Proc.devRef .tc main_v50) = relu128 a_v49 := by
  subst_vars
  after_results_simp
  simp only [TRef.toBuf, TRef.ofBuf, cast_cast]
  repeat rw [cast_eq]
  try rfl

theorem s5_main_arg2 (V : Valuation τ sig (Elt Ideal)) (T : FVec Ideal S1600000 .f32) (h : V (Proc.devRef .tc main_arg2) = T) :
    after (seg5 (F := Ideal)) V (Proc.devRef .tc main_arg2) = T := by
  subst h
  after_results_simp

theorem s5_main_arg5 (V : Valuation τ sig (Elt Ideal)) (T : FVec Ideal S128x16 .f32) (h : V (Proc.devRef .tc main_arg5) = T) :
    after (seg5 (F := Ideal)) V (Proc.devRef .tc main_arg5) = T := by
  subst h
  after_results_simp

theorem s5_main_arg6 (V : Valuation τ sig (Elt Ideal)) (T : FVec Ideal S16 .f32) (h : V (Proc.devRef .tc main_arg6) = T) :
    after (seg5 (F := Ideal)) V (Proc.devRef .tc main_arg6) = T := by
  subst h
  after_results_simp

theorem s5_main_v1 (V : Valuation τ sig (Elt Ideal)) (T : IVec S1600000 32) (h : V (Proc.devRef .tc main_v1) = T) :
    after (seg5 (F := Ideal)) V (Proc.devRef .tc main_v1) = T := by
  subst h
  after_results_simp

theorem s5_main_v3 (V : Valuation τ sig (Elt Ideal)) (T : IVec S1600000 32) (h : V (Proc.devRef .tc main_v3) = T) :
    after (seg5 (F := Ideal)) V (Proc.devRef .tc main_v3) = T := by
  subst h
  after_results_simp

theorem s5_main_v50 (V : Valuation τ sig (Elt Ideal)) (T : FVec Ideal S50000x128 .f32) (h : V (Proc.devRef .tc main_v50) = T) :
    after (seg5 (F := Ideal)) V (Proc.devRef .tc main_v50) = T := by
  subst h
  after_results_simp

theorem s5_main_v52 (V : Valuation τ sig (Elt Ideal)) (a_v1 : IVec S1600000 32) (h_v1 : V (Proc.devRef .tc main_v1) = a_v1) :
    after (seg5 (F := Ideal)) V (Proc.devRef .tc main_v52) = selfLoops a_v1 := by
  subst_vars
  after_results_simp
  results_rw
  try rfl

theorem s5_main_v53 (V : Valuation τ sig (Elt Ideal)) (a_v3 : IVec S1600000 32) (h_v3 : V (Proc.devRef .tc main_v3) = a_v3) :
    after (seg5 (F := Ideal)) V (Proc.devRef .tc main_v53) = selfLoops a_v3 := by
  subst_vars
  after_results_simp
  results_rw
  try rfl

theorem s5_main_v55 (V : Valuation τ sig (Elt Ideal)) (a_arg2 : FVec Ideal S1600000 .f32) (h_arg2 : V (Proc.devRef .tc main_arg2) = a_arg2) :
    after (seg5 (F := Ideal)) V (Proc.devRef .tc main_v55) = wsF a_arg2 := by
  subst_vars
  after_results_simp
  results_rw
  try rfl

theorem s5_main_v60 (V : Valuation τ sig (Elt Ideal)) (a_v3 : IVec S1600000 32) (a_arg2 : FVec Ideal S1600000 .f32) (h_v3 : V (Proc.devRef .tc main_v3) = a_v3) (h_arg2 : V (Proc.devRef .tc main_arg2) = a_arg2) :
    after (seg5 (F := Ideal)) V (Proc.devRef .tc main_v60) = cmpf (F := Ideal) .ogt (Host.scatterAdd scatter_S50000_S1650000x1_S1650000_n_0_0_1 (broadcastInDim S50000 ![] bcast_S_S50000 (constant (F := Ideal) S_ .f32 0x00000000#32)) (broadcastInDim S1650000x1 ![0] bcast_S1650000_S1650000x1_0 (concatenate S1650000 0 [⟨S1600000, a_v3⟩, ⟨S50000, (iotaInDim S50000 32 0)⟩] concatenates_S1600000_S50000_S1650000_d0)) (concatenate S1650000 0 [⟨S1600000, a_arg2⟩, ⟨S50000, (broadcastInDim S50000 ![] bcast_S_S50000 (constant (F := Ideal) S_ .f32 0x3F800000#32))⟩] concatenates_S1600000_S50000_S1650000_d0)) (broadcastInDim S50000 ![] bcast_S_S50000 (constant (F := Ideal) S_ .f32 0x00000000#32)) := by
  subst_vars
  after_results_simp
  results_rw
  try rfl

theorem s5_main_v62 (V : Valuation τ sig (Elt Ideal)) (a_v3 : IVec S1600000 32) (a_arg2 : FVec Ideal S1600000 .f32) (h_v3 : V (Proc.devRef .tc main_v3) = a_v3) (h_arg2 : V (Proc.devRef .tc main_arg2) = a_arg2) :
    after (seg5 (F := Ideal)) V (Proc.devRef .tc main_v62) = Host.powf (Host.scatterAdd scatter_S50000_S1650000x1_S1650000_n_0_0_1 (broadcastInDim S50000 ![] bcast_S_S50000 (constant (F := Ideal) S_ .f32 0x00000000#32)) (broadcastInDim S1650000x1 ![0] bcast_S1650000_S1650000x1_0 (concatenate S1650000 0 [⟨S1600000, a_v3⟩, ⟨S50000, (iotaInDim S50000 32 0)⟩] concatenates_S1600000_S50000_S1650000_d0)) (concatenate S1650000 0 [⟨S1600000, a_arg2⟩, ⟨S50000, (broadcastInDim S50000 ![] bcast_S_S50000 (constant (F := Ideal) S_ .f32 0x3F800000#32))⟩] concatenates_S1600000_S50000_S1650000_d0)) (broadcastInDim S50000 ![] bcast_S_S50000 (constant (F := Ideal) S_ .f32 0xBF000000#32)) := by
  subst_vars
  after_results_simp
  results_rw
  try rfl

theorem s5_main_cst_14 (V : Valuation τ sig (Elt Ideal))   :
    after (seg5 (F := Ideal)) V (Proc.devRef .tc main_cst_14) = constant (F := Ideal) S_ .f32 0x00000000#32 := by
  subst_vars
  after_results_simp
  results_rw
  try rfl

theorem s6_main_arg2 (V : Valuation τ sig (Elt Ideal)) (T : FVec Ideal S1600000 .f32) (h : V (Proc.devRef .tc main_arg2) = T) :
    after (seg6 (F := Ideal)) V (Proc.devRef .tc main_arg2) = T := by
  subst h
  after_results_simp

theorem s6_main_arg5 (V : Valuation τ sig (Elt Ideal)) (T : FVec Ideal S128x16 .f32) (h : V (Proc.devRef .tc main_arg5) = T) :
    after (seg6 (F := Ideal)) V (Proc.devRef .tc main_arg5) = T := by
  subst h
  after_results_simp

theorem s6_main_arg6 (V : Valuation τ sig (Elt Ideal)) (T : FVec Ideal S16 .f32) (h : V (Proc.devRef .tc main_arg6) = T) :
    after (seg6 (F := Ideal)) V (Proc.devRef .tc main_arg6) = T := by
  subst h
  after_results_simp

theorem s6_main_v1 (V : Valuation τ sig (Elt Ideal)) (T : IVec S1600000 32) (h : V (Proc.devRef .tc main_v1) = T) :
    after (seg6 (F := Ideal)) V (Proc.devRef .tc main_v1) = T := by
  subst h
  after_results_simp

theorem s6_main_v3 (V : Valuation τ sig (Elt Ideal)) (T : IVec S1600000 32) (h : V (Proc.devRef .tc main_v3) = T) :
    after (seg6 (F := Ideal)) V (Proc.devRef .tc main_v3) = T := by
  subst h
  after_results_simp

theorem s6_main_v50 (V : Valuation τ sig (Elt Ideal)) (T : FVec Ideal S50000x128 .f32) (h : V (Proc.devRef .tc main_v50) = T) :
    after (seg6 (F := Ideal)) V (Proc.devRef .tc main_v50) = T := by
  subst h
  after_results_simp

theorem s6_main_v52 (V : Valuation τ sig (Elt Ideal)) (T : IVec S1650000 32) (h : V (Proc.devRef .tc main_v52) = T) :
    after (seg6 (F := Ideal)) V (Proc.devRef .tc main_v52) = T := by
  subst h
  after_results_simp

theorem s6_main_v53 (V : Valuation τ sig (Elt Ideal)) (T : IVec S1650000 32) (h : V (Proc.devRef .tc main_v53) = T) :
    after (seg6 (F := Ideal)) V (Proc.devRef .tc main_v53) = T := by
  subst h
  after_results_simp

theorem s6_main_v55 (V : Valuation τ sig (Elt Ideal)) (T : FVec Ideal S1650000 .f32) (h : V (Proc.devRef .tc main_v55) = T) :
    after (seg6 (F := Ideal)) V (Proc.devRef .tc main_v55) = T := by
  subst h
  after_results_simp

theorem s6_main_v63 (V : Valuation τ sig (Elt Ideal)) (a_v60 : IVec S50000 1) (a_v62 : FVec Ideal S50000 .f32) (a_cst_14 : FVec Ideal S_ .f32) (h_v60 : V (Proc.devRef .tc main_v60) = a_v60) (h_v62 : V (Proc.devRef .tc main_v62) = a_v62) (h_cst_14 : V (Proc.devRef .tc main_cst_14) = a_cst_14) :
    after (seg6 (F := Ideal)) V (Proc.devRef .tc main_v63) = select a_v60 a_v62 (broadcastInDim S50000 ![] bcast_S_S50000 a_cst_14) := by
  subst_vars
  after_results_simp
  simp only [TRef.toBuf, TRef.ofBuf, cast_cast]
  repeat rw [cast_eq]
  try rfl

theorem s7_main_arg2 (V : Valuation τ sig (Elt Ideal)) (T : FVec Ideal S1600000 .f32) (h : V (Proc.devRef .tc main_arg2) = T) :
    after (seg7 (F := Ideal)) V (Proc.devRef .tc main_arg2) = T := by
  subst h
  after_results_simp

theorem s7_main_arg5 (V : Valuation τ sig (Elt Ideal)) (T : FVec Ideal S128x16 .f32) (h : V (Proc.devRef .tc main_arg5) = T) :
    after (seg7 (F := Ideal)) V (Proc.devRef .tc main_arg5) = T := by
  subst h
  after_results_simp

theorem s7_main_arg6 (V : Valuation τ sig (Elt Ideal)) (T : FVec Ideal S16 .f32) (h : V (Proc.devRef .tc main_arg6) = T) :
    after (seg7 (F := Ideal)) V (Proc.devRef .tc main_arg6) = T := by
  subst h
  after_results_simp

theorem s7_main_v1 (V : Valuation τ sig (Elt Ideal)) (T : IVec S1600000 32) (h : V (Proc.devRef .tc main_v1) = T) :
    after (seg7 (F := Ideal)) V (Proc.devRef .tc main_v1) = T := by
  subst h
  after_results_simp

theorem s7_main_v3 (V : Valuation τ sig (Elt Ideal)) (T : IVec S1600000 32) (h : V (Proc.devRef .tc main_v3) = T) :
    after (seg7 (F := Ideal)) V (Proc.devRef .tc main_v3) = T := by
  subst h
  after_results_simp

theorem s7_main_v50 (V : Valuation τ sig (Elt Ideal)) (T : FVec Ideal S50000x128 .f32) (h : V (Proc.devRef .tc main_v50) = T) :
    after (seg7 (F := Ideal)) V (Proc.devRef .tc main_v50) = T := by
  subst h
  after_results_simp

theorem s7_main_v52 (V : Valuation τ sig (Elt Ideal)) (T : IVec S1650000 32) (h : V (Proc.devRef .tc main_v52) = T) :
    after (seg7 (F := Ideal)) V (Proc.devRef .tc main_v52) = T := by
  subst h
  after_results_simp

theorem s7_main_v53 (V : Valuation τ sig (Elt Ideal)) (T : IVec S1650000 32) (h : V (Proc.devRef .tc main_v53) = T) :
    after (seg7 (F := Ideal)) V (Proc.devRef .tc main_v53) = T := by
  subst h
  after_results_simp

theorem s7_main_v79 (V : Valuation τ sig (Elt Ideal)) (a_v63 : FVec Ideal S50000 .f32) (a_v52 : IVec S1650000 32) (a_v55 : FVec Ideal S1650000 .f32) (a_v53 : IVec S1650000 32) (h_v63 : V (Proc.devRef .tc main_v63) = a_v63) (h_v52 : V (Proc.devRef .tc main_v52) = a_v52) (h_v55 : V (Proc.devRef .tc main_v55) = a_v55) (h_v53 : V (Proc.devRef .tc main_v53) = a_v53) :
    after (seg7 (F := Ideal)) V (Proc.devRef .tc main_v79) = normOf a_v63 a_v52 a_v53 a_v55 := by
  subst_vars
  after_results_simp
  results_rw
  try rfl

end Cert.RefSegs

end
-- ==== Proof.RefSegsB.lean ====
/-
  The reference's host operations 107–174 (the second layer, the column-normalized weights, the gathered target rows and their log-softmax), read stage by stage: for each stage (a literal stretch of the program's operation list) and each buffer a later stage reads, the buffer's contents after the stage as a function of the contents of the buffers the stage reads — over ANY valuation, the inputs variables — and, for a buffer the stage does not write, that it keeps its contents.
-/
import proofs.«155868_j58506044506617_2_alg».proof.Proof.RefRun
import proofs.«155868_j58506044506617_2_alg».proof.Proof.RefSpec

set_option maxRecDepth 16384

noncomputable section

namespace Cert.RefSegs

open Cert.ReferenceIdeal Cert.ReferenceIdeal.Gen Cert.RefSpec Idealize.ShloMosaic Idealize.ShloMosaic.TcCoe Idealize.SL.Sem Idealize.ShloMosaic.StableHlo

/-- The operations' results rewritten one at a time, also under a concatenate's list of pieces. -/
local macro "results_rw" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

section Defs
variable {F : FTy → Type} [FloatOps F]
abbrev seg8 : List (HloOp τ sig (Elt F)) :=
  [
    binary main_v50 main_arg5 main_v80 ((fun l r => Host.dotGeneral dot_S50000x128_S128x16_S50000x16_1_0_0_1_n_n none l r) : (⟨S50000x128, .f32⟩ : BufTy).Contents (Elt F) → (⟨S128x16, .f32⟩ : BufTy).Contents (Elt F) → (⟨S50000x16, .f32⟩ : BufTy).Contents (Elt F)),
    unary main_v79 main_v81 (broadcastInDim S1650000x1 ![0] bcast_S1650000_S1650000x1_0 : (⟨S1650000, .f32⟩ : BufTy).Contents (Elt F) → (⟨S1650000x1, .f32⟩ : BufTy).Contents (Elt F)),
    nullary main_c_19 (constantI S_ 32 0#32),
    unary main_c_19 main_v82 (broadcastInDim S1650000 ![] bcast_S_S1650000 : (⟨S_, .i32⟩ : BufTy).Contents (Elt F) → (⟨S1650000, .i32⟩ : BufTy).Contents (Elt F)),
    binary main_v52 main_v82 main_v83 (cmpi .slt : (⟨S1650000, .i32⟩ : BufTy).Contents (Elt F) → (⟨S1650000, .i32⟩ : BufTy).Contents (Elt F) → (⟨S1650000, .i1⟩ : BufTy).Contents (Elt F)),
    nullary main_c_20 (constantI S_ 32 50000#32),
    unary main_c_20 main_v84 (broadcastInDim S1650000 ![] bcast_S_S1650000 : (⟨S_, .i32⟩ : BufTy).Contents (Elt F) → (⟨S1650000, .i32⟩ : BufTy).Contents (Elt F)),
    binary main_v52 main_v84 main_v85 (addi : (⟨S1650000, .i32⟩ : BufTy).Contents (Elt F) → (⟨S1650000, .i32⟩ : BufTy).Contents (Elt F) → (⟨S1650000, .i32⟩ : BufTy).Contents (Elt F)),
    ternary main_v83 main_v85 main_v52 main_v86 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v86 main_v87 (broadcastInDim S1650000x1 ![0] bcast_S1650000_S1650000x1_0 : (⟨S1650000, .i32⟩ : BufTy).Contents (Elt F) → (⟨S1650000x1, .i32⟩ : BufTy).Contents (Elt F)),
    binary main_v80 main_v87 main_v88 ((fun x i => Host.gather gather_S50000x16_S1650000x1_S1650000x16_1_0_n_n_0_1_116 x i) : (⟨S50000x16, .f32⟩ : BufTy).Contents (Elt F) → (⟨S1650000x1, .i32⟩ : BufTy).Contents (Elt F) → (⟨S1650000x16, .f32⟩ : BufTy).Contents (Elt F)),
    unary main_v81 main_v89 (broadcastInDim S1650000x16 ![0, 1] bcast_S1650000x1_S1650000x16_0_1 : (⟨S1650000x1, .f32⟩ : BufTy).Contents (Elt F) → (⟨S1650000x16, .f32⟩ : BufTy).Contents (Elt F)),
    binary main_v89 main_v88 main_v90 (mulf : (⟨S1650000x16, .f32⟩ : BufTy).Contents (Elt F) → (⟨S1650000x16, .f32⟩ : BufTy).Contents (Elt F) → (⟨S1650000x16, .f32⟩ : BufTy).Contents (Elt F)),
    nullary main_cst_21 (constant S_ .f32 0x00000000#32),
    unary main_cst_21 main_v91 (broadcastInDim S50000x16 ![] bcast_S_S50000x16 : (⟨S_, .f32⟩ : BufTy).Contents (Elt F) → (⟨S50000x16, .f32⟩ : BufTy).Contents (Elt F)),
    unary main_v53 main_v92 (broadcastInDim S1650000x1 ![0] bcast_S1650000_S1650000x1_0 : (⟨S1650000, .i32⟩ : BufTy).Contents (Elt F) → (⟨S1650000x1, .i32⟩ : BufTy).Contents (Elt F)),
    ternary main_v91 main_v92 main_v90 main_v93 ((fun x i u => Host.scatterAdd scatter_S50000x16_S1650000x1_S1650000x16_1_0_0_1 x i u) : (⟨S50000x16, .f32⟩ : BufTy).Contents (Elt F) → (⟨S1650000x1, .i32⟩ : BufTy).Contents (Elt F) → (⟨S1650000x16, .f32⟩ : BufTy).Contents (Elt F) → (⟨S50000x16, .f32⟩ : BufTy).Contents (Elt F)),
    unary main_arg6 main_v94 (broadcastInDim S1x16 ![1] bcast_S16_S1x16_1 : (⟨S16, .f32⟩ : BufTy).Contents (Elt F) → (⟨S1x16, .f32⟩ : BufTy).Contents (Elt F)),
    unary main_v94 main_v95 (broadcastInDim S50000x16 ![0, 1] bcast_S1x16_S50000x16_0_1 : (⟨S1x16, .f32⟩ : BufTy).Contents (Elt F) → (⟨S50000x16, .f32⟩ : BufTy).Contents (Elt F)),
    binary main_v93 main_v95 main_v96 (addf : (⟨S50000x16, .f32⟩ : BufTy).Contents (Elt F) → (⟨S50000x16, .f32⟩ : BufTy).Contents (Elt F) → (⟨S50000x16, .f32⟩ : BufTy).Contents (Elt F)) ]

abbrev seg9 : List (HloOp τ sig (Elt F)) :=
  [
    nullary main_cst_22 (constant S_ .f32 0x00000000#32),
    unary main_cst_22 main_v97 (broadcastInDim S50000 ![] bcast_S_S50000 : (⟨S_, .f32⟩ : BufTy).Contents (Elt F) → (⟨S50000, .f32⟩ : BufTy).Contents (Elt F)),
    unary main_v3 main_v98 (broadcastInDim S1600000x1 ![0] bcast_S1600000_S1600000x1_0 : (⟨S1600000, .i32⟩ : BufTy).Contents (Elt F) → (⟨S1600000x1, .i32⟩ : BufTy).Contents (Elt F)),
    ternary main_v97 main_v98 main_arg2 main_v99 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    nullary main_cst_23 (constant S_ .f32 0x00000000#32),
    unary main_cst_23 main_v100 (broadcastInDim S50000 ![] bcast_S_S50000 : (⟨S_, .f32⟩ : BufTy).Contents (Elt F) → (⟨S50000, .f32⟩ : BufTy).Contents (Elt F)),
    binary main_v99 main_v100 main_v101 (cmpf .ogt : (⟨S50000, .f32⟩ : BufTy).Contents (Elt F) → (⟨S50000, .f32⟩ : BufTy).Contents (Elt F) → (⟨S50000, .i1⟩ : BufTy).Contents (Elt F)),
    nullary main_cst_24 (constant S_ .f32 0x3F800000#32),
    unary main_cst_24 main_v102 (broadcastInDim S50000 ![] bcast_S_S50000 : (⟨S_, .f32⟩ : BufTy).Contents (Elt F) → (⟨S50000, .f32⟩ : BufTy).Contents (Elt F)),
    binary main_v102 main_v99 main_v103 (Host.divf : (⟨S50000, .f32⟩ : BufTy).Contents (Elt F) → (⟨S50000, .f32⟩ : BufTy).Contents (Elt F) → (⟨S50000, .f32⟩ : BufTy).Contents (Elt F)),
    nullary main_cst_25 (constant S_ .f32 0x00000000#32) ]

abbrev seg10 : List (HloOp τ sig (Elt F)) :=
  [
    TRef.unary (TRef.of (T := ⟨S_, .f32⟩) main_cst_25) (TRef.of (T := ⟨S_, .f32⟩) main_call3_v0) id,
    TRef.unary (TRef.of (T := ⟨S_, .f32⟩) main_call3_v0) (TRef.of (T := ⟨S50000, .f32⟩) main_call3_v1) (broadcastInDim S50000 ![] bcast_S_S50000),
    TRef.ternary (TRef.of (T := ⟨S50000, .i1⟩) main_v101) (TRef.of (T := ⟨S50000, .f32⟩) main_v103) (TRef.of (T := ⟨S50000, .f32⟩) main_call3_v1) (TRef.of (T := ⟨S50000, .f32⟩) main_v104) select ]

abbrev seg11 : List (HloOp τ sig (Elt F)) :=
  [
    nullary main_c_26 (constantI S_ 32 0#32),
    unary main_c_26 main_v105 (broadcastInDim S1600000 ![] bcast_S_S1600000 : (⟨S_, .i32⟩ : BufTy).Contents (Elt F) → (⟨S1600000, .i32⟩ : BufTy).Contents (Elt F)),
    binary main_v3 main_v105 main_v106 (cmpi .slt : (⟨S1600000, .i32⟩ : BufTy).Contents (Elt F) → (⟨S1600000, .i32⟩ : BufTy).Contents (Elt F) → (⟨S1600000, .i1⟩ : BufTy).Contents (Elt F)),
    nullary main_c_27 (constantI S_ 32 50000#32),
    unary main_c_27 main_v107 (broadcastInDim S1600000 ![] bcast_S_S1600000 : (⟨S_, .i32⟩ : BufTy).Contents (Elt F) → (⟨S1600000, .i32⟩ : BufTy).Contents (Elt F)),
    binary main_v3 main_v107 main_v108 (addi : (⟨S1600000, .i32⟩ : BufTy).Contents (Elt F) → (⟨S1600000, .i32⟩ : BufTy).Contents (Elt F) → (⟨S1600000, .i32⟩ : BufTy).Contents (Elt F)),
    ternary main_v106 main_v108 main_v3 main_v109 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v109 main_v110 (broadcastInDim S1600000x1 ![0] bcast_S1600000_S1600000x1_0 : (⟨S1600000, .i32⟩ : BufTy).Contents (Elt F) → (⟨S1600000x1, .i32⟩ : BufTy).Contents (Elt F)),
    binary main_v104 main_v110 main_v111 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    binary main_arg2 main_v111 main_v112 (mulf : (⟨S1600000, .f32⟩ : BufTy).Contents (Elt F) → (⟨S1600000, .f32⟩ : BufTy).Contents (Elt F) → (⟨S1600000, .f32⟩ : BufTy).Contents (Elt F)) ]

abbrev seg12 : List (HloOp τ sig (Elt F)) :=
  [
    nullary main_c_28 (constantI S_ 32 0#32),
    unary main_c_28 main_v113 (broadcastInDim S1600000 ![] bcast_S_S1600000 : (⟨S_, .i32⟩ : BufTy).Contents (Elt F) → (⟨S1600000, .i32⟩ : BufTy).Contents (Elt F)),
    binary main_v3 main_v113 main_v114 (cmpi .slt : (⟨S1600000, .i32⟩ : BufTy).Contents (Elt F) → (⟨S1600000, .i32⟩ : BufTy).Contents (Elt F) → (⟨S1600000, .i1⟩ : BufTy).Contents (Elt F)),
    nullary main_c_29 (constantI S_ 32 50000#32),
    unary main_c_29 main_v115 (broadcastInDim S1600000 ![] bcast_S_S1600000 : (⟨S_, .i32⟩ : BufTy).Contents (Elt F) → (⟨S1600000, .i32⟩ : BufTy).Contents (Elt F)),
    binary main_v3 main_v115 main_v116 (addi : (⟨S1600000, .i32⟩ : BufTy).Contents (Elt F) → (⟨S1600000, .i32⟩ : BufTy).Contents (Elt F) → (⟨S1600000, .i32⟩ : BufTy).Contents (Elt F)),
    ternary main_v114 main_v116 main_v3 main_v117 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v117 main_v118 (broadcastInDim S1600000x1 ![0] bcast_S1600000_S1600000x1_0 : (⟨S1600000, .i32⟩ : BufTy).Contents (Elt F) → (⟨S1600000x1, .i32⟩ : BufTy).Contents (Elt F)),
    binary main_v96 main_v118 main_v119 ((fun x i => Host.gather gather_S50000x16_S1600000x1_S1600000x16_1_0_n_n_0_1_116 x i) : (⟨S50000x16, .f32⟩ : BufTy).Contents (Elt F) → (⟨S1600000x1, .i32⟩ : BufTy).Contents (Elt F) → (⟨S1600000x16, .f32⟩ : BufTy).Contents (Elt F)) ]

abbrev seg13 : List (HloOp τ sig (Elt F)) :=
  [
    TRef.nullary (TRef.of (T := ⟨S_, .f32⟩) main_call4_cst) (constant S_ .f32 0xFF800000#32),
    TRef.binary (TRef.of (T := ⟨S1600000x16, .f32⟩) main_v119) (TRef.of (T := ⟨S_, .f32⟩) main_call4_cst) (TRef.of (T := ⟨S1600000, .f32⟩) main_call4_v0) (fun x v => Host.reduce FloatOps.maximumf x v reducesTo_S1600000x16_S1600000_d1 h_S_) ]

abbrev seg14 : List (HloOp τ sig (Elt F)) :=
  [
    TRef.nullary (TRef.of (T := ⟨S_, .f32⟩) main_call4_cst_0) (constant S_ .f32 0xFF800000#32),
    TRef.unary (TRef.of (T := ⟨S_, .f32⟩) main_call4_cst_0) (TRef.of (T := ⟨S1600000, .f32⟩) main_call4_v1) (broadcastInDim S1600000 ![] bcast_S_S1600000),
    TRef.binary (TRef.of (T := ⟨S1600000, .f32⟩) main_call4_v1) (TRef.of (T := ⟨S1600000, .f32⟩) main_call4_v0) (TRef.of (T := ⟨S1600000, .f32⟩) main_call4_v2) maximumf,
    TRef.unary (TRef.of (T := ⟨S1600000, .f32⟩) main_call4_v2) (TRef.of (T := ⟨S1600000x1, .f32⟩) main_call4_v3) (broadcastInDim S1600000x1 ![0] bcast_S1600000_S1600000x1_0),
    TRef.unary (TRef.of (T := ⟨S1600000x1, .f32⟩) main_call4_v3) (TRef.of (T := ⟨S1600000x16, .f32⟩) main_call4_v4) (broadcastInDim S1600000x16 ![0, 1] bcast_S1600000x1_S1600000x16_0_1),
    TRef.binary (TRef.of (T := ⟨S1600000x16, .f32⟩) main_v119) (TRef.of (T := ⟨S1600000x16, .f32⟩) main_call4_v4) (TRef.of (T := ⟨S1600000x16, .f32⟩) main_call4_v5) subf,
    TRef.unary (TRef.of (T := ⟨S1600000x16, .f32⟩) main_call4_v5) (TRef.of (T := ⟨S1600000x16, .f32⟩) main_call4_v6) Host.exp,
    TRef.nullary (TRef.of (T := ⟨S_, .f32⟩) main_call4_cst_1) (constant S_ .f32 0x00000000#32),
    TRef.binary (TRef.of (T := ⟨S1600000x16, .f32⟩) main_call4_v6) (TRef.of (T := ⟨S_, .f32⟩) main_call4_cst_1) (TRef.of (T := ⟨S1600000, .f32⟩) main_call4_v7) (fun x v => Host.reduceAdd x v reducesTo_S1600000x16_S1600000_d1 h_S_),
    TRef.unary (TRef.of (T := ⟨S1600000, .f32⟩) main_call4_v7) (TRef.of (T := ⟨S1600000x1, .f32⟩) main_call4_v8) (broadcastInDim S1600000x1 ![0] bcast_S1600000_S1600000x1_0),
    TRef.unary (TRef.of (T := ⟨S1600000x1, .f32⟩) main_call4_v8) (TRef.of (T := ⟨S1600000x1, .f32⟩) main_call4_v9) Host.log,
    TRef.unary (TRef.of (T := ⟨S1600000x1, .f32⟩) main_call4_v9) (TRef.of (T := ⟨S1600000x16, .f32⟩) main_call4_v10) (broadcastInDim S1600000x16 ![0, 1] bcast_S1600000x1_S1600000x16_0_1),
    TRef.binary (TRef.of (T := ⟨S1600000x16, .f32⟩) main_call4_v5) (TRef.of (T := ⟨S1600000x16, .f32⟩) main_call4_v10) (TRef.of (T := ⟨S1600000x16, .f32⟩) main_v120) subf ]

end Defs

theorem s8_main_arg2 (V : Valuation τ sig (Elt Ideal)) (T : FVec Ideal S1600000 .f32) (h : V (Proc.devRef .tc main_arg2) = T) :
    after (seg8 (F := Ideal)) V (Proc.devRef .tc main_arg2) = T := by
  subst h
  after_results_simp

theorem s8_main_v1 (V : Valuation τ sig (Elt Ideal)) (T : IVec S1600000 32) (h : V (Proc.devRef .tc main_v1) = T) :
    after (seg8 (F := Ideal)) V (Proc.devRef .tc main_v1) = T := by
  subst h
  after_results_simp

theorem s8_main_v3 (V : Valuation τ sig (Elt Ideal)) (T : IVec S1600000 32) (h : V (Proc.devRef .tc main_v3) = T) :
    after (seg8 (F := Ideal)) V (Proc.devRef .tc main_v3) = T := by
  subst h
  after_results_simp

theorem s8_main_v96 (V : Valuation τ sig (Elt Ideal)) (a_v53 : IVec S1650000 32) (a_v79 : FVec Ideal S1650000 .f32) (a_v50 : FVec Ideal S50000x128 .f32) (a_arg5 : FVec Ideal S128x16 .f32) (a_v52 : IVec S1650000 32) (a_arg6 : FVec Ideal S16 .f32) (h_v53 : V (Proc.devRef .tc main_v53) = a_v53) (h_v79 : V (Proc.devRef .tc main_v79) = a_v79) (h_v50 : V (Proc.devRef .tc main_v50) = a_v50) (h_arg5 : V (Proc.devRef .tc main_arg5) = a_arg5) (h_v52 : V (Proc.devRef .tc main_v52) = a_v52) (h_arg6 : V (Proc.devRef .tc main_arg6) = a_arg6) :
    after (seg8 (F := Ideal)) V (Proc.devRef .tc main_v96) = layer16 a_v79 a_v52 a_v53 (hx16 a_v50 a_arg5) a_arg6 := by
  subst_vars
  after_results_simp
  results_rw
  try rfl

theorem s9_main_arg2 (V : Valuation τ sig (Elt Ideal)) (T : FVec Ideal S1600000 .f32) (h : V (Proc.devRef .tc main_arg2) = T) :
    after (seg9 (F := Ideal)) V (Proc.devRef .tc main_arg2) = T := by
  subst h
  after_results_simp

theorem s9_main_v1 (V : Valuation τ sig (Elt Ideal)) (T : IVec S1600000 32) (h : V (Proc.devRef .tc main_v1) = T) :
    after (seg9 (F := Ideal)) V (Proc.devRef .tc main_v1) = T := by
  subst h
  after_results_simp

theorem s9_main_v3 (V : Valuation τ sig (Elt Ideal)) (T : IVec S1600000 32) (h : V (Proc.devRef .tc main_v3) = T) :
    after (seg9 (F := Ideal)) V (Proc.devRef .tc main_v3) = T := by
  subst h
  after_results_simp

theorem s9_main_v96 (V : Valuation τ sig (Elt Ideal)) (T : FVec Ideal S50000x16 .f32) (h : V (Proc.devRef .tc main_v96) = T) :
    after (seg9 (F := Ideal)) V (Proc.devRef .tc main_v96) = T := by
  subst h
  after_results_simp

theorem s9_main_v101 (V : Valuation τ sig (Elt Ideal)) (a_v3 : IVec S1600000 32) (a_arg2 : FVec Ideal S1600000 .f32) (h_v3 : V (Proc.devRef .tc main_v3) = a_v3) (h_arg2 : V (Proc.devRef .tc main_arg2) = a_arg2) :
    after (seg9 (F := Ideal)) V (Proc.devRef .tc main_v101) = cmpf (F := Ideal) .ogt (Host.scatterAdd scatter_S50000_S1600000x1_S1600000_n_0_0_1 (broadcastInDim S50000 ![] bcast_S_S50000 (constant (F := Ideal) S_ .f32 0x00000000#32)) (broadcastInDim S1600000x1 ![0] bcast_S1600000_S1600000x1_0 a_v3) a_arg2) (broadcastInDim S50000 ![] bcast_S_S50000 (constant (F := Ideal) S_ .f32 0x00000000#32)) := by
  subst_vars
  after_results_simp
  results_rw
  try rfl

theorem s9_main_v103 (V : Valuation τ sig (Elt Ideal)) (a_v3 : IVec S1600000 32) (a_arg2 : FVec Ideal S1600000 .f32) (h_v3 : V (Proc.devRef .tc main_v3) = a_v3) (h_arg2 : V (Proc.devRef .tc main_arg2) = a_arg2) :
    after (seg9 (F := Ideal)) V (Proc.devRef .tc main_v103) = Host.divf (broadcastInDim S50000 ![] bcast_S_S50000 (constant (F := Ideal) S_ .f32 0x3F800000#32)) (Host.scatterAdd scatter_S50000_S1600000x1_S1600000_n_0_0_1 (broadcastInDim S50000 ![] bcast_S_S50000 (constant (F := Ideal) S_ .f32 0x00000000#32)) (broadcastInDim S1600000x1 ![0] bcast_S1600000_S1600000x1_0 a_v3) a_arg2) := by
  subst_vars
  after_results_simp
  results_rw
  try rfl

theorem s9_main_cst_25 (V : Valuation τ sig (Elt Ideal))   :
    after (seg9 (F := Ideal)) V (Proc.devRef .tc main_cst_25) = constant (F := Ideal) S_ .f32 0x00000000#32 := by
  subst_vars
  after_results_simp
  results_rw
  try rfl

theorem s10_main_arg2 (V : Valuation τ sig (Elt Ideal)) (T : FVec Ideal S1600000 .f32) (h : V (Proc.devRef .tc main_arg2) = T) :
    after (seg10 (F := Ideal)) V (Proc.devRef .tc main_arg2) = T := by
  subst h
  after_results_simp

theorem s10_main_v1 (V : Valuation τ sig (Elt Ideal)) (T : IVec S1600000 32) (h : V (Proc.devRef .tc main_v1) = T) :
    after (seg10 (F := Ideal)) V (Proc.devRef .tc main_v1) = T := by
  subst h
  after_results_simp

theorem s10_main_v3 (V : Valuation τ sig (Elt Ideal)) (T : IVec S1600000 32) (h : V (Proc.devRef .tc main_v3) = T) :
    after (seg10 (F := Ideal)) V (Proc.devRef .tc main_v3) = T := by
  subst h
  after_results_simp

theorem s10_main_v96 (V : Valuation τ sig (Elt Ideal)) (T : FVec Ideal S50000x16 .f32) (h : V (Proc.devRef .tc main_v96) = T) :
    after (seg10 (F := Ideal)) V (Proc.devRef .tc main_v96) = T := by
  subst h
  after_results_simp

theorem s10_main_v104 (V : Valuation τ sig (Elt Ideal)) (a_v101 : IVec S50000 1) (a_v103 : FVec Ideal S50000 .f32) (a_cst_25 : FVec Ideal S_ .f32) (h_v101 : V (Proc.devRef .tc main_v101) = a_v101) (h_v103 : V (Proc.devRef .tc main_v103) = a_v103) (h_cst_25 : V (Proc.devRef .tc main_cst_25) = a_cst_25) :
    after (seg10 (F := Ideal)) V (Proc.devRef .tc main_v104) = select a_v101 a_v103 (broadcastInDim S50000 ![] bcast_S_S50000 a_cst_25) := by
  subst_vars
  after_results_simp
  simp only [TRef.toBuf, TRef.ofBuf, cast_cast]
  repeat rw [cast_eq]
  try rfl

theorem s11_main_v1 (V : Valuation τ sig (Elt Ideal)) (T : IVec S1600000 32) (h : V (Proc.devRef .tc main_v1) = T) :
    after (seg11 (F := Ideal)) V (Proc.devRef .tc main_v1) = T := by
  subst h
  after_results_simp

theorem s11_main_v3 (V : Valuation τ sig (Elt Ideal)) (T : IVec S1600000 32) (h : V (Proc.devRef .tc main_v3) = T) :
    after (seg11 (F := Ideal)) V (Proc.devRef .tc main_v3) = T := by
  subst h
  after_results_simp

theorem s11_main_v96 (V : Valuation τ sig (Elt Ideal)) (T : FVec Ideal S50000x16 .f32) (h : V (Proc.devRef .tc main_v96) = T) :
    after (seg11 (F := Ideal)) V (Proc.devRef .tc main_v96) = T := by
  subst h
  after_results_simp

theorem s11_main_v112 (V : Valuation τ sig (Elt Ideal)) (a_arg2 : FVec Ideal S1600000 .f32) (a_v104 : FVec Ideal S50000 .f32) (a_v3 : IVec S1600000 32) (h_arg2 : V (Proc.devRef .tc main_arg2) = a_arg2) (h_v104 : V (Proc.devRef .tc main_v104) = a_v104) (h_v3 : V (Proc.devRef .tc main_v3) = a_v3) :
    after (seg11 (F := Ideal)) V (Proc.devRef .tc main_v112) = nwOf a_v104 a_v3 a_arg2 := by
  subst_vars
  after_results_simp
  results_rw
  try rfl

theorem s12_main_v1 (V : Valuation τ sig (Elt Ideal)) (T : IVec S1600000 32) (h : V (Proc.devRef .tc main_v1) = T) :
    after (seg12 (F := Ideal)) V (Proc.devRef .tc main_v1) = T := by
  subst h
  after_results_simp

theorem s12_main_v96 (V : Valuation τ sig (Elt Ideal)) (T : FVec Ideal S50000x16 .f32) (h : V (Proc.devRef .tc main_v96) = T) :
    after (seg12 (F := Ideal)) V (Proc.devRef .tc main_v96) = T := by
  subst h
  after_results_simp

theorem s12_main_v112 (V : Valuation τ sig (Elt Ideal)) (T : FVec Ideal S1600000 .f32) (h : V (Proc.devRef .tc main_v112) = T) :
    after (seg12 (F := Ideal)) V (Proc.devRef .tc main_v112) = T := by
  subst h
  after_results_simp

theorem s12_main_v119 (V : Valuation τ sig (Elt Ideal)) (a_v96 : FVec Ideal S50000x16 .f32) (a_v3 : IVec S1600000 32) (h_v96 : V (Proc.devRef .tc main_v96) = a_v96) (h_v3 : V (Proc.devRef .tc main_v3) = a_v3) :
    after (seg12 (F := Ideal)) V (Proc.devRef .tc main_v119) = gath16 a_v96 a_v3 := by
  subst_vars
  after_results_simp
  results_rw
  try rfl

theorem s13_main_v1 (V : Valuation τ sig (Elt Ideal)) (T : IVec S1600000 32) (h : V (Proc.devRef .tc main_v1) = T) :
    after (seg13 (F := Ideal)) V (Proc.devRef .tc main_v1) = T := by
  subst h
  after_results_simp

theorem s13_main_v96 (V : Valuation τ sig (Elt Ideal)) (T : FVec Ideal S50000x16 .f32) (h : V (Proc.devRef .tc main_v96) = T) :
    after (seg13 (F := Ideal)) V (Proc.devRef .tc main_v96) = T := by
  subst h
  after_results_simp

theorem s13_main_v112 (V : Valuation τ sig (Elt Ideal)) (T : FVec Ideal S1600000 .f32) (h : V (Proc.devRef .tc main_v112) = T) :
    after (seg13 (F := Ideal)) V (Proc.devRef .tc main_v112) = T := by
  subst h
  after_results_simp

theorem s13_main_v119 (V : Valuation τ sig (Elt Ideal)) (T : FVec Ideal S1600000x16 .f32) (h : V (Proc.devRef .tc main_v119) = T) :
    after (seg13 (F := Ideal)) V (Proc.devRef .tc main_v119) = T := by
  subst h
  after_results_simp

theorem s13_main_call4_v0 (V : Valuation τ sig (Elt Ideal)) (a_v119 : FVec Ideal S1600000x16 .f32) (h_v119 : V (Proc.devRef .tc main_v119) = a_v119) :
    after (seg13 (F := Ideal)) V (Proc.devRef .tc main_call4_v0) = Host.reduce FloatOps.maximumf a_v119 (constant (F := Ideal) S_ .f32 0xFF800000#32) reducesTo_S1600000x16_S1600000_d1 h_S_ := by
  subst_vars
  after_results_simp
  simp only [TRef.toBuf, TRef.ofBuf, cast_cast]
  repeat rw [cast_eq]
  try rfl

theorem s14_main_v1 (V : Valuation τ sig (Elt Ideal)) (T : IVec S1600000 32) (h : V (Proc.devRef .tc main_v1) = T) :
    after (seg14 (F := Ideal)) V (Proc.devRef .tc main_v1) = T := by
  subst h
  after_results_simp

theorem s14_main_v96 (V : Valuation τ sig (Elt Ideal)) (T : FVec Ideal S50000x16 .f32) (h : V (Proc.devRef .tc main_v96) = T) :
    after (seg14 (F := Ideal)) V (Proc.devRef .tc main_v96) = T := by
  subst h
  after_results_simp

theorem s14_main_v112 (V : Valuation τ sig (Elt Ideal)) (T : FVec Ideal S1600000 .f32) (h : V (Proc.devRef .tc main_v112) = T) :
    after (seg14 (F := Ideal)) V (Proc.devRef .tc main_v112) = T := by
  subst h
  after_results_simp

theorem s14_main_v120 (V : Valuation τ sig (Elt Ideal)) (a_v119 : FVec Ideal S1600000x16 .f32) (a_call4_v0 : FVec Ideal S1600000 .f32) (h_v119 : V (Proc.devRef .tc main_v119) = a_v119) (h_call4_v0 : V (Proc.devRef .tc main_call4_v0) = a_call4_v0) :
    after (seg14 (F := Ideal)) V (Proc.devRef .tc main_v120) = subf (subf a_v119 (broadcastInDim S1600000x16 ![0, 1] bcast_S1600000x1_S1600000x16_0_1 (broadcastInDim S1600000x1 ![0] bcast_S1600000_S1600000x1_0 (maximumf (broadcastInDim S1600000 ![] bcast_S_S1600000 (constant (F := Ideal) S_ .f32 0xFF800000#32)) a_call4_v0)))) (broadcastInDim S1600000x16 ![0, 1] bcast_S1600000x1_S1600000x16_0_1 (Host.log (broadcastInDim S1600000x1 ![0] bcast_S1600000_S1600000x1_0 (Host.reduceAdd (Host.exp (subf a_v119 (broadcastInDim S1600000x16 ![0, 1] bcast_S1600000x1_S1600000x16_0_1 (broadcastInDim S1600000x1 ![0] bcast_S1600000_S1600000x1_0 (maximumf (broadcastInDim S1600000 ![] bcast_S_S1600000 (constant (F := Ideal) S_ .f32 0xFF800000#32)) a_call4_v0))))) (constant (F := Ideal) S_ .f32 0x00000000#32) reducesTo_S1600000x16_S1600000_d1 h_S_)))) := by
  subst_vars
  after_results_simp
  simp only [TRef.toBuf, TRef.ofBuf, cast_cast]
  repeat rw [cast_eq]
  try rfl

end Cert.RefSegs

end
-- ==== Proof.RefSegsC.lean ====
/-
  The reference's host operations 175–221 (the gathered source rows, their softmax and log-softmax, the weighted sum), read stage by stage: for each stage (a literal stretch of the program's operation list) and each buffer a later stage reads, the buffer's contents after the stage as a function of the contents of the buffers the stage reads — over ANY valuation, the inputs variables — and, for a buffer the stage does not write, that it keeps its contents.
-/
import proofs.«155868_j58506044506617_2_alg».proof.Proof.RefRun
import proofs.«155868_j58506044506617_2_alg».proof.Proof.RefSpec

set_option maxRecDepth 16384

noncomputable section

namespace Cert.RefSegs

open Cert.ReferenceIdeal Cert.ReferenceIdeal.Gen Cert.RefSpec Idealize.ShloMosaic Idealize.ShloMosaic.TcCoe Idealize.SL.Sem Idealize.ShloMosaic.StableHlo

/-- The operations' results rewritten one at a time, also under a concatenate's list of pieces. -/
local macro "results_rw" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

section Defs
variable {F : FTy → Type} [FloatOps F]
abbrev seg15 : List (HloOp τ sig (Elt F)) :=
  [
    nullary main_c_30 (constantI S_ 32 0#32),
    unary main_c_30 main_v121 (broadcastInDim S1600000 ![] bcast_S_S1600000 : (⟨S_, .i32⟩ : BufTy).Contents (Elt F) → (⟨S1600000, .i32⟩ : BufTy).Contents (Elt F)),
    binary main_v1 main_v121 main_v122 (cmpi .slt : (⟨S1600000, .i32⟩ : BufTy).Contents (Elt F) → (⟨S1600000, .i32⟩ : BufTy).Contents (Elt F) → (⟨S1600000, .i1⟩ : BufTy).Contents (Elt F)),
    nullary main_c_31 (constantI S_ 32 50000#32),
    unary main_c_31 main_v123 (broadcastInDim S1600000 ![] bcast_S_S1600000 : (⟨S_, .i32⟩ : BufTy).Contents (Elt F) → (⟨S1600000, .i32⟩ : BufTy).Contents (Elt F)),
    binary main_v1 main_v123 main_v124 (addi : (⟨S1600000, .i32⟩ : BufTy).Contents (Elt F) → (⟨S1600000, .i32⟩ : BufTy).Contents (Elt F) → (⟨S1600000, .i32⟩ : BufTy).Contents (Elt F)),
    ternary main_v122 main_v124 main_v1 main_v125 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v125 main_v126 (broadcastInDim S1600000x1 ![0] bcast_S1600000_S1600000x1_0 : (⟨S1600000, .i32⟩ : BufTy).Contents (Elt F) → (⟨S1600000x1, .i32⟩ : BufTy).Contents (Elt F)),
    binary main_v96 main_v126 main_v127 ((fun x i => Host.gather gather_S50000x16_S1600000x1_S1600000x16_1_0_n_n_0_1_116 x i) : (⟨S50000x16, .f32⟩ : BufTy).Contents (Elt F) → (⟨S1600000x1, .i32⟩ : BufTy).Contents (Elt F) → (⟨S1600000x16, .f32⟩ : BufTy).Contents (Elt F)) ]

abbrev seg16 : List (HloOp τ sig (Elt F)) :=
  [
    nullary main_cst_32 (constant S_ .f32 0xFF800000#32),
    binary main_v127 main_cst_32 main_v128 ((fun x v => Host.reduce FloatOps.maximumf x v reducesTo_S1600000x16_S1600000_d1 h_S_) : (⟨S1600000x16, .f32⟩ : BufTy).Contents (Elt F) → (⟨S_, .f32⟩ : BufTy).Contents (Elt F) → (⟨S1600000, .f32⟩ : BufTy).Contents (Elt F)),
    nullary main_cst_33 (constant S_ .f32 0xFF800000#32),
    unary main_cst_33 main_v129 (broadcastInDim S1600000 ![] bcast_S_S1600000 : (⟨S_, .f32⟩ : BufTy).Contents (Elt F) → (⟨S1600000, .f32⟩ : BufTy).Contents (Elt F)),
    binary main_v129 main_v128 main_v130 (maximumf : (⟨S1600000, .f32⟩ : BufTy).Contents (Elt F) → (⟨S1600000, .f32⟩ : BufTy).Contents (Elt F) → (⟨S1600000, .f32⟩ : BufTy).Contents (Elt F)),
    unary main_v130 main_v131 (broadcastInDim S1600000x1 ![0] bcast_S1600000_S1600000x1_0 : (⟨S1600000, .f32⟩ : BufTy).Contents (Elt F) → (⟨S1600000x1, .f32⟩ : BufTy).Contents (Elt F)),
    unary main_v131 main_v132 (broadcastInDim S1600000x16 ![0, 1] bcast_S1600000x1_S1600000x16_0_1 : (⟨S1600000x1, .f32⟩ : BufTy).Contents (Elt F) → (⟨S1600000x16, .f32⟩ : BufTy).Contents (Elt F)),
    binary main_v127 main_v132 main_v133 (subf : (⟨S1600000x16, .f32⟩ : BufTy).Contents (Elt F) → (⟨S1600000x16, .f32⟩ : BufTy).Contents (Elt F) → (⟨S1600000x16, .f32⟩ : BufTy).Contents (Elt F)),
    unary main_v133 main_v134 (Host.exp : (⟨S1600000x16, .f32⟩ : BufTy).Contents (Elt F) → (⟨S1600000x16, .f32⟩ : BufTy).Contents (Elt F)),
    nullary main_cst_34 (constant S_ .f32 0x00000000#32),
    binary main_v134 main_cst_34 main_v135 ((fun x v => Host.reduceAdd x v reducesTo_S1600000x16_S1600000_d1 h_S_) : (⟨S1600000x16, .f32⟩ : BufTy).Contents (Elt F) → (⟨S_, .f32⟩ : BufTy).Contents (Elt F) → (⟨S1600000, .f32⟩ : BufTy).Contents (Elt F)),
    unary main_v135 main_v136 (broadcastInDim S1600000x1 ![0] bcast_S1600000_S1600000x1_0 : (⟨S1600000, .f32⟩ : BufTy).Contents (Elt F) → (⟨S1600000x1, .f32⟩ : BufTy).Contents (Elt F)),
    unary main_v136 main_v137 (broadcastInDim S1600000x16 ![0, 1] bcast_S1600000x1_S1600000x16_0_1 : (⟨S1600000x1, .f32⟩ : BufTy).Contents (Elt F) → (⟨S1600000x16, .f32⟩ : BufTy).Contents (Elt F)),
    binary main_v134 main_v137 main_v138 (Host.divf : (⟨S1600000x16, .f32⟩ : BufTy).Contents (Elt F) → (⟨S1600000x16, .f32⟩ : BufTy).Contents (Elt F) → (⟨S1600000x16, .f32⟩ : BufTy).Contents (Elt F)) ]

abbrev seg17 : List (HloOp τ sig (Elt F)) :=
  [
    TRef.nullary (TRef.of (T := ⟨S_, .f32⟩) main_call5_cst) (constant S_ .f32 0xFF800000#32),
    TRef.binary (TRef.of (T := ⟨S1600000x16, .f32⟩) main_v127) (TRef.of (T := ⟨S_, .f32⟩) main_call5_cst) (TRef.of (T := ⟨S1600000, .f32⟩) main_call5_v0) (fun x v => Host.reduce FloatOps.maximumf x v reducesTo_S1600000x16_S1600000_d1 h_S_) ]

abbrev seg18 : List (HloOp τ sig (Elt F)) :=
  [
    TRef.nullary (TRef.of (T := ⟨S_, .f32⟩) main_call5_cst_0) (constant S_ .f32 0xFF800000#32),
    TRef.unary (TRef.of (T := ⟨S_, .f32⟩) main_call5_cst_0) (TRef.of (T := ⟨S1600000, .f32⟩) main_call5_v1) (broadcastInDim S1600000 ![] bcast_S_S1600000),
    TRef.binary (TRef.of (T := ⟨S1600000, .f32⟩) main_call5_v1) (TRef.of (T := ⟨S1600000, .f32⟩) main_call5_v0) (TRef.of (T := ⟨S1600000, .f32⟩) main_call5_v2) maximumf,
    TRef.unary (TRef.of (T := ⟨S1600000, .f32⟩) main_call5_v2) (TRef.of (T := ⟨S1600000x1, .f32⟩) main_call5_v3) (broadcastInDim S1600000x1 ![0] bcast_S1600000_S1600000x1_0),
    TRef.unary (TRef.of (T := ⟨S1600000x1, .f32⟩) main_call5_v3) (TRef.of (T := ⟨S1600000x16, .f32⟩) main_call5_v4) (broadcastInDim S1600000x16 ![0, 1] bcast_S1600000x1_S1600000x16_0_1),
    TRef.binary (TRef.of (T := ⟨S1600000x16, .f32⟩) main_v127) (TRef.of (T := ⟨S1600000x16, .f32⟩) main_call5_v4) (TRef.of (T := ⟨S1600000x16, .f32⟩) main_call5_v5) subf,
    TRef.unary (TRef.of (T := ⟨S1600000x16, .f32⟩) main_call5_v5) (TRef.of (T := ⟨S1600000x16, .f32⟩) main_call5_v6) Host.exp,
    TRef.nullary (TRef.of (T := ⟨S_, .f32⟩) main_call5_cst_1) (constant S_ .f32 0x00000000#32),
    TRef.binary (TRef.of (T := ⟨S1600000x16, .f32⟩) main_call5_v6) (TRef.of (T := ⟨S_, .f32⟩) main_call5_cst_1) (TRef.of (T := ⟨S1600000, .f32⟩) main_call5_v7) (fun x v => Host.reduceAdd x v reducesTo_S1600000x16_S1600000_d1 h_S_),
    TRef.unary (TRef.of (T := ⟨S1600000, .f32⟩) main_call5_v7) (TRef.of (T := ⟨S1600000x1, .f32⟩) main_call5_v8) (broadcastInDim S1600000x1 ![0] bcast_S1600000_S1600000x1_0),
    TRef.unary (TRef.of (T := ⟨S1600000x1, .f32⟩) main_call5_v8) (TRef.of (T := ⟨S1600000x1, .f32⟩) main_call5_v9) Host.log,
    TRef.unary (TRef.of (T := ⟨S1600000x1, .f32⟩) main_call5_v9) (TRef.of (T := ⟨S1600000x16, .f32⟩) main_call5_v10) (broadcastInDim S1600000x16 ![0, 1] bcast_S1600000x1_S1600000x16_0_1),
    TRef.binary (TRef.of (T := ⟨S1600000x16, .f32⟩) main_call5_v5) (TRef.of (T := ⟨S1600000x16, .f32⟩) main_call5_v10) (TRef.of (T := ⟨S1600000x16, .f32⟩) main_v139) subf ]

abbrev seg19 : List (HloOp τ sig (Elt F)) :=
  [
    binary main_v139 main_v120 main_v140 (subf : (⟨S1600000x16, .f32⟩ : BufTy).Contents (Elt F) → (⟨S1600000x16, .f32⟩ : BufTy).Contents (Elt F) → (⟨S1600000x16, .f32⟩ : BufTy).Contents (Elt F)),
    binary main_v138 main_v140 main_v141 (mulf : (⟨S1600000x16, .f32⟩ : BufTy).Contents (Elt F) → (⟨S1600000x16, .f32⟩ : BufTy).Contents (Elt F) → (⟨S1600000x16, .f32⟩ : BufTy).Contents (Elt F)),
    nullary main_cst_35 (constant S_ .f32 0x00000000#32),
    binary main_v141 main_cst_35 main_v142 ((fun x v => Host.reduceAdd x v reducesTo_S1600000x16_S1600000_d1 h_S_) : (⟨S1600000x16, .f32⟩ : BufTy).Contents (Elt F) → (⟨S_, .f32⟩ : BufTy).Contents (Elt F) → (⟨S1600000, .f32⟩ : BufTy).Contents (Elt F)),
    binary main_v112 main_v142 main_v143 (mulf : (⟨S1600000, .f32⟩ : BufTy).Contents (Elt F) → (⟨S1600000, .f32⟩ : BufTy).Contents (Elt F) → (⟨S1600000, .f32⟩ : BufTy).Contents (Elt F)),
    nullary main_cst_36 (constant S_ .f32 0x00000000#32),
    binary main_v143 main_cst_36 main_v144 ((fun x v => Host.reduceAdd x v reducesTo_S1600000_S_d0 h_S_) : (⟨S1600000, .f32⟩ : BufTy).Contents (Elt F) → (⟨S_, .f32⟩ : BufTy).Contents (Elt F) → (⟨S_, .f32⟩ : BufTy).Contents (Elt F)),
    nullary main_cst_37 (constant S_ .f32 0x47435000#32),
    binary main_v144 main_cst_37 main_v145 (Host.divf : (⟨S_, .f32⟩ : BufTy).Contents (Elt F) → (⟨S_, .f32⟩ : BufTy).Contents (Elt F) → (⟨S_, .f32⟩ : BufTy).Contents (Elt F)) ]

end Defs

theorem s15_main_v96 (V : Valuation τ sig (Elt Ideal)) (T : FVec Ideal S50000x16 .f32) (h : V (Proc.devRef .tc main_v96) = T) :
    after (seg15 (F := Ideal)) V (Proc.devRef .tc main_v96) = T := by
  subst h
  after_results_simp

theorem s15_main_v112 (V : Valuation τ sig (Elt Ideal)) (T : FVec Ideal S1600000 .f32) (h : V (Proc.devRef .tc main_v112) = T) :
    after (seg15 (F := Ideal)) V (Proc.devRef .tc main_v112) = T := by
  subst h
  after_results_simp

theorem s15_main_v120 (V : Valuation τ sig (Elt Ideal)) (T : FVec Ideal S1600000x16 .f32) (h : V (Proc.devRef .tc main_v120) = T) :
    after (seg15 (F := Ideal)) V (Proc.devRef .tc main_v120) = T := by
  subst h
  after_results_simp

theorem s15_main_v127 (V : Valuation τ sig (Elt Ideal)) (a_v96 : FVec Ideal S50000x16 .f32) (a_v1 : IVec S1600000 32) (h_v96 : V (Proc.devRef .tc main_v96) = a_v96) (h_v1 : V (Proc.devRef .tc main_v1) = a_v1) :
    after (seg15 (F := Ideal)) V (Proc.devRef .tc main_v127) = gath16 a_v96 a_v1 := by
  subst_vars
  after_results_simp
  results_rw
  try rfl

theorem s16_main_v96 (V : Valuation τ sig (Elt Ideal)) (T : FVec Ideal S50000x16 .f32) (h : V (Proc.devRef .tc main_v96) = T) :
    after (seg16 (F := Ideal)) V (Proc.devRef .tc main_v96) = T := by
  subst h
  after_results_simp

theorem s16_main_v112 (V : Valuation τ sig (Elt Ideal)) (T : FVec Ideal S1600000 .f32) (h : V (Proc.devRef .tc main_v112) = T) :
    after (seg16 (F := Ideal)) V (Proc.devRef .tc main_v112) = T := by
  subst h
  after_results_simp

theorem s16_main_v120 (V : Valuation τ sig (Elt Ideal)) (T : FVec Ideal S1600000x16 .f32) (h : V (Proc.devRef .tc main_v120) = T) :
    after (seg16 (F := Ideal)) V (Proc.devRef .tc main_v120) = T := by
  subst h
  after_results_simp

theorem s16_main_v127 (V : Valuation τ sig (Elt Ideal)) (T : FVec Ideal S1600000x16 .f32) (h : V (Proc.devRef .tc main_v127) = T) :
    after (seg16 (F := Ideal)) V (Proc.devRef .tc main_v127) = T := by
  subst h
  after_results_simp

theorem s16_main_v138 (V : Valuation τ sig (Elt Ideal)) (a_v127 : FVec Ideal S1600000x16 .f32) (h_v127 : V (Proc.devRef .tc main_v127) = a_v127) :
    after (seg16 (F := Ideal)) V (Proc.devRef .tc main_v138) = sm a_v127 := by
  subst_vars
  after_results_simp
  results_rw
  try rfl

theorem s17_main_v96 (V : Valuation τ sig (Elt Ideal)) (T : FVec Ideal S50000x16 .f32) (h : V (Proc.devRef .tc main_v96) = T) :
    after (seg17 (F := Ideal)) V (Proc.devRef .tc main_v96) = T := by
  subst h
  after_results_simp

theorem s17_main_v112 (V : Valuation τ sig (Elt Ideal)) (T : FVec Ideal S1600000 .f32) (h : V (Proc.devRef .tc main_v112) = T) :
    after (seg17 (F := Ideal)) V (Proc.devRef .tc main_v112) = T := by
  subst h
  after_results_simp

theorem s17_main_v120 (V : Valuation τ sig (Elt Ideal)) (T : FVec Ideal S1600000x16 .f32) (h : V (Proc.devRef .tc main_v120) = T) :
    after (seg17 (F := Ideal)) V (Proc.devRef .tc main_v120) = T := by
  subst h
  after_results_simp

theorem s17_main_v127 (V : Valuation τ sig (Elt Ideal)) (T : FVec Ideal S1600000x16 .f32) (h : V (Proc.devRef .tc main_v127) = T) :
    after (seg17 (F := Ideal)) V (Proc.devRef .tc main_v127) = T := by
  subst h
  after_results_simp

theorem s17_main_v138 (V : Valuation τ sig (Elt Ideal)) (T : FVec Ideal S1600000x16 .f32) (h : V (Proc.devRef .tc main_v138) = T) :
    after (seg17 (F := Ideal)) V (Proc.devRef .tc main_v138) = T := by
  subst h
  after_results_simp

theorem s17_main_call5_v0 (V : Valuation τ sig (Elt Ideal)) (a_v127 : FVec Ideal S1600000x16 .f32) (h_v127 : V (Proc.devRef .tc main_v127) = a_v127) :
    after (seg17 (F := Ideal)) V (Proc.devRef .tc main_call5_v0) = Host.reduce FloatOps.maximumf a_v127 (constant (F := Ideal) S_ .f32 0xFF800000#32) reducesTo_S1600000x16_S1600000_d1 h_S_ := by
  subst_vars
  after_results_simp
  simp only [TRef.toBuf, TRef.ofBuf, cast_cast]
  repeat rw [cast_eq]
  try rfl

theorem s18_main_v96 (V : Valuation τ sig (Elt Ideal)) (T : FVec Ideal S50000x16 .f32) (h : V (Proc.devRef .tc main_v96) = T) :
    after (seg18 (F := Ideal)) V (Proc.devRef .tc main_v96) = T := by
  subst h
  after_results_simp

theorem s18_main_v112 (V : Valuation τ sig (Elt Ideal)) (T : FVec Ideal S1600000 .f32) (h : V (Proc.devRef .tc main_v112) = T) :
    after (seg18 (F := Ideal)) V (Proc.devRef .tc main_v112) = T := by
  subst h
  after_results_simp

theorem s18_main_v120 (V : Valuation τ sig (Elt Ideal)) (T : FVec Ideal S1600000x16 .f32) (h : V (Proc.devRef .tc main_v120) = T) :
    after (seg18 (F := Ideal)) V (Proc.devRef .tc main_v120) = T := by
  subst h
  after_results_simp

theorem s18_main_v138 (V : Valuation τ sig (Elt Ideal)) (T : FVec Ideal S1600000x16 .f32) (h : V (Proc.devRef .tc main_v138) = T) :
    after (seg18 (F := Ideal)) V (Proc.devRef .tc main_v138) = T := by
  subst h
  after_results_simp

theorem s18_main_v139 (V : Valuation τ sig (Elt Ideal)) (a_v127 : FVec Ideal S1600000x16 .f32) (a_call5_v0 : FVec Ideal S1600000 .f32) (h_v127 : V (Proc.devRef .tc main_v127) = a_v127) (h_call5_v0 : V (Proc.devRef .tc main_call5_v0) = a_call5_v0) :
    after (seg18 (F := Ideal)) V (Proc.devRef .tc main_v139) = subf (subf a_v127 (broadcastInDim S1600000x16 ![0, 1] bcast_S1600000x1_S1600000x16_0_1 (broadcastInDim S1600000x1 ![0] bcast_S1600000_S1600000x1_0 (maximumf (broadcastInDim S1600000 ![] bcast_S_S1600000 (constant (F := Ideal) S_ .f32 0xFF800000#32)) a_call5_v0)))) (broadcastInDim S1600000x16 ![0, 1] bcast_S1600000x1_S1600000x16_0_1 (Host.log (broadcastInDim S1600000x1 ![0] bcast_S1600000_S1600000x1_0 (Host.reduceAdd (Host.exp (subf a_v127 (broadcastInDim S1600000x16 ![0, 1] bcast_S1600000x1_S1600000x16_0_1 (broadcastInDim S1600000x1 ![0] bcast_S1600000_S1600000x1_0 (maximumf (broadcastInDim S1600000 ![] bcast_S_S1600000 (constant (F := Ideal) S_ .f32 0xFF800000#32)) a_call5_v0))))) (constant (F := Ideal) S_ .f32 0x00000000#32) reducesTo_S1600000x16_S1600000_d1 h_S_)))) := by
  subst_vars
  after_results_simp
  simp only [TRef.toBuf, TRef.ofBuf, cast_cast]
  repeat rw [cast_eq]
  try rfl

theorem s19_main_v96 (V : Valuation τ sig (Elt Ideal)) (T : FVec Ideal S50000x16 .f32) (h : V (Proc.devRef .tc main_v96) = T) :
    after (seg19 (F := Ideal)) V (Proc.devRef .tc main_v96) = T := by
  subst h
  after_results_simp

theorem s19_main_v145 (V : Valuation τ sig (Elt Ideal)) (a_v112 : FVec Ideal S1600000 .f32) (a_v138 : FVec Ideal S1600000x16 .f32) (a_v139 : FVec Ideal S1600000x16 .f32) (a_v120 : FVec Ideal S1600000x16 .f32) (h_v112 : V (Proc.devRef .tc main_v112) = a_v112) (h_v138 : V (Proc.devRef .tc main_v138) = a_v138) (h_v139 : V (Proc.devRef .tc main_v139) = a_v139) (h_v120 : V (Proc.devRef .tc main_v120) = a_v120) :
    after (seg19 (F := Ideal)) V (Proc.devRef .tc main_v145) = ncrTail a_v138 a_v139 a_v120 a_v112 := by
  subst_vars
  after_results_simp
  results_rw
  try rfl

end Cert.RefSegs

end
-- ==== Proof.RefValue.lean ====
/-
  The reference's two results as functions of its arguments: its 222 host operations are run as twenty stages one after
  the other, each stage's outputs read off the contents the stage before left.
-/
import proofs.«155868_j58506044506617_2_alg».proof.Proof.RefSegsA
import proofs.«155868_j58506044506617_2_alg».proof.Proof.RefSegsB
import proofs.«155868_j58506044506617_2_alg».proof.Proof.RefSegsC

set_option maxRecDepth 65536
set_option maxHeartbeats 4000000

noncomputable section

namespace Cert.RefValue

open Cert.ReferenceIdeal Cert.ReferenceIdeal.Gen Cert.RefSpec Cert.RefSegs Idealize.ShloMosaic Idealize.ShloMosaic.TcCoe Idealize.SL.Sem Idealize.ShloMosaic.StableHlo

/-- The contents after two lists of operations run one after the other. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih (op.result V)

/-- The reference's operations are the stages one after the other. -/
theorem ops_split : (Cert.ReferenceIdeal.RawRun.ops (F := Ideal)) = seg0 ++ (seg1 ++ (seg2 ++ (seg3 ++ (seg4 ++ (seg5 ++ (seg6 ++ (seg7 ++ (seg8 ++ (seg9 ++ (seg10 ++ (seg11 ++ (seg12 ++ (seg13 ++ (seg14 ++ (seg15 ++ (seg16 ++ (seg17 ++ (seg18 ++ (seg19))))))))))))))))))) := rfl

/-- THE REFERENCE'S TWO RESULTS as functions of its arguments: the output rows are the two-layer network's, the
    scalar the neighbour-consistency term of those rows. -/
theorem ref_values (V : Valuation τ sig (Elt Ideal)) (x : FVec Ideal S50000x256 .f32) (ei : IVec S2x1600000 32) (w : FVec Ideal S1600000 .f32) (W1 : FVec Ideal S256x128 .f32) (b1 : FVec Ideal S128 .f32) (W2 : FVec Ideal S128x16 .f32) (b2 : FVec Ideal S16 .f32) (h_arg0 : V (Proc.devRef .tc main_arg0) = x) (h_arg1 : V (Proc.devRef .tc main_arg1) = ei) (h_arg2 : V (Proc.devRef .tc main_arg2) = w) (h_arg3 : V (Proc.devRef .tc main_arg3) = W1) (h_arg4 : V (Proc.devRef .tc main_arg4) = b1) (h_arg5 : V (Proc.devRef .tc main_arg5) = W2) (h_arg6 : V (Proc.devRef .tc main_arg6) = b2) :
    after (Cert.ReferenceIdeal.RawRun.ops (F := Ideal)) V (Proc.devRef .tc main_v96) = logits x ei w W1 b1 W2 b2
      ∧ after (Cert.ReferenceIdeal.RawRun.ops (F := Ideal)) V (Proc.devRef .tc main_v145) = ncr (logits x ei w W1 b1 W2 b2) ei w := by
  rw [ops_split]
  simp only [after_append]
  have f0_arg0 : (after (seg0 (F := Ideal)) V) (Proc.devRef .tc main_arg0) = x :=
    s0_main_arg0 V _ h_arg0
  have f0_arg2 : (after (seg0 (F := Ideal)) V) (Proc.devRef .tc main_arg2) = w :=
    s0_main_arg2 V _ h_arg2
  have f0_arg3 : (after (seg0 (F := Ideal)) V) (Proc.devRef .tc main_arg3) = W1 :=
    s0_main_arg3 V _ h_arg3
  have f0_arg4 : (after (seg0 (F := Ideal)) V) (Proc.devRef .tc main_arg4) = b1 :=
    s0_main_arg4 V _ h_arg4
  have f0_arg5 : (after (seg0 (F := Ideal)) V) (Proc.devRef .tc main_arg5) = W2 :=
    s0_main_arg5 V _ h_arg5
  have f0_arg6 : (after (seg0 (F := Ideal)) V) (Proc.devRef .tc main_arg6) = b2 :=
    s0_main_arg6 V _ h_arg6
  have f0_v1 : (after (seg0 (F := Ideal)) V) (Proc.devRef .tc main_v1) = (rowW ei) :=
    s0_main_v1 V _ h_arg1
  have f0_v3 : (after (seg0 (F := Ideal)) V) (Proc.devRef .tc main_v3) = (colW ei) :=
    s0_main_v3 V _ h_arg1
  have f0_v5 : (after (seg0 (F := Ideal)) V) (Proc.devRef .tc main_v5) = (selfLoops (rowW ei)) :=
    s0_main_v5 V _ h_arg1
  have f0_v6 : (after (seg0 (F := Ideal)) V) (Proc.devRef .tc main_v6) = (selfLoops (colW ei)) :=
    s0_main_v6 V _ h_arg1
  have f0_v8 : (after (seg0 (F := Ideal)) V) (Proc.devRef .tc main_v8) = (wsF w) :=
    s0_main_v8 V _ h_arg2
  have f0_v13 : (after (seg0 (F := Ideal)) V) (Proc.devRef .tc main_v13) = (cmpf (F := Ideal) .ogt (Host.scatterAdd scatter_S50000_S1650000x1_S1650000_n_0_0_1 (broadcastInDim S50000 ![] bcast_S_S50000 (constant (F := Ideal) S_ .f32 0x00000000#32)) (broadcastInDim S1650000x1 ![0] bcast_S1650000_S1650000x1_0 (concatenate S1650000 0 [⟨S1600000, (shapeCast _ (extractStridedSlice S1x1600000 ![1, 0] ei slices_S2x1600000_S1x1600000_1_0) shapeCasts_S1x1600000_S1600000)⟩, ⟨S50000, (iotaInDim S50000 32 0)⟩] concatenates_S1600000_S50000_S1650000_d0)) (concatenate S1650000 0 [⟨S1600000, w⟩, ⟨S50000, (broadcastInDim S50000 ![] bcast_S_S50000 (constant (F := Ideal) S_ .f32 0x3F800000#32))⟩] concatenates_S1600000_S50000_S1650000_d0)) (broadcastInDim S50000 ![] bcast_S_S50000 (constant (F := Ideal) S_ .f32 0x00000000#32))) :=
    s0_main_v13 V _ _ h_arg1 h_arg2
  have f0_v15 : (after (seg0 (F := Ideal)) V) (Proc.devRef .tc main_v15) = (Host.powf (Host.scatterAdd scatter_S50000_S1650000x1_S1650000_n_0_0_1 (broadcastInDim S50000 ![] bcast_S_S50000 (constant (F := Ideal) S_ .f32 0x00000000#32)) (broadcastInDim S1650000x1 ![0] bcast_S1650000_S1650000x1_0 (concatenate S1650000 0 [⟨S1600000, (shapeCast _ (extractStridedSlice S1x1600000 ![1, 0] ei slices_S2x1600000_S1x1600000_1_0) shapeCasts_S1x1600000_S1600000)⟩, ⟨S50000, (iotaInDim S50000 32 0)⟩] concatenates_S1600000_S50000_S1650000_d0)) (concatenate S1650000 0 [⟨S1600000, w⟩, ⟨S50000, (broadcastInDim S50000 ![] bcast_S_S50000 (constant (F := Ideal) S_ .f32 0x3F800000#32))⟩] concatenates_S1600000_S50000_S1650000_d0)) (broadcastInDim S50000 ![] bcast_S_S50000 (constant (F := Ideal) S_ .f32 0xBF000000#32))) :=
    s0_main_v15 V _ _ h_arg1 h_arg2
  have f0_cst_3 : (after (seg0 (F := Ideal)) V) (Proc.devRef .tc main_cst_3) = (constant (F := Ideal) S_ .f32 0x00000000#32) :=
    s0_main_cst_3 V
  have f1_arg0 : (after (seg1 (F := Ideal)) (after (seg0 (F := Ideal)) V)) (Proc.devRef .tc main_arg0) = x :=
    s1_main_arg0 (after (seg0 (F := Ideal)) V) _ f0_arg0
  have f1_arg2 : (after (seg1 (F := Ideal)) (after (seg0 (F := Ideal)) V)) (Proc.devRef .tc main_arg2) = w :=
    s1_main_arg2 (after (seg0 (F := Ideal)) V) _ f0_arg2
  have f1_arg3 : (after (seg1 (F := Ideal)) (after (seg0 (F := Ideal)) V)) (Proc.devRef .tc main_arg3) = W1 :=
    s1_main_arg3 (after (seg0 (F := Ideal)) V) _ f0_arg3
  have f1_arg4 : (after (seg1 (F := Ideal)) (after (seg0 (F := Ideal)) V)) (Proc.devRef .tc main_arg4) = b1 :=
    s1_main_arg4 (after (seg0 (F := Ideal)) V) _ f0_arg4
  have f1_arg5 : (after (seg1 (F := Ideal)) (after (seg0 (F := Ideal)) V)) (Proc.devRef .tc main_arg5) = W2 :=
    s1_main_arg5 (after (seg0 (F := Ideal)) V) _ f0_arg5
  have f1_arg6 : (after (seg1 (F := Ideal)) (after (seg0 (F := Ideal)) V)) (Proc.devRef .tc main_arg6) = b2 :=
    s1_main_arg6 (after (seg0 (F := Ideal)) V) _ f0_arg6
  have f1_v1 : (after (seg1 (F := Ideal)) (after (seg0 (F := Ideal)) V)) (Proc.devRef .tc main_v1) = (rowW ei) :=
    s1_main_v1 (after (seg0 (F := Ideal)) V) _ f0_v1
  have f1_v3 : (after (seg1 (F := Ideal)) (after (seg0 (F := Ideal)) V)) (Proc.devRef .tc main_v3) = (colW ei) :=
    s1_main_v3 (after (seg0 (F := Ideal)) V) _ f0_v3
  have f1_v5 : (after (seg1 (F := Ideal)) (after (seg0 (F := Ideal)) V)) (Proc.devRef .tc main_v5) = (selfLoops (rowW ei)) :=
    s1_main_v5 (after (seg0 (F := Ideal)) V) _ f0_v5
  have f1_v6 : (after (seg1 (F := Ideal)) (after (seg0 (F := Ideal)) V)) (Proc.devRef .tc main_v6) = (selfLoops (colW ei)) :=
    s1_main_v6 (after (seg0 (F := Ideal)) V) _ f0_v6
  have f1_v8 : (after (seg1 (F := Ideal)) (after (seg0 (F := Ideal)) V)) (Proc.devRef .tc main_v8) = (wsF w) :=
    s1_main_v8 (after (seg0 (F := Ideal)) V) _ f0_v8
  have f1_v16 : (after (seg1 (F := Ideal)) (after (seg0 (F := Ideal)) V)) (Proc.devRef .tc main_v16) = (dinvOf (degF (selfLoops (colW ei)) (wsF w))) :=
    s1_main_v16 (after (seg0 (F := Ideal)) V) _ _ _ f0_v13 f0_v15 f0_cst_3
  have f2_arg0 : (after (seg2 (F := Ideal)) (after (seg1 (F := Ideal)) (after (seg0 (F := Ideal)) V))) (Proc.devRef .tc main_arg0) = x :=
    s2_main_arg0 (after (seg1 (F := Ideal)) (after (seg0 (F := Ideal)) V)) _ f1_arg0
  have f2_arg2 : (after (seg2 (F := Ideal)) (after (seg1 (F := Ideal)) (after (seg0 (F := Ideal)) V))) (Proc.devRef .tc main_arg2) = w :=
    s2_main_arg2 (after (seg1 (F := Ideal)) (after (seg0 (F := Ideal)) V)) _ f1_arg2
  have f2_arg3 : (after (seg2 (F := Ideal)) (after (seg1 (F := Ideal)) (after (seg0 (F := Ideal)) V))) (Proc.devRef .tc main_arg3) = W1 :=
    s2_main_arg3 (after (seg1 (F := Ideal)) (after (seg0 (F := Ideal)) V)) _ f1_arg3
  have f2_arg4 : (after (seg2 (F := Ideal)) (after (seg1 (F := Ideal)) (after (seg0 (F := Ideal)) V))) (Proc.devRef .tc main_arg4) = b1 :=
    s2_main_arg4 (after (seg1 (F := Ideal)) (after (seg0 (F := Ideal)) V)) _ f1_arg4
  have f2_arg5 : (after (seg2 (F := Ideal)) (after (seg1 (F := Ideal)) (after (seg0 (F := Ideal)) V))) (Proc.devRef .tc main_arg5) = W2 :=
    s2_main_arg5 (after (seg1 (F := Ideal)) (after (seg0 (F := Ideal)) V)) _ f1_arg5
  have f2_arg6 : (after (seg2 (F := Ideal)) (after (seg1 (F := Ideal)) (after (seg0 (F := Ideal)) V))) (Proc.devRef .tc main_arg6) = b2 :=
    s2_main_arg6 (after (seg1 (F := Ideal)) (after (seg0 (F := Ideal)) V)) _ f1_arg6
  have f2_v1 : (after (seg2 (F := Ideal)) (after (seg1 (F := Ideal)) (after (seg0 (F := Ideal)) V))) (Proc.devRef .tc main_v1) = (rowW ei) :=
    s2_main_v1 (after (seg1 (F := Ideal)) (after (seg0 (F := Ideal)) V)) _ f1_v1
  have f2_v3 : (after (seg2 (F := Ideal)) (after (seg1 (F := Ideal)) (after (seg0 (F := Ideal)) V))) (Proc.devRef .tc main_v3) = (colW ei) :=
    s2_main_v3 (after (seg1 (F := Ideal)) (after (seg0 (F := Ideal)) V)) _ f1_v3
  have f2_v5 : (after (seg2 (F := Ideal)) (after (seg1 (F := Ideal)) (after (seg0 (F := Ideal)) V))) (Proc.devRef .tc main_v5) = (selfLoops (rowW ei)) :=
    s2_main_v5 (after (seg1 (F := Ideal)) (after (seg0 (F := Ideal)) V)) _ f1_v5
  have f2_v6 : (after (seg2 (F := Ideal)) (after (seg1 (F := Ideal)) (after (seg0 (F := Ideal)) V))) (Proc.devRef .tc main_v6) = (selfLoops (colW ei)) :=
    s2_main_v6 (after (seg1 (F := Ideal)) (after (seg0 (F := Ideal)) V)) _ f1_v6
  have f2_v32 : (after (seg2 (F := Ideal)) (after (seg1 (F := Ideal)) (after (seg0 (F := Ideal)) V))) (Proc.devRef .tc main_v32) = (norm ei w) :=
    s2_main_v32 (after (seg1 (F := Ideal)) (after (seg0 (F := Ideal)) V)) _ _ _ _ f1_v16 f1_v5 f1_v8 f1_v6
  have f3_arg2 : (after (seg3 (F := Ideal)) (after (seg2 (F := Ideal)) (after (seg1 (F := Ideal)) (after (seg0 (F := Ideal)) V)))) (Proc.devRef .tc main_arg2) = w :=
    s3_main_arg2 (after (seg2 (F := Ideal)) (after (seg1 (F := Ideal)) (after (seg0 (F := Ideal)) V))) _ f2_arg2
  have f3_arg5 : (after (seg3 (F := Ideal)) (after (seg2 (F := Ideal)) (after (seg1 (F := Ideal)) (after (seg0 (F := Ideal)) V)))) (Proc.devRef .tc main_arg5) = W2 :=
    s3_main_arg5 (after (seg2 (F := Ideal)) (after (seg1 (F := Ideal)) (after (seg0 (F := Ideal)) V))) _ f2_arg5
  have f3_arg6 : (after (seg3 (F := Ideal)) (after (seg2 (F := Ideal)) (after (seg1 (F := Ideal)) (after (seg0 (F := Ideal)) V)))) (Proc.devRef .tc main_arg6) = b2 :=
    s3_main_arg6 (after (seg2 (F := Ideal)) (after (seg1 (F := Ideal)) (after (seg0 (F := Ideal)) V))) _ f2_arg6
  have f3_v1 : (after (seg3 (F := Ideal)) (after (seg2 (F := Ideal)) (after (seg1 (F := Ideal)) (after (seg0 (F := Ideal)) V)))) (Proc.devRef .tc main_v1) = (rowW ei) :=
    s3_main_v1 (after (seg2 (F := Ideal)) (after (seg1 (F := Ideal)) (after (seg0 (F := Ideal)) V))) _ f2_v1
  have f3_v3 : (after (seg3 (F := Ideal)) (after (seg2 (F := Ideal)) (after (seg1 (F := Ideal)) (after (seg0 (F := Ideal)) V)))) (Proc.devRef .tc main_v3) = (colW ei) :=
    s3_main_v3 (after (seg2 (F := Ideal)) (after (seg1 (F := Ideal)) (after (seg0 (F := Ideal)) V))) _ f2_v3
  have f3_v49 : (after (seg3 (F := Ideal)) (after (seg2 (F := Ideal)) (after (seg1 (F := Ideal)) (after (seg0 (F := Ideal)) V)))) (Proc.devRef .tc main_v49) = (layer128 (norm ei w) (selfLoops (rowW ei)) (selfLoops (colW ei)) (hx128 x W1) b1) :=
    s3_main_v49 (after (seg2 (F := Ideal)) (after (seg1 (F := Ideal)) (after (seg0 (F := Ideal)) V))) _ _ _ _ _ _ f2_v6 f2_v32 f2_arg0 f2_arg3 f2_v5 f2_arg4
  have f4_arg2 : (after (seg4 (F := Ideal)) (after (seg3 (F := Ideal)) (after (seg2 (F := Ideal)) (after (seg1 (F := Ideal)) (after (seg0 (F := Ideal)) V))))) (Proc.devRef .tc main_arg2) = w :=
    s4_main_arg2 (after (seg3 (F := Ideal)) (after (seg2 (F := Ideal)) (after (seg1 (F := Ideal)) (after (seg0 (F := Ideal)) V)))) _ f3_arg2
  have f4_arg5 : (after (seg4 (F := Ideal)) (after (seg3 (F := Ideal)) (after (seg2 (F := Ideal)) (after (seg1 (F := Ideal)) (after (seg0 (F := Ideal)) V))))) (Proc.devRef .tc main_arg5) = W2 :=
    s4_main_arg5 (after (seg3 (F := Ideal)) (after (seg2 (F := Ideal)) (after (seg1 (F := Ideal)) (after (seg0 (F := Ideal)) V)))) _ f3_arg5
  have f4_arg6 : (after (seg4 (F := Ideal)) (after (seg3 (F := Ideal)) (after (seg2 (F := Ideal)) (after (seg1 (F := Ideal)) (after (seg0 (F := Ideal)) V))))) (Proc.devRef .tc main_arg6) = b2 :=
    s4_main_arg6 (after (seg3 (F := Ideal)) (after (seg2 (F := Ideal)) (after (seg1 (F := Ideal)) (after (seg0 (F := Ideal)) V)))) _ f3_arg6
  have f4_v1 : (after (seg4 (F := Ideal)) (after (seg3 (F := Ideal)) (after (seg2 (F := Ideal)) (after (seg1 (F := Ideal)) (after (seg0 (F := Ideal)) V))))) (Proc.devRef .tc main_v1) = (rowW ei) :=
    s4_main_v1 (after (seg3 (F := Ideal)) (after (seg2 (F := Ideal)) (after (seg1 (F := Ideal)) (after (seg0 (F := Ideal)) V)))) _ f3_v1
  have f4_v3 : (after (seg4 (F := Ideal)) (after (seg3 (F := Ideal)) (after (seg2 (F := Ideal)) (after (seg1 (F := Ideal)) (after (seg0 (F := Ideal)) V))))) (Proc.devRef .tc main_v3) = (colW ei) :=
    s4_main_v3 (after (seg3 (F := Ideal)) (after (seg2 (F := Ideal)) (after (seg1 (F := Ideal)) (after (seg0 (F := Ideal)) V)))) _ f3_v3
  have f4_v50 : (after (seg4 (F := Ideal)) (after (seg3 (F := Ideal)) (after (seg2 (F := Ideal)) (after (seg1 (F := Ideal)) (after (seg0 (F := Ideal)) V))))) (Proc.devRef .tc main_v50) = (relu128 (layer128 (norm ei w) (selfLoops (rowW ei)) (selfLoops (colW ei)) (hx128 x W1) b1)) :=
    s4_main_v50 (after (seg3 (F := Ideal)) (after (seg2 (F := Ideal)) (after (seg1 (F := Ideal)) (after (seg0 (F := Ideal)) V)))) _ f3_v49
  have f5_arg2 : (after (seg5 (F := Ideal)) (after (seg4 (F := Ideal)) (after (seg3 (F := Ideal)) (after (seg2 (F := Ideal)) (after (seg1 (F := Ideal)) (after (seg0 (F := Ideal)) V)))))) (Proc.devRef .tc main_arg2) = w :=
    s5_main_arg2 (after (seg4 (F := Ideal)) (after (seg3 (F := Ideal)) (after (seg2 (F := Ideal)) (after (seg1 (F := Ideal)) (after (seg0 (F := Ideal)) V))))) _ f4_arg2
  have f5_arg5 : (after (seg5 (F := Ideal)) (after (seg4 (F := Ideal)) (after (seg3 (F := Ideal)) (after (seg2 (F := Ideal)) (after (seg1 (F := Ideal)) (after (seg0 (F := Ideal)) V)))))) (Proc.devRef .tc main_arg5) = W2 :=
    s5_main_arg5 (after (seg4 (F := Ideal)) (after (seg3 (F := Ideal)) (after (seg2 (F := Ideal)) (after (seg1 (F := Ideal)) (after (seg0 (F := Ideal)) V))))) _ f4_arg5
  have f5_arg6 : (after (seg5 (F := Ideal)) (after (seg4 (F := Ideal)) (after (seg3 (F := Ideal)) (after (seg2 (F := Ideal)) (after (seg1 (F := Ideal)) (after (seg0 (F := Ideal)) V)))))) (Proc.devRef .tc main_arg6) = b2 :=
    s5_main_arg6 (after (seg4 (F := Ideal)) (after (seg3 (F := Ideal)) (after (seg2 (F := Ideal)) (after (seg1 (F := Ideal)) (after (seg0 (F := Ideal)) V))))) _ f4_arg6
  have f5_v1 : (after (seg5 (F := Ideal)) (after (seg4 (F := Ideal)) (after (seg3 (F := Ideal)) (after (seg2 (F := Ideal)) (after (seg1 (F := Ideal)) (after (seg0 (F := Ideal)) V)))))) (Proc.devRef .tc main_v1) = (rowW ei) :=
    s5_main_v1 (after (seg4 (F := Ideal)) (after (seg3 (F := Ideal)) (after (seg2 (F := Ideal)) (after (seg1 (F := Ideal)) (after (seg0 (F := Ideal)) V))))) _ f4_v1
  have f5_v3 : (after (seg5 (F := Ideal)) (after (seg4 (F := Ideal)) (after (seg3 (F := Ideal)) (after (seg2 (F := Ideal)) (after (seg1 (F := Ideal)) (after (seg0 (F := Ideal)) V)))))) (Proc.devRef .tc main_v3) = (colW ei) :=
    s5_main_v3 (after (seg4 (F := Ideal)) (after (seg3 (F := Ideal)) (after (seg2 (F := Ideal)) (after (seg1 (F := Ideal)) (after (seg0 (F := Ideal)) V))))) _ f4_v3
  have f5_v50 : (after (seg5 (F := Ideal)) (after (seg4 (F := Ideal)) (after (seg3 (F := Ideal)) (after (seg2 (F := Ideal)) (after (seg1 (F := Ideal)) (after (seg0 (F := Ideal)) V)))))) (Proc.devRef .tc main_v50) = (relu128 (layer128 (norm ei w) (selfLoops (rowW ei)) (selfLoops (colW ei)) (hx128 x W1) b1)) :=
    s5_main_v50 (after (seg4 (F := Ideal)) (after (seg3 (F := Ideal)) (after (seg2 (F := Ideal)) (after (seg1 (F := Ideal)) (after (seg0 (F := Ideal)) V))))) _ f4_v50
  have f5_v52 : (after (seg5 (F := Ideal)) (after (seg4 (F := Ideal)) (after (seg3 (F := Ideal)) (after (seg2 (F := Ideal)) (after (seg1 (F := Ideal)) (after (seg0 (F := Ideal)) V)))))) (Proc.devRef .tc main_v52) = (selfLoops (rowW ei)) :=
    s5_main_v52 (after (seg4 (F := Ideal)) (after (seg3 (F := Ideal)) (after (seg2 (F := Ideal)) (after (seg1 (F := Ideal)) (after (seg0 (F := Ideal)) V))))) _ f4_v1
  have f5_v53 : (after (seg5 (F := Ideal)) (after (seg4 (F := Ideal)) (after (seg3 (F := Ideal)) (after (seg2 (F := Ideal)) (after (seg1 (F := Ideal)) (after (seg0 (F := Ideal)) V)))))) (Proc.devRef .tc main_v53) = (selfLoops (colW ei)) :=
    s5_main_v53 (after (seg4 (F := Ideal)) (after (seg3 (F := Ideal)) (after (seg2 (F := Ideal)) (after (seg1 (F := Ideal)) (after (seg0 (F := Ideal)) V))))) _ f4_v3
  have f5_v55 : (after (seg5 (F := Ideal)) (after (seg4 (F := Ideal)) (after (seg3 (F := Ideal)) (after (seg2 (F := Ideal)) (after (seg1 (F := Ideal)) (after (seg0 (F := Ideal)) V)))))) (Proc.devRef .tc main_v55) = (wsF w) :=
    s5_main_v55 (after (seg4 (F := Ideal)) (after (seg3 (F := Ideal)) (after (seg2 (F := Ideal)) (after (seg1 (F := Ideal)) (after (seg0 (F := Ideal)) V))))) _ f4_arg2
  have f5_v60 : (after (seg5 (F := Ideal)) (after (seg4 (F := Ideal)) (after (seg3 (F := Ideal)) (after (seg2 (F := Ideal)) (after (seg1 (F := Ideal)) (after (seg0 (F := Ideal)) V)))))) (Proc.devRef .tc main_v60) = (cmpf (F := Ideal) .ogt (Host.scatterAdd scatter_S50000_S1650000x1_S1650000_n_0_0_1 (broadcastInDim S50000 ![] bcast_S_S50000 (constant (F := Ideal) S_ .f32 0x00000000#32)) (broadcastInDim S1650000x1 ![0] bcast_S1650000_S1650000x1_0 (concatenate S1650000 0 [⟨S1600000, ((colW ei))⟩, ⟨S50000, (iotaInDim S50000 32 0)⟩] concatenates_S1600000_S50000_S1650000_d0)) (concatenate S1650000 0 [⟨S1600000, w⟩, ⟨S50000, (broadcastInDim S50000 ![] bcast_S_S50000 (constant (F := Ideal) S_ .f32 0x3F800000#32))⟩] concatenates_S1600000_S50000_S1650000_d0)) (broadcastInDim S50000 ![] bcast_S_S50000 (constant (F := Ideal) S_ .f32 0x00000000#32))) :=
    s5_main_v60 (after (seg4 (F := Ideal)) (after (seg3 (F := Ideal)) (after (seg2 (F := Ideal)) (after (seg1 (F := Ideal)) (after (seg0 (F := Ideal)) V))))) _ _ f4_v3 f4_arg2
  have f5_v62 : (after (seg5 (F := Ideal)) (after (seg4 (F := Ideal)) (after (seg3 (F := Ideal)) (after (seg2 (F := Ideal)) (after (seg1 (F := Ideal)) (after (seg0 (F := Ideal)) V)))))) (Proc.devRef .tc main_v62) = (Host.powf (Host.scatterAdd scatter_S50000_S1650000x1_S1650000_n_0_0_1 (broadcastInDim S50000 ![] bcast_S_S50000 (constant (F := Ideal) S_ .f32 0x00000000#32)) (broadcastInDim S1650000x1 ![0] bcast_S1650000_S1650000x1_0 (concatenate S1650000 0 [⟨S1600000, ((colW ei))⟩, ⟨S50000, (iotaInDim S50000 32 0)⟩] concatenates_S1600000_S50000_S1650000_d0)) (concatenate S1650000 0 [⟨S1600000, w⟩, ⟨S50000, (broadcastInDim S50000 ![] bcast_S_S50000 (constant (F := Ideal) S_ .f32 0x3F800000#32))⟩] concatenates_S1600000_S50000_S1650000_d0)) (broadcastInDim S50000 ![] bcast_S_S50000 (constant (F := Ideal) S_ .f32 0xBF000000#32))) :=
    s5_main_v62 (after (seg4 (F := Ideal)) (after (seg3 (F := Ideal)) (after (seg2 (F := Ideal)) (after (seg1 (F := Ideal)) (after (seg0 (F := Ideal)) V))))) _ _ f4_v3 f4_arg2
  have f5_cst_14 : (after (seg5 (F := Ideal)) (after (seg4 (F := Ideal)) (after (seg3 (F := Ideal)) (after (seg2 (F := Ideal)) (after (seg1 (F := Ideal)) (after (seg0 (F := Ideal)) V)))))) (Proc.devRef .tc main_cst_14) = (constant (F := Ideal) S_ .f32 0x00000000#32) :=
    s5_main_cst_14 (after (seg4 (F := Ideal)) (after (seg3 (F := Ideal)) (after (seg2 (F := Ideal)) (after (seg1 (F := Ideal)) (after (seg0 (F := Ideal)) V)))))
  have f6_arg2 : (after (seg6 (F := Ideal)) (after (seg5 (F := Ideal)) (after (seg4 (F := Ideal)) (after (seg3 (F := Ideal)) (after (seg2 (F := Ideal)) (after (seg1 (F := Ideal)) (after (seg0 (F := Ideal)) V))))))) (Proc.devRef .tc main_arg2) = w :=
    s6_main_arg2 (after (seg5 (F := Ideal)) (after (seg4 (F := Ideal)) (after (seg3 (F := Ideal)) (after (seg2 (F := Ideal)) (after (seg1 (F := Ideal)) (after (seg0 (F := Ideal)) V)))))) _ f5_arg2
  have f6_arg5 : (after (seg6 (F := Ideal)) (after (seg5 (F := Ideal)) (after (seg4 (F := Ideal)) (after (seg3 (F := Ideal)) (after (seg2 (F := Ideal)) (after (seg1 (F := Ideal)) (after (seg0 (F := Ideal)) V))))))) (Proc.devRef .tc main_arg5) = W2 :=
    s6_main_arg5 (after (seg5 (F := Ideal)) (after (seg4 (F := Ideal)) (after (seg3 (F := Ideal)) (after (seg2 (F := Ideal)) (after (seg1 (F := Ideal)) (after (seg0 (F := Ideal)) V)))))) _ f5_arg5
  have f6_arg6 : (after (seg6 (F := Ideal)) (after (seg5 (F := Ideal)) (after (seg4 (F := Ideal)) (after (seg3 (F := Ideal)) (after (seg2 (F := Ideal)) (after (seg1 (F := Ideal)) (after (seg0 (F := Ideal)) V))))))) (Proc.devRef .tc main_arg6) = b2 :=
    s6_main_arg6 (after (seg5 (F := Ideal)) (after (seg4 (F := Ideal)) (after (seg3 (F := Ideal)) (after (seg2 (F := Ideal)) (after (seg1 (F := Ideal)) (after (seg0 (F := Ideal)) V)))))) _ f5_arg6
  have f6_v1 : (after (seg6 (F := Ideal)) (after (seg5 (F := Ideal)) (after (seg4 (F := Ideal)) (after (seg3 (F := Ideal)) (after (seg2 (F := Ideal)) (after (seg1 (F := Ideal)) (after (seg0 (F := Ideal)) V))))))) (Proc.devRef .tc main_v1) = (rowW ei) :=
    s6_main_v1 (after (seg5 (F := Ideal)) (after (seg4 (F := Ideal)) (after (seg3 (F := Ideal)) (after (seg2 (F := Ideal)) (after (seg1 (F := Ideal)) (after (seg0 (F := Ideal)) V)))))) _ f5_v1
  have f6_v3 : (after (seg6 (F := Ideal)) (after (seg5 (F := Ideal)) (after (seg4 (F := Ideal)) (after (seg3 (F := Ideal)) (after (seg2 (F := Ideal)) (after (seg1 (F := Ideal)) (after (seg0 (F := Ideal)) V))))))) (Proc.devRef .tc main_v3) = (colW ei) :=
    s6_main_v3 (after (seg5 (F := Ideal)) (after (seg4 (F := Ideal)) (after (seg3 (F := Ideal)) (after (seg2 (F := Ideal)) (after (seg1 (F := Ideal)) (after (seg0 (F := Ideal)) V)))))) _ f5_v3
  have f6_v50 : (after (seg6 (F := Ideal)) (after (seg5 (F := Ideal)) (after (seg4 (F := Ideal)) (after (seg3 (F := Ideal)) (after (seg2 (F := Ideal)) (after (seg1 (F := Ideal)) (after (seg0 (F := Ideal)) V))))))) (Proc.devRef .tc main_v50) = (relu128 (layer128 (norm ei w) (selfLoops (rowW ei)) (selfLoops (colW ei)) (hx128 x W1) b1)) :=
    s6_main_v50 (after (seg5 (F := Ideal)) (after (seg4 (F := Ideal)) (after (seg3 (F := Ideal)) (after (seg2 (F := Ideal)) (after (seg1 (F := Ideal)) (after (seg0 (F := Ideal)) V)))))) _ f5_v50
  have f6_v52 : (after (seg6 (F := Ideal)) (after (seg5 (F := Ideal)) (after (seg4 (F := Ideal)) (after (seg3 (F := Ideal)) (after (seg2 (F := Ideal)) (after (seg1 (F := Ideal)) (after (seg0 (F := Ideal)) V))))))) (Proc.devRef .tc main_v52) = (selfLoops (rowW ei)) :=
    s6_main_v52 (after (seg5 (F := Ideal)) (after (seg4 (F := Ideal)) (after (seg3 (F := Ideal)) (after (seg2 (F := Ideal)) (after (seg1 (F := Ideal)) (after (seg0 (F := Ideal)) V)))))) _ f5_v52
  have f6_v53 : (after (seg6 (F := Ideal)) (after (seg5 (F := Ideal)) (after (seg4 (F := Ideal)) (after (seg3 (F := Ideal)) (after (seg2 (F := Ideal)) (after (seg1 (F := Ideal)) (after (seg0 (F := Ideal)) V))))))) (Proc.devRef .tc main_v53) = (selfLoops (colW ei)) :=
    s6_main_v53 (after (seg5 (F := Ideal)) (after (seg4 (F := Ideal)) (after (seg3 (F := Ideal)) (after (seg2 (F := Ideal)) (after (seg1 (F := Ideal)) (after (seg0 (F := Ideal)) V)))))) _ f5_v53
  have f6_v55 : (after (seg6 (F := Ideal)) (after (seg5 (F := Ideal)) (after (seg4 (F := Ideal)) (after (seg3 (F := Ideal)) (after (seg2 (F := Ideal)) (after (seg1 (F := Ideal)) (after (seg0 (F := Ideal)) V))))))) (Proc.devRef .tc main_v55) = (wsF w) :=
    s6_main_v55 (after (seg5 (F := Ideal)) (after (seg4 (F := Ideal)) (after (seg3 (F := Ideal)) (after (seg2 (F := Ideal)) (after (seg1 (F := Ideal)) (after (seg0 (F := Ideal)) V)))))) _ f5_v55
  have f6_v63 : (after (seg6 (F := Ideal)) (after (seg5 (F := Ideal)) (after (seg4 (F := Ideal)) (after (seg3 (F := Ideal)) (after (seg2 (F := Ideal)) (after (seg1 (F := Ideal)) (after (seg0 (F := Ideal)) V))))))) (Proc.devRef .tc main_v63) = (dinvOf (degF (selfLoops (colW ei)) (wsF w))) :=
    s6_main_v63 (after (seg5 (F := Ideal)) (after (seg4 (F := Ideal)) (after (seg3 (F := Ideal)) (after (seg2 (F := Ideal)) (after (seg1 (F := Ideal)) (after (seg0 (F := Ideal)) V)))))) _ _ _ f5_v60 f5_v62 f5_cst_14
  have f7_arg2 : (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))) (Proc.devRef .tc main_arg2) = w :=
    s7_main_arg2 (after (seg6 (F := Ideal)) (after (seg5 (F := Ideal)) (after (seg4 (F := Ideal)) (after (seg3 (F := Ideal)) (after (seg2 (F := Ideal)) (after (seg1 (F := Ideal)) (after (seg0 (F := Ideal)) V))))))) _ f6_arg2
  have f7_arg5 : (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))) (Proc.devRef .tc main_arg5) = W2 :=
    s7_main_arg5 (after (seg6 (F := Ideal)) (after (seg5 (F := Ideal)) (after (seg4 (F := Ideal)) (after (seg3 (F := Ideal)) (after (seg2 (F := Ideal)) (after (seg1 (F := Ideal)) (after (seg0 (F := Ideal)) V))))))) _ f6_arg5
  have f7_arg6 : (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))) (Proc.devRef .tc main_arg6) = b2 :=
    s7_main_arg6 (after (seg6 (F := Ideal)) (after (seg5 (F := Ideal)) (after (seg4 (F := Ideal)) (after (seg3 (F := Ideal)) (after (seg2 (F := Ideal)) (after (seg1 (F := Ideal)) (after (seg0 (F := Ideal)) V))))))) _ f6_arg6
  have f7_v1 : (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))) (Proc.devRef .tc main_v1) = (rowW ei) :=
    s7_main_v1 (after (seg6 (F := Ideal)) (after (seg5 (F := Ideal)) (after (seg4 (F := Ideal)) (after (seg3 (F := Ideal)) (after (seg2 (F := Ideal)) (after (seg1 (F := Ideal)) (after (seg0 (F := Ideal)) V))))))) _ f6_v1
  have f7_v3 : (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))) (Proc.devRef .tc main_v3) = (colW ei) :=
    s7_main_v3 (after (seg6 (F := Ideal)) (after (seg5 (F := Ideal)) (after (seg4 (F := Ideal)) (after (seg3 (F := Ideal)) (after (seg2 (F := Ideal)) (after (seg1 (F := Ideal)) (after (seg0 (F := Ideal)) V))))))) _ f6_v3
  have f7_v50 : (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))) (Proc.devRef .tc main_v50) = (relu128 (layer128 (norm ei w) (selfLoops (rowW ei)) (selfLoops (colW ei)) (hx128 x W1) b1)) :=
    s7_main_v50 (after (seg6 (F := Ideal)) (after (seg5 (F := Ideal)) (after (seg4 (F := Ideal)) (after (seg3 (F := Ideal)) (after (seg2 (F := Ideal)) (after (seg1 (F := Ideal)) (after (seg0 (F := Ideal)) V))))))) _ f6_v50
  have f7_v52 : (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))) (Proc.devRef .tc main_v52) = (selfLoops (rowW ei)) :=
    s7_main_v52 (after (seg6 (F := Ideal)) (after (seg5 (F := Ideal)) (after (seg4 (F := Ideal)) (after (seg3 (F := Ideal)) (after (seg2 (F := Ideal)) (after (seg1 (F := Ideal)) (after (seg0 (F := Ideal)) V))))))) _ f6_v52
  have f7_v53 : (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))) (Proc.devRef .tc main_v53) = (selfLoops (colW ei)) :=
    s7_main_v53 (after (seg6 (F := Ideal)) (after (seg5 (F := Ideal)) (after (seg4 (F := Ideal)) (after (seg3 (F := Ideal)) (after (seg2 (F := Ideal)) (after (seg1 (F := Ideal)) (after (seg0 (F := Ideal)) V))))))) _ f6_v53
  have f7_v79 : (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))) (Proc.devRef .tc main_v79) = (norm ei w) :=
    s7_main_v79 (after (seg6 (F := Ideal)) (after (seg5 (F := Ideal)) (after (seg4 (F := Ideal)) (after (seg3 (F := Ideal)) (after (seg2 (F := Ideal)) (after (seg1 (F := Ideal)) (after (seg0 (F := Ideal)) V))))))) _ _ _ _ f6_v63 f6_v52 f6_v55 f6_v53
  have f8_arg2 : (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))) (Proc.devRef .tc main_arg2) = w :=
    s8_main_arg2 (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))) _ f7_arg2
  have f8_v1 : (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))) (Proc.devRef .tc main_v1) = (rowW ei) :=
    s8_main_v1 (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))) _ f7_v1
  have f8_v3 : (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))) (Proc.devRef .tc main_v3) = (colW ei) :=
    s8_main_v3 (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))) _ f7_v3
  have f8_v96 : (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))) (Proc.devRef .tc main_v96) = (logits x ei w W1 b1 W2 b2) :=
    s8_main_v96 (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))) _ _ _ _ _ _ f7_v53 f7_v79 f7_v50 f7_arg5 f7_v52 f7_arg6
  have f9_arg2 : (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))) (Proc.devRef .tc main_arg2) = w :=
    s9_main_arg2 (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))) _ f8_arg2
  have f9_v1 : (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))) (Proc.devRef .tc main_v1) = (rowW ei) :=
    s9_main_v1 (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))) _ f8_v1
  have f9_v3 : (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))) (Proc.devRef .tc main_v3) = (colW ei) :=
    s9_main_v3 (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))) _ f8_v3
  have f9_v96 : (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))) (Proc.devRef .tc main_v96) = (logits x ei w W1 b1 W2 b2) :=
    s9_main_v96 (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))) _ f8_v96
  have f9_v101 : (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))) (Proc.devRef .tc main_v101) = (cmpf (F := Ideal) .ogt (Host.scatterAdd scatter_S50000_S1600000x1_S1600000_n_0_0_1 (broadcastInDim S50000 ![] bcast_S_S50000 (constant (F := Ideal) S_ .f32 0x00000000#32)) (broadcastInDim S1600000x1 ![0] bcast_S1600000_S1600000x1_0 ((colW ei))) w) (broadcastInDim S50000 ![] bcast_S_S50000 (constant (F := Ideal) S_ .f32 0x00000000#32))) :=
    s9_main_v101 (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))) _ _ f8_v3 f8_arg2
  have f9_v103 : (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))) (Proc.devRef .tc main_v103) = (Host.divf (broadcastInDim S50000 ![] bcast_S_S50000 (constant (F := Ideal) S_ .f32 0x3F800000#32)) (Host.scatterAdd scatter_S50000_S1600000x1_S1600000_n_0_0_1 (broadcastInDim S50000 ![] bcast_S_S50000 (constant (F := Ideal) S_ .f32 0x00000000#32)) (broadcastInDim S1600000x1 ![0] bcast_S1600000_S1600000x1_0 ((colW ei))) w)) :=
    s9_main_v103 (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))) _ _ f8_v3 f8_arg2
  have f9_cst_25 : (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))) (Proc.devRef .tc main_cst_25) = (constant (F := Ideal) S_ .f32 0x00000000#32) :=
    s9_main_cst_25 (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))
  have f10_arg2 : (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))))) (Proc.devRef .tc main_arg2) = w :=
    s10_main_arg2 (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))) _ f9_arg2
  have f10_v1 : (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))))) (Proc.devRef .tc main_v1) = (rowW ei) :=
    s10_main_v1 (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))) _ f9_v1
  have f10_v3 : (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))))) (Proc.devRef .tc main_v3) = (colW ei) :=
    s10_main_v3 (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))) _ f9_v3
  have f10_v96 : (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))))) (Proc.devRef .tc main_v96) = (logits x ei w W1 b1 W2 b2) :=
    s10_main_v96 (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))) _ f9_v96
  have f10_v104 : (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))))) (Proc.devRef .tc main_v104) = (rinvOf (colW ei) w) :=
    s10_main_v104 (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))) _ _ _ f9_v101 f9_v103 f9_cst_25
  have f11_v1 : (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))))) (Proc.devRef .tc main_v1) = (rowW ei) :=
    s11_main_v1 (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))))) _ f10_v1
  have f11_v3 : (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))))) (Proc.devRef .tc main_v3) = (colW ei) :=
    s11_main_v3 (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))))) _ f10_v3
  have f11_v96 : (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))))) (Proc.devRef .tc main_v96) = (logits x ei w W1 b1 W2 b2) :=
    s11_main_v96 (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))))) _ f10_v96
  have f11_v112 : (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))))) (Proc.devRef .tc main_v112) = (nwOf (rinvOf (colW ei) w) (colW ei) w) :=
    s11_main_v112 (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))))) _ _ _ f10_arg2 f10_v104 f10_v3
  have f12_v1 : (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))))))) (Proc.devRef .tc main_v1) = (rowW ei) :=
    s12_main_v1 (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))))) _ f11_v1
  have f12_v96 : (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))))))) (Proc.devRef .tc main_v96) = (logits x ei w W1 b1 W2 b2) :=
    s12_main_v96 (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))))) _ f11_v96
  have f12_v112 : (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))))))) (Proc.devRef .tc main_v112) = (nwOf (rinvOf (colW ei) w) (colW ei) w) :=
    s12_main_v112 (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))))) _ f11_v112
  have f12_v119 : (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))))))) (Proc.devRef .tc main_v119) = (gath16 (logits x ei w W1 b1 W2 b2) (colW ei)) :=
    s12_main_v119 (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))))) _ _ f11_v96 f11_v3
  have f13_v1 : (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))))))) (Proc.devRef .tc main_v1) = (rowW ei) :=
    s13_main_v1 (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))))))) _ f12_v1
  have f13_v96 : (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))))))) (Proc.devRef .tc main_v96) = (logits x ei w W1 b1 W2 b2) :=
    s13_main_v96 (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))))))) _ f12_v96
  have f13_v112 : (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))))))) (Proc.devRef .tc main_v112) = (nwOf (rinvOf (colW ei) w) (colW ei) w) :=
    s13_main_v112 (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))))))) _ f12_v112
  have f13_v119 : (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))))))) (Proc.devRef .tc main_v119) = (gath16 (logits x ei w W1 b1 W2 b2) (colW ei)) :=
    s13_main_v119 (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))))))) _ f12_v119
  have f13_call4_v0 : (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))))))) (Proc.devRef .tc main_call4_v0) = (Host.reduce FloatOps.maximumf ((gath16 (logits x ei w W1 b1 W2 b2) (colW ei))) (constant (F := Ideal) S_ .f32 0xFF800000#32) reducesTo_S1600000x16_S1600000_d1 h_S_) :=
    s13_main_call4_v0 (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))))))) _ f12_v119
  have f14_v1 : (after (seg14 (F := Ideal)) (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))))))))) (Proc.devRef .tc main_v1) = (rowW ei) :=
    s14_main_v1 (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))))))) _ f13_v1
  have f14_v96 : (after (seg14 (F := Ideal)) (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))))))))) (Proc.devRef .tc main_v96) = (logits x ei w W1 b1 W2 b2) :=
    s14_main_v96 (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))))))) _ f13_v96
  have f14_v112 : (after (seg14 (F := Ideal)) (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))))))))) (Proc.devRef .tc main_v112) = (nwOf (rinvOf (colW ei) w) (colW ei) w) :=
    s14_main_v112 (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))))))) _ f13_v112
  have f14_v120 : (after (seg14 (F := Ideal)) (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))))))))) (Proc.devRef .tc main_v120) = (lsm (gath16 (logits x ei w W1 b1 W2 b2) (colW ei))) :=
    s14_main_v120 (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))))))) _ _ f13_v119 f13_call4_v0
  have f15_v96 : (after (seg15 (F := Ideal)) (after (seg14 (F := Ideal)) (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))))))))) (Proc.devRef .tc main_v96) = (logits x ei w W1 b1 W2 b2) :=
    s15_main_v96 (after (seg14 (F := Ideal)) (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))))))))) _ f14_v96
  have f15_v112 : (after (seg15 (F := Ideal)) (after (seg14 (F := Ideal)) (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))))))))) (Proc.devRef .tc main_v112) = (nwOf (rinvOf (colW ei) w) (colW ei) w) :=
    s15_main_v112 (after (seg14 (F := Ideal)) (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))))))))) _ f14_v112
  have f15_v120 : (after (seg15 (F := Ideal)) (after (seg14 (F := Ideal)) (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))))))))) (Proc.devRef .tc main_v120) = (lsm (gath16 (logits x ei w W1 b1 W2 b2) (colW ei))) :=
    s15_main_v120 (after (seg14 (F := Ideal)) (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))))))))) _ f14_v120
  have f15_v127 : (after (seg15 (F := Ideal)) (after (seg14 (F := Ideal)) (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))))))))) (Proc.devRef .tc main_v127) = (gath16 (logits x ei w W1 b1 W2 b2) (rowW ei)) :=
    s15_main_v127 (after (seg14 (F := Ideal)) (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))))))))) _ _ f14_v96 f14_v1
  have f16_v96 : (after (seg16 (F := Ideal)) (after (seg15 (F := Ideal)) (after (seg14 (F := Ideal)) (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))))))))))) (Proc.devRef .tc main_v96) = (logits x ei w W1 b1 W2 b2) :=
    s16_main_v96 (after (seg15 (F := Ideal)) (after (seg14 (F := Ideal)) (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))))))))) _ f15_v96
  have f16_v112 : (after (seg16 (F := Ideal)) (after (seg15 (F := Ideal)) (after (seg14 (F := Ideal)) (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))))))))))) (Proc.devRef .tc main_v112) = (nwOf (rinvOf (colW ei) w) (colW ei) w) :=
    s16_main_v112 (after (seg15 (F := Ideal)) (after (seg14 (F := Ideal)) (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))))))))) _ f15_v112
  have f16_v120 : (after (seg16 (F := Ideal)) (after (seg15 (F := Ideal)) (after (seg14 (F := Ideal)) (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))))))))))) (Proc.devRef .tc main_v120) = (lsm (gath16 (logits x ei w W1 b1 W2 b2) (colW ei))) :=
    s16_main_v120 (after (seg15 (F := Ideal)) (after (seg14 (F := Ideal)) (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))))))))) _ f15_v120
  have f16_v127 : (after (seg16 (F := Ideal)) (after (seg15 (F := Ideal)) (after (seg14 (F := Ideal)) (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))))))))))) (Proc.devRef .tc main_v127) = (gath16 (logits x ei w W1 b1 W2 b2) (rowW ei)) :=
    s16_main_v127 (after (seg15 (F := Ideal)) (after (seg14 (F := Ideal)) (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))))))))) _ f15_v127
  have f16_v138 : (after (seg16 (F := Ideal)) (after (seg15 (F := Ideal)) (after (seg14 (F := Ideal)) (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))))))))))) (Proc.devRef .tc main_v138) = (sm (gath16 (logits x ei w W1 b1 W2 b2) (rowW ei))) :=
    s16_main_v138 (after (seg15 (F := Ideal)) (after (seg14 (F := Ideal)) (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))))))))) _ f15_v127
  have f17_v96 : (after (seg17 (F := Ideal)) (after (seg16 (F := Ideal)) (after (seg15 (F := Ideal)) (after (seg14 (F := Ideal)) (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))))))))))) (Proc.devRef .tc main_v96) = (logits x ei w W1 b1 W2 b2) :=
    s17_main_v96 (after (seg16 (F := Ideal)) (after (seg15 (F := Ideal)) (after (seg14 (F := Ideal)) (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))))))))))) _ f16_v96
  have f17_v112 : (after (seg17 (F := Ideal)) (after (seg16 (F := Ideal)) (after (seg15 (F := Ideal)) (after (seg14 (F := Ideal)) (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))))))))))) (Proc.devRef .tc main_v112) = (nwOf (rinvOf (colW ei) w) (colW ei) w) :=
    s17_main_v112 (after (seg16 (F := Ideal)) (after (seg15 (F := Ideal)) (after (seg14 (F := Ideal)) (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))))))))))) _ f16_v112
  have f17_v120 : (after (seg17 (F := Ideal)) (after (seg16 (F := Ideal)) (after (seg15 (F := Ideal)) (after (seg14 (F := Ideal)) (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))))))))))) (Proc.devRef .tc main_v120) = (lsm (gath16 (logits x ei w W1 b1 W2 b2) (colW ei))) :=
    s17_main_v120 (after (seg16 (F := Ideal)) (after (seg15 (F := Ideal)) (after (seg14 (F := Ideal)) (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))))))))))) _ f16_v120
  have f17_v127 : (after (seg17 (F := Ideal)) (after (seg16 (F := Ideal)) (after (seg15 (F := Ideal)) (after (seg14 (F := Ideal)) (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))))))))))) (Proc.devRef .tc main_v127) = (gath16 (logits x ei w W1 b1 W2 b2) (rowW ei)) :=
    s17_main_v127 (after (seg16 (F := Ideal)) (after (seg15 (F := Ideal)) (after (seg14 (F := Ideal)) (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))))))))))) _ f16_v127
  have f17_v138 : (after (seg17 (F := Ideal)) (after (seg16 (F := Ideal)) (after (seg15 (F := Ideal)) (after (seg14 (F := Ideal)) (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))))))))))) (Proc.devRef .tc main_v138) = (sm (gath16 (logits x ei w W1 b1 W2 b2) (rowW ei))) :=
    s17_main_v138 (after (seg16 (F := Ideal)) (after (seg15 (F := Ideal)) (after (seg14 (F := Ideal)) (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))))))))))) _ f16_v138
  have f17_call5_v0 : (after (seg17 (F := Ideal)) (after (seg16 (F := Ideal)) (after (seg15 (F := Ideal)) (after (seg14 (F := Ideal)) (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))))))))))) (Proc.devRef .tc main_call5_v0) = (Host.reduce FloatOps.maximumf ((gath16 (logits x ei w W1 b1 W2 b2) (rowW ei))) (constant (F := Ideal) S_ .f32 0xFF800000#32) reducesTo_S1600000x16_S1600000_d1 h_S_) :=
    s17_main_call5_v0 (after (seg16 (F := Ideal)) (after (seg15 (F := Ideal)) (after (seg14 (F := Ideal)) (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))))))))))) _ f16_v127
  have f18_v96 : (after (seg18 (F := Ideal)) (after (seg17 (F := Ideal)) (after (seg16 (F := Ideal)) (after (seg15 (F := Ideal)) (after (seg14 (F := Ideal)) (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))))))))))))) (Proc.devRef .tc main_v96) = (logits x ei w W1 b1 W2 b2) :=
    s18_main_v96 (after (seg17 (F := Ideal)) (after (seg16 (F := Ideal)) (after (seg15 (F := Ideal)) (after (seg14 (F := Ideal)) (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))))))))))) _ f17_v96
  have f18_v112 : (after (seg18 (F := Ideal)) (after (seg17 (F := Ideal)) (after (seg16 (F := Ideal)) (after (seg15 (F := Ideal)) (after (seg14 (F := Ideal)) (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))))))))))))) (Proc.devRef .tc main_v112) = (nwOf (rinvOf (colW ei) w) (colW ei) w) :=
    s18_main_v112 (after (seg17 (F := Ideal)) (after (seg16 (F := Ideal)) (after (seg15 (F := Ideal)) (after (seg14 (F := Ideal)) (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))))))))))) _ f17_v112
  have f18_v120 : (after (seg18 (F := Ideal)) (after (seg17 (F := Ideal)) (after (seg16 (F := Ideal)) (after (seg15 (F := Ideal)) (after (seg14 (F := Ideal)) (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))))))))))))) (Proc.devRef .tc main_v120) = (lsm (gath16 (logits x ei w W1 b1 W2 b2) (colW ei))) :=
    s18_main_v120 (after (seg17 (F := Ideal)) (after (seg16 (F := Ideal)) (after (seg15 (F := Ideal)) (after (seg14 (F := Ideal)) (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))))))))))) _ f17_v120
  have f18_v138 : (after (seg18 (F := Ideal)) (after (seg17 (F := Ideal)) (after (seg16 (F := Ideal)) (after (seg15 (F := Ideal)) (after (seg14 (F := Ideal)) (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))))))))))))) (Proc.devRef .tc main_v138) = (sm (gath16 (logits x ei w W1 b1 W2 b2) (rowW ei))) :=
    s18_main_v138 (after (seg17 (F := Ideal)) (after (seg16 (F := Ideal)) (after (seg15 (F := Ideal)) (after (seg14 (F := Ideal)) (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))))))))))) _ f17_v138
  have f18_v139 : (after (seg18 (F := Ideal)) (after (seg17 (F := Ideal)) (after (seg16 (F := Ideal)) (after (seg15 (F := Ideal)) (after (seg14 (F := Ideal)) (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))))))))))))) (Proc.devRef .tc main_v139) = (lsm (gath16 (logits x ei w W1 b1 W2 b2) (rowW ei))) :=
    s18_main_v139 (after (seg17 (F := Ideal)) (after (seg16 (F := Ideal)) (after (seg15 (F := Ideal)) (after (seg14 (F := Ideal)) (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))))))))))) _ _ f17_v127 f17_call5_v0
  have f19_v96 : (after (seg19 (F := Ideal)) (after (seg18 (F := Ideal)) (after (seg17 (F := Ideal)) (after (seg16 (F := Ideal)) (after (seg15 (F := Ideal)) (after (seg14 (F := Ideal)) (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))))))))))))) (Proc.devRef .tc main_v96) = (logits x ei w W1 b1 W2 b2) :=
    s19_main_v96 (after (seg18 (F := Ideal)) (after (seg17 (F := Ideal)) (after (seg16 (F := Ideal)) (after (seg15 (F := Ideal)) (after (seg14 (F := Ideal)) (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))))))))))))) _ f18_v96
  have f19_v145 : (after (seg19 (F := Ideal)) (after (seg18 (F := Ideal)) (after (seg17 (F := Ideal)) (after (seg16 (F := Ideal)) (after (seg15 (F := Ideal)) (after (seg14 (F := Ideal)) (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))))))))))))) (Proc.devRef .tc main_v145) = (ncr (logits x ei w W1 b1 W2 b2) ei w) :=
    s19_main_v145 (after (seg18 (F := Ideal)) (after (seg17 (F := Ideal)) (after (seg16 (F := Ideal)) (after (seg15 (F := Ideal)) (after (seg14 (F := Ideal)) (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))))))))))))) _ _ _ _ f18_v112 f18_v138 f18_v139 f18_v120
  exact ⟨f19_v96, f19_v145⟩

end Cert.RefValue

end
-- ==== Proof.lean ====
/- The proof of the certificate's claim.
   The three frame claims are the runs of the three programs with their argument arrays unchanged: the kernel's and
   the idealized kernel's from the frame facts of their five regions and the host stretches between them, the
   reference's from the fold of its 222 host operations, none of which writes an argument. The idealization claim
   holds as stated: no operation was rewritten.
   The algebraic claim. Under the precondition every entry of each float argument is a real number. The idealized
   kernel's first result is the two-layer network's output rows as the reference's stages compute them from the
   arguments: a matrix product taken a block of rows at a time is the product, and the message lists padded to a whole
   number of blocks add only terms 0 · 0 to the accumulated rows. Those rows are all real, so the kernel's second
   result — the sum over the padded edge rows of the row's weight times the Kullback–Leibler term of its two gathered
   rows, accumulated block by block and divided by the number of nodes — is the reference's consistency term: a padded
   row has weight zero, and the term with its weights taken as the exponential of a log-softmax is the term with the
   softmax, exp (t − log S) = exp t / S, on real rows. The reference's two results are the same two functions of its
   arguments, and the two programs start from memories that agree on the arguments. -/
import proofs.«155868_j58506044506617_2_alg».proof.Defs
import proofs.«155868_j58506044506617_2_alg».proof.Proof.Assembly
import proofs.«155868_j58506044506617_2_alg».proof.Proof.KerLayers
import proofs.«155868_j58506044506617_2_alg».proof.Proof.KerTail
import proofs.«155868_j58506044506617_2_alg».proof.Proof.RefValue

set_option maxRecDepth 16384

noncomputable section

namespace Cert.Proof

open Idealize.ShloMosaic Idealize.ShloMosaic.TcCoe Idealize.SL.Sem

/-- The idealized kernel's first result: the network's output rows of its arguments. -/
theorem kernel_rows (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W27 m ρ c (Proc.devRef .tc Cert.KernelIdeal.main_v68)
      = RefSpec.logits (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) :=
  Cert.KerTail.tail_v68 m ρ c _ (Cert.KerLayers.W17_v68 m ρ c)

/-- The idealized kernel's second result, when the output rows are real: their neighbour-consistency term. -/
theorem kernel_term (m : (ℓ : Loc Cert.KernelIdeal.nD Cert.KernelIdeal.τ Cert.KernelIdeal.sig) → Buf (Elt Ideal) ℓ) (ρ : Dev Cert.KernelIdeal.nD → PrngReg) (c : Dev Cert.KernelIdeal.nD)
    (hL : Cert.RealOps.AllReal (RefSpec.logits (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)))) :
    Cert.KernelIdeal.Gen.W27 m ρ c (Proc.devRef .tc Cert.KernelIdeal.main_v105)
      = RefSpec.ncr (RefSpec.logits (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) := by
  have h := Cert.KerTail.tail_v105 m ρ c _ _ _ _ _ _ _ (Cert.KerLayers.W17_v68 m ρ c) (Cert.KerLayers.W17_v1 m ρ c)
    (Cert.KerLayers.W17_v3 m ρ c) (Cert.KerLayers.W17_arg2 m ρ c) (Cert.KerLayers.W17_v73 m ρ c)
    (Cert.KerLayers.W17_v75 m ρ c) (Cert.KerLayers.W17_cst_20 m ρ c) hL
  exact h

/-- The reference's two results as the same functions of its arguments. -/
theorem reference_values (V : Valuation Cert.ReferenceIdeal.τ Cert.ReferenceIdeal.sig (Elt Ideal)) :
    StableHlo.after (Cert.ReferenceIdeal.RawRun.ops (F := Ideal)) V (Proc.devRef .tc Cert.ReferenceIdeal.main_v96)
        = RefSpec.logits (V (Proc.devRef .tc Cert.ReferenceIdeal.main_arg0)) (V (Proc.devRef .tc Cert.ReferenceIdeal.main_arg1)) (V (Proc.devRef .tc Cert.ReferenceIdeal.main_arg2)) (V (Proc.devRef .tc Cert.ReferenceIdeal.main_arg3)) (V (Proc.devRef .tc Cert.ReferenceIdeal.main_arg4)) (V (Proc.devRef .tc Cert.ReferenceIdeal.main_arg5)) (V (Proc.devRef .tc Cert.ReferenceIdeal.main_arg6))
      ∧ StableHlo.after (Cert.ReferenceIdeal.RawRun.ops (F := Ideal)) V (Proc.devRef .tc Cert.ReferenceIdeal.main_v145)
        = RefSpec.ncr (RefSpec.logits (V (Proc.devRef .tc Cert.ReferenceIdeal.main_arg0)) (V (Proc.devRef .tc Cert.ReferenceIdeal.main_arg1)) (V (Proc.devRef .tc Cert.ReferenceIdeal.main_arg2)) (V (Proc.devRef .tc Cert.ReferenceIdeal.main_arg3)) (V (Proc.devRef .tc Cert.ReferenceIdeal.main_arg4)) (V (Proc.devRef .tc Cert.ReferenceIdeal.main_arg5)) (V (Proc.devRef .tc Cert.ReferenceIdeal.main_arg6))) (V (Proc.devRef .tc Cert.ReferenceIdeal.main_arg1)) (V (Proc.devRef .tc Cert.ReferenceIdeal.main_arg2)) :=
  Cert.RefValue.ref_values V _ _ _ _ _ _ _ rfl rfl rfl rfl rfl rfl rfl

theorem claim : Cert.Claim :=
  Cert.Assembly.claim_of kernel_rows kernel_term reference_values

end Cert.Proof

end
